-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v308)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v308) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v360) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S262144x4 : Shape := ⟨2, ![262144, 4]⟩
abbrev S6x16x128x128 : Shape := ⟨4, ![6, 16, 128, 128]⟩
abbrev S6x16x256x256 : Shape := ⟨4, ![6, 16, 256, 256]⟩
abbrev S6x16x512x512 : Shape := ⟨4, ![6, 16, 512, 512]⟩
abbrev S288x128 : Shape := ⟨2, ![288, 128]⟩
abbrev S128 : Shape := ⟨1, ![128]⟩
abbrev S128x3 : Shape := ⟨2, ![128, 3]⟩
abbrev S3 : Shape := ⟨1, ![3]⟩
abbrev S_ : Shape := ⟨0, ![]⟩

class Facts : Prop where
  bcast_S_S262144x4 : S_.BroadcastsInDim S262144x4 (![] : Fin 0 → Fin S262144x4.rank)
  reducesTo_S262144x4_S_d0_1 : S262144x4.ReducesTo [0, 1] S_
  h_S_ : 0 < S_.numel
  bcast_S_S6x16x128x128 : S_.BroadcastsInDim S6x16x128x128 (![] : Fin 0 → Fin S6x16x128x128.rank)
  reducesTo_S6x16x128x128_S_d0_1_2_3 : S6x16x128x128.ReducesTo [0, 1, 2, 3] S_
  bcast_S_S6x16x256x256 : S_.BroadcastsInDim S6x16x256x256 (![] : Fin 0 → Fin S6x16x256x256.rank)
  reducesTo_S6x16x256x256_S_d0_1_2_3 : S6x16x256x256.ReducesTo [0, 1, 2, 3] S_
  bcast_S_S6x16x512x512 : S_.BroadcastsInDim S6x16x512x512 (![] : Fin 0 → Fin S6x16x512x512.rank)
  reducesTo_S6x16x512x512_S_d0_1_2_3 : S6x16x512x512.ReducesTo [0, 1, 2, 3] S_
  bcast_S_S288x128 : S_.BroadcastsInDim S288x128 (![] : Fin 0 → Fin S288x128.rank)
  reducesTo_S288x128_S_d0_1 : S288x128.ReducesTo [0, 1] S_
  bcast_S_S128 : S_.BroadcastsInDim S128 (![] : Fin 0 → Fin S128.rank)
  reducesTo_S128_S_d0 : S128.ReducesTo [0] S_
  bcast_S_S128x3 : S_.BroadcastsInDim S128x3 (![] : Fin 0 → Fin S128x3.rank)
  reducesTo_S128x3_S_d0_1 : S128x3.ReducesTo [0, 1] S_
  bcast_S_S3 : S_.BroadcastsInDim S3 (![] : Fin 0 → Fin S3.rank)
  reducesTo_S3_S_d0 : S3.ReducesTo [0] S_

variable [Facts]

def fn_part2 {F : FTy → Type} [FloatOps F] (main_arg7 : FVec F S3 .f32) (main_v33 : IVec S_ 1) : IVec S_ 1 :=
  let main_v34 : FVec F S3 .f32 := Host.absf main_arg7
  let main_cst_12 : FVec F S_ .f32 := constant S_ .f32 0x7F800000#32
  let main_v35 : FVec F S3 .f32 := broadcastInDim S3 ![] bcast_S_S3 main_cst_12
  let main_v36 : IVec S3 1 := cmpf .olt main_v34 main_v35
  let main_c_13 : IVec S_ 1 := constantI S_ 1 1#1
  let main_v37 : IVec S_ 1 := (fun x v => Host.reduce IntOp.andi x v reducesTo_S3_S_d0 h_S_) main_v36 main_c_13
  let main_v38 : IVec S_ 1 := andi main_v33 main_v37
  main_v38

def fn_part1 {F : FTy → Type} [FloatOps F] (main_arg4 : FVec F S288x128 .f32) (main_arg5 : FVec F S128 .f32) (main_arg6 : FVec F S128x3 .f32) (main_arg7 : FVec F S3 .f32) (main_v13 : IVec S_ 1) (main_v16 : IVec S6x16x512x512 1) : IVec S_ 1 :=
  let main_c_5 : IVec S_ 1 := constantI S_ 1 1#1
  let main_v17 : IVec S_ 1 := (fun x v => Host.reduce IntOp.andi x v reducesTo_S6x16x512x512_S_d0_1_2_3 h_S_) main_v16 main_c_5
  let main_v18 : IVec S_ 1 := andi main_v13 main_v17
  let main_v19 : FVec F S288x128 .f32 := Host.absf main_arg4
  let main_cst_6 : FVec F S_ .f32 := constant S_ .f32 0x7F800000#32
  let main_v20 : FVec F S288x128 .f32 := broadcastInDim S288x128 ![] bcast_S_S288x128 main_cst_6
  let main_v21 : IVec S288x128 1 := cmpf .olt main_v19 main_v20
  let main_c_7 : IVec S_ 1 := constantI S_ 1 1#1
  let main_v22 : IVec S_ 1 := (fun x v => Host.reduce IntOp.andi x v reducesTo_S288x128_S_d0_1 h_S_) main_v21 main_c_7
  let main_v23 : IVec S_ 1 := andi main_v18 main_v22
  let main_v24 : FVec F S128 .f32 := Host.absf main_arg5
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128x3 .f32 := Host.absf main_arg6
  let main_cst_10 : FVec F S_ .f32 := constant S_ .f32 0x7F800000#32
  let main_v30 : FVec F S128x3 .f32 := broadcastInDim S128x3 ![] bcast_S_S128x3 main_cst_10
  let main_v31 : IVec S128x3 1 := cmpf .olt main_v29 main_v30
  let main_c_11 : IVec S_ 1 := constantI S_ 1 1#1
  let main_v32 : IVec S_ 1 := (fun x v => Host.reduce IntOp.andi x v reducesTo_S128x3_S_d0_1 h_S_) main_v31 main_c_11
  let main_v33 : IVec S_ 1 := andi main_v28 main_v32
  fn_part2 (F := F) main_arg7 main_v33

def fn {F : FTy → Type} [FloatOps F] (main_arg0 : FVec F S262144x4 .f32) (main_arg1 : FVec F S6x16x128x128 .f32) (main_arg2 : FVec F S6x16x256x256 .f32) (main_arg3 : FVec F S6x16x512x512 .f32) (main_arg4 : FVec F S288x128 .f32) (main_arg5 : FVec F S128 .f32) (main_arg6 : FVec F S128x3 .f32) (main_arg7 : FVec F S3 .f32) : IVec S_ 1 :=
  let main_v0 : FVec F S262144x4 .f32 := Host.absf main_arg0
  let main_cst : FVec F S_ .f32 := constant S_ .f32 0x7F800000#32
  let main_v1 : FVec F S262144x4 .f32 := broadcastInDim S262144x4 ![] bcast_S_S262144x4 main_cst
  let main_v2 : IVec S262144x4 1 := cmpf .olt main_v0 main_v1
  let main_c : IVec S_ 1 := constantI S_ 1 1#1
  let main_v3 : IVec S_ 1 := (fun x v => Host.reduce IntOp.andi x v reducesTo_S262144x4_S_d0_1 h_S_) main_v2 main_c
  let main_v4 : FVec F S6x16x128x128 .f32 := Host.absf main_arg1
  let main_cst_0 : FVec F S_ .f32 := constant S_ .f32 0x7F800000#32
  let main_v5 : FVec F S6x16x128x128 .f32 := broadcastInDim S6x16x128x128 ![] bcast_S_S6x16x128x128 main_cst_0
  let main_v6 : IVec S6x16x128x128 1 := cmpf .olt main_v4 main_v5
  let main_c_1 : IVec S_ 1 := constantI S_ 1 1#1
  let main_v7 : IVec S_ 1 := (fun x v => Host.reduce IntOp.andi x v reducesTo_S6x16x128x128_S_d0_1_2_3 h_S_) main_v6 main_c_1
  let main_v8 : IVec S_ 1 := andi main_v3 main_v7
  let main_v9 : FVec F S6x16x256x256 .f32 := Host.absf main_arg2
  let main_cst_2 : FVec F S_ .f32 := constant S_ .f32 0x7F800000#32
  let main_v10 : FVec F S6x16x256x256 .f32 := broadcastInDim S6x16x256x256 ![] bcast_S_S6x16x256x256 main_cst_2
  let main_v11 : IVec S6x16x256x256 1 := cmpf .olt main_v9 main_v10
  let main_c_3 : IVec S_ 1 := constantI S_ 1 1#1
  let main_v12 : IVec S_ 1 := (fun x v => Host.reduce IntOp.andi x v reducesTo_S6x16x256x256_S_d0_1_2_3 h_S_) main_v11 main_c_3
  let main_v13 : IVec S_ 1 := andi main_v8 main_v12
  let main_v14 : FVec F S6x16x512x512 .f32 := Host.absf main_arg3
  let main_cst_4 : FVec F S_ .f32 := constant S_ .f32 0x7F800000#32
  let main_v15 : FVec F S6x16x512x512 .f32 := broadcastInDim S6x16x512x512 ![] bcast_S_S6x16x512x512 main_cst_4
  let main_v16 : IVec S6x16x512x512 1 := cmpf .olt main_v14 main_v15
  fn_part1 (F := F) main_arg4 main_arg5 main_arg6 main_arg7 main_v13 main_v16
-- ==== Kernel.lean ====
abbrev S262144x4 : Shape := ⟨2, ![262144, 4]⟩
abbrev S6x16x128x128 : Shape := ⟨4, ![6, 16, 128, 128]⟩
abbrev S6x16x256x256 : Shape := ⟨4, ![6, 16, 256, 256]⟩
abbrev S6x16x512x512 : Shape := ⟨4, ![6, 16, 512, 512]⟩
abbrev S288x128 : Shape := ⟨2, ![288, 128]⟩
abbrev S128 : Shape := ⟨1, ![128]⟩
abbrev S128x3 : Shape := ⟨2, ![128, 3]⟩
abbrev S3 : Shape := ⟨1, ![3]⟩
abbrev S6x2 : Shape := ⟨2, ![6, 2]⟩
abbrev S_ : Shape := ⟨0, ![]⟩
abbrev S6x2x1 : Shape := ⟨3, ![6, 2, 1]⟩
abbrev S262144x6x2 : Shape := ⟨3, ![262144, 6, 2]⟩
abbrev S6x128x128x16 : Shape := ⟨4, ![6, 128, 128, 16]⟩
abbrev S6x16384x16 : Shape := ⟨3, ![6, 16384, 16]⟩
abbrev S262144x6x1 : Shape := ⟨3, ![262144, 6, 1]⟩
abbrev S6x262144x1 : Shape := ⟨3, ![6, 262144, 1]⟩
abbrev S6x262144 : Shape := ⟨2, ![6, 262144]⟩
abbrev S6x262144x16 : Shape := ⟨3, ![6, 262144, 16]⟩
abbrev S262144x6x16 : Shape := ⟨3, ![262144, 6, 16]⟩
abbrev S262144x96 : Shape := ⟨2, ![262144, 96]⟩
abbrev S6x256x256x16 : Shape := ⟨4, ![6, 256, 256, 16]⟩
abbrev S6x65536x16 : Shape := ⟨3, ![6, 65536, 16]⟩
abbrev S6x512x512x16 : Shape := ⟨4, ![6, 512, 512, 16]⟩
abbrev S96x128 : Shape := ⟨2, ![96, 128]⟩
abbrev S1x128 : Shape := ⟨2, ![1, 128]⟩
abbrev S1x3 : Shape := ⟨2, ![1, 3]⟩
abbrev S262144x3 : Shape := ⟨2, ![262144, 3]⟩
abbrev S8192x96 : Shape := ⟨2, ![8192, 96]⟩
abbrev S8192x3 : Shape := ⟨2, ![8192, 3]⟩
abbrev S8192x128 : Shape := ⟨2, ![8192, 128]⟩

abbrev nBuf : Space → Nat
  | .hbm => 424
  | .vmem => 14
  | .smem => 0
  | _ => 0

abbrev hbmTy0_0 (i : Nat) : BufTy := match i % 128 with
  | 0 => ⟨S262144x4, .f32⟩
  | 1 => ⟨S6x16x128x128, .f32⟩
  | 2 => ⟨S6x16x256x256, .f32⟩
  | 3 => ⟨S6x16x512x512, .f32⟩
  | 4 => ⟨S288x128, .f32⟩
  | 5 => ⟨S128, .f32⟩
  | 6 => ⟨S128x3, .f32⟩
  | 7 => ⟨S3, .f32⟩
  | 8 => ⟨S6x2, .i32⟩
  | 9 => ⟨S6x2, .i1⟩
  | 10 => ⟨S_, .f32⟩
  | 11 => ⟨S262144x4, .f32⟩
  | 12 => ⟨S262144x4, .f32⟩
  | 13 => ⟨S_, .f32⟩
  | 14 => ⟨S262144x4, .f32⟩
  | 15 => ⟨S262144x4, .f32⟩
  | 16 => ⟨S_, .i32⟩
  | 17 => ⟨S6x2, .i32⟩
  | 18 => ⟨S6x2, .i32⟩
  | 19 => ⟨S6x2, .i32⟩
  | 20 => ⟨S6x2x1, .i32⟩
  | 21 => ⟨S262144x6x2, .f32⟩
  | 22 => ⟨S6x128x128x16, .f32⟩
  | 23 => ⟨S6x16384x16, .f32⟩
  | 24 => ⟨S262144x6x1, .f32⟩
  | 25 => ⟨S6x262144x1, .f32⟩
  | 26 => ⟨S6x262144, .f32⟩
  | 27 => ⟨S_, .f32⟩
  | 28 => ⟨S6x262144, .f32⟩
  | 29 => ⟨S6x262144, .f32⟩
  | 30 => ⟨S262144x6x1, .f32⟩
  | 31 => ⟨S6x262144x1, .f32⟩
  | 32 => ⟨S6x262144, .f32⟩
  | 33 => ⟨S_, .f32⟩
  | 34 => ⟨S6x262144, .f32⟩
  | 35 => ⟨S6x262144, .f32⟩
  | 36 => ⟨S6x262144, .f32⟩
  | 37 => ⟨S_, .i32⟩
  | 38 => ⟨S_, .i32⟩
  | 39 => ⟨S_, .f32⟩
  | 40 => ⟨S6x262144, .f32⟩
  | 41 => ⟨S6x262144, .f32⟩
  | 42 => ⟨S_, .f32⟩
  | 43 => ⟨S6x262144, .f32⟩
  | 44 => ⟨S6x262144, .f32⟩
  | 45 => ⟨S6x262144, .i32⟩
  | 46 => ⟨S6x262144, .f32⟩
  | 47 => ⟨S_, .i32⟩
  | 48 => ⟨S_, .i32⟩
  | 49 => ⟨S_, .f32⟩
  | 50 => ⟨S6x262144, .f32⟩
  | 51 => ⟨S6x262144, .f32⟩
  | 52 => ⟨S_, .f32⟩
  | 53 => ⟨S6x262144, .f32⟩
  | 54 => ⟨S6x262144, .f32⟩
  | 55 => ⟨S6x262144, .i32⟩
  | 56 => ⟨S_, .i32⟩
  | 57 => ⟨S6x262144, .i32⟩
  | 58 => ⟨S6x262144, .i32⟩
  | 59 => ⟨S_, .i32⟩
  | 60 => ⟨S6x262144, .i32⟩
  | 61 => ⟨S6x262144, .i32⟩
  | 62 => ⟨S6x262144, .f32⟩
  | 63 => ⟨S6x262144, .f32⟩
  | 64 => ⟨S6x262144x1, .f32⟩
  | 65 => ⟨S6x262144, .f32⟩
  | 66 => ⟨S6x262144, .f32⟩
  | 67 => ⟨S6x262144x1, .f32⟩
  | 68 => ⟨S_, .i32⟩
  | 69 => ⟨S6x262144, .i32⟩
  | 70 => ⟨S6x262144, .i32⟩
  | 71 => ⟨S6x262144, .i32⟩
  | 72 => ⟨S_, .i32⟩
  | 73 => ⟨S6x262144, .i32⟩
  | 74 => ⟨S6x262144, .i32⟩
  | 75 => ⟨S6x262144, .i32⟩
  | 76 => ⟨S_, .i32⟩
  | 77 => ⟨S6x262144, .i32⟩
  | 78 => ⟨S6x262144, .i32⟩
  | 79 => ⟨S6x262144, .i32⟩
  | 80 => ⟨S_, .i32⟩
  | 81 => ⟨S6x262144, .i32⟩
  | 82 => ⟨S6x262144, .i32⟩
  | 83 => ⟨S6x262144, .i32⟩
  | 84 => ⟨S_, .i32⟩
  | 85 => ⟨S6x262144, .i32⟩
  | 86 => ⟨S6x262144, .i1⟩
  | 87 => ⟨S_, .i32⟩
  | 88 => ⟨S6x262144, .i32⟩
  | 89 => ⟨S6x262144, .i32⟩
  | 90 => ⟨S6x262144, .i32⟩
  | 91 => ⟨S6x262144x1, .i32⟩
  | 92 => ⟨S6x262144x16, .f32⟩
  | 93 => ⟨S_, .i32⟩
  | 94 => ⟨S6x262144, .i32⟩
  | 95 => ⟨S6x262144, .i1⟩
  | 96 => ⟨S_, .i32⟩
  | 97 => ⟨S6x262144, .i32⟩
  | 98 => ⟨S6x262144, .i32⟩
  | 99 => ⟨S6x262144, .i32⟩
  | 100 => ⟨S6x262144x1, .i32⟩
  | 101 => ⟨S6x262144x16, .f32⟩
  | 102 => ⟨S_, .i32⟩
  | 103 => ⟨S6x262144, .i32⟩
  | 104 => ⟨S6x262144, .i1⟩
  | 105 => ⟨S_, .i32⟩
  | 106 => ⟨S6x262144, .i32⟩
  | 107 => ⟨S6x262144, .i32⟩
  | 108 => ⟨S6x262144, .i32⟩
  | 109 => ⟨S6x262144x1, .i32⟩
  | 110 => ⟨S6x262144x16, .f32⟩
  | 111 => ⟨S_, .i32⟩
  | 112 => ⟨S6x262144, .i32⟩
  | 113 => ⟨S6x262144, .i1⟩
  | 114 => ⟨S_, .i32⟩
  | 115 => ⟨S6x262144, .i32⟩
  | 116 => ⟨S6x262144, .i32⟩
  | 117 => ⟨S6x262144, .i32⟩
  | 118 => ⟨S6x262144x1, .i32⟩
  | 119 => ⟨S6x262144x16, .f32⟩
  | 120 => ⟨S_, .f32⟩
  | 121 => ⟨S6x262144x1, .f32⟩
  | 122 => ⟨S6x262144x1, .f32⟩
  | 123 => ⟨S6x262144x16, .f32⟩
  | 124 => ⟨S6x262144x16, .f32⟩
  | 125 => ⟨S_, .f32⟩
  | 126 => ⟨S6x262144x1, .f32⟩
  | 127 => ⟨S6x262144x1, .f32⟩
  | _ => ⟨S262144x4, .f32⟩

abbrev hbmTy0_1 (i : Nat) : BufTy := match i % 128 with
  | 0 => ⟨S6x262144x16, .f32⟩
  | 1 => ⟨S6x262144x16, .f32⟩
  | 2 => ⟨S_, .f32⟩
  | 3 => ⟨S6x262144x1, .f32⟩
  | 4 => ⟨S6x262144x1, .f32⟩
  | 5 => ⟨S6x262144x16, .f32⟩
  | 6 => ⟨S6x262144x16, .f32⟩
  | 7 => ⟨S6x262144x16, .f32⟩
  | 8 => ⟨S6x262144x16, .f32⟩
  | 9 => ⟨S6x262144x16, .f32⟩
  | 10 => ⟨S6x262144x16, .f32⟩
  | 11 => ⟨S6x262144x16, .f32⟩
  | 12 => ⟨S_, .f32⟩
  | 13 => ⟨S6x262144x1, .f32⟩
  | 14 => ⟨S6x262144x1, .f32⟩
  | 15 => ⟨S6x262144x16, .f32⟩
  | 16 => ⟨S6x262144x16, .f32⟩
  | 17 => ⟨S6x262144x16, .f32⟩
  | 18 => ⟨S6x262144x16, .f32⟩
  | 19 => ⟨S6x262144x16, .f32⟩
  | 20 => ⟨S6x262144x16, .f32⟩
  | 21 => ⟨S6x262144x16, .f32⟩
  | 22 => ⟨S6x262144x16, .f32⟩
  | 23 => ⟨S262144x6x16, .f32⟩
  | 24 => ⟨S262144x96, .f32⟩
  | 25 => ⟨S262144x96, .bf16⟩
  | 26 => ⟨S6x256x256x16, .f32⟩
  | 27 => ⟨S6x65536x16, .f32⟩
  | 28 => ⟨S262144x6x1, .f32⟩
  | 29 => ⟨S6x262144x1, .f32⟩
  | 30 => ⟨S6x262144, .f32⟩
  | 31 => ⟨S_, .f32⟩
  | 32 => ⟨S6x262144, .f32⟩
  | 33 => ⟨S6x262144, .f32⟩
  | 34 => ⟨S262144x6x1, .f32⟩
  | 35 => ⟨S6x262144x1, .f32⟩
  | 36 => ⟨S6x262144, .f32⟩
  | 37 => ⟨S_, .f32⟩
  | 38 => ⟨S6x262144, .f32⟩
  | 39 => ⟨S6x262144, .f32⟩
  | 40 => ⟨S6x262144, .f32⟩
  | 41 => ⟨S_, .i32⟩
  | 42 => ⟨S_, .i32⟩
  | 43 => ⟨S_, .f32⟩
  | 44 => ⟨S6x262144, .f32⟩
  | 45 => ⟨S6x262144, .f32⟩
  | 46 => ⟨S_, .f32⟩
  | 47 => ⟨S6x262144, .f32⟩
  | 48 => ⟨S6x262144, .f32⟩
  | 49 => ⟨S6x262144, .i32⟩
  | 50 => ⟨S6x262144, .f32⟩
  | 51 => ⟨S_, .i32⟩
  | 52 => ⟨S_, .i32⟩
  | 53 => ⟨S_, .f32⟩
  | 54 => ⟨S6x262144, .f32⟩
  | 55 => ⟨S6x262144, .f32⟩
  | 56 => ⟨S_, .f32⟩
  | 57 => ⟨S6x262144, .f32⟩
  | 58 => ⟨S6x262144, .f32⟩
  | 59 => ⟨S6x262144, .i32⟩
  | 60 => ⟨S_, .i32⟩
  | 61 => ⟨S6x262144, .i32⟩
  | 62 => ⟨S6x262144, .i32⟩
  | 63 => ⟨S_, .i32⟩
  | 64 => ⟨S6x262144, .i32⟩
  | 65 => ⟨S6x262144, .i32⟩
  | 66 => ⟨S6x262144, .f32⟩
  | 67 => ⟨S6x262144, .f32⟩
  | 68 => ⟨S6x262144x1, .f32⟩
  | 69 => ⟨S6x262144, .f32⟩
  | 70 => ⟨S6x262144, .f32⟩
  | 71 => ⟨S6x262144x1, .f32⟩
  | 72 => ⟨S_, .i32⟩
  | 73 => ⟨S6x262144, .i32⟩
  | 74 => ⟨S6x262144, .i32⟩
  | 75 => ⟨S6x262144, .i32⟩
  | 76 => ⟨S_, .i32⟩
  | 77 => ⟨S6x262144, .i32⟩
  | 78 => ⟨S6x262144, .i32⟩
  | 79 => ⟨S6x262144, .i32⟩
  | 80 => ⟨S_, .i32⟩
  | 81 => ⟨S6x262144, .i32⟩
  | 82 => ⟨S6x262144, .i32⟩
  | 83 => ⟨S6x262144, .i32⟩
  | 84 => ⟨S_, .i32⟩
  | 85 => ⟨S6x262144, .i32⟩
  | 86 => ⟨S6x262144, .i32⟩
  | 87 => ⟨S6x262144, .i32⟩
  | 88 => ⟨S_, .i32⟩
  | 89 => ⟨S6x262144, .i32⟩
  | 90 => ⟨S6x262144, .i1⟩
  | 91 => ⟨S_, .i32⟩
  | 92 => ⟨S6x262144, .i32⟩
  | 93 => ⟨S6x262144, .i32⟩
  | 94 => ⟨S6x262144, .i32⟩
  | 95 => ⟨S6x262144x1, .i32⟩
  | 96 => ⟨S6x262144x16, .f32⟩
  | 97 => ⟨S_, .i32⟩
  | 98 => ⟨S6x262144, .i32⟩
  | 99 => ⟨S6x262144, .i1⟩
  | 100 => ⟨S_, .i32⟩
  | 101 => ⟨S6x262144, .i32⟩
  | 102 => ⟨S6x262144, .i32⟩
  | 103 => ⟨S6x262144, .i32⟩
  | 104 => ⟨S6x262144x1, .i32⟩
  | 105 => ⟨S6x262144x16, .f32⟩
  | 106 => ⟨S_, .i32⟩
  | 107 => ⟨S6x262144, .i32⟩
  | 108 => ⟨S6x262144, .i1⟩
  | 109 => ⟨S_, .i32⟩
  | 110 => ⟨S6x262144, .i32⟩
  | 111 => ⟨S6x262144, .i32⟩
  | 112 => ⟨S6x262144, .i32⟩
  | 113 => ⟨S6x262144x1, .i32⟩
  | 114 => ⟨S6x262144x16, .f32⟩
  | 115 => ⟨S_, .i32⟩
  | 116 => ⟨S6x262144, .i32⟩
  | 117 => ⟨S6x262144, .i1⟩
  | 118 => ⟨S_, .i32⟩
  | 119 => ⟨S6x262144, .i32⟩
  | 120 => ⟨S6x262144, .i32⟩
  | 121 => ⟨S6x262144, .i32⟩
  | 122 => ⟨S6x262144x1, .i32⟩
  | 123 => ⟨S6x262144x16, .f32⟩
  | 124 => ⟨S_, .f32⟩
  | 125 => ⟨S6x262144x1, .f32⟩
  | 126 => ⟨S6x262144x1, .f32⟩
  | 127 => ⟨S6x262144x16, .f32⟩
  | _ => ⟨S262144x4, .f32⟩

abbrev hbmTy0_2 (i : Nat) : BufTy := match i % 128 with
  | 0 => ⟨S6x262144x16, .f32⟩
  | 1 => ⟨S_, .f32⟩
  | 2 => ⟨S6x262144x1, .f32⟩
  | 3 => ⟨S6x262144x1, .f32⟩
  | 4 => ⟨S6x262144x16, .f32⟩
  | 5 => ⟨S6x262144x16, .f32⟩
  | 6 => ⟨S_, .f32⟩
  | 7 => ⟨S6x262144x1, .f32⟩
  | 8 => ⟨S6x262144x1, .f32⟩
  | 9 => ⟨S6x262144x16, .f32⟩
  | 10 => ⟨S6x262144x16, .f32⟩
  | 11 => ⟨S6x262144x16, .f32⟩
  | 12 => ⟨S6x262144x16, .f32⟩
  | 13 => ⟨S6x262144x16, .f32⟩
  | 14 => ⟨S6x262144x16, .f32⟩
  | 15 => ⟨S6x262144x16, .f32⟩
  | 16 => ⟨S_, .f32⟩
  | 17 => ⟨S6x262144x1, .f32⟩
  | 18 => ⟨S6x262144x1, .f32⟩
  | 19 => ⟨S6x262144x16, .f32⟩
  | 20 => ⟨S6x262144x16, .f32⟩
  | 21 => ⟨S6x262144x16, .f32⟩
  | 22 => ⟨S6x262144x16, .f32⟩
  | 23 => ⟨S6x262144x16, .f32⟩
  | 24 => ⟨S6x262144x16, .f32⟩
  | 25 => ⟨S6x262144x16, .f32⟩
  | 26 => ⟨S6x262144x16, .f32⟩
  | 27 => ⟨S262144x6x16, .f32⟩
  | 28 => ⟨S262144x96, .f32⟩
  | 29 => ⟨S262144x96, .bf16⟩
  | 30 => ⟨S6x512x512x16, .f32⟩
  | 31 => ⟨S6x262144x16, .f32⟩
  | 32 => ⟨S262144x6x1, .f32⟩
  | 33 => ⟨S6x262144x1, .f32⟩
  | 34 => ⟨S6x262144, .f32⟩
  | 35 => ⟨S_, .f32⟩
  | 36 => ⟨S6x262144, .f32⟩
  | 37 => ⟨S6x262144, .f32⟩
  | 38 => ⟨S262144x6x1, .f32⟩
  | 39 => ⟨S6x262144x1, .f32⟩
  | 40 => ⟨S6x262144, .f32⟩
  | 41 => ⟨S_, .f32⟩
  | 42 => ⟨S6x262144, .f32⟩
  | 43 => ⟨S6x262144, .f32⟩
  | 44 => ⟨S6x262144, .f32⟩
  | 45 => ⟨S_, .i32⟩
  | 46 => ⟨S_, .i32⟩
  | 47 => ⟨S_, .f32⟩
  | 48 => ⟨S6x262144, .f32⟩
  | 49 => ⟨S6x262144, .f32⟩
  | 50 => ⟨S_, .f32⟩
  | 51 => ⟨S6x262144, .f32⟩
  | 52 => ⟨S6x262144, .f32⟩
  | 53 => ⟨S6x262144, .i32⟩
  | 54 => ⟨S6x262144, .f32⟩
  | 55 => ⟨S_, .i32⟩
  | 56 => ⟨S_, .i32⟩
  | 57 => ⟨S_, .f32⟩
  | 58 => ⟨S6x262144, .f32⟩
  | 59 => ⟨S6x262144, .f32⟩
  | 60 => ⟨S_, .f32⟩
  | 61 => ⟨S6x262144, .f32⟩
  | 62 => ⟨S6x262144, .f32⟩
  | 63 => ⟨S6x262144, .i32⟩
  | 64 => ⟨S_, .i32⟩
  | 65 => ⟨S6x262144, .i32⟩
  | 66 => ⟨S6x262144, .i32⟩
  | 67 => ⟨S_, .i32⟩
  | 68 => ⟨S6x262144, .i32⟩
  | 69 => ⟨S6x262144, .i32⟩
  | 70 => ⟨S6x262144, .f32⟩
  | 71 => ⟨S6x262144, .f32⟩
  | 72 => ⟨S6x262144x1, .f32⟩
  | 73 => ⟨S6x262144, .f32⟩
  | 74 => ⟨S6x262144, .f32⟩
  | 75 => ⟨S6x262144x1, .f32⟩
  | 76 => ⟨S_, .i32⟩
  | 77 => ⟨S6x262144, .i32⟩
  | 78 => ⟨S6x262144, .i32⟩
  | 79 => ⟨S6x262144, .i32⟩
  | 80 => ⟨S_, .i32⟩
  | 81 => ⟨S6x262144, .i32⟩
  | 82 => ⟨S6x262144, .i32⟩
  | 83 => ⟨S6x262144, .i32⟩
  | 84 => ⟨S_, .i32⟩
  | 85 => ⟨S6x262144, .i32⟩
  | 86 => ⟨S6x262144, .i32⟩
  | 87 => ⟨S6x262144, .i32⟩
  | 88 => ⟨S_, .i32⟩
  | 89 => ⟨S6x262144, .i32⟩
  | 90 => ⟨S6x262144, .i32⟩
  | 91 => ⟨S6x262144, .i32⟩
  | 92 => ⟨S_, .i32⟩
  | 93 => ⟨S6x262144, .i32⟩
  | 94 => ⟨S6x262144, .i1⟩
  | 95 => ⟨S_, .i32⟩
  | 96 => ⟨S6x262144, .i32⟩
  | 97 => ⟨S6x262144, .i32⟩
  | 98 => ⟨S6x262144, .i32⟩
  | 99 => ⟨S6x262144x1, .i32⟩
  | 100 => ⟨S6x262144x16, .f32⟩
  | 101 => ⟨S_, .i32⟩
  | 102 => ⟨S6x262144, .i32⟩
  | 103 => ⟨S6x262144, .i1⟩
  | 104 => ⟨S_, .i32⟩
  | 105 => ⟨S6x262144, .i32⟩
  | 106 => ⟨S6x262144, .i32⟩
  | 107 => ⟨S6x262144, .i32⟩
  | 108 => ⟨S6x262144x1, .i32⟩
  | 109 => ⟨S6x262144x16, .f32⟩
  | 110 => ⟨S_, .i32⟩
  | 111 => ⟨S6x262144, .i32⟩
  | 112 => ⟨S6x262144, .i1⟩
  | 113 => ⟨S_, .i32⟩
  | 114 => ⟨S6x262144, .i32⟩
  | 115 => ⟨S6x262144, .i32⟩
  | 116 => ⟨S6x262144, .i32⟩
  | 117 => ⟨S6x262144x1, .i32⟩
  | 118 => ⟨S6x262144x16, .f32⟩
  | 119 => ⟨S_, .i32⟩
  | 120 => ⟨S6x262144, .i32⟩
  | 121 => ⟨S6x262144, .i1⟩
  | 122 => ⟨S_, .i32⟩
  | 123 => ⟨S6x262144, .i32⟩
  | 124 => ⟨S6x262144, .i32⟩
  | 125 => ⟨S6x262144, .i32⟩
  | 126 => ⟨S6x262144x1, .i32⟩
  | 127 => ⟨S6x262144x16, .f32⟩
  | _ => ⟨S262144x4, .f32⟩

abbrev hbmTy0_3 (i : Nat) : BufTy := match i % 128 with
  | 0 => ⟨S_, .f32⟩
  | 1 => ⟨S6x262144x1, .f32⟩
  | 2 => ⟨S6x262144x1, .f32⟩
  | 3 => ⟨S6x262144x16, .f32⟩
  | 4 => ⟨S6x262144x16, .f32⟩
  | 5 => ⟨S_, .f32⟩
  | 6 => ⟨S6x262144x1, .f32⟩
  | 7 => ⟨S6x262144x1, .f32⟩
  | 8 => ⟨S6x262144x16, .f32⟩
  | 9 => ⟨S6x262144x16, .f32⟩
  | 10 => ⟨S_, .f32⟩
  | 11 => ⟨S6x262144x1, .f32⟩
  | 12 => ⟨S6x262144x1, .f32⟩
  | 13 => ⟨S6x262144x16, .f32⟩
  | 14 => ⟨S6x262144x16, .f32⟩
  | 15 => ⟨S6x262144x16, .f32⟩
  | 16 => ⟨S6x262144x16, .f32⟩
  | 17 => ⟨S6x262144x16, .f32⟩
  | 18 => ⟨S6x262144x16, .f32⟩
  | 19 => ⟨S6x262144x16, .f32⟩
  | 20 => ⟨S_, .f32⟩
  | 21 => ⟨S6x262144x1, .f32⟩
  | 22 => ⟨S6x262144x1, .f32⟩
  | 23 => ⟨S6x262144x16, .f32⟩
  | 24 => ⟨S6x262144x16, .f32⟩
  | 25 => ⟨S6x262144x16, .f32⟩
  | 26 => ⟨S6x262144x16, .f32⟩
  | 27 => ⟨S6x262144x16, .f32⟩
  | 28 => ⟨S6x262144x16, .f32⟩
  | 29 => ⟨S6x262144x16, .f32⟩
  | 30 => ⟨S6x262144x16, .f32⟩
  | 31 => ⟨S262144x6x16, .f32⟩
  | 32 => ⟨S262144x96, .f32⟩
  | 33 => ⟨S262144x96, .bf16⟩
  | 34 => ⟨S96x128, .f32⟩
  | 35 => ⟨S96x128, .f32⟩
  | 36 => ⟨S96x128, .f32⟩
  | 37 => ⟨S1x128, .f32⟩
  | 38 => ⟨S1x3, .f32⟩
  | 39 => ⟨S262144x3, .f32⟩
  | _ => ⟨S262144x4, .f32⟩

abbrev hbmTy (i : Nat) : BufTy := match i / 128 with
  | 0 => hbmTy0_0 i
  | 1 => hbmTy0_1 i
  | 2 => hbmTy0_2 i
  | 3 => hbmTy0_3 i
  | _ => ⟨S262144x4, .f32⟩

abbrev bufTy : (tb : Table) → Fin (tcTables nBuf tb) → BufTy
  | .hbm, ⟨i, _⟩ => hbmTy i
  | .local _ .vmem, ⟨0, _⟩ => ⟨S8192x96, .bf16⟩
  | .local _ .vmem, ⟨1, _⟩ => ⟨S8192x96, .bf16⟩
  | .local _ .vmem, ⟨2, _⟩ => ⟨S8192x96, .bf16⟩
  | .local _ .vmem, ⟨3, _⟩ => ⟨S8192x96, .bf16⟩
  | .local _ .vmem, ⟨4, _⟩ => ⟨S8192x96, .bf16⟩
  | .local _ .vmem, ⟨5, _⟩ => ⟨S8192x96, .bf16⟩
  | .local _ .vmem, ⟨6, _⟩ => ⟨S96x128, .f32⟩
  | .local _ .vmem, ⟨7, _⟩ => ⟨S96x128, .f32⟩
  | .local _ .vmem, ⟨8, _⟩ => ⟨S96x128, .f32⟩
  | .local _ .vmem, ⟨9, _⟩ => ⟨S1x128, .f32⟩
  | .local _ .vmem, ⟨10, _⟩ => ⟨S128x3, .f32⟩
  | .local _ .vmem, ⟨11, _⟩ => ⟨S1x3, .f32⟩
  | .local _ .vmem, ⟨12, _⟩ => ⟨S8192x3, .f32⟩
  | .local _ .vmem, ⟨13, _⟩ => ⟨S8192x3, .f32⟩
  | _, _ => ⟨S262144x4, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_c : Ref sig .tc := ⟨.hbm, 8, rfl⟩
abbrev main_c_0 : Ref sig .tc := ⟨.hbm, 9, rfl⟩
abbrev main_cst : Ref sig .tc := ⟨.hbm, 10, rfl⟩
abbrev main_v0 : Ref sig .tc := ⟨.hbm, 11, rfl⟩
abbrev main_v1 : Ref sig .tc := ⟨.hbm, 12, rfl⟩
abbrev main_cst_1 : Ref sig .tc := ⟨.hbm, 13, rfl⟩
abbrev main_v2 : Ref sig .tc := ⟨.hbm, 14, rfl⟩
abbrev main_v3 : Ref sig .tc := ⟨.hbm, 15, rfl⟩
abbrev main_c_2 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_cst_3 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_cst_4 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_c_5 : Ref sig .tc := ⟨.hbm, 37, rfl⟩
abbrev main_c_6 : Ref sig .tc := ⟨.hbm, 38, rfl⟩
abbrev main_call0_v0 : Ref sig .tc := ⟨.hbm, 39, rfl⟩
abbrev main_call0_v1 : Ref sig .tc := ⟨.hbm, 40, rfl⟩
abbrev main_call0_v2 : Ref sig .tc := ⟨.hbm, 41, rfl⟩
abbrev main_call0_v3 : Ref sig .tc := ⟨.hbm, 42, rfl⟩
abbrev main_call0_v4 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev main_c_7 : Ref sig .tc := ⟨.hbm, 47, rfl⟩
abbrev main_c_8 : Ref sig .tc := ⟨.hbm, 48, rfl⟩
abbrev main_call1_v0 : Ref sig .tc := ⟨.hbm, 49, rfl⟩
abbrev main_call1_v1 : Ref sig .tc := ⟨.hbm, 50, rfl⟩
abbrev main_call1_v2 : Ref sig .tc := ⟨.hbm, 51, rfl⟩
abbrev main_call1_v3 : Ref sig .tc := ⟨.hbm, 52, rfl⟩
abbrev main_call1_v4 : Ref sig .tc := ⟨.hbm, 53, rfl⟩
abbrev main_v25 : Ref sig .tc := ⟨.hbm, 54, rfl⟩
abbrev main_v26 : Ref sig .tc := ⟨.hbm, 55, rfl⟩
abbrev main_c_9 : Ref sig .tc := ⟨.hbm, 56, rfl⟩
abbrev main_v27 : Ref sig .tc := ⟨.hbm, 57, rfl⟩
abbrev main_v28 : Ref sig .tc := ⟨.hbm, 58, rfl⟩
abbrev main_c_10 : Ref sig .tc := ⟨.hbm, 59, rfl⟩
abbrev main_v29 : Ref sig .tc := ⟨.hbm, 60, rfl⟩
abbrev main_v30 : Ref sig .tc := ⟨.hbm, 61, rfl⟩
abbrev main_v31 : Ref sig .tc := ⟨.hbm, 62, rfl⟩
abbrev main_v32 : Ref sig .tc := ⟨.hbm, 63, rfl⟩
abbrev main_v33 : Ref sig .tc := ⟨.hbm, 64, rfl⟩
abbrev main_v34 : Ref sig .tc := ⟨.hbm, 65, rfl⟩
abbrev main_v35 : Ref sig .tc := ⟨.hbm, 66, rfl⟩
abbrev main_v36 : Ref sig .tc := ⟨.hbm, 67, rfl⟩
abbrev main_c_11 : Ref sig .tc := ⟨.hbm, 68, rfl⟩
abbrev main_v37 : Ref sig .tc := ⟨.hbm, 69, rfl⟩
abbrev main_v38 : Ref sig .tc := ⟨.hbm, 70, rfl⟩
abbrev main_v39 : Ref sig .tc := ⟨.hbm, 71, rfl⟩
abbrev main_c_12 : Ref sig .tc := ⟨.hbm, 72, rfl⟩
abbrev main_v40 : Ref sig .tc := ⟨.hbm, 73, rfl⟩
abbrev main_v41 : Ref sig .tc := ⟨.hbm, 74, rfl⟩
abbrev main_v42 : Ref sig .tc := ⟨.hbm, 75, rfl⟩
abbrev main_c_13 : Ref sig .tc := ⟨.hbm, 76, rfl⟩
abbrev main_v43 : Ref sig .tc := ⟨.hbm, 77, rfl⟩
abbrev main_v44 : Ref sig .tc := ⟨.hbm, 78, rfl⟩
abbrev main_v45 : Ref sig .tc := ⟨.hbm, 79, rfl⟩
abbrev main_c_14 : Ref sig .tc := ⟨.hbm, 80, rfl⟩
abbrev main_v46 : Ref sig .tc := ⟨.hbm, 81, rfl⟩
abbrev main_v47 : Ref sig .tc := ⟨.hbm, 82, rfl⟩
abbrev main_v48 : Ref sig .tc := ⟨.hbm, 83, rfl⟩
abbrev main_c_15 : Ref sig .tc := ⟨.hbm, 84, rfl⟩
abbrev main_v49 : Ref sig .tc := ⟨.hbm, 85, rfl⟩
abbrev main_v50 : Ref sig .tc := ⟨.hbm, 86, rfl⟩
abbrev main_c_16 : Ref sig .tc := ⟨.hbm, 87, rfl⟩
abbrev main_v51 : Ref sig .tc := ⟨.hbm, 88, rfl⟩
abbrev main_v52 : Ref sig .tc := ⟨.hbm, 89, rfl⟩
abbrev main_v53 : Ref sig .tc := ⟨.hbm, 90, rfl⟩
abbrev main_v54 : Ref sig .tc := ⟨.hbm, 91, rfl⟩
abbrev main_v55 : Ref sig .tc := ⟨.hbm, 92, rfl⟩
abbrev main_c_17 : Ref sig .tc := ⟨.hbm, 93, rfl⟩
abbrev main_v56 : Ref sig .tc := ⟨.hbm, 94, rfl⟩
abbrev main_v57 : Ref sig .tc := ⟨.hbm, 95, rfl⟩
abbrev main_c_18 : Ref sig .tc := ⟨.hbm, 96, rfl⟩
abbrev main_v58 : Ref sig .tc := ⟨.hbm, 97, rfl⟩
abbrev main_v59 : Ref sig .tc := ⟨.hbm, 98, rfl⟩
abbrev main_v60 : Ref sig .tc := ⟨.hbm, 99, rfl⟩
abbrev main_v61 : Ref sig .tc := ⟨.hbm, 100, rfl⟩
abbrev main_v62 : Ref sig .tc := ⟨.hbm, 101, rfl⟩
abbrev main_c_19 : Ref sig .tc := ⟨.hbm, 102, rfl⟩
abbrev main_v63 : Ref sig .tc := ⟨.hbm, 103, rfl⟩
abbrev main_v64 : Ref sig .tc := ⟨.hbm, 104, rfl⟩
abbrev main_c_20 : Ref sig .tc := ⟨.hbm, 105, rfl⟩
abbrev main_v65 : Ref sig .tc := ⟨.hbm, 106, rfl⟩
abbrev main_v66 : Ref sig .tc := ⟨.hbm, 107, rfl⟩
abbrev main_v67 : Ref sig .tc := ⟨.hbm, 108, rfl⟩
abbrev main_v68 : Ref sig .tc := ⟨.hbm, 109, rfl⟩
abbrev main_v69 : Ref sig .tc := ⟨.hbm, 110, rfl⟩
abbrev main_c_21 : Ref sig .tc := ⟨.hbm, 111, rfl⟩
abbrev main_v70 : Ref sig .tc := ⟨.hbm, 112, rfl⟩
abbrev main_v71 : Ref sig .tc := ⟨.hbm, 113, rfl⟩
abbrev main_c_22 : Ref sig .tc := ⟨.hbm, 114, rfl⟩
abbrev main_v72 : Ref sig .tc := ⟨.hbm, 115, rfl⟩
abbrev main_v73 : Ref sig .tc := ⟨.hbm, 116, rfl⟩
abbrev main_v74 : Ref sig .tc := ⟨.hbm, 117, rfl⟩
abbrev main_v75 : Ref sig .tc := ⟨.hbm, 118, rfl⟩
abbrev main_v76 : Ref sig .tc := ⟨.hbm, 119, rfl⟩
abbrev main_cst_23 : Ref sig .tc := ⟨.hbm, 120, rfl⟩
abbrev main_v77 : Ref sig .tc := ⟨.hbm, 121, rfl⟩
abbrev main_v78 : Ref sig .tc := ⟨.hbm, 122, rfl⟩
abbrev main_v79 : Ref sig .tc := ⟨.hbm, 123, rfl⟩
abbrev main_v80 : Ref sig .tc := ⟨.hbm, 124, rfl⟩
abbrev main_cst_24 : Ref sig .tc := ⟨.hbm, 125, rfl⟩
abbrev main_v81 : Ref sig .tc := ⟨.hbm, 126, rfl⟩
abbrev main_v82 : Ref sig .tc := ⟨.hbm, 127, rfl⟩
abbrev main_v83 : Ref sig .tc := ⟨.hbm, 128, rfl⟩
abbrev main_v84 : Ref sig .tc := ⟨.hbm, 129, rfl⟩
abbrev main_cst_25 : Ref sig .tc := ⟨.hbm, 130, rfl⟩
abbrev main_v85 : Ref sig .tc := ⟨.hbm, 131, rfl⟩
abbrev main_v86 : Ref sig .tc := ⟨.hbm, 132, rfl⟩
abbrev main_v87 : Ref sig .tc := ⟨.hbm, 133, rfl⟩
abbrev main_v88 : Ref sig .tc := ⟨.hbm, 134, rfl⟩
abbrev main_v89 : Ref sig .tc := ⟨.hbm, 135, rfl⟩
abbrev main_v90 : Ref sig .tc := ⟨.hbm, 136, rfl⟩
abbrev main_v91 : Ref sig .tc := ⟨.hbm, 137, rfl⟩
abbrev main_v92 : Ref sig .tc := ⟨.hbm, 138, rfl⟩
abbrev main_v93 : Ref sig .tc := ⟨.hbm, 139, rfl⟩
abbrev main_cst_26 : Ref sig .tc := ⟨.hbm, 140, rfl⟩
abbrev main_v94 : Ref sig .tc := ⟨.hbm, 141, rfl⟩
abbrev main_v95 : Ref sig .tc := ⟨.hbm, 142, rfl⟩
abbrev main_v96 : Ref sig .tc := ⟨.hbm, 143, rfl⟩
abbrev main_v97 : Ref sig .tc := ⟨.hbm, 144, rfl⟩
abbrev main_v98 : Ref sig .tc := ⟨.hbm, 145, rfl⟩
abbrev main_v99 : Ref sig .tc := ⟨.hbm, 146, rfl⟩
abbrev main_v100 : Ref sig .tc := ⟨.hbm, 147, rfl⟩
abbrev main_v101 : Ref sig .tc := ⟨.hbm, 148, rfl⟩
abbrev main_v102 : Ref sig .tc := ⟨.hbm, 149, rfl⟩
abbrev main_v103 : Ref sig .tc := ⟨.hbm, 150, rfl⟩
abbrev main_v104 : Ref sig .tc := ⟨.hbm, 151, rfl⟩
abbrev main_v105 : Ref sig .tc := ⟨.hbm, 152, rfl⟩
abbrev main_v106 : Ref sig .tc := ⟨.hbm, 153, rfl⟩
abbrev main_v107 : Ref sig .tc := ⟨.hbm, 154, rfl⟩
abbrev main_v108 : Ref sig .tc := ⟨.hbm, 155, rfl⟩
abbrev main_v109 : Ref sig .tc := ⟨.hbm, 156, rfl⟩
abbrev main_v110 : Ref sig .tc := ⟨.hbm, 157, rfl⟩
abbrev main_v111 : Ref sig .tc := ⟨.hbm, 158, rfl⟩
abbrev main_cst_27 : Ref sig .tc := ⟨.hbm, 159, rfl⟩
abbrev main_v112 : Ref sig .tc := ⟨.hbm, 160, rfl⟩
abbrev main_v113 : Ref sig .tc := ⟨.hbm, 161, rfl⟩
abbrev main_v114 : Ref sig .tc := ⟨.hbm, 162, rfl⟩
abbrev main_v115 : Ref sig .tc := ⟨.hbm, 163, rfl⟩
abbrev main_v116 : Ref sig .tc := ⟨.hbm, 164, rfl⟩
abbrev main_cst_28 : Ref sig .tc := ⟨.hbm, 165, rfl⟩
abbrev main_v117 : Ref sig .tc := ⟨.hbm, 166, rfl⟩
abbrev main_v118 : Ref sig .tc := ⟨.hbm, 167, rfl⟩
abbrev main_v119 : Ref sig .tc := ⟨.hbm, 168, rfl⟩
abbrev main_c_29 : Ref sig .tc := ⟨.hbm, 169, rfl⟩
abbrev main_c_30 : Ref sig .tc := ⟨.hbm, 170, rfl⟩
abbrev main_call2_v0 : Ref sig .tc := ⟨.hbm, 171, rfl⟩
abbrev main_call2_v1 : Ref sig .tc := ⟨.hbm, 172, rfl⟩
abbrev main_call2_v2 : Ref sig .tc := ⟨.hbm, 173, rfl⟩
abbrev main_call2_v3 : Ref sig .tc := ⟨.hbm, 174, rfl⟩
abbrev main_call2_v4 : Ref sig .tc := ⟨.hbm, 175, rfl⟩
abbrev main_v120 : Ref sig .tc := ⟨.hbm, 176, rfl⟩
abbrev main_v121 : Ref sig .tc := ⟨.hbm, 177, rfl⟩
abbrev main_v122 : Ref sig .tc := ⟨.hbm, 178, rfl⟩
abbrev main_c_31 : Ref sig .tc := ⟨.hbm, 179, rfl⟩
abbrev main_c_32 : Ref sig .tc := ⟨.hbm, 180, rfl⟩
abbrev main_call3_v0 : Ref sig .tc := ⟨.hbm, 181, rfl⟩
abbrev main_call3_v1 : Ref sig .tc := ⟨.hbm, 182, rfl⟩
abbrev main_call3_v2 : Ref sig .tc := ⟨.hbm, 183, rfl⟩
abbrev main_call3_v3 : Ref sig .tc := ⟨.hbm, 184, rfl⟩
abbrev main_call3_v4 : Ref sig .tc := ⟨.hbm, 185, rfl⟩
abbrev main_v123 : Ref sig .tc := ⟨.hbm, 186, rfl⟩
abbrev main_v124 : Ref sig .tc := ⟨.hbm, 187, rfl⟩
abbrev main_c_33 : Ref sig .tc := ⟨.hbm, 188, rfl⟩
abbrev main_v125 : Ref sig .tc := ⟨.hbm, 189, rfl⟩
abbrev main_v126 : Ref sig .tc := ⟨.hbm, 190, rfl⟩
abbrev main_c_34 : Ref sig .tc := ⟨.hbm, 191, rfl⟩
abbrev main_v127 : Ref sig .tc := ⟨.hbm, 192, rfl⟩
abbrev main_v128 : Ref sig .tc := ⟨.hbm, 193, rfl⟩
abbrev main_v129 : Ref sig .tc := ⟨.hbm, 194, rfl⟩
abbrev main_v130 : Ref sig .tc := ⟨.hbm, 195, rfl⟩
abbrev main_v131 : Ref sig .tc := ⟨.hbm, 196, rfl⟩
abbrev main_v132 : Ref sig .tc := ⟨.hbm, 197, rfl⟩
abbrev main_v133 : Ref sig .tc := ⟨.hbm, 198, rfl⟩
abbrev main_v134 : Ref sig .tc := ⟨.hbm, 199, rfl⟩
abbrev main_c_35 : Ref sig .tc := ⟨.hbm, 200, rfl⟩
abbrev main_v135 : Ref sig .tc := ⟨.hbm, 201, rfl⟩
abbrev main_v136 : Ref sig .tc := ⟨.hbm, 202, rfl⟩
abbrev main_v137 : Ref sig .tc := ⟨.hbm, 203, rfl⟩
abbrev main_c_36 : Ref sig .tc := ⟨.hbm, 204, rfl⟩
abbrev main_v138 : Ref sig .tc := ⟨.hbm, 205, rfl⟩
abbrev main_v139 : Ref sig .tc := ⟨.hbm, 206, rfl⟩
abbrev main_v140 : Ref sig .tc := ⟨.hbm, 207, rfl⟩
abbrev main_c_37 : Ref sig .tc := ⟨.hbm, 208, rfl⟩
abbrev main_v141 : Ref sig .tc := ⟨.hbm, 209, rfl⟩
abbrev main_v142 : Ref sig .tc := ⟨.hbm, 210, rfl⟩
abbrev main_v143 : Ref sig .tc := ⟨.hbm, 211, rfl⟩
abbrev main_c_38 : Ref sig .tc := ⟨.hbm, 212, rfl⟩
abbrev main_v144 : Ref sig .tc := ⟨.hbm, 213, rfl⟩
abbrev main_v145 : Ref sig .tc := ⟨.hbm, 214, rfl⟩
abbrev main_v146 : Ref sig .tc := ⟨.hbm, 215, rfl⟩
abbrev main_c_39 : Ref sig .tc := ⟨.hbm, 216, rfl⟩
abbrev main_v147 : Ref sig .tc := ⟨.hbm, 217, rfl⟩
abbrev main_v148 : Ref sig .tc := ⟨.hbm, 218, rfl⟩
abbrev main_c_40 : Ref sig .tc := ⟨.hbm, 219, rfl⟩
abbrev main_v149 : Ref sig .tc := ⟨.hbm, 220, rfl⟩
abbrev main_v150 : Ref sig .tc := ⟨.hbm, 221, rfl⟩
abbrev main_v151 : Ref sig .tc := ⟨.hbm, 222, rfl⟩
abbrev main_v152 : Ref sig .tc := ⟨.hbm, 223, rfl⟩
abbrev main_v153 : Ref sig .tc := ⟨.hbm, 224, rfl⟩
abbrev main_c_41 : Ref sig .tc := ⟨.hbm, 225, rfl⟩
abbrev main_v154 : Ref sig .tc := ⟨.hbm, 226, rfl⟩
abbrev main_v155 : Ref sig .tc := ⟨.hbm, 227, rfl⟩
abbrev main_c_42 : Ref sig .tc := ⟨.hbm, 228, rfl⟩
abbrev main_v156 : Ref sig .tc := ⟨.hbm, 229, rfl⟩
abbrev main_v157 : Ref sig .tc := ⟨.hbm, 230, rfl⟩
abbrev main_v158 : Ref sig .tc := ⟨.hbm, 231, rfl⟩
abbrev main_v159 : Ref sig .tc := ⟨.hbm, 232, rfl⟩
abbrev main_v160 : Ref sig .tc := ⟨.hbm, 233, rfl⟩
abbrev main_c_43 : Ref sig .tc := ⟨.hbm, 234, rfl⟩
abbrev main_v161 : Ref sig .tc := ⟨.hbm, 235, rfl⟩
abbrev main_v162 : Ref sig .tc := ⟨.hbm, 236, rfl⟩
abbrev main_c_44 : Ref sig .tc := ⟨.hbm, 237, rfl⟩
abbrev main_v163 : Ref sig .tc := ⟨.hbm, 238, rfl⟩
abbrev main_v164 : Ref sig .tc := ⟨.hbm, 239, rfl⟩
abbrev main_v165 : Ref sig .tc := ⟨.hbm, 240, rfl⟩
abbrev main_v166 : Ref sig .tc := ⟨.hbm, 241, rfl⟩
abbrev main_v167 : Ref sig .tc := ⟨.hbm, 242, rfl⟩
abbrev main_c_45 : Ref sig .tc := ⟨.hbm, 243, rfl⟩
abbrev main_v168 : Ref sig .tc := ⟨.hbm, 244, rfl⟩
abbrev main_v169 : Ref sig .tc := ⟨.hbm, 245, rfl⟩
abbrev main_c_46 : Ref sig .tc := ⟨.hbm, 246, rfl⟩
abbrev main_v170 : Ref sig .tc := ⟨.hbm, 247, rfl⟩
abbrev main_v171 : Ref sig .tc := ⟨.hbm, 248, rfl⟩
abbrev main_v172 : Ref sig .tc := ⟨.hbm, 249, rfl⟩
abbrev main_v173 : Ref sig .tc := ⟨.hbm, 250, rfl⟩
abbrev main_v174 : Ref sig .tc := ⟨.hbm, 251, rfl⟩
abbrev main_cst_47 : Ref sig .tc := ⟨.hbm, 252, rfl⟩
abbrev main_v175 : Ref sig .tc := ⟨.hbm, 253, rfl⟩
abbrev main_v176 : Ref sig .tc := ⟨.hbm, 254, rfl⟩
abbrev main_v177 : Ref sig .tc := ⟨.hbm, 255, rfl⟩
abbrev main_v178 : Ref sig .tc := ⟨.hbm, 256, rfl⟩
abbrev main_cst_48 : Ref sig .tc := ⟨.hbm, 257, rfl⟩
abbrev main_v179 : Ref sig .tc := ⟨.hbm, 258, rfl⟩
abbrev main_v180 : Ref sig .tc := ⟨.hbm, 259, rfl⟩
abbrev main_v181 : Ref sig .tc := ⟨.hbm, 260, rfl⟩
abbrev main_v182 : Ref sig .tc := ⟨.hbm, 261, rfl⟩
abbrev main_cst_49 : Ref sig .tc := ⟨.hbm, 262, rfl⟩
abbrev main_v183 : Ref sig .tc := ⟨.hbm, 263, rfl⟩
abbrev main_v184 : Ref sig .tc := ⟨.hbm, 264, rfl⟩
abbrev main_v185 : Ref sig .tc := ⟨.hbm, 265, rfl⟩
abbrev main_v186 : Ref sig .tc := ⟨.hbm, 266, rfl⟩
abbrev main_v187 : Ref sig .tc := ⟨.hbm, 267, rfl⟩
abbrev main_v188 : Ref sig .tc := ⟨.hbm, 268, rfl⟩
abbrev main_v189 : Ref sig .tc := ⟨.hbm, 269, rfl⟩
abbrev main_v190 : Ref sig .tc := ⟨.hbm, 270, rfl⟩
abbrev main_v191 : Ref sig .tc := ⟨.hbm, 271, rfl⟩
abbrev main_cst_50 : Ref sig .tc := ⟨.hbm, 272, rfl⟩
abbrev main_v192 : Ref sig .tc := ⟨.hbm, 273, rfl⟩
abbrev main_v193 : Ref sig .tc := ⟨.hbm, 274, rfl⟩
abbrev main_v194 : Ref sig .tc := ⟨.hbm, 275, rfl⟩
abbrev main_v195 : Ref sig .tc := ⟨.hbm, 276, rfl⟩
abbrev main_v196 : Ref sig .tc := ⟨.hbm, 277, rfl⟩
abbrev main_v197 : Ref sig .tc := ⟨.hbm, 278, rfl⟩
abbrev main_v198 : Ref sig .tc := ⟨.hbm, 279, rfl⟩
abbrev main_v199 : Ref sig .tc := ⟨.hbm, 280, rfl⟩
abbrev main_v200 : Ref sig .tc := ⟨.hbm, 281, rfl⟩
abbrev main_v201 : Ref sig .tc := ⟨.hbm, 282, rfl⟩
abbrev main_v202 : Ref sig .tc := ⟨.hbm, 283, rfl⟩
abbrev main_v203 : Ref sig .tc := ⟨.hbm, 284, rfl⟩
abbrev main_v204 : Ref sig .tc := ⟨.hbm, 285, rfl⟩
abbrev main_v205 : Ref sig .tc := ⟨.hbm, 286, rfl⟩
abbrev main_v206 : Ref sig .tc := ⟨.hbm, 287, rfl⟩
abbrev main_v207 : Ref sig .tc := ⟨.hbm, 288, rfl⟩
abbrev main_v208 : Ref sig .tc := ⟨.hbm, 289, rfl⟩
abbrev main_v209 : Ref sig .tc := ⟨.hbm, 290, rfl⟩
abbrev main_cst_51 : Ref sig .tc := ⟨.hbm, 291, rfl⟩
abbrev main_v210 : Ref sig .tc := ⟨.hbm, 292, rfl⟩
abbrev main_v211 : Ref sig .tc := ⟨.hbm, 293, rfl⟩
abbrev main_v212 : Ref sig .tc := ⟨.hbm, 294, rfl⟩
abbrev main_v213 : Ref sig .tc := ⟨.hbm, 295, rfl⟩
abbrev main_v214 : Ref sig .tc := ⟨.hbm, 296, rfl⟩
abbrev main_cst_52 : Ref sig .tc := ⟨.hbm, 297, rfl⟩
abbrev main_v215 : Ref sig .tc := ⟨.hbm, 298, rfl⟩
abbrev main_v216 : Ref sig .tc := ⟨.hbm, 299, rfl⟩
abbrev main_v217 : Ref sig .tc := ⟨.hbm, 300, rfl⟩
abbrev main_c_53 : Ref sig .tc := ⟨.hbm, 301, rfl⟩
abbrev main_c_54 : Ref sig .tc := ⟨.hbm, 302, rfl⟩
abbrev main_call4_v0 : Ref sig .tc := ⟨.hbm, 303, rfl⟩
abbrev main_call4_v1 : Ref sig .tc := ⟨.hbm, 304, rfl⟩
abbrev main_call4_v2 : Ref sig .tc := ⟨.hbm, 305, rfl⟩
abbrev main_call4_v3 : Ref sig .tc := ⟨.hbm, 306, rfl⟩
abbrev main_call4_v4 : Ref sig .tc := ⟨.hbm, 307, rfl⟩
abbrev main_v218 : Ref sig .tc := ⟨.hbm, 308, rfl⟩
abbrev main_v219 : Ref sig .tc := ⟨.hbm, 309, rfl⟩
abbrev main_v220 : Ref sig .tc := ⟨.hbm, 310, rfl⟩
abbrev main_c_55 : Ref sig .tc := ⟨.hbm, 311, rfl⟩
abbrev main_c_56 : Ref sig .tc := ⟨.hbm, 312, rfl⟩
abbrev main_call5_v0 : Ref sig .tc := ⟨.hbm, 313, rfl⟩
abbrev main_call5_v1 : Ref sig .tc := ⟨.hbm, 314, rfl⟩
abbrev main_call5_v2 : Ref sig .tc := ⟨.hbm, 315, rfl⟩
abbrev main_call5_v3 : Ref sig .tc := ⟨.hbm, 316, rfl⟩
abbrev main_call5_v4 : Ref sig .tc := ⟨.hbm, 317, rfl⟩
abbrev main_v221 : Ref sig .tc := ⟨.hbm, 318, rfl⟩
abbrev main_v222 : Ref sig .tc := ⟨.hbm, 319, rfl⟩
abbrev main_c_57 : Ref sig .tc := ⟨.hbm, 320, rfl⟩
abbrev main_v223 : Ref sig .tc := ⟨.hbm, 321, rfl⟩
abbrev main_v224 : Ref sig .tc := ⟨.hbm, 322, rfl⟩
abbrev main_c_58 : Ref sig .tc := ⟨.hbm, 323, rfl⟩
abbrev main_v225 : Ref sig .tc := ⟨.hbm, 324, rfl⟩
abbrev main_v226 : Ref sig .tc := ⟨.hbm, 325, rfl⟩
abbrev main_v227 : Ref sig .tc := ⟨.hbm, 326, rfl⟩
abbrev main_v228 : Ref sig .tc := ⟨.hbm, 327, rfl⟩
abbrev main_v229 : Ref sig .tc := ⟨.hbm, 328, rfl⟩
abbrev main_v230 : Ref sig .tc := ⟨.hbm, 329, rfl⟩
abbrev main_v231 : Ref sig .tc := ⟨.hbm, 330, rfl⟩
abbrev main_v232 : Ref sig .tc := ⟨.hbm, 331, rfl⟩
abbrev main_c_59 : Ref sig .tc := ⟨.hbm, 332, rfl⟩
abbrev main_v233 : Ref sig .tc := ⟨.hbm, 333, rfl⟩
abbrev main_v234 : Ref sig .tc := ⟨.hbm, 334, rfl⟩
abbrev main_v235 : Ref sig .tc := ⟨.hbm, 335, rfl⟩
abbrev main_c_60 : Ref sig .tc := ⟨.hbm, 336, rfl⟩
abbrev main_v236 : Ref sig .tc := ⟨.hbm, 337, rfl⟩
abbrev main_v237 : Ref sig .tc := ⟨.hbm, 338, rfl⟩
abbrev main_v238 : Ref sig .tc := ⟨.hbm, 339, rfl⟩
abbrev main_c_61 : Ref sig .tc := ⟨.hbm, 340, rfl⟩
abbrev main_v239 : Ref sig .tc := ⟨.hbm, 341, rfl⟩
abbrev main_v240 : Ref sig .tc := ⟨.hbm, 342, rfl⟩
abbrev main_v241 : Ref sig .tc := ⟨.hbm, 343, rfl⟩
abbrev main_c_62 : Ref sig .tc := ⟨.hbm, 344, rfl⟩
abbrev main_v242 : Ref sig .tc := ⟨.hbm, 345, rfl⟩
abbrev main_v243 : Ref sig .tc := ⟨.hbm, 346, rfl⟩
abbrev main_v244 : Ref sig .tc := ⟨.hbm, 347, rfl⟩
abbrev main_c_63 : Ref sig .tc := ⟨.hbm, 348, rfl⟩
abbrev main_v245 : Ref sig .tc := ⟨.hbm, 349, rfl⟩
abbrev main_v246 : Ref sig .tc := ⟨.hbm, 350, rfl⟩
abbrev main_c_64 : Ref sig .tc := ⟨.hbm, 351, rfl⟩
abbrev main_v247 : Ref sig .tc := ⟨.hbm, 352, rfl⟩
abbrev main_v248 : Ref sig .tc := ⟨.hbm, 353, rfl⟩
abbrev main_v249 : Ref sig .tc := ⟨.hbm, 354, rfl⟩
abbrev main_v250 : Ref sig .tc := ⟨.hbm, 355, rfl⟩
abbrev main_v251 : Ref sig .tc := ⟨.hbm, 356, rfl⟩
abbrev main_c_65 : Ref sig .tc := ⟨.hbm, 357, rfl⟩
abbrev main_v252 : Ref sig .tc := ⟨.hbm, 358, rfl⟩
abbrev main_v253 : Ref sig .tc := ⟨.hbm, 359, rfl⟩
abbrev main_c_66 : Ref sig .tc := ⟨.hbm, 360, rfl⟩
abbrev main_v254 : Ref sig .tc := ⟨.hbm, 361, rfl⟩
abbrev main_v255 : Ref sig .tc := ⟨.hbm, 362, rfl⟩
abbrev main_v256 : Ref sig .tc := ⟨.hbm, 363, rfl⟩
abbrev main_v257 : Ref sig .tc := ⟨.hbm, 364, rfl⟩
abbrev main_v258 : Ref sig .tc := ⟨.hbm, 365, rfl⟩
abbrev main_c_67 : Ref sig .tc := ⟨.hbm, 366, rfl⟩
abbrev main_v259 : Ref sig .tc := ⟨.hbm, 367, rfl⟩
abbrev main_v260 : Ref sig .tc := ⟨.hbm, 368, rfl⟩
abbrev main_c_68 : Ref sig .tc := ⟨.hbm, 369, rfl⟩
abbrev main_v261 : Ref sig .tc := ⟨.hbm, 370, rfl⟩
abbrev main_v262 : Ref sig .tc := ⟨.hbm, 371, rfl⟩
abbrev main_v263 : Ref sig .tc := ⟨.hbm, 372, rfl⟩
abbrev main_v264 : Ref sig .tc := ⟨.hbm, 373, rfl⟩
abbrev main_v265 : Ref sig .tc := ⟨.hbm, 374, rfl⟩
abbrev main_c_69 : Ref sig .tc := ⟨.hbm, 375, rfl⟩
abbrev main_v266 : Ref sig .tc := ⟨.hbm, 376, rfl⟩
abbrev main_v267 : Ref sig .tc := ⟨.hbm, 377, rfl⟩
abbrev main_c_70 : Ref sig .tc := ⟨.hbm, 378, rfl⟩
abbrev main_v268 : Ref sig .tc := ⟨.hbm, 379, rfl⟩
abbrev main_v269 : Ref sig .tc := ⟨.hbm, 380, rfl⟩
abbrev main_v270 : Ref sig .tc := ⟨.hbm, 381, rfl⟩
abbrev main_v271 : Ref sig .tc := ⟨.hbm, 382, rfl⟩
abbrev main_v272 : Ref sig .tc := ⟨.hbm, 383, rfl⟩
abbrev main_cst_71 : Ref sig .tc := ⟨.hbm, 384, rfl⟩
abbrev main_v273 : Ref sig .tc := ⟨.hbm, 385, rfl⟩
abbrev main_v274 : Ref sig .tc := ⟨.hbm, 386, rfl⟩
abbrev main_v275 : Ref sig .tc := ⟨.hbm, 387, rfl⟩
abbrev main_v276 : Ref sig .tc := ⟨.hbm, 388, rfl⟩
abbrev main_cst_72 : Ref sig .tc := ⟨.hbm, 389, rfl⟩
abbrev main_v277 : Ref sig .tc := ⟨.hbm, 390, rfl⟩
abbrev main_v278 : Ref sig .tc := ⟨.hbm, 391, rfl⟩
abbrev main_v279 : Ref sig .tc := ⟨.hbm, 392, rfl⟩
abbrev main_v280 : Ref sig .tc := ⟨.hbm, 393, rfl⟩
abbrev main_cst_73 : Ref sig .tc := ⟨.hbm, 394, rfl⟩
abbrev main_v281 : Ref sig .tc := ⟨.hbm, 395, rfl⟩
abbrev main_v282 : Ref sig .tc := ⟨.hbm, 396, rfl⟩
abbrev main_v283 : Ref sig .tc := ⟨.hbm, 397, rfl⟩
abbrev main_v284 : Ref sig .tc := ⟨.hbm, 398, rfl⟩
abbrev main_v285 : Ref sig .tc := ⟨.hbm, 399, rfl⟩
abbrev main_v286 : Ref sig .tc := ⟨.hbm, 400, rfl⟩
abbrev main_v287 : Ref sig .tc := ⟨.hbm, 401, rfl⟩
abbrev main_v288 : Ref sig .tc := ⟨.hbm, 402, rfl⟩
abbrev main_v289 : Ref sig .tc := ⟨.hbm, 403, rfl⟩
abbrev main_cst_74 : Ref sig .tc := ⟨.hbm, 404, rfl⟩
abbrev main_v290 : Ref sig .tc := ⟨.hbm, 405, rfl⟩
abbrev main_v291 : Ref sig .tc := ⟨.hbm, 406, rfl⟩
abbrev main_v292 : Ref sig .tc := ⟨.hbm, 407, rfl⟩
abbrev main_v293 : Ref sig .tc := ⟨.hbm, 408, rfl⟩
abbrev main_v294 : Ref sig .tc := ⟨.hbm, 409, rfl⟩
abbrev main_v295 : Ref sig .tc := ⟨.hbm, 410, rfl⟩
abbrev main_v296 : Ref sig .tc := ⟨.hbm, 411, rfl⟩
abbrev main_v297 : Ref sig .tc := ⟨.hbm, 412, rfl⟩
abbrev main_v298 : Ref sig .tc := ⟨.hbm, 413, rfl⟩
abbrev main_v299 : Ref sig .tc := ⟨.hbm, 414, rfl⟩
abbrev main_v300 : Ref sig .tc := ⟨.hbm, 415, rfl⟩
abbrev main_v301 : Ref sig .tc := ⟨.hbm, 416, rfl⟩
abbrev main_v302 : Ref sig .tc := ⟨.hbm, 417, rfl⟩
abbrev main_v303 : Ref sig .tc := ⟨.hbm, 418, rfl⟩
abbrev main_v304 : Ref sig .tc := ⟨.hbm, 419, rfl⟩
abbrev main_v305 : Ref sig .tc := ⟨.hbm, 420, rfl⟩
abbrev main_v306 : Ref sig .tc := ⟨.hbm, 421, rfl⟩
abbrev main_v307 : Ref sig .tc := ⟨.hbm, 422, rfl⟩
abbrev main_v308 : Ref sig .tc := ⟨.hbm, 423, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg9_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem9_1 : DmaSem sig := 13

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8192x96 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8192x96 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S8192x96 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S96x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S96x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S96x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S128x3 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x3 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S8192x3 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

class Facts₀ : Prop where
  bcast_S_S262144x4 : S_.BroadcastsInDim S262144x4 (![] : Fin 0 → Fin S262144x4.rank)
  bcast_S_S6x2 : S_.BroadcastsInDim S6x2 (![] : Fin 0 → Fin S6x2.rank)
  bcast_S6x2_S6x2x1_0_1 : S6x2.BroadcastsInDim S6x2x1 (![0, 1] : Fin 2 → Fin S6x2x1.rank)
  transposes_S6x16x128x128_S6x128x128x16_0_2_3_1 : S6x16x128x128.Transposes [0, 2, 3, 1] S6x128x128x16
  shapeCasts_S6x128x128x16_S6x16384x16 : S6x128x128x16.ShapeCasts S6x16384x16
  slices_S262144x6x2_S262144x6x1_0_0_0 : S262144x6x2.Slices ![0, 0, 0] S262144x6x1
  transposes_S262144x6x1_S6x262144x1_1_0_2 : S262144x6x1.Transposes [1, 0, 2] S6x262144x1
  shapeCasts_S6x262144x1_S6x262144 : S6x262144x1.ShapeCasts S6x262144
  bcast_S_S6x262144 : S_.BroadcastsInDim S6x262144 (![] : Fin 0 → Fin S6x262144.rank)
  slices_S262144x6x2_S262144x6x1_0_0_1 : S262144x6x2.Slices ![0, 0, 1] S262144x6x1
  bcast_S6x262144_S6x262144x1_0_1 : S6x262144.BroadcastsInDim S6x262144x1 (![0, 1] : Fin 2 → Fin S6x262144x1.rank)
  bcast_S_S6x262144x1 : S_.BroadcastsInDim S6x262144x1 (![] : Fin 0 → Fin S6x262144x1.rank)
  bcast_S6x262144x1_S6x262144x16_0_1_2 : S6x262144x1.BroadcastsInDim S6x262144x16 (![0, 1, 2] : Fin 3 → Fin S6x262144x16.rank)
  transposes_S6x262144x16_S262144x6x16_1_0_2 : S6x262144x16.Transposes [1, 0, 2] S262144x6x16
  shapeCasts_S262144x6x16_S262144x96 : S262144x6x16.ShapeCasts S262144x96
  bitsLt_bf16_f32 : FTy.bits .bf16 < FTy.bits .f32
  transposes_S6x16x256x256_S6x256x256x16_0_2_3_1 : S6x16x256x256.Transposes [0, 2, 3, 1] S6x256x256x16
  shapeCasts_S6x256x256x16_S6x65536x16 : S6x256x256x16.ShapeCasts S6x65536x16
  transposes_S6x16x512x512_S6x512x512x16_0_2_3_1 : S6x16x512x512.Transposes [0, 2, 3, 1] S6x512x512x16
  shapeCasts_S6x512x512x16_S6x262144x16 : S6x512x512x16.ShapeCasts S6x262144x16
  slices_S288x128_S96x128_0_0 : S288x128.Slices ![0, 0] S96x128
  slices_S288x128_S96x128_96_0 : S288x128.Slices ![96, 0] S96x128
  slices_S288x128_S96x128_192_0 : S288x128.Slices ![192, 0] S96x128
  shapeCasts_S128_S1x128 : S128.ShapeCasts S1x128
  shapeCasts_S3_S1x3 : S3.ShapeCasts S1x3
  inb_S8192x96_S8192x96_0_0 : ∀ a, (![0, 0] : Fin 2 → Nat) a + S8192x96.size a ≤ S8192x96.size a
  h_S8192x96 : 0 < S8192x96.numel
  shapeCasts_S8192x96_S8192x96 : S8192x96.ShapeCasts S8192x96
  inb_S96x128_S96x128_0_0 : ∀ a, (![0, 0] : Fin 2 → Nat) a + S96x128.size a ≤ S96x128.size a
  h_S96x128 : 0 < S96x128.numel
  shapeCasts_S96x128_S96x128 : S96x128.ShapeCasts S96x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S8192x128 : S1x128.Broadcasts S8192x128
  inb_S128x3_S128x3_0_0 : ∀ a, (![0, 0] : Fin 2 → Nat) a + S128x3.size a ≤ S128x3.size a
  h_S128x3 : 0 < S128x3.numel
  inb_S1x3_S1x3_0_0 : ∀ a, (![0, 0] : Fin 2 → Nat) a + S1x3.size a ≤ S1x3.size a
  h_S1x3 : 0 < S1x3.numel
  shapeCasts_S1x3_S1x3 : S1x3.ShapeCasts S1x3
  broadcasts_S1x3_S8192x3 : S1x3.Broadcasts S8192x3
  inb_S8192x3_S8192x3_0_0 : ∀ a, (![0, 0] : Fin 2 → Nat) a + S8192x3.size a ≤ S8192x3.size a
  h_S8192x3 : 0 < S8192x3.numel
  gather_S262144x4_S6x2x1_S262144x6x2_0_1_n_n_1_2_2621441_wf : GatherDims.WF S262144x4 S6x2x1 S262144x6x2 [0] [1] [] [1] [] 2 ![262144, 1]
  gather_S6x16384x16_S6x262144x1_S6x262144x16_2_1_0_0_1_2_1116_wf : GatherDims.WF S6x16384x16 S6x262144x1 S6x262144x16 [2] [1] [0] [1] [0] 2 ![1, 1, 16]
  gather_S6x65536x16_S6x262144x1_S6x262144x16_2_1_0_0_1_2_1116_wf : GatherDims.WF S6x65536x16 S6x262144x1 S6x262144x16 [2] [1] [0] [1] [0] 2 ![1, 1, 16]
  gather_S6x262144x16_S6x262144x1_S6x262144x16_2_1_0_0_1_2_1116_wf : GatherDims.WF S6x262144x16 S6x262144x1 S6x262144x16 [2] [1] [0] [1] [0] 2 ![1, 1, 16]
  dot_S8192x96_S96x128_S8192x128_1_0_0_1_n_n_wf : DotDims.WF S8192x96 S96x128 S8192x128 [1] [0] [0] [1] [] []
  dot_S8192x128_S128x3_S8192x3_1_0_0_1_n_n_wf : DotDims.WF S8192x128 S128x3 S8192x3 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8192x96.size a ≤ S262144x96.size a
  hwx0_0 : ∀ i : grid0.Coords, EltTy.bits .bf16 = 32 ∨ (Rect.block (s := S262144x96) S8192x96.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8192x96.size a ≤ S262144x96.size a
  hwx0_1 : ∀ i : grid0.Coords, EltTy.bits .bf16 = 32 ∨ (Rect.block (s := S262144x96) S8192x96.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S8192x96.size a ≤ S262144x96.size a
  hwx0_2 : ∀ i : grid0.Coords, EltTy.bits .bf16 = 32 ∨ (Rect.block (s := S262144x96) S8192x96.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S96x128.size a ≤ S96x128.size a
  hwx0_3 : ∀ i : grid0.Coords, EltTy.bits .f32 = 32 ∨ (Rect.block (s := S96x128) S96x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S96x128.size a ≤ S96x128.size a
  hwx0_4 : ∀ i : grid0.Coords, EltTy.bits .f32 = 32 ∨ (Rect.block (s := S96x128) S96x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S96x128.size a ≤ S96x128.size a
  hwx0_5 : ∀ i : grid0.Coords, EltTy.bits .f32 = 32 ∨ (Rect.block (s := S96x128) S96x128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x128.size a ≤ S1x128.size a
  hwx0_6 : ∀ i : grid0.Coords, EltTy.bits .f32 = 32 ∨ (Rect.block (s := S1x128) S1x128.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S128x3.size a ≤ S128x3.size a
  hwx0_7 : ∀ i : grid0.Coords, EltTy.bits .f32 = 32 ∨ (Rect.block (s := S128x3) S128x3.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x3.size a ≤ S1x3.size a
  hwx0_8 : ∀ i : grid0.Coords, EltTy.bits .f32 = 32 ∨ (Rect.block (s := S1x3) S1x3.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S8192x3.size a ≤ S262144x3.size a
  hwx0_9 : ∀ i : grid0.Coords, EltTy.bits .f32 = 32 ∨ (Rect.block (s := S262144x3) S8192x3.size (cc0_transform_9 i) (hinb0_9 i)).WholeWords (EltTy.packing .f32)

variable [Facts₀]

def gather_S262144x4_S6x2x1_S262144x6x2_0_1_n_n_1_2_2621441 : GatherDims S262144x4 S6x2x1 S262144x6x2 where
  offsetDims := [0]
  collapsedSliceDims := [1]
  operandBatchingDims := []
  startIndicesBatchingDims := []
  startIndexMap := [1]
  indexVectorDim := 2
  sliceSizes := ![262144, 1]
  wf := gather_S262144x4_S6x2x1_S262144x6x2_0_1_n_n_1_2_2621441_wf
def gather_S6x16384x16_S6x262144x1_S6x262144x16_2_1_0_0_1_2_1116 : GatherDims S6x16384x16 S6x262144x1 S6x262144x16 where
  offsetDims := [2]
  collapsedSliceDims := [1]
  operandBatchingDims := [0]
  startIndicesBatchingDims := [0]
  startIndexMap := [1]
  indexVectorDim := 2
  sliceSizes := ![1, 1, 16]
  wf := gather_S6x16384x16_S6x262144x1_S6x262144x16_2_1_0_0_1_2_1116_wf
def gather_S6x65536x16_S6x262144x1_S6x262144x16_2_1_0_0_1_2_1116 : GatherDims S6x65536x16 S6x262144x1 S6x262144x16 where
  offsetDims := [2]
  collapsedSliceDims := [1]
  operandBatchingDims := [0]
  startIndicesBatchingDims := [0]
  startIndexMap := [1]
  indexVectorDim := 2
  sliceSizes := ![1, 1, 16]
  wf := gather_S6x65536x16_S6x262144x1_S6x262144x16_2_1_0_0_1_2_1116_wf
def gather_S6x262144x16_S6x262144x1_S6x262144x16_2_1_0_0_1_2_1116 : GatherDims S6x262144x16 S6x262144x1 S6x262144x16 where
  offsetDims := [2]
  collapsedSliceDims := [1]
  operandBatchingDims := [0]
  startIndicesBatchingDims := [0]
  startIndexMap := [1]
  indexVectorDim := 2
  sliceSizes := ![1, 1, 16]
  wf := gather_S6x262144x16_S6x262144x1_S6x262144x16_2_1_0_0_1_2_1116_wf
def dot_S8192x96_S96x128_S8192x128_1_0_0_1_n_n : DotDims S8192x96 S96x128 S8192x128 where
  lhsContracting := [1]
  rhsContracting := [0]
  lhsNonContracting := [0]
  rhsNonContracting := [1]
  lhsBatch := []
  rhsBatch := []
  wf := dot_S8192x96_S96x128_S8192x128_1_0_0_1_n_n_wf
def dot_S8192x128_S128x3_S8192x3_1_0_0_1_n_n : DotDims S8192x128 S128x3 S8192x3 where
  lhsContracting := [1]
  rhsContracting := [0]
  lhsNonContracting := [0]
  rhsNonContracting := [1]
  lhsBatch := []
  rhsBatch := []
  wf := dot_S8192x128_S128x3_S8192x3_1_0_0_1_n_n_wf

abbrev win0_0 : Pipeline.Window sig grid0 :=
  Pipeline.Window.ofSpec (Memref.whole main_v106) S8192x96.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v204) S8192x96.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v302) S8192x96.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v303) S96x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v304) S96x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v305) S96x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v306) S1x128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg6) S128x3.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v307) S1x3.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v308) S8192x3.size cc0_transform_9 reads0_9 true false 2 stage0_9 sem0_9
    hrank0 hreads0_9 hinb0_9 nbuf0_9 (Memref.isWhole_whole _) hwx0_9 hstage0_9

abbrev win0 : Fin 10 → Pipeline.Window sig grid0 := fun | 0 => win0_0 | 1 => win0_1 | 2 => win0_2 | 3 => win0_3 | 4 => win0_4 | 5 => win0_5 | 6 => win0_6 | 7 => win0_7 | 8 => win0_8 | 9 => win0_9 | ⟨_ + 10, h⟩ => absurd h (Nat.not_lt.2 (Nat.le_add_left _ _))
abbrev spec0 : Fin 10 → Pipeline.WinSpec sig grid0.rank := fun w => (win0 w).toWinSpec

class Facts : Prop extends Facts₀ where

variable [Facts]
-- ==== ReferenceIdeal.lean ====
abbrev S262144x4 : Shape := ⟨2, ![262144, 4]⟩
abbrev S6x16x128x128 : Shape := ⟨4, ![6, 16, 128, 128]⟩
abbrev S6x16x256x256 : Shape := ⟨4, ![6, 16, 256, 256]⟩
abbrev S6x16x512x512 : Shape := ⟨4, ![6, 16, 512, 512]⟩
abbrev S288x128 : Shape := ⟨2, ![288, 128]⟩
abbrev S128 : Shape := ⟨1, ![128]⟩
abbrev S128x3 : Shape := ⟨2, ![128, 3]⟩
abbrev S3 : Shape := ⟨1, ![3]⟩
abbrev S6x2 : Shape := ⟨2, ![6, 2]⟩
abbrev S_ : Shape := ⟨0, ![]⟩
abbrev S6x2x1 : Shape := ⟨3, ![6, 2, 1]⟩
abbrev S262144x6x2 : Shape := ⟨3, ![262144, 6, 2]⟩
abbrev S262144x6x1 : Shape := ⟨3, ![262144, 6, 1]⟩
abbrev S6x262144x1 : Shape := ⟨3, ![6, 262144, 1]⟩
abbrev S6x262144 : Shape := ⟨2, ![6, 262144]⟩
abbrev S6x1x262144 : Shape := ⟨3, ![6, 1, 262144]⟩
abbrev S6x262144x2 : Shape := ⟨3, ![6, 262144, 2]⟩
abbrev S6x16x262144 : Shape := ⟨3, ![6, 16, 262144]⟩
abbrev S6x262144x16 : Shape := ⟨3, ![6, 262144, 16]⟩
abbrev S262144x6x16 : Shape := ⟨3, ![262144, 6, 16]⟩
abbrev S262144x96 : Shape := ⟨2, ![262144, 96]⟩
abbrev S262144x288 : Shape := ⟨2, ![262144, 288]⟩
abbrev S262144x128 : Shape := ⟨2, ![262144, 128]⟩
abbrev S1x128 : Shape := ⟨2, ![1, 128]⟩
abbrev S262144x3 : Shape := ⟨2, ![262144, 3]⟩
abbrev S1x3 : Shape := ⟨2, ![1, 3]⟩

abbrev nBuf : Space → Nat
  | .hbm => 492
  | .vmem => 0
  | .smem => 0
  | _ => 0

abbrev hbmTy0_0 (i : Nat) : BufTy := match i % 128 with
  | 0 => ⟨S262144x4, .f32⟩
  | 1 => ⟨S6x16x128x128, .f32⟩
  | 2 => ⟨S6x16x256x256, .f32⟩
  | 3 => ⟨S6x16x512x512, .f32⟩
  | 4 => ⟨S288x128, .f32⟩
  | 5 => ⟨S128, .f32⟩
  | 6 => ⟨S128x3, .f32⟩
  | 7 => ⟨S3, .f32⟩
  | 8 => ⟨S6x2, .i32⟩
  | 9 => ⟨S6x2, .i1⟩
  | 10 => ⟨S_, .f32⟩
  | 11 => ⟨S262144x4, .f32⟩
  | 12 => ⟨S262144x4, .f32⟩
  | 13 => ⟨S_, .f32⟩
  | 14 => ⟨S262144x4, .f32⟩
  | 15 => ⟨S262144x4, .f32⟩
  | 16 => ⟨S_, .i32⟩
  | 17 => ⟨S6x2, .i32⟩
  | 18 => ⟨S6x2, .i32⟩
  | 19 => ⟨S6x2, .i32⟩
  | 20 => ⟨S6x2x1, .i32⟩
  | 21 => ⟨S262144x6x2, .f32⟩
  | 22 => ⟨S262144x6x1, .f32⟩
  | 23 => ⟨S6x262144x1, .f32⟩
  | 24 => ⟨S6x262144, .f32⟩
  | 25 => ⟨S_, .f32⟩
  | 26 => ⟨S6x262144, .f32⟩
  | 27 => ⟨S6x262144, .f32⟩
  | 28 => ⟨S262144x6x1, .f32⟩
  | 29 => ⟨S6x262144x1, .f32⟩
  | 30 => ⟨S6x262144, .f32⟩
  | 31 => ⟨S_, .f32⟩
  | 32 => ⟨S6x262144, .f32⟩
  | 33 => ⟨S6x262144, .f32⟩
  | 34 => ⟨S6x262144, .f32⟩
  | 35 => ⟨S_, .i32⟩
  | 36 => ⟨S_, .i32⟩
  | 37 => ⟨S_, .f32⟩
  | 38 => ⟨S6x262144, .f32⟩
  | 39 => ⟨S6x262144, .f32⟩
  | 40 => ⟨S_, .f32⟩
  | 41 => ⟨S6x262144, .f32⟩
  | 42 => ⟨S6x262144, .f32⟩
  | 43 => ⟨S6x262144, .i32⟩
  | 44 => ⟨S6x262144, .f32⟩
  | 45 => ⟨S_, .i32⟩
  | 46 => ⟨S_, .i32⟩
  | 47 => ⟨S_, .f32⟩
  | 48 => ⟨S6x262144, .f32⟩
  | 49 => ⟨S6x262144, .f32⟩
  | 50 => ⟨S_, .f32⟩
  | 51 => ⟨S6x262144, .f32⟩
  | 52 => ⟨S6x262144, .f32⟩
  | 53 => ⟨S6x262144, .i32⟩
  | 54 => ⟨S_, .i32⟩
  | 55 => ⟨S6x262144, .i32⟩
  | 56 => ⟨S6x262144, .i32⟩
  | 57 => ⟨S_, .i32⟩
  | 58 => ⟨S6x262144, .i32⟩
  | 59 => ⟨S6x262144, .i32⟩
  | 60 => ⟨S6x262144, .f32⟩
  | 61 => ⟨S6x262144, .f32⟩
  | 62 => ⟨S6x1x262144, .f32⟩
  | 63 => ⟨S6x262144, .f32⟩
  | 64 => ⟨S6x262144, .f32⟩
  | 65 => ⟨S6x1x262144, .f32⟩
  | 66 => ⟨S_, .i32⟩
  | 67 => ⟨S6x262144, .i32⟩
  | 68 => ⟨S6x262144, .i1⟩
  | 69 => ⟨S_, .i32⟩
  | 70 => ⟨S6x262144, .i32⟩
  | 71 => ⟨S6x262144, .i32⟩
  | 72 => ⟨S6x262144, .i32⟩
  | 73 => ⟨S_, .i32⟩
  | 74 => ⟨S6x262144, .i32⟩
  | 75 => ⟨S6x262144, .i1⟩
  | 76 => ⟨S_, .i32⟩
  | 77 => ⟨S6x262144, .i32⟩
  | 78 => ⟨S6x262144, .i32⟩
  | 79 => ⟨S6x262144, .i32⟩
  | 80 => ⟨S6x262144x1, .i32⟩
  | 81 => ⟨S6x262144x1, .i32⟩
  | 82 => ⟨S6x262144x2, .i32⟩
  | 83 => ⟨S6x16x262144, .f32⟩
  | 84 => ⟨S_, .i32⟩
  | 85 => ⟨S6x262144, .i32⟩
  | 86 => ⟨S6x262144, .i1⟩
  | 87 => ⟨S_, .i32⟩
  | 88 => ⟨S6x262144, .i32⟩
  | 89 => ⟨S6x262144, .i32⟩
  | 90 => ⟨S6x262144, .i32⟩
  | 91 => ⟨S_, .i32⟩
  | 92 => ⟨S6x262144, .i32⟩
  | 93 => ⟨S6x262144, .i1⟩
  | 94 => ⟨S_, .i32⟩
  | 95 => ⟨S6x262144, .i32⟩
  | 96 => ⟨S6x262144, .i32⟩
  | 97 => ⟨S6x262144, .i32⟩
  | 98 => ⟨S6x262144x1, .i32⟩
  | 99 => ⟨S6x262144x1, .i32⟩
  | 100 => ⟨S6x262144x2, .i32⟩
  | 101 => ⟨S6x16x262144, .f32⟩
  | 102 => ⟨S_, .i32⟩
  | 103 => ⟨S6x262144, .i32⟩
  | 104 => ⟨S6x262144, .i1⟩
  | 105 => ⟨S_, .i32⟩
  | 106 => ⟨S6x262144, .i32⟩
  | 107 => ⟨S6x262144, .i32⟩
  | 108 => ⟨S6x262144, .i32⟩
  | 109 => ⟨S_, .i32⟩
  | 110 => ⟨S6x262144, .i32⟩
  | 111 => ⟨S6x262144, .i1⟩
  | 112 => ⟨S_, .i32⟩
  | 113 => ⟨S6x262144, .i32⟩
  | 114 => ⟨S6x262144, .i32⟩
  | 115 => ⟨S6x262144, .i32⟩
  | 116 => ⟨S6x262144x1, .i32⟩
  | 117 => ⟨S6x262144x1, .i32⟩
  | 118 => ⟨S6x262144x2, .i32⟩
  | 119 => ⟨S6x16x262144, .f32⟩
  | 120 => ⟨S_, .i32⟩
  | 121 => ⟨S6x262144, .i32⟩
  | 122 => ⟨S6x262144, .i1⟩
  | 123 => ⟨S_, .i32⟩
  | 124 => ⟨S6x262144, .i32⟩
  | 125 => ⟨S6x262144, .i32⟩
  | 126 => ⟨S6x262144, .i32⟩
  | 127 => ⟨S_, .i32⟩
  | _ => ⟨S262144x4, .f32⟩

abbrev hbmTy0_1 (i : Nat) : BufTy := match i % 128 with
  | 0 => ⟨S6x262144, .i32⟩
  | 1 => ⟨S6x262144, .i1⟩
  | 2 => ⟨S_, .i32⟩
  | 3 => ⟨S6x262144, .i32⟩
  | 4 => ⟨S6x262144, .i32⟩
  | 5 => ⟨S6x262144, .i32⟩
  | 6 => ⟨S6x262144x1, .i32⟩
  | 7 => ⟨S6x262144x1, .i32⟩
  | 8 => ⟨S6x262144x2, .i32⟩
  | 9 => ⟨S6x16x262144, .f32⟩
  | 10 => ⟨S_, .f32⟩
  | 11 => ⟨S6x1x262144, .f32⟩
  | 12 => ⟨S6x1x262144, .f32⟩
  | 13 => ⟨S6x16x262144, .f32⟩
  | 14 => ⟨S6x16x262144, .f32⟩
  | 15 => ⟨S_, .f32⟩
  | 16 => ⟨S6x1x262144, .f32⟩
  | 17 => ⟨S6x1x262144, .f32⟩
  | 18 => ⟨S6x16x262144, .f32⟩
  | 19 => ⟨S6x16x262144, .f32⟩
  | 20 => ⟨S_, .f32⟩
  | 21 => ⟨S6x1x262144, .f32⟩
  | 22 => ⟨S6x1x262144, .f32⟩
  | 23 => ⟨S6x16x262144, .f32⟩
  | 24 => ⟨S6x16x262144, .f32⟩
  | 25 => ⟨S6x16x262144, .f32⟩
  | 26 => ⟨S6x16x262144, .f32⟩
  | 27 => ⟨S6x16x262144, .f32⟩
  | 28 => ⟨S6x16x262144, .f32⟩
  | 29 => ⟨S6x16x262144, .f32⟩
  | 30 => ⟨S_, .f32⟩
  | 31 => ⟨S6x1x262144, .f32⟩
  | 32 => ⟨S6x1x262144, .f32⟩
  | 33 => ⟨S6x16x262144, .f32⟩
  | 34 => ⟨S6x16x262144, .f32⟩
  | 35 => ⟨S6x16x262144, .f32⟩
  | 36 => ⟨S6x16x262144, .f32⟩
  | 37 => ⟨S6x16x262144, .f32⟩
  | 38 => ⟨S6x16x262144, .f32⟩
  | 39 => ⟨S6x16x262144, .f32⟩
  | 40 => ⟨S6x16x262144, .f32⟩
  | 41 => ⟨S6x262144x16, .f32⟩
  | 42 => ⟨S262144x6x16, .f32⟩
  | 43 => ⟨S262144x96, .f32⟩
  | 44 => ⟨S262144x6x1, .f32⟩
  | 45 => ⟨S6x262144x1, .f32⟩
  | 46 => ⟨S6x262144, .f32⟩
  | 47 => ⟨S_, .f32⟩
  | 48 => ⟨S6x262144, .f32⟩
  | 49 => ⟨S6x262144, .f32⟩
  | 50 => ⟨S262144x6x1, .f32⟩
  | 51 => ⟨S6x262144x1, .f32⟩
  | 52 => ⟨S6x262144, .f32⟩
  | 53 => ⟨S_, .f32⟩
  | 54 => ⟨S6x262144, .f32⟩
  | 55 => ⟨S6x262144, .f32⟩
  | 56 => ⟨S6x262144, .f32⟩
  | 57 => ⟨S_, .i32⟩
  | 58 => ⟨S_, .i32⟩
  | 59 => ⟨S_, .f32⟩
  | 60 => ⟨S6x262144, .f32⟩
  | 61 => ⟨S6x262144, .f32⟩
  | 62 => ⟨S_, .f32⟩
  | 63 => ⟨S6x262144, .f32⟩
  | 64 => ⟨S6x262144, .f32⟩
  | 65 => ⟨S6x262144, .i32⟩
  | 66 => ⟨S6x262144, .f32⟩
  | 67 => ⟨S_, .i32⟩
  | 68 => ⟨S_, .i32⟩
  | 69 => ⟨S_, .f32⟩
  | 70 => ⟨S6x262144, .f32⟩
  | 71 => ⟨S6x262144, .f32⟩
  | 72 => ⟨S_, .f32⟩
  | 73 => ⟨S6x262144, .f32⟩
  | 74 => ⟨S6x262144, .f32⟩
  | 75 => ⟨S6x262144, .i32⟩
  | 76 => ⟨S_, .i32⟩
  | 77 => ⟨S6x262144, .i32⟩
  | 78 => ⟨S6x262144, .i32⟩
  | 79 => ⟨S_, .i32⟩
  | 80 => ⟨S6x262144, .i32⟩
  | 81 => ⟨S6x262144, .i32⟩
  | 82 => ⟨S6x262144, .f32⟩
  | 83 => ⟨S6x262144, .f32⟩
  | 84 => ⟨S6x1x262144, .f32⟩
  | 85 => ⟨S6x262144, .f32⟩
  | 86 => ⟨S6x262144, .f32⟩
  | 87 => ⟨S6x1x262144, .f32⟩
  | 88 => ⟨S_, .i32⟩
  | 89 => ⟨S6x262144, .i32⟩
  | 90 => ⟨S6x262144, .i1⟩
  | 91 => ⟨S_, .i32⟩
  | 92 => ⟨S6x262144, .i32⟩
  | 93 => ⟨S6x262144, .i32⟩
  | 94 => ⟨S6x262144, .i32⟩
  | 95 => ⟨S_, .i32⟩
  | 96 => ⟨S6x262144, .i32⟩
  | 97 => ⟨S6x262144, .i1⟩
  | 98 => ⟨S_, .i32⟩
  | 99 => ⟨S6x262144, .i32⟩
  | 100 => ⟨S6x262144, .i32⟩
  | 101 => ⟨S6x262144, .i32⟩
  | 102 => ⟨S6x262144x1, .i32⟩
  | 103 => ⟨S6x262144x1, .i32⟩
  | 104 => ⟨S6x262144x2, .i32⟩
  | 105 => ⟨S6x16x262144, .f32⟩
  | 106 => ⟨S_, .i32⟩
  | 107 => ⟨S6x262144, .i32⟩
  | 108 => ⟨S6x262144, .i1⟩
  | 109 => ⟨S_, .i32⟩
  | 110 => ⟨S6x262144, .i32⟩
  | 111 => ⟨S6x262144, .i32⟩
  | 112 => ⟨S6x262144, .i32⟩
  | 113 => ⟨S_, .i32⟩
  | 114 => ⟨S6x262144, .i32⟩
  | 115 => ⟨S6x262144, .i1⟩
  | 116 => ⟨S_, .i32⟩
  | 117 => ⟨S6x262144, .i32⟩
  | 118 => ⟨S6x262144, .i32⟩
  | 119 => ⟨S6x262144, .i32⟩
  | 120 => ⟨S6x262144x1, .i32⟩
  | 121 => ⟨S6x262144x1, .i32⟩
  | 122 => ⟨S6x262144x2, .i32⟩
  | 123 => ⟨S6x16x262144, .f32⟩
  | 124 => ⟨S_, .i32⟩
  | 125 => ⟨S6x262144, .i32⟩
  | 126 => ⟨S6x262144, .i1⟩
  | 127 => ⟨S_, .i32⟩
  | _ => ⟨S262144x4, .f32⟩

abbrev hbmTy0_2 (i : Nat) : BufTy := match i % 128 with
  | 0 => ⟨S6x262144, .i32⟩
  | 1 => ⟨S6x262144, .i32⟩
  | 2 => ⟨S6x262144, .i32⟩
  | 3 => ⟨S_, .i32⟩
  | 4 => ⟨S6x262144, .i32⟩
  | 5 => ⟨S6x262144, .i1⟩
  | 6 => ⟨S_, .i32⟩
  | 7 => ⟨S6x262144, .i32⟩
  | 8 => ⟨S6x262144, .i32⟩
  | 9 => ⟨S6x262144, .i32⟩
  | 10 => ⟨S6x262144x1, .i32⟩
  | 11 => ⟨S6x262144x1, .i32⟩
  | 12 => ⟨S6x262144x2, .i32⟩
  | 13 => ⟨S6x16x262144, .f32⟩
  | 14 => ⟨S_, .i32⟩
  | 15 => ⟨S6x262144, .i32⟩
  | 16 => ⟨S6x262144, .i1⟩
  | 17 => ⟨S_, .i32⟩
  | 18 => ⟨S6x262144, .i32⟩
  | 19 => ⟨S6x262144, .i32⟩
  | 20 => ⟨S6x262144, .i32⟩
  | 21 => ⟨S_, .i32⟩
  | 22 => ⟨S6x262144, .i32⟩
  | 23 => ⟨S6x262144, .i1⟩
  | 24 => ⟨S_, .i32⟩
  | 25 => ⟨S6x262144, .i32⟩
  | 26 => ⟨S6x262144, .i32⟩
  | 27 => ⟨S6x262144, .i32⟩
  | 28 => ⟨S6x262144x1, .i32⟩
  | 29 => ⟨S6x262144x1, .i32⟩
  | 30 => ⟨S6x262144x2, .i32⟩
  | 31 => ⟨S6x16x262144, .f32⟩
  | 32 => ⟨S_, .f32⟩
  | 33 => ⟨S6x1x262144, .f32⟩
  | 34 => ⟨S6x1x262144, .f32⟩
  | 35 => ⟨S6x16x262144, .f32⟩
  | 36 => ⟨S6x16x262144, .f32⟩
  | 37 => ⟨S_, .f32⟩
  | 38 => ⟨S6x1x262144, .f32⟩
  | 39 => ⟨S6x1x262144, .f32⟩
  | 40 => ⟨S6x16x262144, .f32⟩
  | 41 => ⟨S6x16x262144, .f32⟩
  | 42 => ⟨S_, .f32⟩
  | 43 => ⟨S6x1x262144, .f32⟩
  | 44 => ⟨S6x1x262144, .f32⟩
  | 45 => ⟨S6x16x262144, .f32⟩
  | 46 => ⟨S6x16x262144, .f32⟩
  | 47 => ⟨S6x16x262144, .f32⟩
  | 48 => ⟨S6x16x262144, .f32⟩
  | 49 => ⟨S6x16x262144, .f32⟩
  | 50 => ⟨S6x16x262144, .f32⟩
  | 51 => ⟨S6x16x262144, .f32⟩
  | 52 => ⟨S_, .f32⟩
  | 53 => ⟨S6x1x262144, .f32⟩
  | 54 => ⟨S6x1x262144, .f32⟩
  | 55 => ⟨S6x16x262144, .f32⟩
  | 56 => ⟨S6x16x262144, .f32⟩
  | 57 => ⟨S6x16x262144, .f32⟩
  | 58 => ⟨S6x16x262144, .f32⟩
  | 59 => ⟨S6x16x262144, .f32⟩
  | 60 => ⟨S6x16x262144, .f32⟩
  | 61 => ⟨S6x16x262144, .f32⟩
  | 62 => ⟨S6x16x262144, .f32⟩
  | 63 => ⟨S6x262144x16, .f32⟩
  | 64 => ⟨S262144x6x16, .f32⟩
  | 65 => ⟨S262144x96, .f32⟩
  | 66 => ⟨S262144x6x1, .f32⟩
  | 67 => ⟨S6x262144x1, .f32⟩
  | 68 => ⟨S6x262144, .f32⟩
  | 69 => ⟨S_, .f32⟩
  | 70 => ⟨S6x262144, .f32⟩
  | 71 => ⟨S6x262144, .f32⟩
  | 72 => ⟨S262144x6x1, .f32⟩
  | 73 => ⟨S6x262144x1, .f32⟩
  | 74 => ⟨S6x262144, .f32⟩
  | 75 => ⟨S_, .f32⟩
  | 76 => ⟨S6x262144, .f32⟩
  | 77 => ⟨S6x262144, .f32⟩
  | 78 => ⟨S6x262144, .f32⟩
  | 79 => ⟨S_, .i32⟩
  | 80 => ⟨S_, .i32⟩
  | 81 => ⟨S_, .f32⟩
  | 82 => ⟨S6x262144, .f32⟩
  | 83 => ⟨S6x262144, .f32⟩
  | 84 => ⟨S_, .f32⟩
  | 85 => ⟨S6x262144, .f32⟩
  | 86 => ⟨S6x262144, .f32⟩
  | 87 => ⟨S6x262144, .i32⟩
  | 88 => ⟨S6x262144, .f32⟩
  | 89 => ⟨S_, .i32⟩
  | 90 => ⟨S_, .i32⟩
  | 91 => ⟨S_, .f32⟩
  | 92 => ⟨S6x262144, .f32⟩
  | 93 => ⟨S6x262144, .f32⟩
  | 94 => ⟨S_, .f32⟩
  | 95 => ⟨S6x262144, .f32⟩
  | 96 => ⟨S6x262144, .f32⟩
  | 97 => ⟨S6x262144, .i32⟩
  | 98 => ⟨S_, .i32⟩
  | 99 => ⟨S6x262144, .i32⟩
  | 100 => ⟨S6x262144, .i32⟩
  | 101 => ⟨S_, .i32⟩
  | 102 => ⟨S6x262144, .i32⟩
  | 103 => ⟨S6x262144, .i32⟩
  | 104 => ⟨S6x262144, .f32⟩
  | 105 => ⟨S6x262144, .f32⟩
  | 106 => ⟨S6x1x262144, .f32⟩
  | 107 => ⟨S6x262144, .f32⟩
  | 108 => ⟨S6x262144, .f32⟩
  | 109 => ⟨S6x1x262144, .f32⟩
  | 110 => ⟨S_, .i32⟩
  | 111 => ⟨S6x262144, .i32⟩
  | 112 => ⟨S6x262144, .i1⟩
  | 113 => ⟨S_, .i32⟩
  | 114 => ⟨S6x262144, .i32⟩
  | 115 => ⟨S6x262144, .i32⟩
  | 116 => ⟨S6x262144, .i32⟩
  | 117 => ⟨S_, .i32⟩
  | 118 => ⟨S6x262144, .i32⟩
  | 119 => ⟨S6x262144, .i1⟩
  | 120 => ⟨S_, .i32⟩
  | 121 => ⟨S6x262144, .i32⟩
  | 122 => ⟨S6x262144, .i32⟩
  | 123 => ⟨S6x262144, .i32⟩
  | 124 => ⟨S6x262144x1, .i32⟩
  | 125 => ⟨S6x262144x1, .i32⟩
  | 126 => ⟨S6x262144x2, .i32⟩
  | 127 => ⟨S6x16x262144, .f32⟩
  | _ => ⟨S262144x4, .f32⟩

abbrev hbmTy0_3 (i : Nat) : BufTy := match i % 128 with
  | 0 => ⟨S_, .i32⟩
  | 1 => ⟨S6x262144, .i32⟩
  | 2 => ⟨S6x262144, .i1⟩
  | 3 => ⟨S_, .i32⟩
  | 4 => ⟨S6x262144, .i32⟩
  | 5 => ⟨S6x262144, .i32⟩
  | 6 => ⟨S6x262144, .i32⟩
  | 7 => ⟨S_, .i32⟩
  | 8 => ⟨S6x262144, .i32⟩
  | 9 => ⟨S6x262144, .i1⟩
  | 10 => ⟨S_, .i32⟩
  | 11 => ⟨S6x262144, .i32⟩
  | 12 => ⟨S6x262144, .i32⟩
  | 13 => ⟨S6x262144, .i32⟩
  | 14 => ⟨S6x262144x1, .i32⟩
  | 15 => ⟨S6x262144x1, .i32⟩
  | 16 => ⟨S6x262144x2, .i32⟩
  | 17 => ⟨S6x16x262144, .f32⟩
  | 18 => ⟨S_, .i32⟩
  | 19 => ⟨S6x262144, .i32⟩
  | 20 => ⟨S6x262144, .i1⟩
  | 21 => ⟨S_, .i32⟩
  | 22 => ⟨S6x262144, .i32⟩
  | 23 => ⟨S6x262144, .i32⟩
  | 24 => ⟨S6x262144, .i32⟩
  | 25 => ⟨S_, .i32⟩
  | 26 => ⟨S6x262144, .i32⟩
  | 27 => ⟨S6x262144, .i1⟩
  | 28 => ⟨S_, .i32⟩
  | 29 => ⟨S6x262144, .i32⟩
  | 30 => ⟨S6x262144, .i32⟩
  | 31 => ⟨S6x262144, .i32⟩
  | 32 => ⟨S6x262144x1, .i32⟩
  | 33 => ⟨S6x262144x1, .i32⟩
  | 34 => ⟨S6x262144x2, .i32⟩
  | 35 => ⟨S6x16x262144, .f32⟩
  | 36 => ⟨S_, .i32⟩
  | 37 => ⟨S6x262144, .i32⟩
  | 38 => ⟨S6x262144, .i1⟩
  | 39 => ⟨S_, .i32⟩
  | 40 => ⟨S6x262144, .i32⟩
  | 41 => ⟨S6x262144, .i32⟩
  | 42 => ⟨S6x262144, .i32⟩
  | 43 => ⟨S_, .i32⟩
  | 44 => ⟨S6x262144, .i32⟩
  | 45 => ⟨S6x262144, .i1⟩
  | 46 => ⟨S_, .i32⟩
  | 47 => ⟨S6x262144, .i32⟩
  | 48 => ⟨S6x262144, .i32⟩
  | 49 => ⟨S6x262144, .i32⟩
  | 50 => ⟨S6x262144x1, .i32⟩
  | 51 => ⟨S6x262144x1, .i32⟩
  | 52 => ⟨S6x262144x2, .i32⟩
  | 53 => ⟨S6x16x262144, .f32⟩
  | 54 => ⟨S_, .f32⟩
  | 55 => ⟨S6x1x262144, .f32⟩
  | 56 => ⟨S6x1x262144, .f32⟩
  | 57 => ⟨S6x16x262144, .f32⟩
  | 58 => ⟨S6x16x262144, .f32⟩
  | 59 => ⟨S_, .f32⟩
  | 60 => ⟨S6x1x262144, .f32⟩
  | 61 => ⟨S6x1x262144, .f32⟩
  | 62 => ⟨S6x16x262144, .f32⟩
  | 63 => ⟨S6x16x262144, .f32⟩
  | 64 => ⟨S_, .f32⟩
  | 65 => ⟨S6x1x262144, .f32⟩
  | 66 => ⟨S6x1x262144, .f32⟩
  | 67 => ⟨S6x16x262144, .f32⟩
  | 68 => ⟨S6x16x262144, .f32⟩
  | 69 => ⟨S6x16x262144, .f32⟩
  | 70 => ⟨S6x16x262144, .f32⟩
  | 71 => ⟨S6x16x262144, .f32⟩
  | 72 => ⟨S6x16x262144, .f32⟩
  | 73 => ⟨S6x16x262144, .f32⟩
  | 74 => ⟨S_, .f32⟩
  | 75 => ⟨S6x1x262144, .f32⟩
  | 76 => ⟨S6x1x262144, .f32⟩
  | 77 => ⟨S6x16x262144, .f32⟩
  | 78 => ⟨S6x16x262144, .f32⟩
  | 79 => ⟨S6x16x262144, .f32⟩
  | 80 => ⟨S6x16x262144, .f32⟩
  | 81 => ⟨S6x16x262144, .f32⟩
  | 82 => ⟨S6x16x262144, .f32⟩
  | 83 => ⟨S6x16x262144, .f32⟩
  | 84 => ⟨S6x16x262144, .f32⟩
  | 85 => ⟨S6x262144x16, .f32⟩
  | 86 => ⟨S262144x6x16, .f32⟩
  | 87 => ⟨S262144x96, .f32⟩
  | 88 => ⟨S262144x288, .f32⟩
  | 89 => ⟨S262144x128, .f32⟩
  | 90 => ⟨S1x128, .f32⟩
  | 91 => ⟨S262144x128, .f32⟩
  | 92 => ⟨S262144x128, .f32⟩
  | 93 => ⟨S_, .f32⟩
  | 94 => ⟨S262144x128, .f32⟩
  | 95 => ⟨S262144x128, .f32⟩
  | 96 => ⟨S262144x3, .f32⟩
  | 97 => ⟨S1x3, .f32⟩
  | 98 => ⟨S262144x3, .f32⟩
  | 99 => ⟨S262144x3, .f32⟩
  | 100 => ⟨S262144x3, .f32⟩
  | 101 => ⟨S262144x3, .f32⟩
  | 102 => ⟨S_, .f32⟩
  | 103 => ⟨S262144x3, .f32⟩
  | 104 => ⟨S262144x3, .f32⟩
  | 105 => ⟨S_, .f32⟩
  | 106 => ⟨S262144x3, .f32⟩
  | 107 => ⟨S262144x3, .f32⟩
  | _ => ⟨S262144x4, .f32⟩

abbrev hbmTy (i : Nat) : BufTy := match i / 128 with
  | 0 => hbmTy0_0 i
  | 1 => hbmTy0_1 i
  | 2 => hbmTy0_2 i
  | 3 => hbmTy0_3 i
  | _ => ⟨S262144x4, .f32⟩

abbrev bufTy : (tb : Table) → Fin (tcTables nBuf tb) → BufTy
  | .hbm, ⟨i, _⟩ => hbmTy i
  | _, _ => ⟨S262144x4, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_c : Ref sig .tc := ⟨.hbm, 8, rfl⟩
abbrev main_c_0 : Ref sig .tc := ⟨.hbm, 9, rfl⟩
abbrev main_cst : Ref sig .tc := ⟨.hbm, 10, rfl⟩
abbrev main_v0 : Ref sig .tc := ⟨.hbm, 11, rfl⟩
abbrev main_v1 : Ref sig .tc := ⟨.hbm, 12, rfl⟩
abbrev main_cst_1 : Ref sig .tc := ⟨.hbm, 13, rfl⟩
abbrev main_v2 : Ref sig .tc := ⟨.hbm, 14, rfl⟩
abbrev main_v3 : Ref sig .tc := ⟨.hbm, 15, rfl⟩
abbrev main_c_2 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_cst_3 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_cst_4 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_c_5 : Ref sig .tc := ⟨.hbm, 35, rfl⟩
abbrev main_c_6 : Ref sig .tc := ⟨.hbm, 36, rfl⟩
abbrev main_call0_v0 : Ref sig .tc := ⟨.hbm, 37, rfl⟩
abbrev main_call0_v1 : Ref sig .tc := ⟨.hbm, 38, rfl⟩
abbrev main_call0_v2 : Ref sig .tc := ⟨.hbm, 39, rfl⟩
abbrev main_call0_v3 : Ref sig .tc := ⟨.hbm, 40, rfl⟩
abbrev main_call0_v4 : Ref sig .tc := ⟨.hbm, 41, rfl⟩
abbrev main_v20 : Ref sig .tc := ⟨.hbm, 42, rfl⟩
abbrev main_v21 : Ref sig .tc := ⟨.hbm, 43, rfl⟩
abbrev main_v22 : Ref sig .tc := ⟨.hbm, 44, rfl⟩
abbrev main_c_7 : Ref sig .tc := ⟨.hbm, 45, rfl⟩
abbrev main_c_8 : Ref sig .tc := ⟨.hbm, 46, rfl⟩
abbrev main_call1_v0 : Ref sig .tc := ⟨.hbm, 47, rfl⟩
abbrev main_call1_v1 : Ref sig .tc := ⟨.hbm, 48, rfl⟩
abbrev main_call1_v2 : Ref sig .tc := ⟨.hbm, 49, rfl⟩
abbrev main_call1_v3 : Ref sig .tc := ⟨.hbm, 50, rfl⟩
abbrev main_call1_v4 : Ref sig .tc := ⟨.hbm, 51, rfl⟩
abbrev main_v23 : Ref sig .tc := ⟨.hbm, 52, rfl⟩
abbrev main_v24 : Ref sig .tc := ⟨.hbm, 53, rfl⟩
abbrev main_c_9 : Ref sig .tc := ⟨.hbm, 54, rfl⟩
abbrev main_v25 : Ref sig .tc := ⟨.hbm, 55, rfl⟩
abbrev main_v26 : Ref sig .tc := ⟨.hbm, 56, rfl⟩
abbrev main_c_10 : Ref sig .tc := ⟨.hbm, 57, rfl⟩
abbrev main_v27 : Ref sig .tc := ⟨.hbm, 58, rfl⟩
abbrev main_v28 : Ref sig .tc := ⟨.hbm, 59, rfl⟩
abbrev main_v29 : Ref sig .tc := ⟨.hbm, 60, rfl⟩
abbrev main_v30 : Ref sig .tc := ⟨.hbm, 61, rfl⟩
abbrev main_v31 : Ref sig .tc := ⟨.hbm, 62, rfl⟩
abbrev main_v32 : Ref sig .tc := ⟨.hbm, 63, rfl⟩
abbrev main_v33 : Ref sig .tc := ⟨.hbm, 64, rfl⟩
abbrev main_v34 : Ref sig .tc := ⟨.hbm, 65, rfl⟩
abbrev main_c_11 : Ref sig .tc := ⟨.hbm, 66, rfl⟩
abbrev main_v35 : Ref sig .tc := ⟨.hbm, 67, rfl⟩
abbrev main_v36 : Ref sig .tc := ⟨.hbm, 68, rfl⟩
abbrev main_c_12 : Ref sig .tc := ⟨.hbm, 69, rfl⟩
abbrev main_v37 : Ref sig .tc := ⟨.hbm, 70, rfl⟩
abbrev main_v38 : Ref sig .tc := ⟨.hbm, 71, rfl⟩
abbrev main_v39 : Ref sig .tc := ⟨.hbm, 72, rfl⟩
abbrev main_c_13 : Ref sig .tc := ⟨.hbm, 73, rfl⟩
abbrev main_v40 : Ref sig .tc := ⟨.hbm, 74, rfl⟩
abbrev main_v41 : Ref sig .tc := ⟨.hbm, 75, rfl⟩
abbrev main_c_14 : Ref sig .tc := ⟨.hbm, 76, rfl⟩
abbrev main_v42 : Ref sig .tc := ⟨.hbm, 77, rfl⟩
abbrev main_v43 : Ref sig .tc := ⟨.hbm, 78, rfl⟩
abbrev main_v44 : Ref sig .tc := ⟨.hbm, 79, rfl⟩
abbrev main_v45 : Ref sig .tc := ⟨.hbm, 80, rfl⟩
abbrev main_v46 : Ref sig .tc := ⟨.hbm, 81, rfl⟩
abbrev main_v47 : Ref sig .tc := ⟨.hbm, 82, rfl⟩
abbrev main_v48 : Ref sig .tc := ⟨.hbm, 83, rfl⟩
abbrev main_c_15 : Ref sig .tc := ⟨.hbm, 84, rfl⟩
abbrev main_v49 : Ref sig .tc := ⟨.hbm, 85, rfl⟩
abbrev main_v50 : Ref sig .tc := ⟨.hbm, 86, rfl⟩
abbrev main_c_16 : Ref sig .tc := ⟨.hbm, 87, rfl⟩
abbrev main_v51 : Ref sig .tc := ⟨.hbm, 88, rfl⟩
abbrev main_v52 : Ref sig .tc := ⟨.hbm, 89, rfl⟩
abbrev main_v53 : Ref sig .tc := ⟨.hbm, 90, rfl⟩
abbrev main_c_17 : Ref sig .tc := ⟨.hbm, 91, rfl⟩
abbrev main_v54 : Ref sig .tc := ⟨.hbm, 92, rfl⟩
abbrev main_v55 : Ref sig .tc := ⟨.hbm, 93, rfl⟩
abbrev main_c_18 : Ref sig .tc := ⟨.hbm, 94, rfl⟩
abbrev main_v56 : Ref sig .tc := ⟨.hbm, 95, rfl⟩
abbrev main_v57 : Ref sig .tc := ⟨.hbm, 96, rfl⟩
abbrev main_v58 : Ref sig .tc := ⟨.hbm, 97, rfl⟩
abbrev main_v59 : Ref sig .tc := ⟨.hbm, 98, rfl⟩
abbrev main_v60 : Ref sig .tc := ⟨.hbm, 99, rfl⟩
abbrev main_v61 : Ref sig .tc := ⟨.hbm, 100, rfl⟩
abbrev main_v62 : Ref sig .tc := ⟨.hbm, 101, rfl⟩
abbrev main_c_19 : Ref sig .tc := ⟨.hbm, 102, rfl⟩
abbrev main_v63 : Ref sig .tc := ⟨.hbm, 103, rfl⟩
abbrev main_v64 : Ref sig .tc := ⟨.hbm, 104, rfl⟩
abbrev main_c_20 : Ref sig .tc := ⟨.hbm, 105, rfl⟩
abbrev main_v65 : Ref sig .tc := ⟨.hbm, 106, rfl⟩
abbrev main_v66 : Ref sig .tc := ⟨.hbm, 107, rfl⟩
abbrev main_v67 : Ref sig .tc := ⟨.hbm, 108, rfl⟩
abbrev main_c_21 : Ref sig .tc := ⟨.hbm, 109, rfl⟩
abbrev main_v68 : Ref sig .tc := ⟨.hbm, 110, rfl⟩
abbrev main_v69 : Ref sig .tc := ⟨.hbm, 111, rfl⟩
abbrev main_c_22 : Ref sig .tc := ⟨.hbm, 112, rfl⟩
abbrev main_v70 : Ref sig .tc := ⟨.hbm, 113, rfl⟩
abbrev main_v71 : Ref sig .tc := ⟨.hbm, 114, rfl⟩
abbrev main_v72 : Ref sig .tc := ⟨.hbm, 115, rfl⟩
abbrev main_v73 : Ref sig .tc := ⟨.hbm, 116, rfl⟩
abbrev main_v74 : Ref sig .tc := ⟨.hbm, 117, rfl⟩
abbrev main_v75 : Ref sig .tc := ⟨.hbm, 118, rfl⟩
abbrev main_v76 : Ref sig .tc := ⟨.hbm, 119, rfl⟩
abbrev main_c_23 : Ref sig .tc := ⟨.hbm, 120, rfl⟩
abbrev main_v77 : Ref sig .tc := ⟨.hbm, 121, rfl⟩
abbrev main_v78 : Ref sig .tc := ⟨.hbm, 122, rfl⟩
abbrev main_c_24 : Ref sig .tc := ⟨.hbm, 123, rfl⟩
abbrev main_v79 : Ref sig .tc := ⟨.hbm, 124, rfl⟩
abbrev main_v80 : Ref sig .tc := ⟨.hbm, 125, rfl⟩
abbrev main_v81 : Ref sig .tc := ⟨.hbm, 126, rfl⟩
abbrev main_c_25 : Ref sig .tc := ⟨.hbm, 127, rfl⟩
abbrev main_v82 : Ref sig .tc := ⟨.hbm, 128, rfl⟩
abbrev main_v83 : Ref sig .tc := ⟨.hbm, 129, rfl⟩
abbrev main_c_26 : Ref sig .tc := ⟨.hbm, 130, rfl⟩
abbrev main_v84 : Ref sig .tc := ⟨.hbm, 131, rfl⟩
abbrev main_v85 : Ref sig .tc := ⟨.hbm, 132, rfl⟩
abbrev main_v86 : Ref sig .tc := ⟨.hbm, 133, rfl⟩
abbrev main_v87 : Ref sig .tc := ⟨.hbm, 134, rfl⟩
abbrev main_v88 : Ref sig .tc := ⟨.hbm, 135, rfl⟩
abbrev main_v89 : Ref sig .tc := ⟨.hbm, 136, rfl⟩
abbrev main_v90 : Ref sig .tc := ⟨.hbm, 137, rfl⟩
abbrev main_cst_27 : Ref sig .tc := ⟨.hbm, 138, rfl⟩
abbrev main_v91 : Ref sig .tc := ⟨.hbm, 139, rfl⟩
abbrev main_v92 : Ref sig .tc := ⟨.hbm, 140, rfl⟩
abbrev main_v93 : Ref sig .tc := ⟨.hbm, 141, rfl⟩
abbrev main_v94 : Ref sig .tc := ⟨.hbm, 142, rfl⟩
abbrev main_cst_28 : Ref sig .tc := ⟨.hbm, 143, rfl⟩
abbrev main_v95 : Ref sig .tc := ⟨.hbm, 144, rfl⟩
abbrev main_v96 : Ref sig .tc := ⟨.hbm, 145, rfl⟩
abbrev main_v97 : Ref sig .tc := ⟨.hbm, 146, rfl⟩
abbrev main_v98 : Ref sig .tc := ⟨.hbm, 147, rfl⟩
abbrev main_cst_29 : Ref sig .tc := ⟨.hbm, 148, rfl⟩
abbrev main_v99 : Ref sig .tc := ⟨.hbm, 149, rfl⟩
abbrev main_v100 : Ref sig .tc := ⟨.hbm, 150, rfl⟩
abbrev main_v101 : Ref sig .tc := ⟨.hbm, 151, rfl⟩
abbrev main_v102 : Ref sig .tc := ⟨.hbm, 152, rfl⟩
abbrev main_v103 : Ref sig .tc := ⟨.hbm, 153, rfl⟩
abbrev main_v104 : Ref sig .tc := ⟨.hbm, 154, rfl⟩
abbrev main_v105 : Ref sig .tc := ⟨.hbm, 155, rfl⟩
abbrev main_v106 : Ref sig .tc := ⟨.hbm, 156, rfl⟩
abbrev main_v107 : Ref sig .tc := ⟨.hbm, 157, rfl⟩
abbrev main_cst_30 : Ref sig .tc := ⟨.hbm, 158, rfl⟩
abbrev main_v108 : Ref sig .tc := ⟨.hbm, 159, rfl⟩
abbrev main_v109 : Ref sig .tc := ⟨.hbm, 160, rfl⟩
abbrev main_v110 : Ref sig .tc := ⟨.hbm, 161, rfl⟩
abbrev main_v111 : Ref sig .tc := ⟨.hbm, 162, rfl⟩
abbrev main_v112 : Ref sig .tc := ⟨.hbm, 163, rfl⟩
abbrev main_v113 : Ref sig .tc := ⟨.hbm, 164, rfl⟩
abbrev main_v114 : Ref sig .tc := ⟨.hbm, 165, rfl⟩
abbrev main_v115 : Ref sig .tc := ⟨.hbm, 166, rfl⟩
abbrev main_v116 : Ref sig .tc := ⟨.hbm, 167, rfl⟩
abbrev main_v117 : Ref sig .tc := ⟨.hbm, 168, rfl⟩
abbrev main_v118 : Ref sig .tc := ⟨.hbm, 169, rfl⟩
abbrev main_v119 : Ref sig .tc := ⟨.hbm, 170, rfl⟩
abbrev main_v120 : Ref sig .tc := ⟨.hbm, 171, rfl⟩
abbrev main_v121 : Ref sig .tc := ⟨.hbm, 172, rfl⟩
abbrev main_v122 : Ref sig .tc := ⟨.hbm, 173, rfl⟩
abbrev main_v123 : Ref sig .tc := ⟨.hbm, 174, rfl⟩
abbrev main_cst_31 : Ref sig .tc := ⟨.hbm, 175, rfl⟩
abbrev main_v124 : Ref sig .tc := ⟨.hbm, 176, rfl⟩
abbrev main_v125 : Ref sig .tc := ⟨.hbm, 177, rfl⟩
abbrev main_v126 : Ref sig .tc := ⟨.hbm, 178, rfl⟩
abbrev main_v127 : Ref sig .tc := ⟨.hbm, 179, rfl⟩
abbrev main_v128 : Ref sig .tc := ⟨.hbm, 180, rfl⟩
abbrev main_cst_32 : Ref sig .tc := ⟨.hbm, 181, rfl⟩
abbrev main_v129 : Ref sig .tc := ⟨.hbm, 182, rfl⟩
abbrev main_v130 : Ref sig .tc := ⟨.hbm, 183, rfl⟩
abbrev main_v131 : Ref sig .tc := ⟨.hbm, 184, rfl⟩
abbrev main_c_33 : Ref sig .tc := ⟨.hbm, 185, rfl⟩
abbrev main_c_34 : Ref sig .tc := ⟨.hbm, 186, rfl⟩
abbrev main_call2_v0 : Ref sig .tc := ⟨.hbm, 187, rfl⟩
abbrev main_call2_v1 : Ref sig .tc := ⟨.hbm, 188, rfl⟩
abbrev main_call2_v2 : Ref sig .tc := ⟨.hbm, 189, rfl⟩
abbrev main_call2_v3 : Ref sig .tc := ⟨.hbm, 190, rfl⟩
abbrev main_call2_v4 : Ref sig .tc := ⟨.hbm, 191, rfl⟩
abbrev main_v132 : Ref sig .tc := ⟨.hbm, 192, rfl⟩
abbrev main_v133 : Ref sig .tc := ⟨.hbm, 193, rfl⟩
abbrev main_v134 : Ref sig .tc := ⟨.hbm, 194, rfl⟩
abbrev main_c_35 : Ref sig .tc := ⟨.hbm, 195, rfl⟩
abbrev main_c_36 : Ref sig .tc := ⟨.hbm, 196, rfl⟩
abbrev main_call3_v0 : Ref sig .tc := ⟨.hbm, 197, rfl⟩
abbrev main_call3_v1 : Ref sig .tc := ⟨.hbm, 198, rfl⟩
abbrev main_call3_v2 : Ref sig .tc := ⟨.hbm, 199, rfl⟩
abbrev main_call3_v3 : Ref sig .tc := ⟨.hbm, 200, rfl⟩
abbrev main_call3_v4 : Ref sig .tc := ⟨.hbm, 201, rfl⟩
abbrev main_v135 : Ref sig .tc := ⟨.hbm, 202, rfl⟩
abbrev main_v136 : Ref sig .tc := ⟨.hbm, 203, rfl⟩
abbrev main_c_37 : Ref sig .tc := ⟨.hbm, 204, rfl⟩
abbrev main_v137 : Ref sig .tc := ⟨.hbm, 205, rfl⟩
abbrev main_v138 : Ref sig .tc := ⟨.hbm, 206, rfl⟩
abbrev main_c_38 : Ref sig .tc := ⟨.hbm, 207, rfl⟩
abbrev main_v139 : Ref sig .tc := ⟨.hbm, 208, rfl⟩
abbrev main_v140 : Ref sig .tc := ⟨.hbm, 209, rfl⟩
abbrev main_v141 : Ref sig .tc := ⟨.hbm, 210, rfl⟩
abbrev main_v142 : Ref sig .tc := ⟨.hbm, 211, rfl⟩
abbrev main_v143 : Ref sig .tc := ⟨.hbm, 212, rfl⟩
abbrev main_v144 : Ref sig .tc := ⟨.hbm, 213, rfl⟩
abbrev main_v145 : Ref sig .tc := ⟨.hbm, 214, rfl⟩
abbrev main_v146 : Ref sig .tc := ⟨.hbm, 215, rfl⟩
abbrev main_c_39 : Ref sig .tc := ⟨.hbm, 216, rfl⟩
abbrev main_v147 : Ref sig .tc := ⟨.hbm, 217, rfl⟩
abbrev main_v148 : Ref sig .tc := ⟨.hbm, 218, rfl⟩
abbrev main_c_40 : Ref sig .tc := ⟨.hbm, 219, rfl⟩
abbrev main_v149 : Ref sig .tc := ⟨.hbm, 220, rfl⟩
abbrev main_v150 : Ref sig .tc := ⟨.hbm, 221, rfl⟩
abbrev main_v151 : Ref sig .tc := ⟨.hbm, 222, rfl⟩
abbrev main_c_41 : Ref sig .tc := ⟨.hbm, 223, rfl⟩
abbrev main_v152 : Ref sig .tc := ⟨.hbm, 224, rfl⟩
abbrev main_v153 : Ref sig .tc := ⟨.hbm, 225, rfl⟩
abbrev main_c_42 : Ref sig .tc := ⟨.hbm, 226, rfl⟩
abbrev main_v154 : Ref sig .tc := ⟨.hbm, 227, rfl⟩
abbrev main_v155 : Ref sig .tc := ⟨.hbm, 228, rfl⟩
abbrev main_v156 : Ref sig .tc := ⟨.hbm, 229, rfl⟩
abbrev main_v157 : Ref sig .tc := ⟨.hbm, 230, rfl⟩
abbrev main_v158 : Ref sig .tc := ⟨.hbm, 231, rfl⟩
abbrev main_v159 : Ref sig .tc := ⟨.hbm, 232, rfl⟩
abbrev main_v160 : Ref sig .tc := ⟨.hbm, 233, rfl⟩
abbrev main_c_43 : Ref sig .tc := ⟨.hbm, 234, rfl⟩
abbrev main_v161 : Ref sig .tc := ⟨.hbm, 235, rfl⟩
abbrev main_v162 : Ref sig .tc := ⟨.hbm, 236, rfl⟩
abbrev main_c_44 : Ref sig .tc := ⟨.hbm, 237, rfl⟩
abbrev main_v163 : Ref sig .tc := ⟨.hbm, 238, rfl⟩
abbrev main_v164 : Ref sig .tc := ⟨.hbm, 239, rfl⟩
abbrev main_v165 : Ref sig .tc := ⟨.hbm, 240, rfl⟩
abbrev main_c_45 : Ref sig .tc := ⟨.hbm, 241, rfl⟩
abbrev main_v166 : Ref sig .tc := ⟨.hbm, 242, rfl⟩
abbrev main_v167 : Ref sig .tc := ⟨.hbm, 243, rfl⟩
abbrev main_c_46 : Ref sig .tc := ⟨.hbm, 244, rfl⟩
abbrev main_v168 : Ref sig .tc := ⟨.hbm, 245, rfl⟩
abbrev main_v169 : Ref sig .tc := ⟨.hbm, 246, rfl⟩
abbrev main_v170 : Ref sig .tc := ⟨.hbm, 247, rfl⟩
abbrev main_v171 : Ref sig .tc := ⟨.hbm, 248, rfl⟩
abbrev main_v172 : Ref sig .tc := ⟨.hbm, 249, rfl⟩
abbrev main_v173 : Ref sig .tc := ⟨.hbm, 250, rfl⟩
abbrev main_v174 : Ref sig .tc := ⟨.hbm, 251, rfl⟩
abbrev main_c_47 : Ref sig .tc := ⟨.hbm, 252, rfl⟩
abbrev main_v175 : Ref sig .tc := ⟨.hbm, 253, rfl⟩
abbrev main_v176 : Ref sig .tc := ⟨.hbm, 254, rfl⟩
abbrev main_c_48 : Ref sig .tc := ⟨.hbm, 255, rfl⟩
abbrev main_v177 : Ref sig .tc := ⟨.hbm, 256, rfl⟩
abbrev main_v178 : Ref sig .tc := ⟨.hbm, 257, rfl⟩
abbrev main_v179 : Ref sig .tc := ⟨.hbm, 258, rfl⟩
abbrev main_c_49 : Ref sig .tc := ⟨.hbm, 259, rfl⟩
abbrev main_v180 : Ref sig .tc := ⟨.hbm, 260, rfl⟩
abbrev main_v181 : Ref sig .tc := ⟨.hbm, 261, rfl⟩
abbrev main_c_50 : Ref sig .tc := ⟨.hbm, 262, rfl⟩
abbrev main_v182 : Ref sig .tc := ⟨.hbm, 263, rfl⟩
abbrev main_v183 : Ref sig .tc := ⟨.hbm, 264, rfl⟩
abbrev main_v184 : Ref sig .tc := ⟨.hbm, 265, rfl⟩
abbrev main_v185 : Ref sig .tc := ⟨.hbm, 266, rfl⟩
abbrev main_v186 : Ref sig .tc := ⟨.hbm, 267, rfl⟩
abbrev main_v187 : Ref sig .tc := ⟨.hbm, 268, rfl⟩
abbrev main_v188 : Ref sig .tc := ⟨.hbm, 269, rfl⟩
abbrev main_c_51 : Ref sig .tc := ⟨.hbm, 270, rfl⟩
abbrev main_v189 : Ref sig .tc := ⟨.hbm, 271, rfl⟩
abbrev main_v190 : Ref sig .tc := ⟨.hbm, 272, rfl⟩
abbrev main_c_52 : Ref sig .tc := ⟨.hbm, 273, rfl⟩
abbrev main_v191 : Ref sig .tc := ⟨.hbm, 274, rfl⟩
abbrev main_v192 : Ref sig .tc := ⟨.hbm, 275, rfl⟩
abbrev main_v193 : Ref sig .tc := ⟨.hbm, 276, rfl⟩
abbrev main_c_53 : Ref sig .tc := ⟨.hbm, 277, rfl⟩
abbrev main_v194 : Ref sig .tc := ⟨.hbm, 278, rfl⟩
abbrev main_v195 : Ref sig .tc := ⟨.hbm, 279, rfl⟩
abbrev main_c_54 : Ref sig .tc := ⟨.hbm, 280, rfl⟩
abbrev main_v196 : Ref sig .tc := ⟨.hbm, 281, rfl⟩
abbrev main_v197 : Ref sig .tc := ⟨.hbm, 282, rfl⟩
abbrev main_v198 : Ref sig .tc := ⟨.hbm, 283, rfl⟩
abbrev main_v199 : Ref sig .tc := ⟨.hbm, 284, rfl⟩
abbrev main_v200 : Ref sig .tc := ⟨.hbm, 285, rfl⟩
abbrev main_v201 : Ref sig .tc := ⟨.hbm, 286, rfl⟩
abbrev main_v202 : Ref sig .tc := ⟨.hbm, 287, rfl⟩
abbrev main_cst_55 : Ref sig .tc := ⟨.hbm, 288, rfl⟩
abbrev main_v203 : Ref sig .tc := ⟨.hbm, 289, rfl⟩
abbrev main_v204 : Ref sig .tc := ⟨.hbm, 290, rfl⟩
abbrev main_v205 : Ref sig .tc := ⟨.hbm, 291, rfl⟩
abbrev main_v206 : Ref sig .tc := ⟨.hbm, 292, rfl⟩
abbrev main_cst_56 : Ref sig .tc := ⟨.hbm, 293, rfl⟩
abbrev main_v207 : Ref sig .tc := ⟨.hbm, 294, rfl⟩
abbrev main_v208 : Ref sig .tc := ⟨.hbm, 295, rfl⟩
abbrev main_v209 : Ref sig .tc := ⟨.hbm, 296, rfl⟩
abbrev main_v210 : Ref sig .tc := ⟨.hbm, 297, rfl⟩
abbrev main_cst_57 : Ref sig .tc := ⟨.hbm, 298, rfl⟩
abbrev main_v211 : Ref sig .tc := ⟨.hbm, 299, rfl⟩
abbrev main_v212 : Ref sig .tc := ⟨.hbm, 300, rfl⟩
abbrev main_v213 : Ref sig .tc := ⟨.hbm, 301, rfl⟩
abbrev main_v214 : Ref sig .tc := ⟨.hbm, 302, rfl⟩
abbrev main_v215 : Ref sig .tc := ⟨.hbm, 303, rfl⟩
abbrev main_v216 : Ref sig .tc := ⟨.hbm, 304, rfl⟩
abbrev main_v217 : Ref sig .tc := ⟨.hbm, 305, rfl⟩
abbrev main_v218 : Ref sig .tc := ⟨.hbm, 306, rfl⟩
abbrev main_v219 : Ref sig .tc := ⟨.hbm, 307, rfl⟩
abbrev main_cst_58 : Ref sig .tc := ⟨.hbm, 308, rfl⟩
abbrev main_v220 : Ref sig .tc := ⟨.hbm, 309, rfl⟩
abbrev main_v221 : Ref sig .tc := ⟨.hbm, 310, rfl⟩
abbrev main_v222 : Ref sig .tc := ⟨.hbm, 311, rfl⟩
abbrev main_v223 : Ref sig .tc := ⟨.hbm, 312, rfl⟩
abbrev main_v224 : Ref sig .tc := ⟨.hbm, 313, rfl⟩
abbrev main_v225 : Ref sig .tc := ⟨.hbm, 314, rfl⟩
abbrev main_v226 : Ref sig .tc := ⟨.hbm, 315, rfl⟩
abbrev main_v227 : Ref sig .tc := ⟨.hbm, 316, rfl⟩
abbrev main_v228 : Ref sig .tc := ⟨.hbm, 317, rfl⟩
abbrev main_v229 : Ref sig .tc := ⟨.hbm, 318, rfl⟩
abbrev main_v230 : Ref sig .tc := ⟨.hbm, 319, rfl⟩
abbrev main_v231 : Ref sig .tc := ⟨.hbm, 320, rfl⟩
abbrev main_v232 : Ref sig .tc := ⟨.hbm, 321, rfl⟩
abbrev main_v233 : Ref sig .tc := ⟨.hbm, 322, rfl⟩
abbrev main_v234 : Ref sig .tc := ⟨.hbm, 323, rfl⟩
abbrev main_v235 : Ref sig .tc := ⟨.hbm, 324, rfl⟩
abbrev main_cst_59 : Ref sig .tc := ⟨.hbm, 325, rfl⟩
abbrev main_v236 : Ref sig .tc := ⟨.hbm, 326, rfl⟩
abbrev main_v237 : Ref sig .tc := ⟨.hbm, 327, rfl⟩
abbrev main_v238 : Ref sig .tc := ⟨.hbm, 328, rfl⟩
abbrev main_v239 : Ref sig .tc := ⟨.hbm, 329, rfl⟩
abbrev main_v240 : Ref sig .tc := ⟨.hbm, 330, rfl⟩
abbrev main_cst_60 : Ref sig .tc := ⟨.hbm, 331, rfl⟩
abbrev main_v241 : Ref sig .tc := ⟨.hbm, 332, rfl⟩
abbrev main_v242 : Ref sig .tc := ⟨.hbm, 333, rfl⟩
abbrev main_v243 : Ref sig .tc := ⟨.hbm, 334, rfl⟩
abbrev main_c_61 : Ref sig .tc := ⟨.hbm, 335, rfl⟩
abbrev main_c_62 : Ref sig .tc := ⟨.hbm, 336, rfl⟩
abbrev main_call4_v0 : Ref sig .tc := ⟨.hbm, 337, rfl⟩
abbrev main_call4_v1 : Ref sig .tc := ⟨.hbm, 338, rfl⟩
abbrev main_call4_v2 : Ref sig .tc := ⟨.hbm, 339, rfl⟩
abbrev main_call4_v3 : Ref sig .tc := ⟨.hbm, 340, rfl⟩
abbrev main_call4_v4 : Ref sig .tc := ⟨.hbm, 341, rfl⟩
abbrev main_v244 : Ref sig .tc := ⟨.hbm, 342, rfl⟩
abbrev main_v245 : Ref sig .tc := ⟨.hbm, 343, rfl⟩
abbrev main_v246 : Ref sig .tc := ⟨.hbm, 344, rfl⟩
abbrev main_c_63 : Ref sig .tc := ⟨.hbm, 345, rfl⟩
abbrev main_c_64 : Ref sig .tc := ⟨.hbm, 346, rfl⟩
abbrev main_call5_v0 : Ref sig .tc := ⟨.hbm, 347, rfl⟩
abbrev main_call5_v1 : Ref sig .tc := ⟨.hbm, 348, rfl⟩
abbrev main_call5_v2 : Ref sig .tc := ⟨.hbm, 349, rfl⟩
abbrev main_call5_v3 : Ref sig .tc := ⟨.hbm, 350, rfl⟩
abbrev main_call5_v4 : Ref sig .tc := ⟨.hbm, 351, rfl⟩
abbrev main_v247 : Ref sig .tc := ⟨.hbm, 352, rfl⟩
abbrev main_v248 : Ref sig .tc := ⟨.hbm, 353, rfl⟩
abbrev main_c_65 : Ref sig .tc := ⟨.hbm, 354, rfl⟩
abbrev main_v249 : Ref sig .tc := ⟨.hbm, 355, rfl⟩
abbrev main_v250 : Ref sig .tc := ⟨.hbm, 356, rfl⟩
abbrev main_c_66 : Ref sig .tc := ⟨.hbm, 357, rfl⟩
abbrev main_v251 : Ref sig .tc := ⟨.hbm, 358, rfl⟩
abbrev main_v252 : Ref sig .tc := ⟨.hbm, 359, rfl⟩
abbrev main_v253 : Ref sig .tc := ⟨.hbm, 360, rfl⟩
abbrev main_v254 : Ref sig .tc := ⟨.hbm, 361, rfl⟩
abbrev main_v255 : Ref sig .tc := ⟨.hbm, 362, rfl⟩
abbrev main_v256 : Ref sig .tc := ⟨.hbm, 363, rfl⟩
abbrev main_v257 : Ref sig .tc := ⟨.hbm, 364, rfl⟩
abbrev main_v258 : Ref sig .tc := ⟨.hbm, 365, rfl⟩
abbrev main_c_67 : Ref sig .tc := ⟨.hbm, 366, rfl⟩
abbrev main_v259 : Ref sig .tc := ⟨.hbm, 367, rfl⟩
abbrev main_v260 : Ref sig .tc := ⟨.hbm, 368, rfl⟩
abbrev main_c_68 : Ref sig .tc := ⟨.hbm, 369, rfl⟩
abbrev main_v261 : Ref sig .tc := ⟨.hbm, 370, rfl⟩
abbrev main_v262 : Ref sig .tc := ⟨.hbm, 371, rfl⟩
abbrev main_v263 : Ref sig .tc := ⟨.hbm, 372, rfl⟩
abbrev main_c_69 : Ref sig .tc := ⟨.hbm, 373, rfl⟩
abbrev main_v264 : Ref sig .tc := ⟨.hbm, 374, rfl⟩
abbrev main_v265 : Ref sig .tc := ⟨.hbm, 375, rfl⟩
abbrev main_c_70 : Ref sig .tc := ⟨.hbm, 376, rfl⟩
abbrev main_v266 : Ref sig .tc := ⟨.hbm, 377, rfl⟩
abbrev main_v267 : Ref sig .tc := ⟨.hbm, 378, rfl⟩
abbrev main_v268 : Ref sig .tc := ⟨.hbm, 379, rfl⟩
abbrev main_v269 : Ref sig .tc := ⟨.hbm, 380, rfl⟩
abbrev main_v270 : Ref sig .tc := ⟨.hbm, 381, rfl⟩
abbrev main_v271 : Ref sig .tc := ⟨.hbm, 382, rfl⟩
abbrev main_v272 : Ref sig .tc := ⟨.hbm, 383, rfl⟩
abbrev main_c_71 : Ref sig .tc := ⟨.hbm, 384, rfl⟩
abbrev main_v273 : Ref sig .tc := ⟨.hbm, 385, rfl⟩
abbrev main_v274 : Ref sig .tc := ⟨.hbm, 386, rfl⟩
abbrev main_c_72 : Ref sig .tc := ⟨.hbm, 387, rfl⟩
abbrev main_v275 : Ref sig .tc := ⟨.hbm, 388, rfl⟩
abbrev main_v276 : Ref sig .tc := ⟨.hbm, 389, rfl⟩
abbrev main_v277 : Ref sig .tc := ⟨.hbm, 390, rfl⟩
abbrev main_c_73 : Ref sig .tc := ⟨.hbm, 391, rfl⟩
abbrev main_v278 : Ref sig .tc := ⟨.hbm, 392, rfl⟩
abbrev main_v279 : Ref sig .tc := ⟨.hbm, 393, rfl⟩
abbrev main_c_74 : Ref sig .tc := ⟨.hbm, 394, rfl⟩
abbrev main_v280 : Ref sig .tc := ⟨.hbm, 395, rfl⟩
abbrev main_v281 : Ref sig .tc := ⟨.hbm, 396, rfl⟩
abbrev main_v282 : Ref sig .tc := ⟨.hbm, 397, rfl⟩
abbrev main_v283 : Ref sig .tc := ⟨.hbm, 398, rfl⟩
abbrev main_v284 : Ref sig .tc := ⟨.hbm, 399, rfl⟩
abbrev main_v285 : Ref sig .tc := ⟨.hbm, 400, rfl⟩
abbrev main_v286 : Ref sig .tc := ⟨.hbm, 401, rfl⟩
abbrev main_c_75 : Ref sig .tc := ⟨.hbm, 402, rfl⟩
abbrev main_v287 : Ref sig .tc := ⟨.hbm, 403, rfl⟩
abbrev main_v288 : Ref sig .tc := ⟨.hbm, 404, rfl⟩
abbrev main_c_76 : Ref sig .tc := ⟨.hbm, 405, rfl⟩
abbrev main_v289 : Ref sig .tc := ⟨.hbm, 406, rfl⟩
abbrev main_v290 : Ref sig .tc := ⟨.hbm, 407, rfl⟩
abbrev main_v291 : Ref sig .tc := ⟨.hbm, 408, rfl⟩
abbrev main_c_77 : Ref sig .tc := ⟨.hbm, 409, rfl⟩
abbrev main_v292 : Ref sig .tc := ⟨.hbm, 410, rfl⟩
abbrev main_v293 : Ref sig .tc := ⟨.hbm, 411, rfl⟩
abbrev main_c_78 : Ref sig .tc := ⟨.hbm, 412, rfl⟩
abbrev main_v294 : Ref sig .tc := ⟨.hbm, 413, rfl⟩
abbrev main_v295 : Ref sig .tc := ⟨.hbm, 414, rfl⟩
abbrev main_v296 : Ref sig .tc := ⟨.hbm, 415, rfl⟩
abbrev main_v297 : Ref sig .tc := ⟨.hbm, 416, rfl⟩
abbrev main_v298 : Ref sig .tc := ⟨.hbm, 417, rfl⟩
abbrev main_v299 : Ref sig .tc := ⟨.hbm, 418, rfl⟩
abbrev main_v300 : Ref sig .tc := ⟨.hbm, 419, rfl⟩
abbrev main_c_79 : Ref sig .tc := ⟨.hbm, 420, rfl⟩
abbrev main_v301 : Ref sig .tc := ⟨.hbm, 421, rfl⟩
abbrev main_v302 : Ref sig .tc := ⟨.hbm, 422, rfl⟩
abbrev main_c_80 : Ref sig .tc := ⟨.hbm, 423, rfl⟩
abbrev main_v303 : Ref sig .tc := ⟨.hbm, 424, rfl⟩
abbrev main_v304 : Ref sig .tc := ⟨.hbm, 425, rfl⟩
abbrev main_v305 : Ref sig .tc := ⟨.hbm, 426, rfl⟩
abbrev main_c_81 : Ref sig .tc := ⟨.hbm, 427, rfl⟩
abbrev main_v306 : Ref sig .tc := ⟨.hbm, 428, rfl⟩
abbrev main_v307 : Ref sig .tc := ⟨.hbm, 429, rfl⟩
abbrev main_c_82 : Ref sig .tc := ⟨.hbm, 430, rfl⟩
abbrev main_v308 : Ref sig .tc := ⟨.hbm, 431, rfl⟩
abbrev main_v309 : Ref sig .tc := ⟨.hbm, 432, rfl⟩
abbrev main_v310 : Ref sig .tc := ⟨.hbm, 433, rfl⟩
abbrev main_v311 : Ref sig .tc := ⟨.hbm, 434, rfl⟩
abbrev main_v312 : Ref sig .tc := ⟨.hbm, 435, rfl⟩
abbrev main_v313 : Ref sig .tc := ⟨.hbm, 436, rfl⟩
abbrev main_v314 : Ref sig .tc := ⟨.hbm, 437, rfl⟩
abbrev main_cst_83 : Ref sig .tc := ⟨.hbm, 438, rfl⟩
abbrev main_v315 : Ref sig .tc := ⟨.hbm, 439, rfl⟩
abbrev main_v316 : Ref sig .tc := ⟨.hbm, 440, rfl⟩
abbrev main_v317 : Ref sig .tc := ⟨.hbm, 441, rfl⟩
abbrev main_v318 : Ref sig .tc := ⟨.hbm, 442, rfl⟩
abbrev main_cst_84 : Ref sig .tc := ⟨.hbm, 443, rfl⟩
abbrev main_v319 : Ref sig .tc := ⟨.hbm, 444, rfl⟩
abbrev main_v320 : Ref sig .tc := ⟨.hbm, 445, rfl⟩
abbrev main_v321 : Ref sig .tc := ⟨.hbm, 446, rfl⟩
abbrev main_v322 : Ref sig .tc := ⟨.hbm, 447, rfl⟩
abbrev main_cst_85 : Ref sig .tc := ⟨.hbm, 448, rfl⟩
abbrev main_v323 : Ref sig .tc := ⟨.hbm, 449, rfl⟩
abbrev main_v324 : Ref sig .tc := ⟨.hbm, 450, rfl⟩
abbrev main_v325 : Ref sig .tc := ⟨.hbm, 451, rfl⟩
abbrev main_v326 : Ref sig .tc := ⟨.hbm, 452, rfl⟩
abbrev main_v327 : Ref sig .tc := ⟨.hbm, 453, rfl⟩
abbrev main_v328 : Ref sig .tc := ⟨.hbm, 454, rfl⟩
abbrev main_v329 : Ref sig .tc := ⟨.hbm, 455, rfl⟩
abbrev main_v330 : Ref sig .tc := ⟨.hbm, 456, rfl⟩
abbrev main_v331 : Ref sig .tc := ⟨.hbm, 457, rfl⟩
abbrev main_cst_86 : Ref sig .tc := ⟨.hbm, 458, rfl⟩
abbrev main_v332 : Ref sig .tc := ⟨.hbm, 459, rfl⟩
abbrev main_v333 : Ref sig .tc := ⟨.hbm, 460, rfl⟩
abbrev main_v334 : Ref sig .tc := ⟨.hbm, 461, rfl⟩
abbrev main_v335 : Ref sig .tc := ⟨.hbm, 462, rfl⟩
abbrev main_v336 : Ref sig .tc := ⟨.hbm, 463, rfl⟩
abbrev main_v337 : Ref sig .tc := ⟨.hbm, 464, rfl⟩
abbrev main_v338 : Ref sig .tc := ⟨.hbm, 465, rfl⟩
abbrev main_v339 : Ref sig .tc := ⟨.hbm, 466, rfl⟩
abbrev main_v340 : Ref sig .tc := ⟨.hbm, 467, rfl⟩
abbrev main_v341 : Ref sig .tc := ⟨.hbm, 468, rfl⟩
abbrev main_v342 : Ref sig .tc := ⟨.hbm, 469, rfl⟩
abbrev main_v343 : Ref sig .tc := ⟨.hbm, 470, rfl⟩
abbrev main_v344 : Ref sig .tc := ⟨.hbm, 471, rfl⟩
abbrev main_v345 : Ref sig .tc := ⟨.hbm, 472, rfl⟩
abbrev main_v346 : Ref sig .tc := ⟨.hbm, 473, rfl⟩
abbrev main_v347 : Ref sig .tc := ⟨.hbm, 474, rfl⟩
abbrev main_v348 : Ref sig .tc := ⟨.hbm, 475, rfl⟩
abbrev main_v349 : Ref sig .tc := ⟨.hbm, 476, rfl⟩
abbrev main_call6_cst : Ref sig .tc := ⟨.hbm, 477, rfl⟩
abbrev main_call6_v0 : Ref sig .tc := ⟨.hbm, 478, rfl⟩
abbrev main_v350 : Ref sig .tc := ⟨.hbm, 479, rfl⟩
abbrev main_v351 : Ref sig .tc := ⟨.hbm, 480, rfl⟩
abbrev main_v352 : Ref sig .tc := ⟨.hbm, 481, rfl⟩
abbrev main_v353 : Ref sig .tc := ⟨.hbm, 482, rfl⟩
abbrev main_v354 : Ref sig .tc := ⟨.hbm, 483, rfl⟩
abbrev main_v355 : Ref sig .tc := ⟨.hbm, 484, rfl⟩
abbrev main_v356 : Ref sig .tc := ⟨.hbm, 485, rfl⟩
abbrev main_cst_87 : Ref sig .tc := ⟨.hbm, 486, rfl⟩
abbrev main_v357 : Ref sig .tc := ⟨.hbm, 487, rfl⟩
abbrev main_v358 : Ref sig .tc := ⟨.hbm, 488, rfl⟩
abbrev main_cst_88 : Ref sig .tc := ⟨.hbm, 489, rfl⟩
abbrev main_v359 : Ref sig .tc := ⟨.hbm, 490, rfl⟩
abbrev main_v360 : Ref sig .tc := ⟨.hbm, 491, rfl⟩

abbrev nD : Nat := 1
abbrev τ : Topo := Topo.v7x

variable {F : FTy → Type} [FloatOps F]

class Facts₀ : Prop where
  bcast_S_S262144x4 : S_.BroadcastsInDim S262144x4 (![] : Fin 0 → Fin S262144x4.rank)
  bcast_S_S6x2 : S_.BroadcastsInDim S6x2 (![] : Fin 0 → Fin S6x2.rank)
  bcast_S6x2_S6x2x1_0_1 : S6x2.BroadcastsInDim S6x2x1 (![0, 1] : Fin 2 → Fin S6x2x1.rank)
  slices_S262144x6x2_S262144x6x1_0_0_0 : S262144x6x2.Slices ![0, 0, 0] S262144x6x1
  transposes_S262144x6x1_S6x262144x1_1_0_2 : S262144x6x1.Transposes [1, 0, 2] S6x262144x1
  shapeCasts_S6x262144x1_S6x262144 : S6x262144x1.ShapeCasts S6x262144
  bcast_S_S6x262144 : S_.BroadcastsInDim S6x262144 (![] : Fin 0 → Fin S6x262144.rank)
  slices_S262144x6x2_S262144x6x1_0_0_1 : S262144x6x2.Slices ![0, 0, 1] S262144x6x1
  bcast_S6x262144_S6x1x262144_0_2 : S6x262144.BroadcastsInDim S6x1x262144 (![0, 2] : Fin 2 → Fin S6x1x262144.rank)
  bcast_S6x262144_S6x262144x1_0_1 : S6x262144.BroadcastsInDim S6x262144x1 (![0, 1] : Fin 2 → Fin S6x262144x1.rank)
  concatenates_S6x262144x1_S6x262144x1_S6x262144x2_d2 : Shape.Concatenates [S6x262144x1, S6x262144x1] S6x262144x2 2
  bcast_S_S6x1x262144 : S_.BroadcastsInDim S6x1x262144 (![] : Fin 0 → Fin S6x1x262144.rank)
  bcast_S6x1x262144_S6x16x262144_0_1_2 : S6x1x262144.BroadcastsInDim S6x16x262144 (![0, 1, 2] : Fin 3 → Fin S6x16x262144.rank)
  transposes_S6x16x262144_S6x262144x16_0_2_1 : S6x16x262144.Transposes [0, 2, 1] S6x262144x16
  transposes_S6x262144x16_S262144x6x16_1_0_2 : S6x262144x16.Transposes [1, 0, 2] S262144x6x16
  shapeCasts_S262144x6x16_S262144x96 : S262144x6x16.ShapeCasts S262144x96
  concatenates_S262144x96_S262144x96_S262144x96_S262144x288_d1 : Shape.Concatenates [S262144x96, S262144x96, S262144x96] S262144x288 1
  bcast_S128_S1x128_1 : S128.BroadcastsInDim S1x128 (![1] : Fin 1 → Fin S1x128.rank)
  bcast_S1x128_S262144x128_0_1 : S1x128.BroadcastsInDim S262144x128 (![0, 1] : Fin 2 → Fin S262144x128.rank)
  bcast_S_S262144x128 : S_.BroadcastsInDim S262144x128 (![] : Fin 0 → Fin S262144x128.rank)
  bcast_S3_S1x3_1 : S3.BroadcastsInDim S1x3 (![1] : Fin 1 → Fin S1x3.rank)
  bcast_S1x3_S262144x3_0_1 : S1x3.BroadcastsInDim S262144x3 (![0, 1] : Fin 2 → Fin S262144x3.rank)
  bcast_S_S262144x3 : S_.BroadcastsInDim S262144x3 (![] : Fin 0 → Fin S262144x3.rank)
  gather_S262144x4_S6x2x1_S262144x6x2_0_1_n_n_1_2_2621441_wf : GatherDims.WF S262144x4 S6x2x1 S262144x6x2 [0] [1] [] [1] [] 2 ![262144, 1]
  gather_S6x16x128x128_S6x262144x2_S6x16x262144_1_23_0_0_23_2_11611_wf : GatherDims.WF S6x16x128x128 S6x262144x2 S6x16x262144 [1] [2, 3] [0] [2, 3] [0] 2 ![1, 16, 1, 1]
  gather_S6x16x256x256_S6x262144x2_S6x16x262144_1_23_0_0_23_2_11611_wf : GatherDims.WF S6x16x256x256 S6x262144x2 S6x16x262144 [1] [2, 3] [0] [2, 3] [0] 2 ![1, 16, 1, 1]
  gather_S6x16x512x512_S6x262144x2_S6x16x262144_1_23_0_0_23_2_11611_wf : GatherDims.WF S6x16x512x512 S6x262144x2 S6x16x262144 [1] [2, 3] [0] [2, 3] [0] 2 ![1, 16, 1, 1]
  dot_S262144x288_S288x128_S262144x128_1_0_0_1_n_n_wf : DotDims.WF S262144x288 S288x128 S262144x128 [1] [0] [0] [1] [] []
  dot_S262144x128_S128x3_S262144x3_1_0_0_1_n_n_wf : DotDims.WF S262144x128 S128x3 S262144x3 [1] [0] [0] [1] [] []

variable [Facts₀]

def gather_S262144x4_S6x2x1_S262144x6x2_0_1_n_n_1_2_2621441 : GatherDims S262144x4 S6x2x1 S262144x6x2 where
  offsetDims := [0]
  collapsedSliceDims := [1]
  operandBatchingDims := []
  startIndicesBatchingDims := []
  startIndexMap := [1]
  indexVectorDim := 2
  sliceSizes := ![262144, 1]
  wf := gather_S262144x4_S6x2x1_S262144x6x2_0_1_n_n_1_2_2621441_wf
def gather_S6x16x128x128_S6x262144x2_S6x16x262144_1_23_0_0_23_2_11611 : GatherDims S6x16x128x128 S6x262144x2 S6x16x262144 where
  offsetDims := [1]
  collapsedSliceDims := [2, 3]
  operandBatchingDims := [0]
  startIndicesBatchingDims := [0]
  startIndexMap := [2, 3]
  indexVectorDim := 2
  sliceSizes := ![1, 16, 1, 1]
  wf := gather_S6x16x128x128_S6x262144x2_S6x16x262144_1_23_0_0_23_2_11611_wf
def gather_S6x16x256x256_S6x262144x2_S6x16x262144_1_23_0_0_23_2_11611 : GatherDims S6x16x256x256 S6x262144x2 S6x16x262144 where
  offsetDims := [1]
  collapsedSliceDims := [2, 3]
  operandBatchingDims := [0]
  startIndicesBatchingDims := [0]
  startIndexMap := [2, 3]
  indexVectorDim := 2
  sliceSizes := ![1, 16, 1, 1]
  wf := gather_S6x16x256x256_S6x262144x2_S6x16x262144_1_23_0_0_23_2_11611_wf
def gather_S6x16x512x512_S6x262144x2_S6x16x262144_1_23_0_0_23_2_11611 : GatherDims S6x16x512x512 S6x262144x2 S6x16x262144 where
  offsetDims := [1]
  collapsedSliceDims := [2, 3]
  operandBatchingDims := [0]
  startIndicesBatchingDims := [0]
  startIndexMap := [2, 3]
  indexVectorDim := 2
  sliceSizes := ![1, 16, 1, 1]
  wf := gather_S6x16x512x512_S6x262144x2_S6x16x262144_1_23_0_0_23_2_11611_wf
def dot_S262144x288_S288x128_S262144x128_1_0_0_1_n_n : DotDims S262144x288 S288x128 S262144x128 where
  lhsContracting := [1]
  rhsContracting := [0]
  lhsNonContracting := [0]
  rhsNonContracting := [1]
  lhsBatch := []
  rhsBatch := []
  wf := dot_S262144x288_S288x128_S262144x128_1_0_0_1_n_n_wf
def dot_S262144x128_S128x3_S262144x3_1_0_0_1_n_n : DotDims S262144x128 S128x3 S262144x3 where
  lhsContracting := [1]
  rhsContracting := [0]
  lhsNonContracting := [0]
  rhsNonContracting := [1]
  lhsBatch := []
  rhsBatch := []
  wf := dot_S262144x128_S128x3_S262144x3_1_0_0_1_n_n_wf

class Facts : Prop extends Facts₀ where

variable [Facts]
-- ==== Proof.LibPlainDot.lean ====
/-
  A plain matrix product — rows × contraction times contraction × columns, no batch axis — read at an index.

  For dimension numbers `d` of that kind over shapes `[P, K]`, `[K, Q]`, `[P, Q]`, the exact contraction
  `∑ κ, l (d.lhsIdx j κ) * r (d.rhsIdx j κ)` over the one contracted axis is the textbook sum
  `∑ k : Fin K, l (p, k) * r (k, q)` at the result index `j = (p, q)`: the left operand is read at row `p` and the
  right at column `q`, and the contracted axis of extent `K` is re-indexed by `Fin K`.
-/
import Idealize.ShloMosaic.Lib.ValueIdx
import Idealize.ShloMosaic.PureOps.Ideal.Laws

noncomputable section

namespace PlainDot

open Idealize.ShloMosaic Idealize.ShloMosaic.ValueIdx

variable {P K Q : Nat}

/-- The dimension numbers of a plain product: the left operand contracts its second axis against the right operand's
    first; the other two axes are the result's, in that order; no batch axis. -/
structure IsPlain (d : DotDims ⟨2, ![P, K]⟩ ⟨2, ![K, Q]⟩ ⟨2, ![P, Q]⟩) : Prop where
  lc : d.lhsContracting = [(1 : Fin 2)]
  rc : d.rhsContracting = [(0 : Fin 2)]
  ln : d.lhsNonContracting = [(0 : Fin 2)]
  rn : d.rhsNonContracting = [(1 : Fin 2)]
  lb : d.lhsBatch = []
  rb : d.rhsBatch = []

theorem coord_val_congr {s : Shape} (j : s.Idx) {a b : Fin s.rank} (e : a = b) : (j a).val = (j b).val := by
  subst e; rfl

variable {d : DotDims ⟨2, ![P, K]⟩ ⟨2, ![K, Q]⟩ ⟨2, ![P, Q]⟩}

/-- The left operand's row is the result's row. -/
theorem lhs_row (h : IsPlain d) (j : (⟨2, ![P, Q]⟩ : Shape).Idx) (κ : d.contr.Idx) :
    (d.lhsIdx j κ (0 : Fin 2)).val = (j (0 : Fin 2)).val := by
  unfold DotDims.lhsIdx
  rw [dif_neg (by rw [h.lb]; exact List.not_mem_nil), dif_pos (by rw [h.ln]; exact List.mem_singleton.2 rfl)]
  simp only [Fin.val_cast]
  exact coord_val_congr j (Fin.ext (by simp [h.lb, h.ln]))

/-- The right operand's column is the result's column. -/
theorem rhs_col (h : IsPlain d) (j : (⟨2, ![P, Q]⟩ : Shape).Idx) (κ : d.contr.Idx) :
    (d.rhsIdx j κ (1 : Fin 2)).val = (j (1 : Fin 2)).val := by
  unfold DotDims.rhsIdx
  rw [dif_neg (by rw [h.rb]; exact List.not_mem_nil), dif_pos (by rw [h.rn]; exact List.mem_singleton.2 rfl)]
  simp only [Fin.val_cast]
  exact coord_val_congr j (Fin.ext (by simp [h.lb, h.ln, h.rn]))

theorem contr_rank (h : IsPlain d) : d.contr.rank = 1 := by rw [d.rank_contr, h.lc]; rfl

theorem contr_size (h : IsPlain d) : d.contr.size ⟨0, by rw [contr_rank h]; exact Nat.one_pos⟩ = K := by
  have e := d.size_contr 0 (by rw [h.lc]; exact Nat.one_pos)
  rw [e]
  simp [h.lc]

/-- THE PRODUCT AT `(p, q)`: the sum over `k : Fin K` of the left operand at `(p, k)` times the right at `(k, q)`. -/
theorem sum_eq (h : IsPlain d) (l : (⟨2, ![P, K]⟩ : Shape).Idx → EReal) (r : (⟨2, ![K, Q]⟩ : Shape).Idx → EReal)
    (p : Fin P) (q : Fin Q) :
    ∑ κ : d.contr.Idx, l (d.lhsIdx (ix2 p q) κ) * r (d.rhsIdx (ix2 p q) κ) = ∑ k : Fin K, l (ix2 p k) * r (ix2 k q) := by
  rw [← Equiv.sum_comp (contrEquiv1 d K (contr_rank h) (contr_size h)).symm]
  refine Finset.sum_congr rfl fun k _ => ?_
  have hk := contrEquiv1_symm_val d K (contr_rank h) (contr_size h) k
  have el : d.lhsIdx (ix2 p q) ((contrEquiv1 d K (contr_rank h) (contr_size h)).symm k) = ix2 p k :=
    funext fun a => Fin.ext (by
      match a with
      | ⟨0, _⟩ => exact lhs_row h _ _
      | ⟨1, _⟩ => exact (d.lhsIdx_val_of_single h.lc _ _).trans hk)
  have er : d.rhsIdx (ix2 p q) ((contrEquiv1 d K (contr_rank h) (contr_size h)).symm k) = ix2 k q :=
    funext fun a => Fin.ext (by
      match a with
      | ⟨0, _⟩ => exact (d.rhsIdx_val_of_single h.rc _ _).trans hk
      | ⟨1, _⟩ => exact rhs_col h _ _)
  rw [el, er]

/-- A `tpu.matmul` into the zero accumulator, at the ideal instance, read at `(p, q)`. -/
theorem matmul_zero_apply (h : IsPlain d) {φ₁ φ₂ : FTy} (l : FVec Ideal ⟨2, ![P, K]⟩ φ₁) (r : FVec Ideal ⟨2, ![K, Q]⟩ φ₂)
    (p : Fin P) (q : Fin Q) :
    FloatOps.matmul d none l r (constant ⟨2, ![P, Q]⟩ .f32 0x00000000#32) (ix2 p q) = ∑ k : Fin K, l (ix2 p k) * r (ix2 k q) := by
  rw [Ideal.matmul_constant_zero_apply]
  exact sum_eq h l r p q

/-- The host's `dot_general`, at the ideal instance, read at `(p, q)`. -/
theorem dotGeneral_apply (h : IsPlain d) {φ₁ φ₂ : FTy} (sched : HostSchedule) (l : FVec Ideal ⟨2, ![P, K]⟩ φ₁)
    (r : FVec Ideal ⟨2, ![K, Q]⟩ φ₂) (p : Fin P) (q : Fin Q) :
    FloatOps.dotGeneral d none sched l r (ix2 p q) = ∑ k : Fin K, l (ix2 p k) * r (ix2 k q) := by
  rw [Ideal.dotGeneral_apply]
  exact sum_eq h l r p q

end PlainDot

end
-- ==== Proof.LibChebLayer.lean ====
/-
  One Chebyshev graph-convolution layer's dense stage, as a whole-array function over the extended reals.

  For [P, K] arrays x, z1, z2 (the three Chebyshev terms T0, T1, T2 of the node features), [K, Q] weights W0, W1, W2
  and a bias row b of length Q,
      cheb x z1 z2 W0 W1 W2 b (p, q)
        = max ( ((∑ k, x (p,k)·W0 (k,q)) + (∑ k, z1 (p,k)·W1 (k,q))) + (∑ k, z2 (p,k)·W2 (k,q)) + b q , 0 ).
  A kernel spells it with three matrix products of operands rounded to bf16, each accumulated into zero, the row
  broadcast of a [1, Q] bias block, and a maximum with a splat zero; a host program spells it with three general dot
  products, two broadcasts of a length-Q bias, and a maximum with a broadcast zero constant.  At the ideal instance a
  rounding is the identity and every product is the exact sum over the contracted axis, so both spellings ARE `cheb`,
  with the additions associated the same way.  Entry (p, q) reads row p of x, z1, z2 only (`cheb_congr`): that is what
  lets a block of rows of the result be computed from the same block of rows of the inputs.
-/
import Idealize.ShloMosaic.Lib.ValueIdx
import Idealize.ShloMosaic.Lib.Pipeline.Value
import Idealize.ShloMosaic.PureOps.Ideal.Laws
import proofs.«176422_j70471823393083_2_alg».proof.Proof.LibPlainDot

noncomputable section

namespace ChebLayer

open Idealize.ShloMosaic Idealize.ShloMosaic.ValueIdx

variable {P P' K Q : Nat}

/-- A [a, b] array of extended reals. -/
abbrev Mat (a b : Nat) := (⟨2, ![a, b]⟩ : Shape).Idx → EReal

/-- The dense stage of one layer, entry by entry; the zero of the final maximum is kept as the float word it is
    printed as (the same word on both sides, never evaluated). -/
def cheb (x z1 z2 : Mat P K) (W0 W1 W2 : Mat K Q) (b : Fin Q → EReal) : Mat P Q :=
  fun i => max ((((∑ k : Fin K, x (ix2 (n0 := P) (i 0) k) * W0 (ix2 k (n1 := Q) (i 1)))
      + (∑ k : Fin K, z1 (ix2 (n0 := P) (i 0) k) * W1 (ix2 k (n1 := Q) (i 1))))
      + (∑ k : Fin K, z2 (ix2 (n0 := P) (i 0) k) * W2 (ix2 k (n1 := Q) (i 1)))) + b (i 1))
    (Ideal.ofBits .f32 0x00000000#32)

theorem cheb_ix2 (x z1 z2 : Mat P K) (W0 W1 W2 : Mat K Q) (b : Fin Q → EReal) (p : Fin P) (q : Fin Q) :
    cheb x z1 z2 W0 W1 W2 b (ix2 p q)
      = max ((((∑ k : Fin K, x (ix2 p k) * W0 (ix2 k q)) + (∑ k : Fin K, z1 (ix2 p k) * W1 (ix2 k q)))
          + (∑ k : Fin K, z2 (ix2 p k) * W2 (ix2 k q))) + b q) (Ideal.ofBits .f32 0x00000000#32) := rfl

/-- Entry (p, q) reads row p of the three feature arrays, column q of the three weight arrays, entry q of the bias,
    and nothing else. -/
theorem cheb_congr {x z1 z2 : Mat P K} {x' z1' z2' : Mat P' K} {W0 W1 W2 W0' W1' W2' : Mat K Q} {b b' : Fin Q → EReal}
    {p : Fin P} {p' : Fin P'} {q : Fin Q}
    (hx : ∀ k, x (ix2 p k) = x' (ix2 p' k)) (h1 : ∀ k, z1 (ix2 p k) = z1' (ix2 p' k))
    (h2 : ∀ k, z2 (ix2 p k) = z2' (ix2 p' k))
    (hW0 : ∀ k, W0 (ix2 k q) = W0' (ix2 k q)) (hW1 : ∀ k, W1 (ix2 k q) = W1' (ix2 k q))
    (hW2 : ∀ k, W2 (ix2 k q) = W2' (ix2 k q)) (hb : b q = b' q) :
    cheb x z1 z2 W0 W1 W2 b (ix2 p q) = cheb x' z1' z2' W0' W1' W2' b' (ix2 p' q) := by
  have e0 : (∑ k : Fin K, x (ix2 p k) * W0 (ix2 k q)) = ∑ k : Fin K, x' (ix2 p' k) * W0' (ix2 k q) :=
    Finset.sum_congr rfl fun k _ => by rw [hx k, hW0 k]
  have e1 : (∑ k : Fin K, z1 (ix2 p k) * W1 (ix2 k q)) = ∑ k : Fin K, z1' (ix2 p' k) * W1' (ix2 k q) :=
    Finset.sum_congr rfl fun k _ => by rw [h1 k, hW1 k]
  have e2 : (∑ k : Fin K, z2 (ix2 p k) * W2 (ix2 k q)) = ∑ k : Fin K, z2' (ix2 p' k) * W2' (ix2 k q) :=
    Finset.sum_congr rfl fun k _ => by rw [h2 k, hW2 k]
  rw [cheb_ix2, cheb_ix2, hb, e0, e1, e2]

/-- The same at any two indices: entry i of one layer and entry i' of another agree when the rows, columns and bias
    entries they read agree. -/
theorem cheb_congr_idx {x z1 z2 : Mat P K} {x' z1' z2' : Mat P' K} {W0 W1 W2 W0' W1' W2' : Mat K Q} {b b' : Fin Q → EReal}
    (i : (⟨2, ![P, Q]⟩ : Shape).Idx) (i' : (⟨2, ![P', Q]⟩ : Shape).Idx)
    (hx : ∀ k, x (ix2 (i 0) k) = x' (ix2 (i' 0) k)) (h1 : ∀ k, z1 (ix2 (i 0) k) = z1' (ix2 (i' 0) k))
    (h2 : ∀ k, z2 (ix2 (i 0) k) = z2' (ix2 (i' 0) k))
    (hW0 : ∀ k, W0 (ix2 k (i 1)) = W0' (ix2 k (i' 1))) (hW1 : ∀ k, W1 (ix2 k (i 1)) = W1' (ix2 k (i' 1)))
    (hW2 : ∀ k, W2 (ix2 k (i 1)) = W2' (ix2 k (i' 1))) (hb : b (i 1) = b' (i' 1)) :
    cheb x z1 z2 W0 W1 W2 b i = cheb x' z1' z2' W0' W1' W2' b' i' := by
  have e0 : (∑ k : Fin K, x (ix2 (i 0) k) * W0 (ix2 k (i 1))) = ∑ k : Fin K, x' (ix2 (i' 0) k) * W0' (ix2 k (i' 1)) :=
    Finset.sum_congr rfl fun k _ => by rw [hx k, hW0 k]
  have e1 : (∑ k : Fin K, z1 (ix2 (i 0) k) * W1 (ix2 k (i 1))) = ∑ k : Fin K, z1' (ix2 (i' 0) k) * W1' (ix2 k (i' 1)) :=
    Finset.sum_congr rfl fun k _ => by rw [h1 k, hW1 k]
  have e2 : (∑ k : Fin K, z2 (ix2 (i 0) k) * W2 (ix2 k (i 1))) = ∑ k : Fin K, z2' (ix2 (i' 0) k) * W2' (ix2 k (i' 1)) :=
    Finset.sum_congr rfl fun k _ => by rw [h2 k, hW2 k]
  show max ((((∑ k : Fin K, x (ix2 (i 0) k) * W0 (ix2 k (i 1))) + (∑ k : Fin K, z1 (ix2 (i 0) k) * W1 (ix2 k (i 1))))
      + (∑ k : Fin K, z2 (ix2 (i 0) k) * W2 (ix2 k (i 1)))) + b (i 1)) (Ideal.ofBits .f32 0x00000000#32)
    = max ((((∑ k : Fin K, x' (ix2 (i' 0) k) * W0' (ix2 k (i' 1))) + (∑ k : Fin K, z1' (ix2 (i' 0) k) * W1' (ix2 k (i' 1))))
      + (∑ k : Fin K, z2' (ix2 (i' 0) k) * W2' (ix2 k (i' 1)))) + b' (i' 1)) (Ideal.ofBits .f32 0x00000000#32)
  rw [e0, e1, e2, hb]

/-- In a row of length Q read at q: either Q = 1 and q = 0, or the coordinate is q. -/
theorem row_coord (q : Fin Q) : q.val = if Q = 1 then 0 else q.val := by
  by_cases h : Q = 1
  · rw [if_pos h]; have := q.isLt; omega
  · rw [if_neg h]

/-- THE KERNEL'S SPELLING: three products of bf16-rounded operands into zero accumulators (the second and third
    feature blocks pass through a shape cast to their own shape), added left to right, plus the row broadcast of the
    [1, Q] bias block, then the maximum with a splat zero. -/
theorem kernel_cheb {d : DotDims ⟨2, ![P, K]⟩ ⟨2, ![K, Q]⟩ ⟨2, ![P, Q]⟩} (hd : PlainDot.IsPlain d)
    (x z1 z2 : FVec Ideal ⟨2, ![P, K]⟩ .f32) (W0 W1 W2 : FVec Ideal ⟨2, ![K, Q]⟩ .f32) (b : FVec Ideal ⟨2, ![1, Q]⟩ .f32)
    (hr : FTy.bits .bf16 < FTy.bits .f32) (hsx : (⟨2, ![P, K]⟩ : Shape).ShapeCasts ⟨2, ![P, K]⟩)
    (hsc : (⟨2, ![1, Q]⟩ : Shape).ShapeCasts ⟨2, ![1, Q]⟩) (hbc : (⟨2, ![1, Q]⟩ : Shape).Broadcasts ⟨2, ![P, Q]⟩) :
    maximumf (addf (addf (addf
        (matmul d none (truncf .bf16 x hr) (truncf .bf16 W0 hr) (constant ⟨2, ![P, Q]⟩ .f32 0x00000000#32))
        (matmul d none (truncf .bf16 (shapeCast ⟨2, ![P, K]⟩ z1 hsx) hr) (truncf .bf16 W1 hr) (constant ⟨2, ![P, Q]⟩ .f32 0x00000000#32)))
        (matmul d none (truncf .bf16 (shapeCast ⟨2, ![P, K]⟩ z2 hsx) hr) (truncf .bf16 W2 hr) (constant ⟨2, ![P, Q]⟩ .f32 0x00000000#32)))
        (broadcastTo ⟨2, ![P, Q]⟩ (shapeCast ⟨2, ![1, Q]⟩ b hsc) hbc))
      (broadcast ⟨2, ![P, Q]⟩ (Scalar.ofBits (F := Ideal) .f32 0x00000000#32))
    = cheb x z1 z2 W0 W1 W2 (fun q => b (ix2 (0 : Fin 1) q)) := by
  funext j
  obtain ⟨p, q, rfl⟩ : ∃ (p : Fin P) (q : Fin Q), j = ix2 p q := ⟨j 0, j 1, eq_ix2 j⟩
  rw [shapeCast_self, shapeCast_self, shapeCast_self, cheb_ix2]
  show FloatOps.maximumf (((FloatOps.matmul d none (truncf .bf16 x hr) (truncf .bf16 W0 hr) (constant ⟨2, ![P, Q]⟩ .f32 0x00000000#32) (ix2 p q)
      + FloatOps.matmul d none (truncf .bf16 z1 hr) (truncf .bf16 W1 hr) (constant ⟨2, ![P, Q]⟩ .f32 0x00000000#32) (ix2 p q))
      + FloatOps.matmul d none (truncf .bf16 z2 hr) (truncf .bf16 W2 hr) (constant ⟨2, ![P, Q]⟩ .f32 0x00000000#32) (ix2 p q))
      + broadcastTo ⟨2, ![P, Q]⟩ b hbc (ix2 p q)) (Ideal.ofBits .f32 0x00000000#32) = _
  rw [Ideal.maximumf_def, PlainDot.matmul_zero_apply hd, PlainDot.matmul_zero_apply hd, PlainDot.matmul_zero_apply hd,
    broadcastTo_apply b hbc (ix2 p q) (ix2 (0 : Fin 1) q) (fun a => match a with
    | ⟨0, _⟩ => by show 0 = if (1 : Nat) = 1 then 0 else p.val; rw [if_pos rfl]
    | ⟨1, _⟩ => by show q.val = if Q = 1 then 0 else q.val; exact row_coord q)]
  rfl

/-- The same spelling when the first feature block, too, passes through a shape cast to its own shape (the layers whose
    input is an earlier layer's result). -/
theorem kernel_cheb_cast {d : DotDims ⟨2, ![P, K]⟩ ⟨2, ![K, Q]⟩ ⟨2, ![P, Q]⟩} (hd : PlainDot.IsPlain d)
    (x z1 z2 : FVec Ideal ⟨2, ![P, K]⟩ .f32) (W0 W1 W2 : FVec Ideal ⟨2, ![K, Q]⟩ .f32) (b : FVec Ideal ⟨2, ![1, Q]⟩ .f32)
    (hr : FTy.bits .bf16 < FTy.bits .f32) (hsx : (⟨2, ![P, K]⟩ : Shape).ShapeCasts ⟨2, ![P, K]⟩)
    (hsc : (⟨2, ![1, Q]⟩ : Shape).ShapeCasts ⟨2, ![1, Q]⟩) (hbc : (⟨2, ![1, Q]⟩ : Shape).Broadcasts ⟨2, ![P, Q]⟩) :
    maximumf (addf (addf (addf
        (matmul d none (truncf .bf16 (shapeCast ⟨2, ![P, K]⟩ x hsx) hr) (truncf .bf16 W0 hr) (constant ⟨2, ![P, Q]⟩ .f32 0x00000000#32))
        (matmul d none (truncf .bf16 (shapeCast ⟨2, ![P, K]⟩ z1 hsx) hr) (truncf .bf16 W1 hr) (constant ⟨2, ![P, Q]⟩ .f32 0x00000000#32)))
        (matmul d none (truncf .bf16 (shapeCast ⟨2, ![P, K]⟩ z2 hsx) hr) (truncf .bf16 W2 hr) (constant ⟨2, ![P, Q]⟩ .f32 0x00000000#32)))
        (broadcastTo ⟨2, ![P, Q]⟩ (shapeCast ⟨2, ![1, Q]⟩ b hsc) hbc))
      (broadcast ⟨2, ![P, Q]⟩ (Scalar.ofBits (F := Ideal) .f32 0x00000000#32))
    = cheb x z1 z2 W0 W1 W2 (fun q => b (ix2 (0 : Fin 1) q)) := by
  rw [shapeCast_self x hsx]
  exact kernel_cheb hd x z1 z2 W0 W1 W2 b hr hsx hsc hbc

/-- THE HOST'S SPELLING: three general dot products added left to right, plus a length-Q bias broadcast to [1, Q] and
    then to [P, Q], then the maximum with a broadcast zero constant. -/
theorem host_cheb {d : DotDims ⟨2, ![P, K]⟩ ⟨2, ![K, Q]⟩ ⟨2, ![P, Q]⟩} (hd : PlainDot.IsPlain d)
    (x z1 z2 : FVec Ideal ⟨2, ![P, K]⟩ .f32) (W0 W1 W2 : FVec Ideal ⟨2, ![K, Q]⟩ .f32) (b : FVec Ideal ⟨1, ![Q]⟩ .f32)
    (h1 : (⟨1, ![Q]⟩ : Shape).BroadcastsInDim ⟨2, ![1, Q]⟩ ![1])
    (h2 : (⟨2, ![1, Q]⟩ : Shape).BroadcastsInDim ⟨2, ![P, Q]⟩ ![0, 1])
    (h0 : (⟨0, ![]⟩ : Shape).BroadcastsInDim ⟨2, ![P, Q]⟩ ![]) :
    maximumf (addf (addf (addf (Host.dotGeneral d none x W0) (Host.dotGeneral d none z1 W1)) (Host.dotGeneral d none z2 W2))
        (broadcastInDim ⟨2, ![P, Q]⟩ ![0, 1] h2 (broadcastInDim ⟨2, ![1, Q]⟩ ![1] h1 b)))
      (broadcastInDim ⟨2, ![P, Q]⟩ ![] h0 (constant (F := Ideal) ⟨0, ![]⟩ .f32 0x00000000#32))
    = cheb x z1 z2 W0 W1 W2 (fun q => b (ix1 q)) := by
  funext j
  obtain ⟨p, q, rfl⟩ : ∃ (p : Fin P) (q : Fin Q), j = ix2 p q := ⟨j 0, j 1, eq_ix2 j⟩
  rw [cheb_ix2]
  show FloatOps.maximumf (((FloatOps.dotGeneral d none .single x W0 (ix2 p q) + FloatOps.dotGeneral d none .single z1 W1 (ix2 p q))
      + FloatOps.dotGeneral d none .single z2 W2 (ix2 p q))
      + broadcastInDim ⟨2, ![P, Q]⟩ ![0, 1] h2 (broadcastInDim ⟨2, ![1, Q]⟩ ![1] h1 b) (ix2 p q))
      (broadcastInDim ⟨2, ![P, Q]⟩ ![] h0 (constant (F := Ideal) ⟨0, ![]⟩ .f32 0x00000000#32) (ix2 p q)) = _
  rw [Ideal.maximumf_def, PlainDot.dotGeneral_apply hd, PlainDot.dotGeneral_apply hd, PlainDot.dotGeneral_apply hd,
    broadcastInDim_apply ![0, 1] h2 _ (ix2 p q) (ix2 (0 : Fin 1) q) (fun a => match a with
    | ⟨0, _⟩ => by show 0 = if (1 : Nat) = 1 then 0 else p.val; rw [if_pos rfl]
    | ⟨1, _⟩ => by show q.val = if Q = 1 then 0 else q.val; exact row_coord q),
    broadcastInDim_apply ![1] h1 b (ix2 (0 : Fin 1) q) (ix1 q) (fun a => match a with
    | ⟨0, _⟩ => by show q.val = if Q = 1 then 0 else q.val; exact row_coord q),
    broadcastInDim_apply ![] h0 _ (ix2 p q) ix0 (fun a => a.elim0)]
  rfl

/-- A length-Q vector reshaped to a [1, Q] row, read at (0, q), is the vector at q. -/
theorem reshape_row (b : (⟨1, ![Q]⟩ : Shape).Idx → EReal) (h : (⟨1, ![Q]⟩ : Shape).ShapeCasts ⟨2, ![1, Q]⟩) (q : Fin Q) :
    shapeCast ⟨2, ![1, Q]⟩ b h (ix2 (0 : Fin 1) q) = b (ix1 q) :=
  shapeCast_apply b h (ix2 (0 : Fin 1) q) (ix1 q) (by
    simp only [Shape.rowMajor_val_two, Shape.rowMajor_val_one]
    show q.val = 0 * Q + q.val
    omega)

end ChebLayer

end
-- ==== Proof.LibDenseLayer.lean ====
/-
  A dense layer and the gated activation, as whole-array functions over the extended reals.

  For a [P, K] array x, a [K, Q] array W and a row b of length Q the dense layer is
      dense x W b (p, q) = (∑ k, x (p, k) · W (k, q)) + b q,
  and the activation is y ↦ y · σ(y) with σ y = 1 / (1 + e^(-y)) (the logistic function, with its limits 0 and 1 at
  the two infinities).  A kernel spells the layer as a matrix product of the operands rounded to bf16, accumulated
  into zero, plus the row broadcast of a [1, Q] bias block; a host program spells it as a general dot product plus
  two broadcasts of a length-Q bias.  At the ideal instance a rounding is the identity and both products are the
  exact sum, so both spellings ARE `dense`.  Likewise the kernel's x · logistic x and the host's
  x · (1 / (1 + exp (-x))) are both the activation.

  An entry (p, q) of a layer depends on row p of x only: `dense_congr` and `mlp_congr` say so, which is what lets
  a block of rows be computed from a block of rows.
-/
import Idealize.ShloMosaic.Lib.ValueIdx
import Idealize.ShloMosaic.Lib.Pipeline.Value
import Idealize.ShloMosaic.PureOps.Ideal.Laws
import proofs.«176422_j70471823393083_2_alg».proof.Proof.LibPlainDot

noncomputable section

namespace DenseLayer

open Idealize.ShloMosaic Idealize.ShloMosaic.ValueIdx

variable {P P' K Q R : Nat}

/-- x · W + b, entry by entry. -/
def dense (x : (⟨2, ![P, K]⟩ : Shape).Idx → EReal) (W : (⟨2, ![K, Q]⟩ : Shape).Idx → EReal) (b : Fin Q → EReal) :
    (⟨2, ![P, Q]⟩ : Shape).Idx → EReal :=
  fun i => (∑ k : Fin K, x (ix2 (n0 := P) (i 0) k) * W (ix2 k (n1 := Q) (i 1))) + b (i 1)

theorem dense_ix2 (x : (⟨2, ![P, K]⟩ : Shape).Idx → EReal) (W : (⟨2, ![K, Q]⟩ : Shape).Idx → EReal) (b : Fin Q → EReal)
    (p : Fin P) (q : Fin Q) : dense x W b (ix2 p q) = (∑ k : Fin K, x (ix2 p k) * W (ix2 k q)) + b q := rfl

/-- The activation y · σ(y). -/
def act (y : EReal) : EReal := y * Ideal.logistic y

/-- The activation applied to every entry. -/
def actArr {s : Shape} (y : s.Idx → EReal) : s.Idx → EReal := fun i => act (y i)

/-- Two layers with the activation between them. -/
def mlp (x : (⟨2, ![P, K]⟩ : Shape).Idx → EReal) (W : (⟨2, ![K, Q]⟩ : Shape).Idx → EReal) (b : Fin Q → EReal)
    (W' : (⟨2, ![Q, R]⟩ : Shape).Idx → EReal) (b' : Fin R → EReal) : (⟨2, ![P, R]⟩ : Shape).Idx → EReal :=
  dense (actArr (dense x W b)) W' b'

/-- Entry (p, q) of a layer reads row p of its input, column q of its weights and entry q of its bias, and nothing else. -/
theorem dense_congr {x : (⟨2, ![P, K]⟩ : Shape).Idx → EReal} {x' : (⟨2, ![P', K]⟩ : Shape).Idx → EReal}
    {W W' : (⟨2, ![K, Q]⟩ : Shape).Idx → EReal} {b b' : Fin Q → EReal} {p : Fin P} {p' : Fin P'} {q : Fin Q}
    (hx : ∀ k, x (ix2 p k) = x' (ix2 p' k)) (hW : ∀ k, W (ix2 k q) = W' (ix2 k q)) (hb : b q = b' q) :
    dense x W b (ix2 p q) = dense x' W' b' (ix2 p' q) := by
  rw [dense_ix2, dense_ix2, hb]
  exact congrArg (· + b' q) (Finset.sum_congr rfl fun k _ => by rw [hx k, hW k])

/-- The same for two layers: entry (p, r) reads row p of the input. -/
theorem mlp_congr {x : (⟨2, ![P, K]⟩ : Shape).Idx → EReal} {x' : (⟨2, ![P', K]⟩ : Shape).Idx → EReal}
    {W W₀ : (⟨2, ![K, Q]⟩ : Shape).Idx → EReal} {b b₀ : Fin Q → EReal}
    {W' W₀' : (⟨2, ![Q, R]⟩ : Shape).Idx → EReal} {b' b₀' : Fin R → EReal} {p : Fin P} {p' : Fin P'} {r : Fin R}
    (hx : ∀ k, x (ix2 p k) = x' (ix2 p' k)) (hW : ∀ k q, W (ix2 k q) = W₀ (ix2 k q)) (hb : ∀ q, b q = b₀ q)
    (hW' : ∀ q, W' (ix2 q r) = W₀' (ix2 q r)) (hb' : b' r = b₀' r) :
    mlp x W b W' b' (ix2 p r) = mlp x' W₀ b₀ W₀' b₀' (ix2 p' r) :=
  dense_congr (fun q => congrArg act (dense_congr hx (fun k => hW k q) (hb q))) hW' hb'

/-- The float word of 1.0 is the real number one. -/
theorem ofBits_one : Ideal.ofBits .f32 0x3F800000#32 = 1 := by
  simp [Ideal.ofBits, Ideal.ieee, -EReal.coe_mul]; norm_num

/-- In a row of length Q read at q: either Q = 1 and q = 0, or the coordinate is q. -/
theorem row_coord (q : Fin Q) : q.val = if Q = 1 then 0 else q.val := by
  by_cases h : Q = 1
  · rw [if_pos h]; have := q.isLt; omega
  · rw [if_neg h]

/-- THE KERNEL'S SPELLING of a layer: the product of the operands rounded to bf16, accumulated into zero, plus the row
    broadcast of a [1, Q] bias block. -/
theorem kernel_dense {d : DotDims ⟨2, ![P, K]⟩ ⟨2, ![K, Q]⟩ ⟨2, ![P, Q]⟩} (hd : PlainDot.IsPlain d)
    (x : FVec Ideal ⟨2, ![P, K]⟩ .f32) (W : FVec Ideal ⟨2, ![K, Q]⟩ .f32) (b : FVec Ideal ⟨2, ![1, Q]⟩ .f32)
    (hr : FTy.bits .bf16 < FTy.bits .f32) (hsc : (⟨2, ![1, Q]⟩ : Shape).ShapeCasts ⟨2, ![1, Q]⟩)
    (hbc : (⟨2, ![1, Q]⟩ : Shape).Broadcasts ⟨2, ![P, Q]⟩) :
    addf (matmul d none (truncf .bf16 x hr) (truncf .bf16 W hr) (constant ⟨2, ![P, Q]⟩ .f32 0x00000000#32))
      (broadcastTo ⟨2, ![P, Q]⟩ (shapeCast ⟨2, ![1, Q]⟩ b hsc) hbc)
    = dense x W (fun q => b (ix2 (0 : Fin 1) q)) := by
  funext j
  obtain ⟨p, q, rfl⟩ : ∃ (p : Fin P) (q : Fin Q), j = ix2 p q := ⟨j 0, j 1, eq_ix2 j⟩
  rw [shapeCast_self]
  show FloatOps.matmul d none (truncf .bf16 x hr) (truncf .bf16 W hr) (constant ⟨2, ![P, Q]⟩ .f32 0x00000000#32) (ix2 p q)
      + broadcastTo ⟨2, ![P, Q]⟩ b hbc (ix2 p q) = _
  rw [PlainDot.matmul_zero_apply hd, broadcastTo_apply b hbc (ix2 p q) (ix2 (0 : Fin 1) q) (fun a => match a with
    | ⟨0, _⟩ => by show 0 = if (1 : Nat) = 1 then 0 else p.val; rw [if_pos rfl]
    | ⟨1, _⟩ => by show q.val = if Q = 1 then 0 else q.val; exact row_coord q)]
  rfl

/-- THE HOST'S SPELLING of a layer: the general dot product plus a length-Q bias broadcast to [1, Q] and then to [P, Q]. -/
theorem host_dense {d : DotDims ⟨2, ![P, K]⟩ ⟨2, ![K, Q]⟩ ⟨2, ![P, Q]⟩} (hd : PlainDot.IsPlain d)
    (x : FVec Ideal ⟨2, ![P, K]⟩ .f32) (W : FVec Ideal ⟨2, ![K, Q]⟩ .f32) (b : FVec Ideal ⟨1, ![Q]⟩ .f32)
    (h1 : (⟨1, ![Q]⟩ : Shape).BroadcastsInDim ⟨2, ![1, Q]⟩ ![1])
    (h2 : (⟨2, ![1, Q]⟩ : Shape).BroadcastsInDim ⟨2, ![P, Q]⟩ ![0, 1]) :
    addf (Host.dotGeneral d none x W) (broadcastInDim ⟨2, ![P, Q]⟩ ![0, 1] h2 (broadcastInDim ⟨2, ![1, Q]⟩ ![1] h1 b))
    = dense x W (fun q => b (ix1 q)) := by
  funext j
  obtain ⟨p, q, rfl⟩ : ∃ (p : Fin P) (q : Fin Q), j = ix2 p q := ⟨j 0, j 1, eq_ix2 j⟩
  show FloatOps.dotGeneral d none .single x W (ix2 p q)
      + broadcastInDim ⟨2, ![P, Q]⟩ ![0, 1] h2 (broadcastInDim ⟨2, ![1, Q]⟩ ![1] h1 b) (ix2 p q) = _
  rw [PlainDot.dotGeneral_apply hd, broadcastInDim_apply ![0, 1] h2 _ (ix2 p q) (ix2 (0 : Fin 1) q) (fun a => match a with
    | ⟨0, _⟩ => by show 0 = if (1 : Nat) = 1 then 0 else p.val; rw [if_pos rfl]
    | ⟨1, _⟩ => by show q.val = if Q = 1 then 0 else q.val; exact row_coord q),
    broadcastInDim_apply ![1] h1 b (ix2 (0 : Fin 1) q) (ix1 q) (fun a => match a with
    | ⟨0, _⟩ => by show q.val = if Q = 1 then 0 else q.val; exact row_coord q)]
  rfl

/-- THE KERNEL'S SPELLING of the activation: y times the logistic of y. -/
theorem kernel_act {s : Shape} (y : FVec Ideal s .f32) : mulf y (logistic y) = actArr y := rfl

/-- THE HOST'S SPELLING of the activation: y times the quotient of one by one plus the exponential of minus y. -/
theorem host_act {s : Shape} (y : FVec Ideal s .f32) (h : (⟨0, ![]⟩ : Shape).BroadcastsInDim s ![]) :
    mulf y (Host.divf (broadcastInDim s ![] h (constant (F := Ideal) ⟨0, ![]⟩ .f32 0x3F800000#32))
      (addf (broadcastInDim s ![] h (constant (F := Ideal) ⟨0, ![]⟩ .f32 0x3F800000#32)) (Host.exp (Host.negf y))))
    = actArr y := by
  funext i
  have one : broadcastInDim s ![] h (constant (F := Ideal) ⟨0, ![]⟩ .f32 0x3F800000#32) i = (1 : EReal) :=
    (broadcastInDim_apply ![] h _ i ix0 (fun a => a.elim0)).trans ofBits_one
  show y i * Ideal.div (broadcastInDim s ![] h (constant (F := Ideal) ⟨0, ![]⟩ .f32 0x3F800000#32) i)
      (broadcastInDim s ![] h (constant (F := Ideal) ⟨0, ![]⟩ .f32 0x3F800000#32) i + Ideal.exp (-(y i))) = y i * Ideal.logistic (y i)
  rw [one]
  rfl

end DenseLayer

end
-- ==== Proof.PlaneMlp.lean ====
/-
  The small network on top of the plane features, as ONE whole-array function over any number P of rows:

      mlp f0 f1 f2 wa wb wc b1 w2 b2 (p, q) = σ( ∑ₖ h(p, k) · w2(k, q) + b2 q ),
      h(p, k) = max( ∑ᵢ f0(p,i)·wa(i,k) + ∑ᵢ f1(p,i)·wb(i,k) + ∑ᵢ f2(p,i)·wc(i,k) + b1 k , 0 ),   σ x = 1 / (1 + e⁻ˣ)

  on the extended reals: three feature blocks of width 96 against three 96-row blocks of the first weight matrix (the
  hidden layer of width 128 is the three-product layer `ChebLayer.cheb`), then a dense layer to width 3 and the
  logistic function. Entry (p, q) reads row p of each feature block and nothing else of them. The kernel's spelling of
  it — products of bf16-rounded operands into zero accumulators, the rounding being the identity on the extended reals —
  equals it.
-/
import Idealize.ShloMosaic.Lib.ValueIdx
import Idealize.ShloMosaic.Lib.Pipeline.Value
import Idealize.ShloMosaic.PureOps.Ideal.Laws
import proofs.«176422_j70471823393083_2_alg».proof.Proof.LibPlainDot
import proofs.«176422_j70471823393083_2_alg».proof.Proof.LibChebLayer
import proofs.«176422_j70471823393083_2_alg».proof.Proof.LibDenseLayer

noncomputable section

namespace PlaneMlp

open Idealize.ShloMosaic Idealize.ShloMosaic.ValueIdx

variable {P P' : Nat}

/-- A [a, b] array of extended reals. -/
abbrev Mat (a b : Nat) := (⟨2, ![a, b]⟩ : Shape).Idx → EReal

/-- The network, entry by entry. -/
def mlp (f0 f1 f2 : Mat P 96) (wa wb wc : Mat 96 128) (b1 : Fin 128 → EReal) (w2 : Mat 128 3) (b2 : Fin 3 → EReal) : Mat P 3 :=
  fun i => Ideal.logistic (DenseLayer.dense (ChebLayer.cheb f0 f1 f2 wa wb wc b1) w2 b2 i)

theorem mlp_ix2 (f0 f1 f2 : Mat P 96) (wa wb wc : Mat 96 128) (b1 : Fin 128 → EReal) (w2 : Mat 128 3) (b2 : Fin 3 → EReal)
    (p : Fin P) (q : Fin 3) :
    mlp f0 f1 f2 wa wb wc b1 w2 b2 (ix2 p q)
      = Ideal.logistic ((∑ k : Fin 128, ChebLayer.cheb f0 f1 f2 wa wb wc b1 (ix2 p k) * w2 (ix2 k q)) + b2 q) := rfl

/-- Entry (p, q) reads row p of the three feature blocks only. -/
theorem mlp_congr {f0 f1 f2 : Mat P 96} {g0 g1 g2 : Mat P' 96} (wa wb wc : Mat 96 128) (b1 : Fin 128 → EReal)
    (w2 : Mat 128 3) (b2 : Fin 3 → EReal) {p : Fin P} {p' : Fin P'} (q : Fin 3)
    (h0 : ∀ k, f0 (ix2 p k) = g0 (ix2 p' k)) (h1 : ∀ k, f1 (ix2 p k) = g1 (ix2 p' k)) (h2 : ∀ k, f2 (ix2 p k) = g2 (ix2 p' k)) :
    mlp f0 f1 f2 wa wb wc b1 w2 b2 (ix2 p q) = mlp g0 g1 g2 wa wb wc b1 w2 b2 (ix2 p' q) := by
  have e : ∀ k : Fin 128, ChebLayer.cheb f0 f1 f2 wa wb wc b1 (ix2 p k) = ChebLayer.cheb g0 g1 g2 wa wb wc b1 (ix2 p' k) :=
    fun k => ChebLayer.cheb_congr h0 h1 h2 (fun _ => rfl) (fun _ => rfl) (fun _ => rfl) rfl
  rw [mlp_ix2, mlp_ix2]
  simp only [e]

/-- The hidden layer as the kernel spells it: the feature blocks arrive as bf16 and are multiplied as they are, the
    weight blocks are rounded to bf16 first; three products into zero accumulators added left to right, the row broadcast
    of the [1, 128] bias block, the maximum with a splat zero. -/
theorem kernel_hidden {d : DotDims ⟨2, ![P, 96]⟩ ⟨2, ![96, 128]⟩ ⟨2, ![P, 128]⟩} (hd : PlainDot.IsPlain d)
    (x0 x1 x2 : FVec Ideal ⟨2, ![P, 96]⟩ .bf16) (W0 W1 W2 : FVec Ideal ⟨2, ![96, 128]⟩ .f32) (b : FVec Ideal ⟨2, ![1, 128]⟩ .f32)
    (hr : FTy.bits .bf16 < FTy.bits .f32) (hbc : (⟨2, ![1, 128]⟩ : Shape).Broadcasts ⟨2, ![P, 128]⟩) :
    maximumf (addf (addf (addf
        (matmul d none x0 (truncf .bf16 W0 hr) (constant ⟨2, ![P, 128]⟩ .f32 0x00000000#32))
        (matmul d none x1 (truncf .bf16 W1 hr) (constant ⟨2, ![P, 128]⟩ .f32 0x00000000#32)))
        (matmul d none x2 (truncf .bf16 W2 hr) (constant ⟨2, ![P, 128]⟩ .f32 0x00000000#32)))
        (broadcastTo ⟨2, ![P, 128]⟩ b hbc))
      (broadcast ⟨2, ![P, 128]⟩ (Scalar.ofBits (F := Ideal) .f32 0x00000000#32))
    = ChebLayer.cheb x0 x1 x2 W0 W1 W2 (fun q => b (ix2 (0 : Fin 1) q)) := by
  funext j
  obtain ⟨p, q, rfl⟩ : ∃ (p : Fin P) (q : Fin 128), j = ix2 p q := ⟨j 0, j 1, eq_ix2 j⟩
  rw [ChebLayer.cheb_ix2]
  show FloatOps.maximumf (((FloatOps.matmul d none x0 (truncf .bf16 W0 hr) (constant ⟨2, ![P, 128]⟩ .f32 0x00000000#32) (ix2 p q)
      + FloatOps.matmul d none x1 (truncf .bf16 W1 hr) (constant ⟨2, ![P, 128]⟩ .f32 0x00000000#32) (ix2 p q))
      + FloatOps.matmul d none x2 (truncf .bf16 W2 hr) (constant ⟨2, ![P, 128]⟩ .f32 0x00000000#32) (ix2 p q))
      + broadcastTo ⟨2, ![P, 128]⟩ b hbc (ix2 p q)) (Ideal.ofBits .f32 0x00000000#32) = _
  rw [Ideal.maximumf_def, PlainDot.matmul_zero_apply hd, PlainDot.matmul_zero_apply hd, PlainDot.matmul_zero_apply hd,
    broadcastTo_apply b hbc (ix2 p q) (ix2 (0 : Fin 1) q) (fun a => match a with
    | ⟨0, _⟩ => by show 0 = if (1 : Nat) = 1 then 0 else p.val; rw [if_pos rfl]
    | ⟨1, _⟩ => by show q.val = if (128 : Nat) = 1 then 0 else q.val; rw [if_neg (by decide)])]
  rfl

/-- The whole network as the kernel spells it, from the loaded blocks (each passing through a shape cast to its own
    shape): hidden layer, rounding to bf16, the product with the rounded second weight matrix into a zero accumulator,
    the row broadcast of the [1, 3] bias block, the logistic function. -/
theorem kernel_mlp {d1 : DotDims ⟨2, ![P, 96]⟩ ⟨2, ![96, 128]⟩ ⟨2, ![P, 128]⟩} (hd1 : PlainDot.IsPlain d1)
    {d2 : DotDims ⟨2, ![P, 128]⟩ ⟨2, ![128, 3]⟩ ⟨2, ![P, 3]⟩} (hd2 : PlainDot.IsPlain d2)
    (v0 v2 v4 : FVec Ideal ⟨2, ![P, 96]⟩ .bf16) (v6 v9 v12 : FVec Ideal ⟨2, ![96, 128]⟩ .f32) (v20 : FVec Ideal ⟨2, ![1, 128]⟩ .f32)
    (v27 : FVec Ideal ⟨2, ![128, 3]⟩ .f32) (v30 : FVec Ideal ⟨2, ![1, 3]⟩ .f32)
    (hr : FTy.bits .bf16 < FTy.bits .f32)
    (hsx : (⟨2, ![P, 96]⟩ : Shape).ShapeCasts ⟨2, ![P, 96]⟩) (hsw : (⟨2, ![96, 128]⟩ : Shape).ShapeCasts ⟨2, ![96, 128]⟩)
    (hs1 : (⟨2, ![1, 128]⟩ : Shape).ShapeCasts ⟨2, ![1, 128]⟩) (hb1 : (⟨2, ![1, 128]⟩ : Shape).Broadcasts ⟨2, ![P, 128]⟩)
    (hs3 : (⟨2, ![1, 3]⟩ : Shape).ShapeCasts ⟨2, ![1, 3]⟩) (hb3 : (⟨2, ![1, 3]⟩ : Shape).Broadcasts ⟨2, ![P, 3]⟩) :
    logistic (addf
      (matmul d2 none
        (truncf .bf16 (maximumf (addf (addf (addf
            (matmul d1 none (shapeCast ⟨2, ![P, 96]⟩ v0 hsx) (truncf .bf16 (shapeCast ⟨2, ![96, 128]⟩ v6 hsw) hr) (constant ⟨2, ![P, 128]⟩ .f32 0x00000000#32))
            (matmul d1 none (shapeCast ⟨2, ![P, 96]⟩ v2 hsx) (truncf .bf16 (shapeCast ⟨2, ![96, 128]⟩ v9 hsw) hr) (constant ⟨2, ![P, 128]⟩ .f32 0x00000000#32)))
            (matmul d1 none (shapeCast ⟨2, ![P, 96]⟩ v4 hsx) (truncf .bf16 (shapeCast ⟨2, ![96, 128]⟩ v12 hsw) hr) (constant ⟨2, ![P, 128]⟩ .f32 0x00000000#32)))
            (broadcastTo ⟨2, ![P, 128]⟩ (shapeCast ⟨2, ![1, 128]⟩ v20 hs1) hb1))
          (broadcast ⟨2, ![P, 128]⟩ (Scalar.ofBits (F := Ideal) .f32 0x00000000#32))) hr)
        (truncf .bf16 v27 hr) (constant ⟨2, ![P, 3]⟩ .f32 0x00000000#32))
      (broadcastTo ⟨2, ![P, 3]⟩ (shapeCast ⟨2, ![1, 3]⟩ v30 hs3) hb3))
    = mlp v0 v2 v4 v6 v9 v12 (fun q => v20 (ix2 (0 : Fin 1) q)) v27 (fun q => v30 (ix2 (0 : Fin 1) q)) := by
  funext j
  obtain ⟨p, q, rfl⟩ : ∃ (p : Fin P) (q : Fin 3), j = ix2 p q := ⟨j 0, j 1, eq_ix2 j⟩
  rw [shapeCast_self, shapeCast_self, shapeCast_self, shapeCast_self, shapeCast_self, shapeCast_self, shapeCast_self,
    shapeCast_self, kernel_hidden hd1 v0 v2 v4 v6 v9 v12 v20 hr hb1, mlp_ix2]
  show Ideal.logistic (FloatOps.matmul d2 none
      (truncf .bf16 (ChebLayer.cheb v0 v2 v4 v6 v9 v12 (fun q => v20 (ix2 (0 : Fin 1) q))) hr) (truncf .bf16 v27 hr)
      (constant ⟨2, ![P, 3]⟩ .f32 0x00000000#32) (ix2 p q) + broadcastTo ⟨2, ![P, 3]⟩ v30 hb3 (ix2 p q)) = _
  rw [PlainDot.matmul_zero_apply hd2,
    broadcastTo_apply v30 hb3 (ix2 p q) (ix2 (0 : Fin 1) q) (fun a => match a with
    | ⟨0, _⟩ => by show 0 = if (1 : Nat) = 1 then 0 else p.val; rw [if_pos rfl]
    | ⟨1, _⟩ => by show q.val = if (3 : Nat) = 1 then 0 else q.val; rw [if_neg (by decide)])]
  rfl

end PlaneMlp

end
-- ==== Proof.KernelReads.lean ====
/-
  What the kernel's windows hold at a grid point. The kernel runs over 32 points; at point `t` the three feature
  windows hold rows `8192·t … 8192·t + 8191` of their arrays and the six parameter windows hold their whole arrays
  (the printed index maps, decided over the grid). The body's arithmetic on the loaded blocks is the network
  `PlaneMlp.mlp`, whose entry (p, q) reads only row p of the features.
-/
import proofs.«176422_j70471823393083_2_alg».proof.Proof.Gen.KernelIdeal.Value
import proofs.«176422_j70471823393083_2_alg».proof.Proof.PlaneMlp

set_option maxRecDepth 16384

noncomputable section

namespace Cert.KernelIdeal.Blocks

open Cert.KernelIdeal Cert.KernelIdeal.Gen Cert.KernelIdeal.Value Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ) (ρ : Dev nD → PrngReg)

theorem plain1 : PlainDot.IsPlain dot_S8192x96_S96x128_S8192x128_1_0_0_1_n_n := ⟨rfl, rfl, rfl, rfl, rfl, rfl⟩
theorem plain2 : PlainDot.IsPlain dot_S8192x128_S128x3_S8192x3_1_0_0_1_n_n := ⟨rfl, rfl, rfl, rfl, rfl, rfl⟩

/-- The body's arithmetic is the network on its loaded blocks. -/
theorem payload_eq (v0 v2 v4 : Vec Ideal S8192x96 .bf16) (v6 v9 v12 : Vec Ideal S96x128 .f32) (v20 : Vec Ideal S1x128 .f32)
    (v27 : Vec Ideal S128x3 .f32) (v30 : Vec Ideal S1x3 .f32) :
    k0_pay1 (F := Ideal) v0 v2 v4 v6 v9 v12 v20 v27 v30
      = PlaneMlp.mlp v0 v2 v4 v6 v9 v12 (fun q => v20 (ix2 (0 : Fin 1) q)) v27 (fun q => v30 (ix2 (0 : Fin 1) q)) := by
  unfold k0_pay1
  exact PlaneMlp.kernel_mlp plain1 plain2 v0 v2 v4 v6 v9 v12 v20 v27 v30 _ _ _ _ _ _ _

theorem hz : (![0, 0] : Fin 2 → Nat) = fun _ => 0 := funext fun a => by fin_cases a <;> rfl

/-- The printed index maps over the grid: the feature windows and the output move down one block of rows per point,
    the parameter windows stay. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_9.index t (0 : Fin 2) = t.val ∧ win0_9.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = 0 ∧ win0_7.index t (1 : Fin 2) = 0
    ∧ win0_8.index t (0 : Fin 2) = 0 ∧ win0_8.index t (1 : Fin 2) = 0 :=
  (by decide +kernel : ∀ t : Fin grid0.N, _)

/-- Point `t`'s block of feature window 0: rows `8192·t … 8192·t + 8191` of the array, every column. -/
theorem read0 (c : Dev nD) (t : Fin cfg0.N) (p : Fin 8192) (k : Fin 96) (h : t.val * 8192 + p.val < 262144) :
    iblk m c 0 t (ix2 p k) = V m c main_v106 (ix2 ⟨t.val * 8192 + p.val, h⟩ k) := by
  show V m c main_v106 (((cfg0.win 0).blk t).view.emb (ix2 p k)) = V m c main_v106 _
  refine congrArg _ (funext fun a => Fin.ext ?_)
  have e := idx_facts t
  match a with
  | ⟨0, _⟩ => show win0_0.index t (0 : Fin 2) * 8192 + 1 * p.val = t.val * 8192 + p.val; omega
  | ⟨1, _⟩ => show win0_0.index t (1 : Fin 2) * 96 + 1 * k.val = k.val; omega

/-- Point `t`'s block of feature window 1: rows `8192·t … 8192·t + 8191` of the array, every column. -/
theorem read1 (c : Dev nD) (t : Fin cfg0.N) (p : Fin 8192) (k : Fin 96) (h : t.val * 8192 + p.val < 262144) :
    iblk m c 1 t (ix2 p k) = V m c main_v204 (ix2 ⟨t.val * 8192 + p.val, h⟩ k) := by
  show V m c main_v204 (((cfg0.win 1).blk t).view.emb (ix2 p k)) = V m c main_v204 _
  refine congrArg _ (funext fun a => Fin.ext ?_)
  have e := idx_facts t
  match a with
  | ⟨0, _⟩ => show win0_1.index t (0 : Fin 2) * 8192 + 1 * p.val = t.val * 8192 + p.val; omega
  | ⟨1, _⟩ => show win0_1.index t (1 : Fin 2) * 96 + 1 * k.val = k.val; omega

/-- Point `t`'s block of feature window 2: rows `8192·t … 8192·t + 8191` of the array, every column. -/
theorem read2 (c : Dev nD) (t : Fin cfg0.N) (p : Fin 8192) (k : Fin 96) (h : t.val * 8192 + p.val < 262144) :
    iblk m c 2 t (ix2 p k) = V m c main_v302 (ix2 ⟨t.val * 8192 + p.val, h⟩ k) := by
  show V m c main_v302 (((cfg0.win 2).blk t).view.emb (ix2 p k)) = V m c main_v302 _
  refine congrArg _ (funext fun a => Fin.ext ?_)
  have e := idx_facts t
  match a with
  | ⟨0, _⟩ => show win0_2.index t (0 : Fin 2) * 8192 + 1 * p.val = t.val * 8192 + p.val; omega
  | ⟨1, _⟩ => show win0_2.index t (1 : Fin 2) * 96 + 1 * k.val = k.val; omega

/-- Window 3 stages its whole array at every point. -/
theorem read3 (c : Dev nD) (t : Fin cfg0.N) : iblk m c 3 t = V m c main_v303 := by
  funext y
  show V m c main_v303 (((cfg0.win 3).blk t).view.emb y) = V m c main_v303 y
  refine congrArg _ (funext fun a => Fin.ext ?_)
  have e := idx_facts t
  match a with
  | ⟨0, _⟩ => show win0_3.index t (0 : Fin 2) * 96 + 1 * (y 0).val = (y 0).val; omega
  | ⟨1, _⟩ => show win0_3.index t (1 : Fin 2) * 128 + 1 * (y 1).val = (y 1).val; omega

/-- Window 4 stages its whole array at every point. -/
theorem read4 (c : Dev nD) (t : Fin cfg0.N) : iblk m c 4 t = V m c main_v304 := by
  funext y
  show V m c main_v304 (((cfg0.win 4).blk t).view.emb y) = V m c main_v304 y
  refine congrArg _ (funext fun a => Fin.ext ?_)
  have e := idx_facts t
  match a with
  | ⟨0, _⟩ => show win0_4.index t (0 : Fin 2) * 96 + 1 * (y 0).val = (y 0).val; omega
  | ⟨1, _⟩ => show win0_4.index t (1 : Fin 2) * 128 + 1 * (y 1).val = (y 1).val; omega

/-- Window 5 stages its whole array at every point. -/
theorem read5 (c : Dev nD) (t : Fin cfg0.N) : iblk m c 5 t = V m c main_v305 := by
  funext y
  show V m c main_v305 (((cfg0.win 5).blk t).view.emb y) = V m c main_v305 y
  refine congrArg _ (funext fun a => Fin.ext ?_)
  have e := idx_facts t
  match a with
  | ⟨0, _⟩ => show win0_5.index t (0 : Fin 2) * 96 + 1 * (y 0).val = (y 0).val; omega
  | ⟨1, _⟩ => show win0_5.index t (1 : Fin 2) * 128 + 1 * (y 1).val = (y 1).val; omega

/-- Window 6 stages its whole array at every point. -/
theorem read6 (c : Dev nD) (t : Fin cfg0.N) : iblk m c 6 t = V m c main_v306 := by
  funext y
  show V m c main_v306 (((cfg0.win 6).blk t).view.emb y) = V m c main_v306 y
  refine congrArg _ (funext fun a => Fin.ext ?_)
  have e := idx_facts t
  match a with
  | ⟨0, _⟩ => show win0_6.index t (0 : Fin 2) * 1 + 1 * (y 0).val = (y 0).val; omega
  | ⟨1, _⟩ => show win0_6.index t (1 : Fin 2) * 128 + 1 * (y 1).val = (y 1).val; omega

/-- Window 7 stages its whole array at every point. -/
theorem read7 (c : Dev nD) (t : Fin cfg0.N) : iblk m c 7 t = V m c main_arg6 := by
  funext y
  show V m c main_arg6 (((cfg0.win 7).blk t).view.emb y) = V m c main_arg6 y
  refine congrArg _ (funext fun a => Fin.ext ?_)
  have e := idx_facts t
  match a with
  | ⟨0, _⟩ => show win0_7.index t (0 : Fin 2) * 128 + 1 * (y 0).val = (y 0).val; omega
  | ⟨1, _⟩ => show win0_7.index t (1 : Fin 2) * 3 + 1 * (y 1).val = (y 1).val; omega

/-- Window 8 stages its whole array at every point. -/
theorem read8 (c : Dev nD) (t : Fin cfg0.N) : iblk m c 8 t = V m c main_v307 := by
  funext y
  show V m c main_v307 (((cfg0.win 8).blk t).view.emb y) = V m c main_v307 y
  refine congrArg _ (funext fun a => Fin.ext ?_)
  have e := idx_facts t
  match a with
  | ⟨0, _⟩ => show win0_8.index t (0 : Fin 2) * 1 + 1 * (y 0).val = (y 0).val; omega
  | ⟨1, _⟩ => show win0_8.index t (1 : Fin 2) * 3 + 1 * (y 1).val = (y 1).val; omega

/-- The output as one function of the nine arrays the windows stage. -/
def outOf (A0 A1 A2 : S262144x96.Idx → EReal) (A3 A4 A5 : S96x128.Idx → EReal) (A6 : S1x128.Idx → EReal)
    (A7 : S128x3.Idx → EReal) (A8 : S1x3.Idx → EReal) : S262144x3.Idx → EReal :=
  PlaneMlp.mlp A0 A1 A2 A3 A4 A5 (fun q => A6 (ix2 (0 : Fin 1) q)) A7 (fun q => A8 (ix2 (0 : Fin 1) q))

theorem row_lt (t : Fin cfg0.N) (p : Fin 8192) : t.val * 8192 + p.val < 262144 := by
  have ht : t.val < 32 := lt_of_lt_of_eq t.isLt N_0
  have := p.isLt
  omega

/-- One entry: when a block's row `j 0` holds what row `i 0` of each feature array holds, the network on the blocks
    at `j` is the network on the arrays at `i` (same column). -/
theorem point_eq (B0 B1 B2 : S8192x96.Idx → EReal) (A0 A1 A2 : S262144x96.Idx → EReal) (A3 A4 A5 : S96x128.Idx → EReal)
    (A6 : S1x128.Idx → EReal) (A7 : S128x3.Idx → EReal) (A8 : S1x3.Idx → EReal)
    (j : S8192x3.Idx) (i : S262144x3.Idx) (hq : (i 1).val = (j 1).val)
    (h0 : ∀ k : Fin 96, B0 (ix2 ⟨(j 0).val, (j 0).isLt⟩ k) = A0 (ix2 ⟨(i 0).val, (i 0).isLt⟩ k))
    (h1 : ∀ k : Fin 96, B1 (ix2 ⟨(j 0).val, (j 0).isLt⟩ k) = A1 (ix2 ⟨(i 0).val, (i 0).isLt⟩ k))
    (h2 : ∀ k : Fin 96, B2 (ix2 ⟨(j 0).val, (j 0).isLt⟩ k) = A2 (ix2 ⟨(i 0).val, (i 0).isLt⟩ k)) :
    PlaneMlp.mlp B0 B1 B2 A3 A4 A5 (fun q => A6 (ix2 (0 : Fin 1) q)) A7 (fun q => A8 (ix2 (0 : Fin 1) q)) j
      = outOf A0 A1 A2 A3 A4 A5 A6 A7 A8 i := by
  obtain ⟨p, q, rfl⟩ : ∃ (p : Fin 8192) (q : Fin 3), j = ix2 p q := ⟨j 0, j 1, eq_ix2 j⟩
  obtain ⟨p', q', rfl⟩ : ∃ (p' : Fin 262144) (q' : Fin 3), i = ix2 p' q' := ⟨i 0, i 1, eq_ix2 i⟩
  have hqq : q' = q := Fin.ext hq
  subst hqq
  exact PlaneMlp.mlp_congr _ _ _ _ _ _ q' h0 h1 h2

end Cert.KernelIdeal.Blocks

end
-- ==== Proof.KernelBlocks.lean ====
/-
  From blocks to the array. What point `t` writes back is block `t` — rows `8192·t … 8192·t + 8191` — of ONE function
  of the whole arrays the region finds: the network applied to them. The 32 blocks tile the output, so after the run
  the output array is that function.
-/
import proofs.«176422_j70471823393083_2_alg».proof.Proof.KernelReads

set_option maxRecDepth 16384

noncomputable section

namespace Cert.KernelIdeal.Blocks

open Cert.KernelIdeal Cert.KernelIdeal.Gen Cert.KernelIdeal.Value Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ) (ρ : Dev nD → PrngReg)

/-- WHAT POINT `t` WRITES BACK is block `t` of `outOf` of the arrays as the region finds them. -/
theorem flushed9_eq (c : Dev nD) (t : Fin cfg0.N) :
    (dats m 0 c).flushed 9 t = ((cfg0.win 9).blk t).view.read (Elt Ideal)
      (outOf (V m c main_v106) (V m c main_v204) (V m c main_v302) (V m c main_v303) (V m c main_v304) (V m c main_v305)
        (V m c main_v306) (V m c main_arg6) (V m c main_v307)) := by
  rw [Value.flushed9]
  unfold out0_9
  rw [View.canon_unit_zero hz]
  simp only [View.ld_unit_zero (S := S8192x96) hz, View.ld_unit_zero (S := S96x128) hz, View.ld_unit_zero (S := S1x128) hz,
    View.ld_unit_zero (S := S128x3) hz, View.ld_unit_zero (S := S1x3) hz]
  rw [payload_eq, read3 m c t, read4 m c t, read5 m c t, read6 m c t, read7 m c t, read8 m c t]
  funext j
  rw [View.read_apply, cast_eq]
  show PlaneMlp.mlp (iblk m c 0 t) (iblk m c 1 t) (iblk m c 2 t) (V m c main_v303) (V m c main_v304) (V m c main_v305)
      (fun q => V m c main_v306 (ix2 (0 : Fin 1) q)) (V m c main_arg6) (fun q => V m c main_v307 (ix2 (0 : Fin 1) q))
      ((win0 9).xinj (grid0.coords t) j)
    = outOf (V m c main_v106) (V m c main_v204) (V m c main_v302) (V m c main_v303) (V m c main_v304) (V m c main_v305)
        (V m c main_v306) (V m c main_arg6) (V m c main_v307) (((View.whole main_v308).slice ((win0 9).rect t)).emb j)
  have e := idx_facts t
  have hx : ∀ a, ((win0 9).xinj (grid0.coords t) j a).val = (j a).val := fun a => rfl
  have hj0 : ((win0 9).xinj (grid0.coords t) j 0).val < 8192 := ((win0 9).xinj (grid0.coords t) j 0).isLt
  have he0 : ((((View.whole main_v308).slice ((win0 9).rect t)).emb j) 0).val = t.val * 8192 + (j 0).val := by
    show win0_9.index t (0 : Fin 2) * 8192 + 1 * (j 0).val = _
    omega
  have he1 : ((((View.whole main_v308).slice ((win0 9).rect t)).emb j) 1).val = (j 1).val := by
    show win0_9.index t (1 : Fin 2) * 3 + 1 * (j 1).val = _
    omega
  refine point_eq (iblk m c 0 t) (iblk m c 1 t) (iblk m c 2 t) (V m c main_v106) (V m c main_v204) (V m c main_v302)
    (V m c main_v303) (V m c main_v304) (V m c main_v305) (V m c main_v306) (V m c main_arg6) (V m c main_v307)
    ((win0 9).xinj (grid0.coords t) j) (((View.whole main_v308).slice ((win0 9).rect t)).emb j) ?_ ?_ ?_ ?_
  · exact he1.trans (hx 1).symm
  · intro k
    refine (read0 m c t ⟨_, hj0⟩ k (row_lt t ⟨_, hj0⟩)).trans (congrArg _ (congrArg (fun r => ix2 r k) (Fin.ext ?_)))
    show t.val * 8192 + ((win0 9).xinj (grid0.coords t) j 0).val = ((((View.whole main_v308).slice ((win0 9).rect t)).emb j) 0).val
    rw [he0, hx 0]
  · intro k
    refine (read1 m c t ⟨_, hj0⟩ k (row_lt t ⟨_, hj0⟩)).trans (congrArg _ (congrArg (fun r => ix2 r k) (Fin.ext ?_)))
    show t.val * 8192 + ((win0 9).xinj (grid0.coords t) j 0).val = ((((View.whole main_v308).slice ((win0 9).rect t)).emb j) 0).val
    rw [he0, hx 0]
  · intro k
    refine (read2 m c t ⟨_, hj0⟩ k (row_lt t ⟨_, hj0⟩)).trans (congrArg _ (congrArg (fun r => ix2 r k) (Fin.ext ?_)))
    show t.val * 8192 + ((win0 9).xinj (grid0.coords t) j 0).val = ((((View.whole main_v308).slice ((win0 9).rect t)).emb j) 0).val
    rw [he0, hx 0]

/-- An index of the output is in point `t`'s block iff each coordinate is in the block's range on its axis. -/
theorem mem_blk9 (t : Fin cfg0.N) (i : S262144x3.Idx) :
    i ∈ ((cfg0.win 9).blk t).view.set ↔ ∀ a : Fin 2, win0_9.index t a * S8192x3.size a ≤ (i a).val ∧ (i a).val < win0_9.index t a * S8192x3.size a + S8192x3.size a := by
  show i ∈ ((View.whole main_v308).slice (win0_9.rect t)).set ↔ _
  rw [View.set_slice_whole, Rect.mem_set_unit]
  exact Iff.rfl

theorem point_lt (i : S262144x3.Idx) : (i 0).val / 8192 < cfg0.N := by
  have hi0 : (i 0).val < 262144 := (i 0).isLt
  have h32 : cfg0.N = 32 := N_0
  omega

/-- The 32 blocks tile the output: row `r` is in the block of point `r / 8192`. -/
theorem cover9 (i : S262144x3.Idx) : ∃ t : Fin cfg0.N, (cfg0.win 9).flush t = true ∧ i ∈ ((cfg0.win 9).blk t).view.set := by
  have hi0 : (i 0).val < 262144 := (i 0).isLt
  have hi1 : (i 1).val < 3 := (i 1).isLt
  refine ⟨⟨(i 0).val / 8192, point_lt i⟩, flush0_9 _, ?_⟩
  rw [mem_blk9]
  have e := idx_facts ⟨(i 0).val / 8192, point_lt i⟩
  have e0 : win0_9.index ⟨(i 0).val / 8192, point_lt i⟩ (0 : Fin 2) = (i 0).val / 8192 := e.2.2.2.2.2.2.1
  have e1 : win0_9.index ⟨(i 0).val / 8192, point_lt i⟩ (1 : Fin 2) = 0 := e.2.2.2.2.2.2.2.1
  intro a
  match a with
  | ⟨0, _⟩ =>
    show win0_9.index _ (0 : Fin 2) * 8192 ≤ (i 0).val ∧ (i 0).val < win0_9.index _ (0 : Fin 2) * 8192 + 8192
    rw [e0]
    omega
  | ⟨1, _⟩ =>
    show win0_9.index _ (1 : Fin 2) * 3 ≤ (i 1).val ∧ (i 1).val < win0_9.index _ (1 : Fin 2) * 3 + 3
    rw [e1]
    omega

/-- THE OUTPUT ARRAY after the run. -/
theorem final9 (c : Dev nD) : (dats m 0 c).arrAt 9 cfg0.N
    = outOf (V m c main_v106) (V m c main_v204) (V m c main_v302) (V m c main_v303) (V m c main_v304) (V m c main_v305)
        (V m c main_v306) (V m c main_arg6) (V m c main_v307) :=
  (dats m 0 c).arrAt_eq_of_cover 9 _ (fun t _ => flushed9_eq m c t) cover9

end Cert.KernelIdeal.Blocks

end
-- ==== Proof.PlaneSpec.lean ====
/-
  One resolution level of the plane features, as each of the two programs spells it, as whole-array functions of the
  plane coordinates `coords : [262144, 6, 2]` (ray n, plane p, the two coordinates of the ray on that plane) and the
  level's grid `G : [6, 16, W, W]` (plane, channel, row, column).

  Both programs compute, per plane and ray, u = x·(W−1) and v = y·(W−1), the cell corner u0 = ⌊u⌋ clipped to
  [0, W−2] and converted to an integer (v0 likewise), the neighbours u1 = u0 + 1, v1 = v0 + 1 and the weights
  wu = u − u0, wv = v − v0; then the bilinear blend of the four corner entries of the grid,
      G[p,c,u0,v0]·(1−wu)·(1−wv) + G[p,c,u0,v1]·(1−wu)·wv + G[p,c,u1,v0]·wu·(1−wv) + G[p,c,u1,v1]·wu·wv,
  laid out as [262144, 96] with column 16·p + c. They differ in how the corner entries are fetched: one program
  gathers entry (u, v) of each plane directly (result laid out [6, 16, 262144]); the other first re-lays the grid as
  [6, W·W, 16] (row u·W + v holds the 16 channels of cell (u, v)) and gathers whole rows at the flat index u·W + v
  (result laid out [6, 262144, 16]).
-/
import Idealize.ShloMosaic.Lib.ValueIdx
import Idealize.ShloMosaic.Lib.Pipeline.Value
import Idealize.ShloMosaic.PureOps.Ideal.Laws

noncomputable section

namespace Plane

open Idealize.ShloMosaic Idealize.ShloMosaic.ValueIdx

/-! ## Shapes and their (decidable) relations -/

abbrev S0 : Shape := ⟨0, ![]⟩
abbrev Sray : Shape := ⟨2, ![262144, 4]⟩
abbrev Scomb : Shape := ⟨2, ![6, 2]⟩
abbrev Scomb1 : Shape := ⟨3, ![6, 2, 1]⟩
abbrev Sc : Shape := ⟨3, ![262144, 6, 2]⟩
abbrev Sc1 : Shape := ⟨3, ![262144, 6, 1]⟩
abbrev St1 : Shape := ⟨3, ![6, 262144, 1]⟩
abbrev Sp : Shape := ⟨2, ![6, 262144]⟩
abbrev Sp1 : Shape := ⟨3, ![6, 262144, 1]⟩
abbrev Sp2 : Shape := ⟨3, ![6, 262144, 2]⟩
abbrev Spc : Shape := ⟨3, ![6, 262144, 16]⟩
abbrev S1p : Shape := ⟨3, ![6, 1, 262144]⟩
abbrev Scp : Shape := ⟨3, ![6, 16, 262144]⟩
abbrev Snpc : Shape := ⟨3, ![262144, 6, 16]⟩
abbrev Sf : Shape := ⟨2, ![262144, 96]⟩

theorem sl0 : Sc.Slices ![0, 0, 0] Sc1 := by decide
theorem sl1 : Sc.Slices ![0, 0, 1] Sc1 := by decide
theorem tr1 : Sc1.Transposes [1, 0, 2] St1 := by decide
theorem sc1 : St1.ShapeCasts Sp := by decide
theorem b0p : S0.BroadcastsInDim Sp (![] : Fin 0 → Fin Sp.rank) := by decide
theorem bp1 : Sp.BroadcastsInDim Sp1 (![0, 1] : Fin 2 → Fin Sp1.rank) := by decide
theorem b01 : S0.BroadcastsInDim Sp1 (![] : Fin 0 → Fin Sp1.rank) := by decide
theorem b1c : Sp1.BroadcastsInDim Spc (![0, 1, 2] : Fin 3 → Fin Spc.rank) := by decide
theorem trK : Spc.Transposes [1, 0, 2] Snpc := by decide
theorem scF : Snpc.ShapeCasts Sf := by decide
theorem bpr : Sp.BroadcastsInDim S1p (![0, 2] : Fin 2 → Fin S1p.rank) := by decide
theorem b0r : S0.BroadcastsInDim S1p (![] : Fin 0 → Fin S1p.rank) := by decide
theorem brc : S1p.BroadcastsInDim Scp (![0, 1, 2] : Fin 3 → Fin Scp.rank) := by decide
theorem cat2 : Shape.Concatenates [Sp1, Sp1] Sp2 2 := by decide
theorem trR1 : Scp.Transposes [0, 2, 1] Spc := by decide
theorem bits : FTy.bits .bf16 < FTy.bits .f32 := by decide

/-! ## What the two programs share: cell corners and weights, per plane and ray -/

/-- Coordinate `o` (0 or 1) of every ray on every plane, plane-major: [6, 262144]. -/
def coord (hs : Sc.Slices ![0, 0, 0] Sc1) (coords : FVec Ideal Sc .f32) : FVec Ideal Sp .f32 :=
  shapeCast Sp (transpose St1 [1, 0, 2] (extractStridedSlice Sc1 ![0, 0, 0] coords hs) tr1) sc1

def coord' (hs : Sc.Slices ![0, 0, 1] Sc1) (coords : FVec Ideal Sc .f32) : FVec Ideal Sp .f32 :=
  shapeCast Sp (transpose St1 [1, 0, 2] (extractStridedSlice Sc1 ![0, 0, 1] coords hs) tr1) sc1

/-- The coordinate scaled to the grid: x·(W−1), the float word `cS` being W−1. -/
def scaled (cS : BitVec 32) (x : FVec Ideal Sp .f32) : FVec Ideal Sp .f32 :=
  mulf x (broadcastInDim Sp ![] b0p (constant (F := Ideal) S0 .f32 cS))

/-- The cell corner: the floor, clipped to [0, hi] (the integer word `cHi` being W−2), as a 32-bit integer. -/
def corner (cHi : BitVec 32) (s : FVec Ideal Sp .f32) : IVec Sp 32 :=
  fptosi 32 (minimumf (broadcastInDim Sp ![] b0p (sitofp (F := Ideal) .f32 (constantI S0 32 cHi)))
    (maximumf (broadcastInDim Sp ![] b0p (sitofp (F := Ideal) .f32 (constantI S0 32 0#32))) (Host.floor s)))

/-- The neighbouring corner. -/
def next (u0 : IVec Sp 32) : IVec Sp 32 := addi u0 (broadcastInDim Sp ![] b0p (constantI S0 32 1#32))

/-- The weight: the scaled coordinate less its corner. -/
def weight (s : FVec Ideal Sp .f32) (u0 : IVec Sp 32) : FVec Ideal Sp .f32 := subf s (sitofp (F := Ideal) .f32 u0)

/-- A negative index counted from the end (never the case here, but both programs spell it). -/
def wrap (cN : BitVec 32) (x : IVec Sp 32) : IVec Sp 32 :=
  select (cmpi .slt x (broadcastInDim Sp ![] b0p (constantI S0 32 0#32))) (addi x (broadcastInDim Sp ![] b0p (constantI S0 32 cN))) x

/-! ## The program that gathers rows of the re-laid grid at the flat index -/

section Flat
variable {W W2 : Nat}

/-- The grid re-laid: [6, W·W, 16], row u·W + v of plane p holding the channels of cell (u, v). -/
def relaid (G : FVec Ideal ⟨4, ![6, 16, W, W]⟩ .f32)
    (hT : (⟨4, ![6, 16, W, W]⟩ : Shape).Transposes [0, 2, 3, 1] ⟨4, ![6, W, W, 16]⟩)
    (hS : (⟨4, ![6, W, W, 16]⟩ : Shape).ShapeCasts ⟨3, ![6, W2, 16]⟩) : FVec Ideal ⟨3, ![6, W2, 16]⟩ .f32 :=
  shapeCast ⟨3, ![6, W2, 16]⟩ (transpose ⟨4, ![6, W, W, 16]⟩ [0, 2, 3, 1] G hT) hS

/-- The flat index u·W + v, the integer word `cW` being W. -/
def flat (cW : BitVec 32) (u v : IVec Sp 32) : IVec Sp 32 :=
  addi (muli u (broadcastInDim Sp ![] b0p (constantI S0 32 cW))) v

/-- The rows of the re-laid grid at a flat index (wrapped by W·W, the word `cW2`): [6, 262144, 16]. -/
def rowsAt (d : GatherDims ⟨3, ![6, W2, 16]⟩ Sp1 Spc) (cW2 : BitVec 32) (T : FVec Ideal ⟨3, ![6, W2, 16]⟩ .f32) (x : IVec Sp 32) :
    FVec Ideal Spc .f32 :=
  Host.gather d T (broadcastInDim Sp1 ![0, 1] bp1 (wrap cW2 x))

/-- The blend, channel-minor. -/
def blendK (g00 g01 g10 g11 : FVec Ideal Spc .f32) (wu wv : FVec Ideal Sp .f32) : FVec Ideal Spc .f32 :=
  have wuc : FVec Ideal Sp1 .f32 := broadcastInDim Sp1 ![0, 1] bp1 wu
  have wvc : FVec Ideal Sp1 .f32 := broadcastInDim Sp1 ![0, 1] bp1 wv
  have one : FVec Ideal Sp1 .f32 := broadcastInDim Sp1 ![] b01 (constant (F := Ideal) S0 .f32 0x3F800000#32)
  addf (addf (addf
    (mulf (mulf g00 (broadcastInDim Spc ![0, 1, 2] b1c (subf one wuc))) (broadcastInDim Spc ![0, 1, 2] b1c (subf one wvc)))
    (mulf (mulf g01 (broadcastInDim Spc ![0, 1, 2] b1c (subf one wuc))) (broadcastInDim Spc ![0, 1, 2] b1c wvc)))
    (mulf (mulf g10 (broadcastInDim Spc ![0, 1, 2] b1c wuc)) (broadcastInDim Spc ![0, 1, 2] b1c (subf one wvc))))
    (mulf (mulf g11 (broadcastInDim Spc ![0, 1, 2] b1c wuc)) (broadcastInDim Spc ![0, 1, 2] b1c wvc))

/-- Ray-major, then flattened to [262144, 96], then rounded to bf16 (the identity on the extended reals). -/
def layK (y : FVec Ideal Spc .f32) : FVec Ideal Sf .bf16 :=
  truncf .bf16 (shapeCast Sf (transpose Snpc [1, 0, 2] y trK) scF) bits

/-- The level as this program spells it. -/
def levelK (cS cHi cW cW2 : BitVec 32) (d : GatherDims ⟨3, ![6, W2, 16]⟩ Sp1 Spc)
    (hT : (⟨4, ![6, 16, W, W]⟩ : Shape).Transposes [0, 2, 3, 1] ⟨4, ![6, W, W, 16]⟩)
    (hS : (⟨4, ![6, W, W, 16]⟩ : Shape).ShapeCasts ⟨3, ![6, W2, 16]⟩)
    (coords : FVec Ideal Sc .f32) (G : FVec Ideal ⟨4, ![6, 16, W, W]⟩ .f32) : FVec Ideal Sf .bf16 :=
  have T : FVec Ideal ⟨3, ![6, W2, 16]⟩ .f32 := relaid G hT hS
  have su : FVec Ideal Sp .f32 := scaled cS (coord sl0 coords)
  have sv : FVec Ideal Sp .f32 := scaled cS (coord' sl1 coords)
  have u0 : IVec Sp 32 := corner cHi su
  have v0 : IVec Sp 32 := corner cHi sv
  have u1 : IVec Sp 32 := next u0
  have v1 : IVec Sp 32 := next v0
  layK (blendK (rowsAt d cW2 T (flat cW u0 v0)) (rowsAt d cW2 T (flat cW u0 v1)) (rowsAt d cW2 T (flat cW u1 v0))
    (rowsAt d cW2 T (flat cW u1 v1)) (weight su u0) (weight sv v0))

end Flat

/-! ## The program that gathers grid entries at (u, v) -/

section Planar
variable {W : Nat}

/-- The entries of the grid at (u, v) (each wrapped by W, the word `cW`), all channels: [6, 16, 262144]. -/
def entriesAt (d : GatherDims ⟨4, ![6, 16, W, W]⟩ Sp2 Scp) (cW : BitVec 32) (G : FVec Ideal ⟨4, ![6, 16, W, W]⟩ .f32)
    (u v : IVec Sp 32) : FVec Ideal Scp .f32 :=
  Host.gather d G (concatenate Sp2 2 [⟨Sp1, broadcastInDim Sp1 ![0, 1] bp1 (wrap cW u)⟩, ⟨Sp1, broadcastInDim Sp1 ![0, 1] bp1 (wrap cW v)⟩] cat2)

/-- The blend, ray-minor. -/
def blendR (g00 g01 g10 g11 : FVec Ideal Scp .f32) (wu wv : FVec Ideal Sp .f32) : FVec Ideal Scp .f32 :=
  have wur : FVec Ideal S1p .f32 := broadcastInDim S1p ![0, 2] bpr wu
  have wvr : FVec Ideal S1p .f32 := broadcastInDim S1p ![0, 2] bpr wv
  have one : FVec Ideal S1p .f32 := broadcastInDim S1p ![] b0r (constant (F := Ideal) S0 .f32 0x3F800000#32)
  addf (addf (addf
    (mulf (mulf g00 (broadcastInDim Scp ![0, 1, 2] brc (subf one wur))) (broadcastInDim Scp ![0, 1, 2] brc (subf one wvr)))
    (mulf (mulf g01 (broadcastInDim Scp ![0, 1, 2] brc (subf one wur))) (broadcastInDim Scp ![0, 1, 2] brc wvr)))
    (mulf (mulf g10 (broadcastInDim Scp ![0, 1, 2] brc wur)) (broadcastInDim Scp ![0, 1, 2] brc (subf one wvr))))
    (mulf (mulf g11 (broadcastInDim Scp ![0, 1, 2] brc wur)) (broadcastInDim Scp ![0, 1, 2] brc wvr))

/-- Channel-minor, ray-major, flattened to [262144, 96]. -/
def layR (y : FVec Ideal Scp .f32) : FVec Ideal Sf .f32 :=
  shapeCast Sf (transpose Snpc [1, 0, 2] (transpose Spc [0, 2, 1] y trR1) trK) scF

/-- The level as this program spells it. -/
def levelR (cS cHi cW : BitVec 32) (d : GatherDims ⟨4, ![6, 16, W, W]⟩ Sp2 Scp)
    (coords : FVec Ideal Sc .f32) (G : FVec Ideal ⟨4, ![6, 16, W, W]⟩ .f32) : FVec Ideal Sf .f32 :=
  have su : FVec Ideal Sp .f32 := scaled cS (coord sl0 coords)
  have sv : FVec Ideal Sp .f32 := scaled cS (coord' sl1 coords)
  have u0 : IVec Sp 32 := corner cHi su
  have v0 : IVec Sp 32 := corner cHi sv
  have u1 : IVec Sp 32 := next u0
  have v1 : IVec Sp 32 := next v0
  layR (blendR (entriesAt d cW G u0 v0) (entriesAt d cW G u0 v1) (entriesAt d cW G u1 v0) (entriesAt d cW G u1 v1)
    (weight su u0) (weight sv v0))

end Planar

/-! ## The plane coordinates of the rays -/

/-- The table of the six coordinate pairs, row-major. -/
abbrev pairs : Fin 12 → BitVec 32 := fun
  | 0 => 0#32 | 1 => 1#32 | 2 => 0#32 | 3 => 2#32 | 4 => 0#32 | 5 => 3#32 | 6 => 1#32 | 7 => 2#32
  | 8 => 1#32 | 9 => 3#32 | 10 => 2#32 | 11 => 3#32
  | _ => 0#32

theorem b0ray : S0.BroadcastsInDim Sray (![] : Fin 0 → Fin Sray.rank) := by decide
theorem b0comb : S0.BroadcastsInDim Scomb (![] : Fin 0 → Fin Scomb.rank) := by decide
theorem bcomb1 : Scomb.BroadcastsInDim Scomb1 (![0, 1] : Fin 2 → Fin Scomb1.rank) := by decide

/-- (ray − 0) / 1, then for each of the six pairs the two named coordinates: [262144, 6, 2]. -/
def coordsOf (d : GatherDims Sray Scomb1 Sc) (ray : FVec Ideal Sray .f32) : FVec Ideal Sc .f32 :=
  have tbl : IVec Scomb 32 := fun i => pairs (Scomb.rowMajor i)
  Host.gather d
    (Host.divf (subf ray (broadcastInDim Sray ![] b0ray (constant (F := Ideal) S0 .f32 0x00000000#32)))
      (broadcastInDim Sray ![] b0ray (constant (F := Ideal) S0 .f32 0x3F800000#32)))
    (broadcastInDim Scomb1 ![0, 1] bcomb1
      (select (constantI Scomb 1 0#1) (addi tbl (broadcastInDim Scomb ![] b0comb (constantI S0 32 4#32))) tbl))

end Plane

end
-- ==== Proof.KernelHost.lean ====
/-
  What the kernel program's host-side operations leave in the buffers the region's windows stage.

  Before its one region the program computes, from the ray array and the three grids, the three levels of plane
  features (each the level function of the plane coordinates of the rays and that level's grid), cuts the first weight
  matrix into its three blocks of 96 rows, and reshapes the two bias vectors to rows.  Each of these buffers is written
  once, by a straight line of operations; running the line from the launch contents gives the composed term, which is
  the specification's function of the launch arguments.
-/
import proofs.«176422_j70471823393083_2_alg».proof.Proof.Gen.KernelIdeal.Frame
import proofs.«176422_j70471823393083_2_alg».proof.Proof.PlaneSpec
import Idealize.ShloMosaic.Lib.StableHlo.Run

set_option maxRecDepth 16384

noncomputable section

namespace Cert.KernelIdeal.HostSide

open Cert.KernelIdeal Cert.KernelIdeal.Gen Idealize.ShloMosaic Idealize.ShloMosaic.TcCoe Idealize.SL.Sem
open Idealize.ShloMosaic.StableHlo

variable (m : (ℓ : Loc nD τ sig) → Buf (Elt Ideal) ℓ)

set_option maxHeartbeats 40000000 in
/-- The plane coordinates of the rays. -/
theorem coords (c : Dev nD) :
    V m c main_v8 = Plane.coordsOf gather_S262144x4_S6x2x1_S262144x6x2_0_1_n_n_1_2_2621441 (m ((c : Thread nD τ).loc main_arg0)) := by
  dsimp only [Gen.V]
  simp only [hostOps0, hostOps0_1, hostOps0_2, hostOps0_3, hostOps0_4, hostOps0_5, hostOps0_6, hostOps0_7, hostOps0_8, hostOps0_9,
    hostOps0_10, hostOps0_11, hostOps0_12, List.flatten_cons, List.flatten_nil, List.append_nil, List.cons_append, List.nil_append]
  after_results_simp
  rfl

set_option maxHeartbeats 40000000 in
/-- The first level of plane features: the 128 × 128 grids. -/
theorem feat0 (c : Dev nD) :
    V m c main_v106 = Plane.levelK 0x42FE0000#32 126#32 128#32 16384#32 gather_S6x16384x16_S6x262144x1_S6x262144x16_2_1_0_0_1_2_1116
      transposes_S6x16x128x128_S6x128x128x16_0_2_3_1 shapeCasts_S6x128x128x16_S6x16384x16
      (Plane.coordsOf gather_S262144x4_S6x2x1_S262144x6x2_0_1_n_n_1_2_2621441 (m ((c : Thread nD τ).loc main_arg0)))
      (m ((c : Thread nD τ).loc main_arg1)) := by
  dsimp only [Gen.V]
  simp only [hostOps0, hostOps0_1, hostOps0_2, hostOps0_3, hostOps0_4, hostOps0_5, hostOps0_6, hostOps0_7, hostOps0_8, hostOps0_9,
    hostOps0_10, hostOps0_11, hostOps0_12, List.flatten_cons, List.flatten_nil, List.append_nil, List.cons_append, List.nil_append]
  after_results_simp
  rfl

set_option maxHeartbeats 40000000 in
/-- The second level of plane features: the 256 × 256 grids. -/
theorem feat1 (c : Dev nD) :
    V m c main_v204 = Plane.levelK 0x437F0000#32 254#32 256#32 65536#32 gather_S6x65536x16_S6x262144x1_S6x262144x16_2_1_0_0_1_2_1116
      transposes_S6x16x256x256_S6x256x256x16_0_2_3_1 shapeCasts_S6x256x256x16_S6x65536x16
      (Plane.coordsOf gather_S262144x4_S6x2x1_S262144x6x2_0_1_n_n_1_2_2621441 (m ((c : Thread nD τ).loc main_arg0)))
      (m ((c : Thread nD τ).loc main_arg2)) := by
  dsimp only [Gen.V]
  simp only [hostOps0, hostOps0_1, hostOps0_2, hostOps0_3, hostOps0_4, hostOps0_5, hostOps0_6, hostOps0_7, hostOps0_8, hostOps0_9,
    hostOps0_10, hostOps0_11, hostOps0_12, List.flatten_cons, List.flatten_nil, List.append_nil, List.cons_append, List.nil_append]
  after_results_simp
  rfl

set_option maxHeartbeats 40000000 in
/-- The third level of plane features: the 512 × 512 grids. -/
theorem feat2 (c : Dev nD) :
    V m c main_v302 = Plane.levelK 0x43FF8000#32 510#32 512#32 262144#32 gather_S6x262144x16_S6x262144x1_S6x262144x16_2_1_0_0_1_2_1116
      transposes_S6x16x512x512_S6x512x512x16_0_2_3_1 shapeCasts_S6x512x512x16_S6x262144x16
      (Plane.coordsOf gather_S262144x4_S6x2x1_S262144x6x2_0_1_n_n_1_2_2621441 (m ((c : Thread nD τ).loc main_arg0)))
      (m ((c : Thread nD τ).loc main_arg3)) := by
  dsimp only [Gen.V]
  simp only [hostOps0, hostOps0_1, hostOps0_2, hostOps0_3, hostOps0_4, hostOps0_5, hostOps0_6, hostOps0_7, hostOps0_8, hostOps0_9,
    hostOps0_10, hostOps0_11, hostOps0_12, List.flatten_cons, List.flatten_nil, List.append_nil, List.cons_append, List.nil_append]
  after_results_simp
  rfl

set_option maxHeartbeats 4000000 in
/-- The first 96 rows of the first weight matrix. -/
theorem w1a (c : Dev nD) :
    V m c main_v303 = extractStridedSlice S96x128 ![0, 0] (m ((c : Thread nD τ).loc main_arg4)) slices_S288x128_S96x128_0_0 := by
  dsimp only [Gen.V]
  simp only [hostOps0, hostOps0_1, hostOps0_2, hostOps0_3, hostOps0_4, hostOps0_5, hostOps0_6, hostOps0_7, hostOps0_8, hostOps0_9,
    hostOps0_10, hostOps0_11, hostOps0_12, List.flatten_cons, List.flatten_nil, List.append_nil, List.cons_append, List.nil_append]
  after_results_simp

set_option maxHeartbeats 4000000 in
/-- Rows 96 to 191 of the first weight matrix. -/
theorem w1b (c : Dev nD) :
    V m c main_v304 = extractStridedSlice S96x128 ![96, 0] (m ((c : Thread nD τ).loc main_arg4)) slices_S288x128_S96x128_96_0 := by
  dsimp only [Gen.V]
  simp only [hostOps0, hostOps0_1, hostOps0_2, hostOps0_3, hostOps0_4, hostOps0_5, hostOps0_6, hostOps0_7, hostOps0_8, hostOps0_9,
    hostOps0_10, hostOps0_11, hostOps0_12, List.flatten_cons, List.flatten_nil, List.append_nil, List.cons_append, List.nil_append]
  after_results_simp

set_option maxHeartbeats 4000000 in
/-- Rows 192 to 287 of the first weight matrix. -/
theorem w1c (c : Dev nD) :
    V m c main_v305 = extractStridedSlice S96x128 ![192, 0] (m ((c : Thread nD τ).loc main_arg4)) slices_S288x128_S96x128_192_0 := by
  dsimp only [Gen.V]
  simp only [hostOps0, hostOps0_1, hostOps0_2, hostOps0_3, hostOps0_4, hostOps0_5, hostOps0_6, hostOps0_7, hostOps0_8, hostOps0_9,
    hostOps0_10, hostOps0_11, hostOps0_12, List.flatten_cons, List.flatten_nil, List.append_nil, List.cons_append, List.nil_append]
  after_results_simp

set_option maxHeartbeats 4000000 in
/-- The first bias vector as a row. -/
theorem b1r (c : Dev nD) :
    V m c main_v306 = fun i => shapeCast S1x128 (m ((c : Thread nD τ).loc main_arg5)) shapeCasts_S128_S1x128 i := by
  dsimp only [Gen.V]
  simp only [hostOps0, hostOps0_1, hostOps0_2, hostOps0_3, hostOps0_4, hostOps0_5, hostOps0_6, hostOps0_7, hostOps0_8, hostOps0_9,
    hostOps0_10, hostOps0_11, hostOps0_12, List.flatten_cons, List.flatten_nil, List.append_nil, List.cons_append, List.nil_append]
  after_results_simp
  rfl

set_option maxHeartbeats 4000000 in
/-- The second bias vector as a row. -/
theorem b2r (c : Dev nD) :
    V m c main_v307 = fun i => shapeCast S1x3 (m ((c : Thread nD τ).loc main_arg7)) shapeCasts_S3_S1x3 i := by
  dsimp only [Gen.V]
  simp only [hostOps0, hostOps0_1, hostOps0_2, hostOps0_3, hostOps0_4, hostOps0_5, hostOps0_6, hostOps0_7, hostOps0_8, hostOps0_9,
    hostOps0_10, hostOps0_11, hostOps0_12, List.flatten_cons, List.flatten_nil, List.append_nil, List.cons_append, List.nil_append]
  after_results_simp
  rfl

end Cert.KernelIdeal.HostSide

end
-- ==== Proof.RefOps0.lean ====
/-
  The operations of part 0 of the reference's @main as a list, in the order the program runs them; where the
  program calls one of its own functions (a clip to an interval, a maximum with zero) that function's operations
  stand at the call, over the buffers that call names. Three facts about the list: the part IS the list run in
  sequence; every operation touches TensorCore buffers only; none allocates.
-/
import proofs.«176422_j70471823393083_2_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- Part 0's 70 operations, in order. -/
abbrev ops0 : List (HloOp τ sig (Elt F)) :=
  [ nullary main_c (fun i => lit0 (S6x2.rowMajor i)),
    nullary main_c_0 (constantI S6x2 1 0#1),
    nullary main_cst (constant S_ .f32 0x00000000#32),
    unary main_cst main_v0 (broadcastInDim S262144x4 ![] bcast_S_S262144x4 : (⟨S_, .f32⟩ : BufTy).Contents (Elt F) → (⟨S262144x4, .f32⟩ : BufTy).Contents (Elt F)),
    binary main_arg0 main_v0 main_v1 (subf : (⟨S262144x4, .f32⟩ : BufTy).Contents (Elt F) → (⟨S262144x4, .f32⟩ : BufTy).Contents (Elt F) → (⟨S262144x4, .f32⟩ : BufTy).Contents (Elt F)),
    nullary main_cst_1 (constant S_ .f32 0x3F800000#32),
    unary main_cst_1 main_v2 (broadcastInDim S262144x4 ![] bcast_S_S262144x4 : (⟨S_, .f32⟩ : BufTy).Contents (Elt F) → (⟨S262144x4, .f32⟩ : BufTy).Contents (Elt F)),
    binary main_v1 main_v2 main_v3 (Host.divf : (⟨S262144x4, .f32⟩ : BufTy).Contents (Elt F) → (⟨S262144x4, .f32⟩ : BufTy).Contents (Elt F) → (⟨S262144x4, .f32⟩ : BufTy).Contents (Elt F)),
    nullary main_c_2 (constantI S_ 32 4#32),
    unary main_c_2 main_v4 (broadcastInDim S6x2 ![] bcast_S_S6x2 : (⟨S_, .i32⟩ : BufTy).Contents (Elt F) → (⟨S6x2, .i32⟩ : BufTy).Contents (Elt F)),
    binary main_c main_v4 main_v5 (addi : (⟨S6x2, .i32⟩ : BufTy).Contents (Elt F) → (⟨S6x2, .i32⟩ : BufTy).Contents (Elt F) → (⟨S6x2, .i32⟩ : BufTy).Contents (Elt F)),
    ternary main_c_0 main_v5 main_c main_v6 (select : (⟨S6x2, .i1⟩ : BufTy).Contents (Elt F) → (⟨S6x2, .i32⟩ : BufTy).Contents (Elt F) → (⟨S6x2, .i32⟩ : BufTy).Contents (Elt F) → (⟨S6x2, .i32⟩ : BufTy).Contents (Elt F)),
    unary main_v6 main_v7 (broadcastInDim S6x2x1 ![0, 1] bcast_S6x2_S6x2x1_0_1 : (⟨S6x2, .i32⟩ : BufTy).Contents (Elt F) → (⟨S6x2x1, .i32⟩ : BufTy).Contents (Elt F)),
    binary main_v3 main_v7 main_v8 ((fun x i => Host.gather gather_S262144x4_S6x2x1_S262144x6x2_0_1_n_n_1_2_2621441 x i) : (⟨S262144x4, .f32⟩ : BufTy).Contents (Elt F) → (⟨S6x2x1, .i32⟩ : BufTy).Contents (Elt F) → (⟨S262144x6x2, .f32⟩ : BufTy).Contents (Elt F)),
    unary main_v8 main_v9 ((extractStridedSlice S262144x6x1 ![0, 0, 0] · slices_S262144x6x2_S262144x6x1_0_0_0) : (⟨S262144x6x2, .f32⟩ : BufTy).Contents (Elt F) → (⟨S262144x6x1, .f32⟩ : BufTy).Contents (Elt F)),
    unary main_v9 main_v10 ((transpose S6x262144x1 [1, 0, 2] · transposes_S262144x6x1_S6x262144x1_1_0_2) : (⟨S262144x6x1, .f32⟩ : BufTy).Contents (Elt F) → (⟨S6x262144x1, .f32⟩ : BufTy).Contents (Elt F)),
    reshape main_v10 main_v11 rfl shapeCasts_S6x262144x1_S6x262144,
    nullary main_cst_3 (constant S_ .f32 0x42FE0000#32),
    unary main_cst_3 main_v12 (broadcastInDim S6x262144 ![] bcast_S_S6x262144 : (⟨S_, .f32⟩ : BufTy).Contents (Elt F) → (⟨S6x262144, .f32⟩ : BufTy).Contents (Elt F)),
    binary main_v11 main_v12 main_v13 (mulf : (⟨S6x262144, .f32⟩ : BufTy).Contents (Elt F) → (⟨S6x262144, .f32⟩ : BufTy).Contents (Elt F) → (⟨S6x262144, .f32⟩ : BufTy).Contents (Elt F)),
    unary main_v8 main_v14 ((extractStridedSlice S262144x6x1 ![0, 0, 1] · slices_S262144x6x2_S262144x6x1_0_0_1) : (⟨S262144x6x2, .f32⟩ : BufTy).Contents (Elt F) → (⟨S262144x6x1, .f32⟩ : BufTy).Contents (Elt F)),
    unary main_v14 main_v15 ((transpose S6x262144x1 [1, 0, 2] · transposes_S262144x6x1_S6x262144x1_1_0_2) : (⟨S262144x6x1, .f32⟩ : BufTy).Contents (Elt F) → (⟨S6x262144x1, .f32⟩ : BufTy).Contents (Elt F)),
    reshape main_v15 main_v16 rfl shapeCasts_S6x262144x1_S6x262144,
    nullary main_cst_4 (constant S_ .f32 0x42FE0000#32),
    unary main_cst_4 main_v17 (broadcastInDim S6x262144 ![] bcast_S_S6x262144 : (⟨S_, .f32⟩ : BufTy).Contents (Elt F) → (⟨S6x262144, .f32⟩ : BufTy).Contents (Elt F)),
    binary main_v16 main_v17 main_v18 (mulf : (⟨S6x262144, .f32⟩ : BufTy).Contents (Elt F) → (⟨S6x262144, .f32⟩ : BufTy).Contents (Elt F) → (⟨S6x262144, .f32⟩ : BufTy).Contents (Elt F)),
    unary main_v13 main_v19 (Host.floor : (⟨S6x262144, .f32⟩ : BufTy).Contents (Elt F) → (⟨S6x262144, .f32⟩ : BufTy).Contents (Elt F)),
    nullary main_c_5 (constantI S_ 32 0#32),
    nullary main_c_6 (constantI S_ 32 126#32),
    TRef.unary (.of main_c_5) main_call0.v0 (sitofp .f32),
    TRef.unary main_call0.v0 main_call0.v1 (broadcastInDim S6x262144 ![] bcast_S_S6x262144),
    TRef.binary main_call0.v1 (.of main_v19) main_call0.v2 maximumf,
    TRef.unary (.of main_c_6) main_call0.v3 (sitofp .f32),
    TRef.unary main_call0.v3 main_call0.v4 (broadcastInDim S6x262144 ![] bcast_S_S6x262144),
    TRef.binary main_call0.v4 main_call0.v2 main_call0.v5 minimumf,
    unary main_v20 main_v21 (fptosi 32 : (⟨S6x262144, .f32⟩ : BufTy).Contents (Elt F) → (⟨S6x262144, .i32⟩ : BufTy).Contents (Elt F)),
    unary main_v18 main_v22 (Host.floor : (⟨S6x262144, .f32⟩ : BufTy).Contents (Elt F) → (⟨S6x262144, .f32⟩ : BufTy).Contents (Elt F)),
    nullary main_c_7 (constantI S_ 32 0#32),
    nullary main_c_8 (constantI S_ 32 126#32),
    TRef.unary (.of main_c_7) main_call1.v0 (sitofp .f32),
    TRef.unary main_call1.v0 main_call1.v1 (broadcastInDim S6x262144 ![] bcast_S_S6x262144),
    TRef.binary main_call1.v1 (.of main_v22) main_call1.v2 maximumf,
    TRef.unary (.of main_c_8) main_call1.v3 (sitofp .f32),
    TRef.unary main_call1.v3 main_call1.v4 (broadcastInDim S6x262144 ![] bcast_S_S6x262144),
    TRef.binary main_call1.v4 main_call1.v2 main_call1.v5 minimumf,
    unary main_v23 main_v24 (fptosi 32 : (⟨S6x262144, .f32⟩ : BufTy).Contents (Elt F) → (⟨S6x262144, .i32⟩ : BufTy).Contents (Elt F)),
    nullary main_c_9 (constantI S_ 32 1#32),
    unary main_c_9 main_v25 (broadcastInDim S6x262144 ![] bcast_S_S6x262144 : (⟨S_, .i32⟩ : BufTy).Contents (Elt F) → (⟨S6x262144, .i32⟩ : BufTy).Contents (Elt F)),
    binary main_v21 main_v25 main_v26 (addi : (⟨S6x262144, .i32⟩ : BufTy).Contents (Elt F) → (⟨S6x262144, .i32⟩ : BufTy).Contents (Elt F) → (⟨S6x262144, .i32⟩ : BufTy).Contents (Elt F)),
    nullary main_c_10 (constantI S_ 32 1#32),
    unary main_c_10 main_v27 (broadcastInDim S6x262144 ![] bcast_S_S6x262144 : (⟨S_, .i32⟩ : BufTy).Contents (Elt F) → (⟨S6x262144, .i32⟩ : BufTy).Contents (Elt F)),
    binary main_v24 main_v27 main_v28 (addi : (⟨S6x262144, .i32⟩ : BufTy).Contents (Elt F) → (⟨S6x262144, .i32⟩ : BufTy).Contents (Elt F) → (⟨S6x262144, .i32⟩ : BufTy).Contents (Elt F)),
    unary main_v21 main_v29 (sitofp .f32 : (⟨S6x262144, .i32⟩ : BufTy).Contents (Elt F) → (⟨S6x262144, .f32⟩ : BufTy).Contents (Elt F)),
    binary main_v13 main_v29 main_v30 (subf : (⟨S6x262144, .f32⟩ : BufTy).Contents (Elt F) → (⟨S6x262144, .f32⟩ : BufTy).Contents (Elt F) → (⟨S6x262144, .f32⟩ : BufTy).Contents (Elt F)),
    unary main_v30 main_v31 (broadcastInDim S6x1x262144 ![0, 2] bcast_S6x262144_S6x1x262144_0_2 : (⟨S6x262144, .f32⟩ : BufTy).Contents (Elt F) → (⟨S6x1x262144, .f32⟩ : BufTy).Contents (Elt F)),
    unary main_v24 main_v32 (sitofp .f32 : (⟨S6x262144, .i32⟩ : BufTy).Contents (Elt F) → (⟨S6x262144, .f32⟩ : BufTy).Contents (Elt F)),
    binary main_v18 main_v32 main_v33 (subf : (⟨S6x262144, .f32⟩ : BufTy).Contents (Elt F) → (⟨S6x262144, .f32⟩ : BufTy).Contents (Elt F) → (⟨S6x262144, .f32⟩ : BufTy).Contents (Elt F)),
    unary main_v33 main_v34 (broadcastInDim S6x1x262144 ![0, 2] bcast_S6x262144_S6x1x262144_0_2 : (⟨S6x262144, .f32⟩ : BufTy).Contents (Elt F) → (⟨S6x1x262144, .f32⟩ : BufTy).Contents (Elt F)),
    nullary main_c_11 (constantI S_ 32 0#32),
    unary main_c_11 main_v35 (broadcastInDim S6x262144 ![] bcast_S_S6x262144 : (⟨S_, .i32⟩ : BufTy).Contents (Elt F) → (⟨S6x262144, .i32⟩ : BufTy).Contents (Elt F)),
    binary main_v21 main_v35 main_v36 (cmpi .slt : (⟨S6x262144, .i32⟩ : BufTy).Contents (Elt F) → (⟨S6x262144, .i32⟩ : BufTy).Contents (Elt F) → (⟨S6x262144, .i1⟩ : BufTy).Contents (Elt F)),
    nullary main_c_12 (constantI S_ 32 128#32),
    unary main_c_12 main_v37 (broadcastInDim S6x262144 ![] bcast_S_S6x262144 : (⟨S_, .i32⟩ : BufTy).Contents (Elt F) → (⟨S6x262144, .i32⟩ : BufTy).Contents (Elt F)),
    binary main_v21 main_v37 main_v38 (addi : (⟨S6x262144, .i32⟩ : BufTy).Contents (Elt F) → (⟨S6x262144, .i32⟩ : BufTy).Contents (Elt F) → (⟨S6x262144, .i32⟩ : BufTy).Contents (Elt F)),
    ternary main_v36 main_v38 main_v21 main_v39 (select : (⟨S6x262144, .i1⟩ : BufTy).Contents (Elt F) → (⟨S6x262144, .i32⟩ : BufTy).Contents (Elt F) → (⟨S6x262144, .i32⟩ : BufTy).Contents (Elt F) → (⟨S6x262144, .i32⟩ : BufTy).Contents (Elt F)),
    nullary main_c_13 (constantI S_ 32 0#32),
    unary main_c_13 main_v40 (broadcastInDim S6x262144 ![] bcast_S_S6x262144 : (⟨S_, .i32⟩ : BufTy).Contents (Elt F) → (⟨S6x262144, .i32⟩ : BufTy).Contents (Elt F)),
    binary main_v24 main_v40 main_v41 (cmpi .slt : (⟨S6x262144, .i32⟩ : BufTy).Contents (Elt F) → (⟨S6x262144, .i32⟩ : BufTy).Contents (Elt F) → (⟨S6x262144, .i1⟩ : BufTy).Contents (Elt F)),
    nullary main_c_14 (constantI S_ 32 128#32),
    unary main_c_14 main_v42 (broadcastInDim S6x262144 ![] bcast_S_S6x262144 : (⟨S_, .i32⟩ : BufTy).Contents (Elt F) → (⟨S6x262144, .i32⟩ : BufTy).Contents (Elt F)) ]

set_option maxRecDepth 4096 in
/-- The part is its list run in sequence: the called functions unfolded at their calls, sequencing reassociated. -/
theorem part0_eq (c : Dev nD) : main_part0 (F := F) c = seq ops0 := by
  simp only [main_part0, fn_clip.body, fn_relu.body, seq, bind_assoc, pure_bind] <;> rfl

theorem sub0 : (ops0 : List (HloOp τ sig (Elt F))).Forall fun op => op.bufs ⊆ tcRefs τ sig :=
  ⟨nullary_bufs_sub .., nullary_bufs_sub .., nullary_bufs_sub .., unary_bufs_sub .., binary_bufs_sub .., nullary_bufs_sub ..,
    unary_bufs_sub .., binary_bufs_sub .., nullary_bufs_sub .., unary_bufs_sub .., binary_bufs_sub .., ternary_bufs_sub ..,
    unary_bufs_sub .., binary_bufs_sub .., unary_bufs_sub .., unary_bufs_sub .., reshape_bufs_sub .., nullary_bufs_sub ..,
    unary_bufs_sub .., binary_bufs_sub .., unary_bufs_sub .., unary_bufs_sub .., reshape_bufs_sub .., nullary_bufs_sub ..,
    unary_bufs_sub .., binary_bufs_sub .., unary_bufs_sub .., nullary_bufs_sub .., nullary_bufs_sub .., unary_bufs_sub ..,
    unary_bufs_sub .., binary_bufs_sub .., unary_bufs_sub .., unary_bufs_sub .., binary_bufs_sub .., unary_bufs_sub ..,
    unary_bufs_sub .., nullary_bufs_sub .., nullary_bufs_sub .., unary_bufs_sub .., unary_bufs_sub .., binary_bufs_sub ..,
    unary_bufs_sub .., unary_bufs_sub .., binary_bufs_sub .., unary_bufs_sub .., nullary_bufs_sub .., unary_bufs_sub ..,
    binary_bufs_sub .., nullary_bufs_sub .., unary_bufs_sub .., binary_bufs_sub .., unary_bufs_sub .., binary_bufs_sub ..,
    unary_bufs_sub .., unary_bufs_sub .., binary_bufs_sub .., unary_bufs_sub .., nullary_bufs_sub .., unary_bufs_sub ..,
    binary_bufs_sub .., nullary_bufs_sub .., unary_bufs_sub .., binary_bufs_sub .., ternary_bufs_sub .., nullary_bufs_sub ..,
    unary_bufs_sub .., binary_bufs_sub .., nullary_bufs_sub .., unary_bufs_sub ..⟩

/-- The buffers part 0 writes: one per operation, its result. -/
abbrev W0 : List (Ref sig .tc) :=
  [ main_c, main_c_0, main_cst, main_v0, main_v1, main_cst_1, main_v2, main_v3,
    main_c_2, main_v4, main_v5, main_v6, main_v7, main_v8, main_v9, main_v10,
    main_v11, main_cst_3, main_v12, main_v13, main_v14, main_v15, main_v16, main_cst_4,
    main_v17, main_v18, main_v19, main_c_5, main_c_6, main_call0.v0.ref, main_call0.v1.ref, main_call0.v2.ref,
    main_call0.v3.ref, main_call0.v4.ref, main_call0.v5.ref, main_v21, main_v22, main_c_7, main_c_8, main_call1.v0.ref,
    main_call1.v1.ref, main_call1.v2.ref, main_call1.v3.ref, main_call1.v4.ref, main_call1.v5.ref, main_v24, main_c_9, main_v25,
    main_v26, main_c_10, main_v27, main_v28, main_v29, main_v30, main_v31, main_v32,
    main_v33, main_v34, main_c_11, main_v35, main_v36, main_c_12, main_v37, main_v38,
    main_v39, main_c_13, main_v40, main_v41, main_c_14, main_v42 ]

/-- Each operation of the part writes its result buffer and nothing else. -/
theorem writes0 : (ops0 : List (HloOp τ sig (Elt F))).Forall fun op => op.writes ⊆ ((W0).map (Proc.devRef (τ := τ) .tc)).toFinset := by
  simp only [List.Forall, nullary_writes, unary_writes, binary_writes, ternary_writes, reshape_writes, nary_writes, Finset.singleton_subset_iff, List.mem_toFinset]
  repeat' apply And.intro
  all_goals exact List.mem_map_of_mem (by decide)

theorem fresh0 : ∀ op ∈ (ops0 : List (HloOp τ sig (Elt F))), op.fresh = ∅ := by
  intro _ h; (repeat (cases h with | head => rfl | tail _ h => ?_)); exact nomatch h

end Cert.ReferenceIdeal.RefRun

end
-- ==== Proof.RefOps1.lean ====
/-
  The operations of part 1 of the reference's @main as a list, in the order the program runs them; where the
  program calls one of its own functions (a clip to an interval, a maximum with zero) that function's operations
  stand at the call, over the buffers that call names. Three facts about the list: the part IS the list run in
  sequence; every operation touches TensorCore buffers only; none allocates.
-/
import proofs.«176422_j70471823393083_2_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- Part 1's 60 operations, in order. -/
abbrev ops1 : List (HloOp τ sig (Elt F)) :=
  [ binary main_v24 main_v42 main_v43 (addi : (⟨S6x262144, .i32⟩ : BufTy).Contents (Elt F) → (⟨S6x262144, .i32⟩ : BufTy).Contents (Elt F) → (⟨S6x262144, .i32⟩ : BufTy).Contents (Elt F)),
    ternary main_v41 main_v43 main_v24 main_v44 (select : (⟨S6x262144, .i1⟩ : BufTy).Contents (Elt F) → (⟨S6x262144, .i32⟩ : BufTy).Contents (Elt F) → (⟨S6x262144, .i32⟩ : BufTy).Contents (Elt F) → (⟨S6x262144, .i32⟩ : BufTy).Contents (Elt F)),
    unary main_v39 main_v45 (broadcastInDim S6x262144x1 ![0, 1] bcast_S6x262144_S6x262144x1_0_1 : (⟨S6x262144, .i32⟩ : BufTy).Contents (Elt F) → (⟨S6x262144x1, .i32⟩ : BufTy).Contents (Elt F)),
    unary main_v44 main_v46 (broadcastInDim S6x262144x1 ![0, 1] bcast_S6x262144_S6x262144x1_0_1 : (⟨S6x262144, .i32⟩ : BufTy).Contents (Elt F) → (⟨S6x262144x1, .i32⟩ : BufTy).Contents (Elt F)),
    binary main_v45 main_v46 main_v47 ((fun a b => concatenate S6x262144x2 2 [⟨S6x262144x1, a⟩, ⟨S6x262144x1, b⟩] concatenates_S6x262144x1_S6x262144x1_S6x262144x2_d2) : (⟨S6x262144x1, .i32⟩ : BufTy).Contents (Elt F) → (⟨S6x262144x1, .i32⟩ : BufTy).Contents (Elt F) → (⟨S6x262144x2, .i32⟩ : BufTy).Contents (Elt F)),
    binary main_arg1 main_v47 main_v48 ((fun x i => Host.gather gather_S6x16x128x128_S6x262144x2_S6x16x262144_1_23_0_0_23_2_11611 x i) : (⟨S6x16x128x128, .f32⟩ : BufTy).Contents (Elt F) → (⟨S6x262144x2, .i32⟩ : BufTy).Contents (Elt F) → (⟨S6x16x262144, .f32⟩ : BufTy).Contents (Elt F)),
    nullary main_c_15 (constantI S_ 32 0#32),
    unary main_c_15 main_v49 (broadcastInDim S6x262144 ![] bcast_S_S6x262144 : (⟨S_, .i32⟩ : BufTy).Contents (Elt F) → (⟨S6x262144, .i32⟩ : BufTy).Contents (Elt F)),
    binary main_v21 main_v49 main_v50 (cmpi .slt : (⟨S6x262144, .i32⟩ : BufTy).Contents (Elt F) → (⟨S6x262144, .i32⟩ : BufTy).Contents (Elt F) → (⟨S6x262144, .i1⟩ : BufTy).Contents (Elt F)),
    nullary main_c_16 (constantI S_ 32 128#32),
    unary main_c_16 main_v51 (broadcastInDim S6x262144 ![] bcast_S_S6x262144 : (⟨S_, .i32⟩ : BufTy).Contents (Elt F) → (⟨S6x262144, .i32⟩ : BufTy).Contents (Elt F)),
    binary main_v21 main_v51 main_v52 (addi : (⟨S6x262144, .i32⟩ : BufTy).Contents (Elt F) → (⟨S6x262144, .i32⟩ : BufTy).Contents (Elt F) → (⟨S6x262144, .i32⟩ : BufTy).Contents (Elt F)),
    ternary main_v50 main_v52 main_v21 main_v53 (select : (⟨S6x262144, .i1⟩ : BufTy).Contents (Elt F) → (⟨S6x262144, .i32⟩ : BufTy).Contents (Elt F) → (⟨S6x262144, .i32⟩ : BufTy).Contents (Elt F) → (⟨S6x262144, .i32⟩ : BufTy).Contents (Elt F)),
    nullary main_c_17 (constantI S_ 32 0#32),
    unary main_c_17 main_v54 (broadcastInDim S6x262144 ![] bcast_S_S6x262144 : (⟨S_, .i32⟩ : BufTy).Contents (Elt F) → (⟨S6x262144, .i32⟩ : BufTy).Contents (Elt F)),
    binary main_v28 main_v54 main_v55 (cmpi .slt : (⟨S6x262144, .i32⟩ : BufTy).Contents (Elt F) → (⟨S6x262144, .i32⟩ : BufTy).Contents (Elt F) → (⟨S6x262144, .i1⟩ : BufTy).Contents (Elt F)),
    nullary main_c_18 (constantI S_ 32 128#32),
    unary main_c_18 main_v56 (broadcastInDim S6x262144 ![] bcast_S_S6x262144 : (⟨S_, .i32⟩ : BufTy).Contents (Elt F) → (⟨S6x262144, .i32⟩ : BufTy).Contents (Elt F)),
    binary main_v28 main_v56 main_v57 (addi : (⟨S6x262144, .i32⟩ : BufTy).Contents (Elt F) → (⟨S6x262144, .i32⟩ : BufTy).Contents (Elt F) → (⟨S6x262144, .i32⟩ : BufTy).Contents (Elt F)),
    ternary main_v55 main_v57 main_v28 main_v58 (select : (⟨S6x262144, .i1⟩ : BufTy).Contents (Elt F) → (⟨S6x262144, .i32⟩ : BufTy).Contents (Elt F) → (⟨S6x262144, .i32⟩ : BufTy).Contents (Elt F) → (⟨S6x262144, .i32⟩ : BufTy).Contents (Elt F)),
    unary main_v53 main_v59 (broadcastInDim S6x262144x1 ![0, 1] bcast_S6x262144_S6x262144x1_0_1 : (⟨S6x262144, .i32⟩ : BufTy).Contents (Elt F) → (⟨S6x262144x1, .i32⟩ : BufTy).Contents (Elt F)),
    unary main_v58 main_v60 (broadcastInDim S6x262144x1 ![0, 1] bcast_S6x262144_S6x262144x1_0_1 : (⟨S6x262144, .i32⟩ : BufTy).Contents (Elt F) → (⟨S6x262144x1, .i32⟩ : BufTy).Contents (Elt F)),
    binary main_v59 main_v60 main_v61 ((fun a b => concatenate S6x262144x2 2 [⟨S6x262144x1, a⟩, ⟨S6x262144x1, b⟩] concatenates_S6x262144x1_S6x262144x1_S6x262144x2_d2) : (⟨S6x262144x1, .i32⟩ : BufTy).Contents (Elt F) → (⟨S6x262144x1, .i32⟩ : BufTy).Contents (Elt F) → (⟨S6x262144x2, .i32⟩ : BufTy).Contents (Elt F)),
    binary main_arg1 main_v61 main_v62 ((fun x i => Host.gather gather_S6x16x128x128_S6x262144x2_S6x16x262144_1_23_0_0_23_2_11611 x i) : (⟨S6x16x128x128, .f32⟩ : BufTy).Contents (Elt F) → (⟨S6x262144x2, .i32⟩ : BufTy).Contents (Elt F) → (⟨S6x16x262144, .f32⟩ : BufTy).Contents (Elt F)),
    nullary main_c_19 (constantI S_ 32 0#32),
    unary main_c_19 main_v63 (broadcastInDim S6x262144 ![] bcast_S_S6x262144 : (⟨S_, .i32⟩ : BufTy).Contents (Elt F) → (⟨S6x262144, .i32⟩ : BufTy).Contents (Elt F)),
    binary main_v26 main_v63 main_v64 (cmpi .slt : (⟨S6x262144, .i32⟩ : BufTy).Contents (Elt F) → (⟨S6x262144, .i32⟩ : BufTy).Contents (Elt F) → (⟨S6x262144, .i1⟩ : BufTy).Contents (Elt F)),
    nullary main_c_20 (constantI S_ 32 128#32),
    unary main_c_20 main_v65 (broadcastInDim S6x262144 ![] bcast_S_S6x262144 : (⟨S_, .i32⟩ : BufTy).Contents (Elt F) → (⟨S6x262144, .i32⟩ : BufTy).Contents (Elt F)),
    binary main_v26 main_v65 main_v66 (addi : (⟨S6x262144, .i32⟩ : BufTy).Contents (Elt F) → (⟨S6x262144, .i32⟩ : BufTy).Contents (Elt F) → (⟨S6x262144, .i32⟩ : BufTy).Contents (Elt F)),
    ternary main_v64 main_v66 main_v26 main_v67 (select : (⟨S6x262144, .i1⟩ : BufTy).Contents (Elt F) → (⟨S6x262144, .i32⟩ : BufTy).Contents (Elt F) → (⟨S6x262144, .i32⟩ : BufTy).Contents (Elt F) → (⟨S6x262144, .i32⟩ : BufTy).Contents (Elt F)),
    nullary main_c_21 (constantI S_ 32 0#32),
    unary main_c_21 main_v68 (broadcastInDim S6x262144 ![] bcast_S_S6x262144 : (⟨S_, .i32⟩ : BufTy).Contents (Elt F) → (⟨S6x262144, .i32⟩ : BufTy).Contents (Elt F)),
    binary main_v24 main_v68 main_v69 (cmpi .slt : (⟨S6x262144, .i32⟩ : BufTy).Contents (Elt F) → (⟨S6x262144, .i32⟩ : BufTy).Contents (Elt F) → (⟨S6x262144, .i1⟩ : BufTy).Contents (Elt F)),
    nullary main_c_22 (constantI S_ 32 128#32),
    unary main_c_22 main_v70 (broadcastInDim S6x262144 ![] bcast_S_S6x262144 : (⟨S_, .i32⟩ : BufTy).Contents (Elt F) → (⟨S6x262144, .i32⟩ : BufTy).Contents (Elt F)),
    binary main_v24 main_v70 main_v71 (addi : (⟨S6x262144, .i32⟩ : BufTy).Contents (Elt F) → (⟨S6x262144, .i32⟩ : BufTy).Contents (Elt F) → (⟨S6x262144, .i32⟩ : BufTy).Contents (Elt F)),
    ternary main_v69 main_v71 main_v24 main_v72 (select : (⟨S6x262144, .i1⟩ : BufTy).Contents (Elt F) → (⟨S6x262144, .i32⟩ : BufTy).Contents (Elt F) → (⟨S6x262144, .i32⟩ : BufTy).Contents (Elt F) → (⟨S6x262144, .i32⟩ : BufTy).Contents (Elt F)),
    unary main_v67 main_v73 (broadcastInDim S6x262144x1 ![0, 1] bcast_S6x262144_S6x262144x1_0_1 : (⟨S6x262144, .i32⟩ : BufTy).Contents (Elt F) → (⟨S6x262144x1, .i32⟩ : BufTy).Contents (Elt F)),
    unary main_v72 main_v74 (broadcastInDim S6x262144x1 ![0, 1] bcast_S6x262144_S6x262144x1_0_1 : (⟨S6x262144, .i32⟩ : BufTy).Contents (Elt F) → (⟨S6x262144x1, .i32⟩ : BufTy).Contents (Elt F)),
    binary main_v73 main_v74 main_v75 ((fun a b => concatenate S6x262144x2 2 [⟨S6x262144x1, a⟩, ⟨S6x262144x1, b⟩] concatenates_S6x262144x1_S6x262144x1_S6x262144x2_d2) : (⟨S6x262144x1, .i32⟩ : BufTy).Contents (Elt F) → (⟨S6x262144x1, .i32⟩ : BufTy).Contents (Elt F) → (⟨S6x262144x2, .i32⟩ : BufTy).Contents (Elt F)),
    binary main_arg1 main_v75 main_v76 ((fun x i => Host.gather gather_S6x16x128x128_S6x262144x2_S6x16x262144_1_23_0_0_23_2_11611 x i) : (⟨S6x16x128x128, .f32⟩ : BufTy).Contents (Elt F) → (⟨S6x262144x2, .i32⟩ : BufTy).Contents (Elt F) → (⟨S6x16x262144, .f32⟩ : BufTy).Contents (Elt F)),
    nullary main_c_23 (constantI S_ 32 0#32),
    unary main_c_23 main_v77 (broadcastInDim S6x262144 ![] bcast_S_S6x262144 : (⟨S_, .i32⟩ : BufTy).Contents (Elt F) → (⟨S6x262144, .i32⟩ : BufTy).Contents (Elt F)),
    binary main_v26 main_v77 main_v78 (cmpi .slt : (⟨S6x262144, .i32⟩ : BufTy).Contents (Elt F) → (⟨S6x262144, .i32⟩ : BufTy).Contents (Elt F) → (⟨S6x262144, .i1⟩ : BufTy).Contents (Elt F)),
    nullary main_c_24 (constantI S_ 32 128#32),
    unary main_c_24 main_v79 (broadcastInDim S6x262144 ![] bcast_S_S6x262144 : (⟨S_, .i32⟩ : BufTy).Contents (Elt F) → (⟨S6x262144, .i32⟩ : BufTy).Contents (Elt F)),
    binary main_v26 main_v79 main_v80 (addi : (⟨S6x262144, .i32⟩ : BufTy).Contents (Elt F) → (⟨S6x262144, .i32⟩ : BufTy).Contents (Elt F) → (⟨S6x262144, .i32⟩ : BufTy).Contents (Elt F)),
    ternary main_v78 main_v80 main_v26 main_v81 (select : (⟨S6x262144, .i1⟩ : BufTy).Contents (Elt F) → (⟨S6x262144, .i32⟩ : BufTy).Contents (Elt F) → (⟨S6x262144, .i32⟩ : BufTy).Contents (Elt F) → (⟨S6x262144, .i32⟩ : BufTy).Contents (Elt F)),
    nullary main_c_25 (constantI S_ 32 0#32),
    unary main_c_25 main_v82 (broadcastInDim S6x262144 ![] bcast_S_S6x262144 : (⟨S_, .i32⟩ : BufTy).Contents (Elt F) → (⟨S6x262144, .i32⟩ : BufTy).Contents (Elt F)),
    binary main_v28 main_v82 main_v83 (cmpi .slt : (⟨S6x262144, .i32⟩ : BufTy).Contents (Elt F) → (⟨S6x262144, .i32⟩ : BufTy).Contents (Elt F) → (⟨S6x262144, .i1⟩ : BufTy).Contents (Elt F)),
    nullary main_c_26 (constantI S_ 32 128#32),
    unary main_c_26 main_v84 (broadcastInDim S6x262144 ![] bcast_S_S6x262144 : (⟨S_, .i32⟩ : BufTy).Contents (Elt F) → (⟨S6x262144, .i32⟩ : BufTy).Contents (Elt F)),
    binary main_v28 main_v84 main_v85 (addi : (⟨S6x262144, .i32⟩ : BufTy).Contents (Elt F) → (⟨S6x262144, .i32⟩ : BufTy).Contents (Elt F) → (⟨S6x262144, .i32⟩ : BufTy).Contents (Elt F)),
    ternary main_v83 main_v85 main_v28 main_v86 (select : (⟨S6x262144, .i1⟩ : BufTy).Contents (Elt F) → (⟨S6x262144, .i32⟩ : BufTy).Contents (Elt F) → (⟨S6x262144, .i32⟩ : BufTy).Contents (Elt F) → (⟨S6x262144, .i32⟩ : BufTy).Contents (Elt F)),
    unary main_v81 main_v87 (broadcastInDim S6x262144x1 ![0, 1] bcast_S6x262144_S6x262144x1_0_1 : (⟨S6x262144, .i32⟩ : BufTy).Contents (Elt F) → (⟨S6x262144x1, .i32⟩ : BufTy).Contents (Elt F)),
    unary main_v86 main_v88 (broadcastInDim S6x262144x1 ![0, 1] bcast_S6x262144_S6x262144x1_0_1 : (⟨S6x262144, .i32⟩ : BufTy).Contents (Elt F) → (⟨S6x262144x1, .i32⟩ : BufTy).Contents (Elt F)),
    binary main_v87 main_v88 main_v89 ((fun a b => concatenate S6x262144x2 2 [⟨S6x262144x1, a⟩, ⟨S6x262144x1, b⟩] concatenates_S6x262144x1_S6x262144x1_S6x262144x2_d2) : (⟨S6x262144x1, .i32⟩ : BufTy).Contents (Elt F) → (⟨S6x262144x1, .i32⟩ : BufTy).Contents (Elt F) → (⟨S6x262144x2, .i32⟩ : BufTy).Contents (Elt F)),
    binary main_arg1 main_v89 main_v90 ((fun x i => Host.gather gather_S6x16x128x128_S6x262144x2_S6x16x262144_1_23_0_0_23_2_11611 x i) : (⟨S6x16x128x128, .f32⟩ : BufTy).Contents (Elt F) → (⟨S6x262144x2, .i32⟩ : BufTy).Contents (Elt F) → (⟨S6x16x262144, .f32⟩ : BufTy).Contents (Elt F)) ]

set_option maxRecDepth 4096 in
/-- The part is its list run in sequence: the called functions unfolded at their calls, sequencing reassociated. -/
theorem part1_eq (c : Dev nD) : main_part1 (F := F) c = seq ops1 := by
  simp only [main_part1, fn_clip.body, fn_relu.body, seq, bind_assoc, pure_bind] <;> rfl

theorem sub1 : (ops1 : List (HloOp τ sig (Elt F))).Forall fun op => op.bufs ⊆ tcRefs τ sig :=
  ⟨binary_bufs_sub .., ternary_bufs_sub .., unary_bufs_sub .., unary_bufs_sub .., binary_bufs_sub .., binary_bufs_sub ..,
    nullary_bufs_sub .., unary_bufs_sub .., binary_bufs_sub .., nullary_bufs_sub .., unary_bufs_sub .., binary_bufs_sub ..,
    ternary_bufs_sub .., nullary_bufs_sub .., unary_bufs_sub .., binary_bufs_sub .., nullary_bufs_sub .., unary_bufs_sub ..,
    binary_bufs_sub .., ternary_bufs_sub .., unary_bufs_sub .., unary_bufs_sub .., binary_bufs_sub .., binary_bufs_sub ..,
    nullary_bufs_sub .., unary_bufs_sub .., binary_bufs_sub .., nullary_bufs_sub .., unary_bufs_sub .., binary_bufs_sub ..,
    ternary_bufs_sub .., nullary_bufs_sub .., unary_bufs_sub .., binary_bufs_sub .., nullary_bufs_sub .., unary_bufs_sub ..,
    binary_bufs_sub .., ternary_bufs_sub .., unary_bufs_sub .., unary_bufs_sub .., binary_bufs_sub .., binary_bufs_sub ..,
    nullary_bufs_sub .., unary_bufs_sub .., binary_bufs_sub .., nullary_bufs_sub .., unary_bufs_sub .., binary_bufs_sub ..,
    ternary_bufs_sub .., nullary_bufs_sub .., unary_bufs_sub .., binary_bufs_sub .., nullary_bufs_sub .., unary_bufs_sub ..,
    binary_bufs_sub .., ternary_bufs_sub .., unary_bufs_sub .., unary_bufs_sub .., binary_bufs_sub .., binary_bufs_sub ..⟩

/-- The buffers part 1 writes: one per operation, its result. -/
abbrev W1 : List (Ref sig .tc) :=
  [ main_v43, main_v44, main_v45, main_v46, main_v47, main_v48, main_c_15, main_v49,
    main_v50, main_c_16, main_v51, main_v52, main_v53, main_c_17, main_v54, main_v55,
    main_c_18, main_v56, main_v57, main_v58, main_v59, main_v60, main_v61, main_v62,
    main_c_19, main_v63, main_v64, main_c_20, main_v65, main_v66, main_v67, main_c_21,
    main_v68, main_v69, main_c_22, main_v70, main_v71, main_v72, main_v73, main_v74,
    main_v75, main_v76, main_c_23, main_v77, main_v78, main_c_24, main_v79, main_v80,
    main_v81, main_c_25, main_v82, main_v83, main_c_26, main_v84, main_v85, main_v86,
    main_v87, main_v88, main_v89, main_v90 ]

/-- Each operation of the part writes its result buffer and nothing else. -/
theorem writes1 : (ops1 : List (HloOp τ sig (Elt F))).Forall fun op => op.writes ⊆ ((W1).map (Proc.devRef (τ := τ) .tc)).toFinset := by
  simp only [List.Forall, nullary_writes, unary_writes, binary_writes, ternary_writes, reshape_writes, nary_writes, Finset.singleton_subset_iff, List.mem_toFinset]
  repeat' apply And.intro
  all_goals exact List.mem_map_of_mem (by decide)

theorem fresh1 : ∀ op ∈ (ops1 : List (HloOp τ sig (Elt F))), op.fresh = ∅ := by
  intro _ h; (repeat (cases h with | head => rfl | tail _ h => ?_)); exact nomatch h

end Cert.ReferenceIdeal.RefRun

end
-- ==== Proof.RefOps2.lean ====
/-
  The operations of part 2 of the reference's @main as a list, in the order the program runs them; where the
  program calls one of its own functions (a clip to an interval, a maximum with zero) that function's operations
  stand at the call, over the buffers that call names. Three facts about the list: the part IS the list run in
  sequence; every operation touches TensorCore buffers only; none allocates.
-/
import proofs.«176422_j70471823393083_2_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- Part 2's 70 operations, in order. -/
abbrev ops2 : List (HloOp τ sig (Elt F)) :=
  [ nullary main_cst_27 (constant S_ .f32 0x3F800000#32),
    unary main_cst_27 main_v91 (broadcastInDim S6x1x262144 ![] bcast_S_S6x1x262144 : (⟨S_, .f32⟩ : BufTy).Contents (Elt F) → (⟨S6x1x262144, .f32⟩ : BufTy).Contents (Elt F)),
    binary main_v91 main_v31 main_v92 (subf : (⟨S6x1x262144, .f32⟩ : BufTy).Contents (Elt F) → (⟨S6x1x262144, .f32⟩ : BufTy).Contents (Elt F) → (⟨S6x1x262144, .f32⟩ : BufTy).Contents (Elt F)),
    unary main_v92 main_v93 (broadcastInDim S6x16x262144 ![0, 1, 2] bcast_S6x1x262144_S6x16x262144_0_1_2 : (⟨S6x1x262144, .f32⟩ : BufTy).Contents (Elt F) → (⟨S6x16x262144, .f32⟩ : BufTy).Contents (Elt F)),
    binary main_v48 main_v93 main_v94 (mulf : (⟨S6x16x262144, .f32⟩ : BufTy).Contents (Elt F) → (⟨S6x16x262144, .f32⟩ : BufTy).Contents (Elt F) → (⟨S6x16x262144, .f32⟩ : BufTy).Contents (Elt F)),
    nullary main_cst_28 (constant S_ .f32 0x3F800000#32),
    unary main_cst_28 main_v95 (broadcastInDim S6x1x262144 ![] bcast_S_S6x1x262144 : (⟨S_, .f32⟩ : BufTy).Contents (Elt F) → (⟨S6x1x262144, .f32⟩ : BufTy).Contents (Elt F)),
    binary main_v95 main_v34 main_v96 (subf : (⟨S6x1x262144, .f32⟩ : BufTy).Contents (Elt F) → (⟨S6x1x262144, .f32⟩ : BufTy).Contents (Elt F) → (⟨S6x1x262144, .f32⟩ : BufTy).Contents (Elt F)),
    unary main_v96 main_v97 (broadcastInDim S6x16x262144 ![0, 1, 2] bcast_S6x1x262144_S6x16x262144_0_1_2 : (⟨S6x1x262144, .f32⟩ : BufTy).Contents (Elt F) → (⟨S6x16x262144, .f32⟩ : BufTy).Contents (Elt F)),
    binary main_v94 main_v97 main_v98 (mulf : (⟨S6x16x262144, .f32⟩ : BufTy).Contents (Elt F) → (⟨S6x16x262144, .f32⟩ : BufTy).Contents (Elt F) → (⟨S6x16x262144, .f32⟩ : BufTy).Contents (Elt F)),
    nullary main_cst_29 (constant S_ .f32 0x3F800000#32),
    unary main_cst_29 main_v99 (broadcastInDim S6x1x262144 ![] bcast_S_S6x1x262144 : (⟨S_, .f32⟩ : BufTy).Contents (Elt F) → (⟨S6x1x262144, .f32⟩ : BufTy).Contents (Elt F)),
    binary main_v99 main_v31 main_v100 (subf : (⟨S6x1x262144, .f32⟩ : BufTy).Contents (Elt F) → (⟨S6x1x262144, .f32⟩ : BufTy).Contents (Elt F) → (⟨S6x1x262144, .f32⟩ : BufTy).Contents (Elt F)),
    unary main_v100 main_v101 (broadcastInDim S6x16x262144 ![0, 1, 2] bcast_S6x1x262144_S6x16x262144_0_1_2 : (⟨S6x1x262144, .f32⟩ : BufTy).Contents (Elt F) → (⟨S6x16x262144, .f32⟩ : BufTy).Contents (Elt F)),
    binary main_v62 main_v101 main_v102 (mulf : (⟨S6x16x262144, .f32⟩ : BufTy).Contents (Elt F) → (⟨S6x16x262144, .f32⟩ : BufTy).Contents (Elt F) → (⟨S6x16x262144, .f32⟩ : BufTy).Contents (Elt F)),
    unary main_v34 main_v103 (broadcastInDim S6x16x262144 ![0, 1, 2] bcast_S6x1x262144_S6x16x262144_0_1_2 : (⟨S6x1x262144, .f32⟩ : BufTy).Contents (Elt F) → (⟨S6x16x262144, .f32⟩ : BufTy).Contents (Elt F)),
    binary main_v102 main_v103 main_v104 (mulf : (⟨S6x16x262144, .f32⟩ : BufTy).Contents (Elt F) → (⟨S6x16x262144, .f32⟩ : BufTy).Contents (Elt F) → (⟨S6x16x262144, .f32⟩ : BufTy).Contents (Elt F)),
    binary main_v98 main_v104 main_v105 (addf : (⟨S6x16x262144, .f32⟩ : BufTy).Contents (Elt F) → (⟨S6x16x262144, .f32⟩ : BufTy).Contents (Elt F) → (⟨S6x16x262144, .f32⟩ : BufTy).Contents (Elt F)),
    unary main_v31 main_v106 (broadcastInDim S6x16x262144 ![0, 1, 2] bcast_S6x1x262144_S6x16x262144_0_1_2 : (⟨S6x1x262144, .f32⟩ : BufTy).Contents (Elt F) → (⟨S6x16x262144, .f32⟩ : BufTy).Contents (Elt F)),
    binary main_v76 main_v106 main_v107 (mulf : (⟨S6x16x262144, .f32⟩ : BufTy).Contents (Elt F) → (⟨S6x16x262144, .f32⟩ : BufTy).Contents (Elt F) → (⟨S6x16x262144, .f32⟩ : BufTy).Contents (Elt F)),
    nullary main_cst_30 (constant S_ .f32 0x3F800000#32),
    unary main_cst_30 main_v108 (broadcastInDim S6x1x262144 ![] bcast_S_S6x1x262144 : (⟨S_, .f32⟩ : BufTy).Contents (Elt F) → (⟨S6x1x262144, .f32⟩ : BufTy).Contents (Elt F)),
    binary main_v108 main_v34 main_v109 (subf : (⟨S6x1x262144, .f32⟩ : BufTy).Contents (Elt F) → (⟨S6x1x262144, .f32⟩ : BufTy).Contents (Elt F) → (⟨S6x1x262144, .f32⟩ : BufTy).Contents (Elt F)),
    unary main_v109 main_v110 (broadcastInDim S6x16x262144 ![0, 1, 2] bcast_S6x1x262144_S6x16x262144_0_1_2 : (⟨S6x1x262144, .f32⟩ : BufTy).Contents (Elt F) → (⟨S6x16x262144, .f32⟩ : BufTy).Contents (Elt F)),
    binary main_v107 main_v110 main_v111 (mulf : (⟨S6x16x262144, .f32⟩ : BufTy).Contents (Elt F) → (⟨S6x16x262144, .f32⟩ : BufTy).Contents (Elt F) → (⟨S6x16x262144, .f32⟩ : BufTy).Contents (Elt F)),
    binary main_v105 main_v111 main_v112 (addf : (⟨S6x16x262144, .f32⟩ : BufTy).Contents (Elt F) → (⟨S6x16x262144, .f32⟩ : BufTy).Contents (Elt F) → (⟨S6x16x262144, .f32⟩ : BufTy).Contents (Elt F)),
    unary main_v31 main_v113 (broadcastInDim S6x16x262144 ![0, 1, 2] bcast_S6x1x262144_S6x16x262144_0_1_2 : (⟨S6x1x262144, .f32⟩ : BufTy).Contents (Elt F) → (⟨S6x16x262144, .f32⟩ : BufTy).Contents (Elt F)),
    binary main_v90 main_v113 main_v114 (mulf : (⟨S6x16x262144, .f32⟩ : BufTy).Contents (Elt F) → (⟨S6x16x262144, .f32⟩ : BufTy).Contents (Elt F) → (⟨S6x16x262144, .f32⟩ : BufTy).Contents (Elt F)),
    unary main_v34 main_v115 (broadcastInDim S6x16x262144 ![0, 1, 2] bcast_S6x1x262144_S6x16x262144_0_1_2 : (⟨S6x1x262144, .f32⟩ : BufTy).Contents (Elt F) → (⟨S6x16x262144, .f32⟩ : BufTy).Contents (Elt F)),
    binary main_v114 main_v115 main_v116 (mulf : (⟨S6x16x262144, .f32⟩ : BufTy).Contents (Elt F) → (⟨S6x16x262144, .f32⟩ : BufTy).Contents (Elt F) → (⟨S6x16x262144, .f32⟩ : BufTy).Contents (Elt F)),
    binary main_v112 main_v116 main_v117 (addf : (⟨S6x16x262144, .f32⟩ : BufTy).Contents (Elt F) → (⟨S6x16x262144, .f32⟩ : BufTy).Contents (Elt F) → (⟨S6x16x262144, .f32⟩ : BufTy).Contents (Elt F)),
    unary main_v117 main_v118 ((transpose S6x262144x16 [0, 2, 1] · transposes_S6x16x262144_S6x262144x16_0_2_1) : (⟨S6x16x262144, .f32⟩ : BufTy).Contents (Elt F) → (⟨S6x262144x16, .f32⟩ : BufTy).Contents (Elt F)),
    unary main_v118 main_v119 ((transpose S262144x6x16 [1, 0, 2] · transposes_S6x262144x16_S262144x6x16_1_0_2) : (⟨S6x262144x16, .f32⟩ : BufTy).Contents (Elt F) → (⟨S262144x6x16, .f32⟩ : BufTy).Contents (Elt F)),
    reshape main_v119 main_v120 rfl shapeCasts_S262144x6x16_S262144x96,
    unary main_v8 main_v121 ((extractStridedSlice S262144x6x1 ![0, 0, 0] · slices_S262144x6x2_S262144x6x1_0_0_0) : (⟨S262144x6x2, .f32⟩ : BufTy).Contents (Elt F) → (⟨S262144x6x1, .f32⟩ : BufTy).Contents (Elt F)),
    unary main_v121 main_v122 ((transpose S6x262144x1 [1, 0, 2] · transposes_S262144x6x1_S6x262144x1_1_0_2) : (⟨S262144x6x1, .f32⟩ : BufTy).Contents (Elt F) → (⟨S6x262144x1, .f32⟩ : BufTy).Contents (Elt F)),
    reshape main_v122 main_v123 rfl shapeCasts_S6x262144x1_S6x262144,
    nullary main_cst_31 (constant S_ .f32 0x437F0000#32),
    unary main_cst_31 main_v124 (broadcastInDim S6x262144 ![] bcast_S_S6x262144 : (⟨S_, .f32⟩ : BufTy).Contents (Elt F) → (⟨S6x262144, .f32⟩ : BufTy).Contents (Elt F)),
    binary main_v123 main_v124 main_v125 (mulf : (⟨S6x262144, .f32⟩ : BufTy).Contents (Elt F) → (⟨S6x262144, .f32⟩ : BufTy).Contents (Elt F) → (⟨S6x262144, .f32⟩ : BufTy).Contents (Elt F)),
    unary main_v8 main_v126 ((extractStridedSlice S262144x6x1 ![0, 0, 1] · slices_S262144x6x2_S262144x6x1_0_0_1) : (⟨S262144x6x2, .f32⟩ : BufTy).Contents (Elt F) → (⟨S262144x6x1, .f32⟩ : BufTy).Contents (Elt F)),
    unary main_v126 main_v127 ((transpose S6x262144x1 [1, 0, 2] · transposes_S262144x6x1_S6x262144x1_1_0_2) : (⟨S262144x6x1, .f32⟩ : BufTy).Contents (Elt F) → (⟨S6x262144x1, .f32⟩ : BufTy).Contents (Elt F)),
    reshape main_v127 main_v128 rfl shapeCasts_S6x262144x1_S6x262144,
    nullary main_cst_32 (constant S_ .f32 0x437F0000#32),
    unary main_cst_32 main_v129 (broadcastInDim S6x262144 ![] bcast_S_S6x262144 : (⟨S_, .f32⟩ : BufTy).Contents (Elt F) → (⟨S6x262144, .f32⟩ : BufTy).Contents (Elt F)),
    binary main_v128 main_v129 main_v130 (mulf : (⟨S6x262144, .f32⟩ : BufTy).Contents (Elt F) → (⟨S6x262144, .f32⟩ : BufTy).Contents (Elt F) → (⟨S6x262144, .f32⟩ : BufTy).Contents (Elt F)),
    unary main_v125 main_v131 (Host.floor : (⟨S6x262144, .f32⟩ : BufTy).Contents (Elt F) → (⟨S6x262144, .f32⟩ : BufTy).Contents (Elt F)),
    nullary main_c_33 (constantI S_ 32 0#32),
    nullary main_c_34 (constantI S_ 32 254#32),
    TRef.unary (.of main_c_33) main_call2.v0 (sitofp .f32),
    TRef.unary main_call2.v0 main_call2.v1 (broadcastInDim S6x262144 ![] bcast_S_S6x262144),
    TRef.binary main_call2.v1 (.of main_v131) main_call2.v2 maximumf,
    TRef.unary (.of main_c_34) main_call2.v3 (sitofp .f32),
    TRef.unary main_call2.v3 main_call2.v4 (broadcastInDim S6x262144 ![] bcast_S_S6x262144),
    TRef.binary main_call2.v4 main_call2.v2 main_call2.v5 minimumf,
    unary main_v132 main_v133 (fptosi 32 : (⟨S6x262144, .f32⟩ : BufTy).Contents (Elt F) → (⟨S6x262144, .i32⟩ : BufTy).Contents (Elt F)),
    unary main_v130 main_v134 (Host.floor : (⟨S6x262144, .f32⟩ : BufTy).Contents (Elt F) → (⟨S6x262144, .f32⟩ : BufTy).Contents (Elt F)),
    nullary main_c_35 (constantI S_ 32 0#32),
    nullary main_c_36 (constantI S_ 32 254#32),
    TRef.unary (.of main_c_35) main_call3.v0 (sitofp .f32),
    TRef.unary main_call3.v0 main_call3.v1 (broadcastInDim S6x262144 ![] bcast_S_S6x262144),
    TRef.binary main_call3.v1 (.of main_v134) main_call3.v2 maximumf,
    TRef.unary (.of main_c_36) main_call3.v3 (sitofp .f32),
    TRef.unary main_call3.v3 main_call3.v4 (broadcastInDim S6x262144 ![] bcast_S_S6x262144),
    TRef.binary main_call3.v4 main_call3.v2 main_call3.v5 minimumf,
    unary main_v135 main_v136 (fptosi 32 : (⟨S6x262144, .f32⟩ : BufTy).Contents (Elt F) → (⟨S6x262144, .i32⟩ : BufTy).Contents (Elt F)),
    nullary main_c_37 (constantI S_ 32 1#32),
    unary main_c_37 main_v137 (broadcastInDim S6x262144 ![] bcast_S_S6x262144 : (⟨S_, .i32⟩ : BufTy).Contents (Elt F) → (⟨S6x262144, .i32⟩ : BufTy).Contents (Elt F)),
    binary main_v133 main_v137 main_v138 (addi : (⟨S6x262144, .i32⟩ : BufTy).Contents (Elt F) → (⟨S6x262144, .i32⟩ : BufTy).Contents (Elt F) → (⟨S6x262144, .i32⟩ : BufTy).Contents (Elt F)),
    nullary main_c_38 (constantI S_ 32 1#32) ]

set_option maxRecDepth 4096 in
/-- The part is its list run in sequence: the called functions unfolded at their calls, sequencing reassociated. -/
theorem part2_eq (c : Dev nD) : main_part2 (F := F) c = seq ops2 := by
  simp only [main_part2, fn_clip.body, fn_relu.body, seq, bind_assoc, pure_bind] <;> rfl

theorem sub2 : (ops2 : List (HloOp τ sig (Elt F))).Forall fun op => op.bufs ⊆ tcRefs τ sig :=
  ⟨nullary_bufs_sub .., unary_bufs_sub .., binary_bufs_sub .., unary_bufs_sub .., binary_bufs_sub .., nullary_bufs_sub ..,
    unary_bufs_sub .., binary_bufs_sub .., unary_bufs_sub .., binary_bufs_sub .., nullary_bufs_sub .., unary_bufs_sub ..,
    binary_bufs_sub .., unary_bufs_sub .., binary_bufs_sub .., unary_bufs_sub .., binary_bufs_sub .., binary_bufs_sub ..,
    unary_bufs_sub .., binary_bufs_sub .., nullary_bufs_sub .., unary_bufs_sub .., binary_bufs_sub .., unary_bufs_sub ..,
    binary_bufs_sub .., binary_bufs_sub .., unary_bufs_sub .., binary_bufs_sub .., unary_bufs_sub .., binary_bufs_sub ..,
    binary_bufs_sub .., unary_bufs_sub .., unary_bufs_sub .., reshape_bufs_sub .., unary_bufs_sub .., unary_bufs_sub ..,
    reshape_bufs_sub .., nullary_bufs_sub .., unary_bufs_sub .., binary_bufs_sub .., unary_bufs_sub .., unary_bufs_sub ..,
    reshape_bufs_sub .., nullary_bufs_sub .., unary_bufs_sub .., binary_bufs_sub .., unary_bufs_sub .., nullary_bufs_sub ..,
    nullary_bufs_sub .., unary_bufs_sub .., unary_bufs_sub .., binary_bufs_sub .., unary_bufs_sub .., unary_bufs_sub ..,
    binary_bufs_sub .., unary_bufs_sub .., unary_bufs_sub .., nullary_bufs_sub .., nullary_bufs_sub .., unary_bufs_sub ..,
    unary_bufs_sub .., binary_bufs_sub .., unary_bufs_sub .., unary_bufs_sub .., binary_bufs_sub .., unary_bufs_sub ..,
    nullary_bufs_sub .., unary_bufs_sub .., binary_bufs_sub .., nullary_bufs_sub ..⟩

/-- The buffers part 2 writes: one per operation, its result. -/
abbrev W2 : List (Ref sig .tc) :=
  [ main_cst_27, main_v91, main_v92, main_v93, main_v94, main_cst_28, main_v95, main_v96,
    main_v97, main_v98, main_cst_29, main_v99, main_v100, main_v101, main_v102, main_v103,
    main_v104, main_v105, main_v106, main_v107, main_cst_30, main_v108, main_v109, main_v110,
    main_v111, main_v112, main_v113, main_v114, main_v115, main_v116, main_v117, main_v118,
    main_v119, main_v120, main_v121, main_v122, main_v123, main_cst_31, main_v124, main_v125,
    main_v126, main_v127, main_v128, main_cst_32, main_v129, main_v130, main_v131, main_c_33,
    main_c_34, main_call2.v0.ref, main_call2.v1.ref, main_call2.v2.ref, main_call2.v3.ref, main_call2.v4.ref, main_call2.v5.ref, main_v133,
    main_v134, main_c_35, main_c_36, main_call3.v0.ref, main_call3.v1.ref, main_call3.v2.ref, main_call3.v3.ref, main_call3.v4.ref,
    main_call3.v5.ref, main_v136, main_c_37, main_v137, main_v138, main_c_38 ]

/-- Each operation of the part writes its result buffer and nothing else. -/
theorem writes2 : (ops2 : List (HloOp τ sig (Elt F))).Forall fun op => op.writes ⊆ ((W2).map (Proc.devRef (τ := τ) .tc)).toFinset := by
  simp only [List.Forall, nullary_writes, unary_writes, binary_writes, ternary_writes, reshape_writes, nary_writes, Finset.singleton_subset_iff, List.mem_toFinset]
  repeat' apply And.intro
  all_goals exact List.mem_map_of_mem (by decide)

theorem fresh2 : ∀ op ∈ (ops2 : List (HloOp τ sig (Elt F))), op.fresh = ∅ := by
  intro _ h; (repeat (cases h with | head => rfl | tail _ h => ?_)); exact nomatch h

end Cert.ReferenceIdeal.RefRun

end
-- ==== Proof.RefOps3.lean ====
/-
  The operations of part 3 of the reference's @main as a list, in the order the program runs them; where the
  program calls one of its own functions (a clip to an interval, a maximum with zero) that function's operations
  stand at the call, over the buffers that call names. Three facts about the list: the part IS the list run in
  sequence; every operation touches TensorCore buffers only; none allocates.
-/
import proofs.«176422_j70471823393083_2_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- Part 3's 60 operations, in order. -/
abbrev ops3 : List (HloOp τ sig (Elt F)) :=
  [ unary main_c_38 main_v139 (broadcastInDim S6x262144 ![] bcast_S_S6x262144 : (⟨S_, .i32⟩ : BufTy).Contents (Elt F) → (⟨S6x262144, .i32⟩ : BufTy).Contents (Elt F)),
    binary main_v136 main_v139 main_v140 (addi : (⟨S6x262144, .i32⟩ : BufTy).Contents (Elt F) → (⟨S6x262144, .i32⟩ : BufTy).Contents (Elt F) → (⟨S6x262144, .i32⟩ : BufTy).Contents (Elt F)),
    unary main_v133 main_v141 (sitofp .f32 : (⟨S6x262144, .i32⟩ : BufTy).Contents (Elt F) → (⟨S6x262144, .f32⟩ : BufTy).Contents (Elt F)),
    binary main_v125 main_v141 main_v142 (subf : (⟨S6x262144, .f32⟩ : BufTy).Contents (Elt F) → (⟨S6x262144, .f32⟩ : BufTy).Contents (Elt F) → (⟨S6x262144, .f32⟩ : BufTy).Contents (Elt F)),
    unary main_v142 main_v143 (broadcastInDim S6x1x262144 ![0, 2] bcast_S6x262144_S6x1x262144_0_2 : (⟨S6x262144, .f32⟩ : BufTy).Contents (Elt F) → (⟨S6x1x262144, .f32⟩ : BufTy).Contents (Elt F)),
    unary main_v136 main_v144 (sitofp .f32 : (⟨S6x262144, .i32⟩ : BufTy).Contents (Elt F) → (⟨S6x262144, .f32⟩ : BufTy).Contents (Elt F)),
    binary main_v130 main_v144 main_v145 (subf : (⟨S6x262144, .f32⟩ : BufTy).Contents (Elt F) → (⟨S6x262144, .f32⟩ : BufTy).Contents (Elt F) → (⟨S6x262144, .f32⟩ : BufTy).Contents (Elt F)),
    unary main_v145 main_v146 (broadcastInDim S6x1x262144 ![0, 2] bcast_S6x262144_S6x1x262144_0_2 : (⟨S6x262144, .f32⟩ : BufTy).Contents (Elt F) → (⟨S6x1x262144, .f32⟩ : BufTy).Contents (Elt F)),
    nullary main_c_39 (constantI S_ 32 0#32),
    unary main_c_39 main_v147 (broadcastInDim S6x262144 ![] bcast_S_S6x262144 : (⟨S_, .i32⟩ : BufTy).Contents (Elt F) → (⟨S6x262144, .i32⟩ : BufTy).Contents (Elt F)),
    binary main_v133 main_v147 main_v148 (cmpi .slt : (⟨S6x262144, .i32⟩ : BufTy).Contents (Elt F) → (⟨S6x262144, .i32⟩ : BufTy).Contents (Elt F) → (⟨S6x262144, .i1⟩ : BufTy).Contents (Elt F)),
    nullary main_c_40 (constantI S_ 32 256#32),
    unary main_c_40 main_v149 (broadcastInDim S6x262144 ![] bcast_S_S6x262144 : (⟨S_, .i32⟩ : BufTy).Contents (Elt F) → (⟨S6x262144, .i32⟩ : BufTy).Contents (Elt F)),
    binary main_v133 main_v149 main_v150 (addi : (⟨S6x262144, .i32⟩ : BufTy).Contents (Elt F) → (⟨S6x262144, .i32⟩ : BufTy).Contents (Elt F) → (⟨S6x262144, .i32⟩ : BufTy).Contents (Elt F)),
    ternary main_v148 main_v150 main_v133 main_v151 (select : (⟨S6x262144, .i1⟩ : BufTy).Contents (Elt F) → (⟨S6x262144, .i32⟩ : BufTy).Contents (Elt F) → (⟨S6x262144, .i32⟩ : BufTy).Contents (Elt F) → (⟨S6x262144, .i32⟩ : BufTy).Contents (Elt F)),
    nullary main_c_41 (constantI S_ 32 0#32),
    unary main_c_41 main_v152 (broadcastInDim S6x262144 ![] bcast_S_S6x262144 : (⟨S_, .i32⟩ : BufTy).Contents (Elt F) → (⟨S6x262144, .i32⟩ : BufTy).Contents (Elt F)),
    binary main_v136 main_v152 main_v153 (cmpi .slt : (⟨S6x262144, .i32⟩ : BufTy).Contents (Elt F) → (⟨S6x262144, .i32⟩ : BufTy).Contents (Elt F) → (⟨S6x262144, .i1⟩ : BufTy).Contents (Elt F)),
    nullary main_c_42 (constantI S_ 32 256#32),
    unary main_c_42 main_v154 (broadcastInDim S6x262144 ![] bcast_S_S6x262144 : (⟨S_, .i32⟩ : BufTy).Contents (Elt F) → (⟨S6x262144, .i32⟩ : BufTy).Contents (Elt F)),
    binary main_v136 main_v154 main_v155 (addi : (⟨S6x262144, .i32⟩ : BufTy).Contents (Elt F) → (⟨S6x262144, .i32⟩ : BufTy).Contents (Elt F) → (⟨S6x262144, .i32⟩ : BufTy).Contents (Elt F)),
    ternary main_v153 main_v155 main_v136 main_v156 (select : (⟨S6x262144, .i1⟩ : BufTy).Contents (Elt F) → (⟨S6x262144, .i32⟩ : BufTy).Contents (Elt F) → (⟨S6x262144, .i32⟩ : BufTy).Contents (Elt F) → (⟨S6x262144, .i32⟩ : BufTy).Contents (Elt F)),
    unary main_v151 main_v157 (broadcastInDim S6x262144x1 ![0, 1] bcast_S6x262144_S6x262144x1_0_1 : (⟨S6x262144, .i32⟩ : BufTy).Contents (Elt F) → (⟨S6x262144x1, .i32⟩ : BufTy).Contents (Elt F)),
    unary main_v156 main_v158 (broadcastInDim S6x262144x1 ![0, 1] bcast_S6x262144_S6x262144x1_0_1 : (⟨S6x262144, .i32⟩ : BufTy).Contents (Elt F) → (⟨S6x262144x1, .i32⟩ : BufTy).Contents (Elt F)),
    binary main_v157 main_v158 main_v159 ((fun a b => concatenate S6x262144x2 2 [⟨S6x262144x1, a⟩, ⟨S6x262144x1, b⟩] concatenates_S6x262144x1_S6x262144x1_S6x262144x2_d2) : (⟨S6x262144x1, .i32⟩ : BufTy).Contents (Elt F) → (⟨S6x262144x1, .i32⟩ : BufTy).Contents (Elt F) → (⟨S6x262144x2, .i32⟩ : BufTy).Contents (Elt F)),
    binary main_arg2 main_v159 main_v160 ((fun x i => Host.gather gather_S6x16x256x256_S6x262144x2_S6x16x262144_1_23_0_0_23_2_11611 x i) : (⟨S6x16x256x256, .f32⟩ : BufTy).Contents (Elt F) → (⟨S6x262144x2, .i32⟩ : BufTy).Contents (Elt F) → (⟨S6x16x262144, .f32⟩ : BufTy).Contents (Elt F)),
    nullary main_c_43 (constantI S_ 32 0#32),
    unary main_c_43 main_v161 (broadcastInDim S6x262144 ![] bcast_S_S6x262144 : (⟨S_, .i32⟩ : BufTy).Contents (Elt F) → (⟨S6x262144, .i32⟩ : BufTy).Contents (Elt F)),
    binary main_v133 main_v161 main_v162 (cmpi .slt : (⟨S6x262144, .i32⟩ : BufTy).Contents (Elt F) → (⟨S6x262144, .i32⟩ : BufTy).Contents (Elt F) → (⟨S6x262144, .i1⟩ : BufTy).Contents (Elt F)),
    nullary main_c_44 (constantI S_ 32 256#32),
    unary main_c_44 main_v163 (broadcastInDim S6x262144 ![] bcast_S_S6x262144 : (⟨S_, .i32⟩ : BufTy).Contents (Elt F) → (⟨S6x262144, .i32⟩ : BufTy).Contents (Elt F)),
    binary main_v133 main_v163 main_v164 (addi : (⟨S6x262144, .i32⟩ : BufTy).Contents (Elt F) → (⟨S6x262144, .i32⟩ : BufTy).Contents (Elt F) → (⟨S6x262144, .i32⟩ : BufTy).Contents (Elt F)),
    ternary main_v162 main_v164 main_v133 main_v165 (select : (⟨S6x262144, .i1⟩ : BufTy).Contents (Elt F) → (⟨S6x262144, .i32⟩ : BufTy).Contents (Elt F) → (⟨S6x262144, .i32⟩ : BufTy).Contents (Elt F) → (⟨S6x262144, .i32⟩ : BufTy).Contents (Elt F)),
    nullary main_c_45 (constantI S_ 32 0#32),
    unary main_c_45 main_v166 (broadcastInDim S6x262144 ![] bcast_S_S6x262144 : (⟨S_, .i32⟩ : BufTy).Contents (Elt F) → (⟨S6x262144, .i32⟩ : BufTy).Contents (Elt F)),
    binary main_v140 main_v166 main_v167 (cmpi .slt : (⟨S6x262144, .i32⟩ : BufTy).Contents (Elt F) → (⟨S6x262144, .i32⟩ : BufTy).Contents (Elt F) → (⟨S6x262144, .i1⟩ : BufTy).Contents (Elt F)),
    nullary main_c_46 (constantI S_ 32 256#32),
    unary main_c_46 main_v168 (broadcastInDim S6x262144 ![] bcast_S_S6x262144 : (⟨S_, .i32⟩ : BufTy).Contents (Elt F) → (⟨S6x262144, .i32⟩ : BufTy).Contents (Elt F)),
    binary main_v140 main_v168 main_v169 (addi : (⟨S6x262144, .i32⟩ : BufTy).Contents (Elt F) → (⟨S6x262144, .i32⟩ : BufTy).Contents (Elt F) → (⟨S6x262144, .i32⟩ : BufTy).Contents (Elt F)),
    ternary main_v167 main_v169 main_v140 main_v170 (select : (⟨S6x262144, .i1⟩ : BufTy).Contents (Elt F) → (⟨S6x262144, .i32⟩ : BufTy).Contents (Elt F) → (⟨S6x262144, .i32⟩ : BufTy).Contents (Elt F) → (⟨S6x262144, .i32⟩ : BufTy).Contents (Elt F)),
    unary main_v165 main_v171 (broadcastInDim S6x262144x1 ![0, 1] bcast_S6x262144_S6x262144x1_0_1 : (⟨S6x262144, .i32⟩ : BufTy).Contents (Elt F) → (⟨S6x262144x1, .i32⟩ : BufTy).Contents (Elt F)),
    unary main_v170 main_v172 (broadcastInDim S6x262144x1 ![0, 1] bcast_S6x262144_S6x262144x1_0_1 : (⟨S6x262144, .i32⟩ : BufTy).Contents (Elt F) → (⟨S6x262144x1, .i32⟩ : BufTy).Contents (Elt F)),
    binary main_v171 main_v172 main_v173 ((fun a b => concatenate S6x262144x2 2 [⟨S6x262144x1, a⟩, ⟨S6x262144x1, b⟩] concatenates_S6x262144x1_S6x262144x1_S6x262144x2_d2) : (⟨S6x262144x1, .i32⟩ : BufTy).Contents (Elt F) → (⟨S6x262144x1, .i32⟩ : BufTy).Contents (Elt F) → (⟨S6x262144x2, .i32⟩ : BufTy).Contents (Elt F)),
    binary main_arg2 main_v173 main_v174 ((fun x i => Host.gather gather_S6x16x256x256_S6x262144x2_S6x16x262144_1_23_0_0_23_2_11611 x i) : (⟨S6x16x256x256, .f32⟩ : BufTy).Contents (Elt F) → (⟨S6x262144x2, .i32⟩ : BufTy).Contents (Elt F) → (⟨S6x16x262144, .f32⟩ : BufTy).Contents (Elt F)),
    nullary main_c_47 (constantI S_ 32 0#32),
    unary main_c_47 main_v175 (broadcastInDim S6x262144 ![] bcast_S_S6x262144 : (⟨S_, .i32⟩ : BufTy).Contents (Elt F) → (⟨S6x262144, .i32⟩ : BufTy).Contents (Elt F)),
    binary main_v138 main_v175 main_v176 (cmpi .slt : (⟨S6x262144, .i32⟩ : BufTy).Contents (Elt F) → (⟨S6x262144, .i32⟩ : BufTy).Contents (Elt F) → (⟨S6x262144, .i1⟩ : BufTy).Contents (Elt F)),
    nullary main_c_48 (constantI S_ 32 256#32),
    unary main_c_48 main_v177 (broadcastInDim S6x262144 ![] bcast_S_S6x262144 : (⟨S_, .i32⟩ : BufTy).Contents (Elt F) → (⟨S6x262144, .i32⟩ : BufTy).Contents (Elt F)),
    binary main_v138 main_v177 main_v178 (addi : (⟨S6x262144, .i32⟩ : BufTy).Contents (Elt F) → (⟨S6x262144, .i32⟩ : BufTy).Contents (Elt F) → (⟨S6x262144, .i32⟩ : BufTy).Contents (Elt F)),
    ternary main_v176 main_v178 main_v138 main_v179 (select : (⟨S6x262144, .i1⟩ : BufTy).Contents (Elt F) → (⟨S6x262144, .i32⟩ : BufTy).Contents (Elt F) → (⟨S6x262144, .i32⟩ : BufTy).Contents (Elt F) → (⟨S6x262144, .i32⟩ : BufTy).Contents (Elt F)),
    nullary main_c_49 (constantI S_ 32 0#32),
    unary main_c_49 main_v180 (broadcastInDim S6x262144 ![] bcast_S_S6x262144 : (⟨S_, .i32⟩ : BufTy).Contents (Elt F) → (⟨S6x262144, .i32⟩ : BufTy).Contents (Elt F)),
    binary main_v136 main_v180 main_v181 (cmpi .slt : (⟨S6x262144, .i32⟩ : BufTy).Contents (Elt F) → (⟨S6x262144, .i32⟩ : BufTy).Contents (Elt F) → (⟨S6x262144, .i1⟩ : BufTy).Contents (Elt F)),
    nullary main_c_50 (constantI S_ 32 256#32),
    unary main_c_50 main_v182 (broadcastInDim S6x262144 ![] bcast_S_S6x262144 : (⟨S_, .i32⟩ : BufTy).Contents (Elt F) → (⟨S6x262144, .i32⟩ : BufTy).Contents (Elt F)),
    binary main_v136 main_v182 main_v183 (addi : (⟨S6x262144, .i32⟩ : BufTy).Contents (Elt F) → (⟨S6x262144, .i32⟩ : BufTy).Contents (Elt F) → (⟨S6x262144, .i32⟩ : BufTy).Contents (Elt F)),
    ternary main_v181 main_v183 main_v136 main_v184 (select : (⟨S6x262144, .i1⟩ : BufTy).Contents (Elt F) → (⟨S6x262144, .i32⟩ : BufTy).Contents (Elt F) → (⟨S6x262144, .i32⟩ : BufTy).Contents (Elt F) → (⟨S6x262144, .i32⟩ : BufTy).Contents (Elt F)),
    unary main_v179 main_v185 (broadcastInDim S6x262144x1 ![0, 1] bcast_S6x262144_S6x262144x1_0_1 : (⟨S6x262144, .i32⟩ : BufTy).Contents (Elt F) → (⟨S6x262144x1, .i32⟩ : BufTy).Contents (Elt F)),
    unary main_v184 main_v186 (broadcastInDim S6x262144x1 ![0, 1] bcast_S6x262144_S6x262144x1_0_1 : (⟨S6x262144, .i32⟩ : BufTy).Contents (Elt F) → (⟨S6x262144x1, .i32⟩ : BufTy).Contents (Elt F)) ]

set_option maxRecDepth 4096 in
/-- The part is its list run in sequence: the called functions unfolded at their calls, sequencing reassociated. -/
theorem part3_eq (c : Dev nD) : main_part3 (F := F) c = seq ops3 := by
  simp only [main_part3, fn_clip.body, fn_relu.body, seq, bind_assoc, pure_bind] <;> rfl

theorem sub3 : (ops3 : List (HloOp τ sig (Elt F))).Forall fun op => op.bufs ⊆ tcRefs τ sig :=
  ⟨unary_bufs_sub .., binary_bufs_sub .., unary_bufs_sub .., binary_bufs_sub .., unary_bufs_sub .., unary_bufs_sub ..,
    binary_bufs_sub .., unary_bufs_sub .., nullary_bufs_sub .., unary_bufs_sub .., binary_bufs_sub .., nullary_bufs_sub ..,
    unary_bufs_sub .., binary_bufs_sub .., ternary_bufs_sub .., nullary_bufs_sub .., unary_bufs_sub .., binary_bufs_sub ..,
    nullary_bufs_sub .., unary_bufs_sub .., binary_bufs_sub .., ternary_bufs_sub .., unary_bufs_sub .., unary_bufs_sub ..,
    binary_bufs_sub .., binary_bufs_sub .., nullary_bufs_sub .., unary_bufs_sub .., binary_bufs_sub .., nullary_bufs_sub ..,
    unary_bufs_sub .., binary_bufs_sub .., ternary_bufs_sub .., nullary_bufs_sub .., unary_bufs_sub .., binary_bufs_sub ..,
    nullary_bufs_sub .., unary_bufs_sub .., binary_bufs_sub .., ternary_bufs_sub .., unary_bufs_sub .., unary_bufs_sub ..,
    binary_bufs_sub .., binary_bufs_sub .., nullary_bufs_sub .., unary_bufs_sub .., binary_bufs_sub .., nullary_bufs_sub ..,
    unary_bufs_sub .., binary_bufs_sub .., ternary_bufs_sub .., nullary_bufs_sub .., unary_bufs_sub .., binary_bufs_sub ..,
    nullary_bufs_sub .., unary_bufs_sub .., binary_bufs_sub .., ternary_bufs_sub .., unary_bufs_sub .., unary_bufs_sub ..⟩

/-- The buffers part 3 writes: one per operation, its result. -/
abbrev W3 : List (Ref sig .tc) :=
  [ main_v139, main_v140, main_v141, main_v142, main_v143, main_v144, main_v145, main_v146,
    main_c_39, main_v147, main_v148, main_c_40, main_v149, main_v150, main_v151, main_c_41,
    main_v152, main_v153, main_c_42, main_v154, main_v155, main_v156, main_v157, main_v158,
    main_v159, main_v160, main_c_43, main_v161, main_v162, main_c_44, main_v163, main_v164,
    main_v165, main_c_45, main_v166, main_v167, main_c_46, main_v168, main_v169, main_v170,
    main_v171, main_v172, main_v173, main_v174, main_c_47, main_v175, main_v176, main_c_48,
    main_v177, main_v178, main_v179, main_c_49, main_v180, main_v181, main_c_50, main_v182,
    main_v183, main_v184, main_v185, main_v186 ]

/-- Each operation of the part writes its result buffer and nothing else. -/
theorem writes3 : (ops3 : List (HloOp τ sig (Elt F))).Forall fun op => op.writes ⊆ ((W3).map (Proc.devRef (τ := τ) .tc)).toFinset := by
  simp only [List.Forall, nullary_writes, unary_writes, binary_writes, ternary_writes, reshape_writes, nary_writes, Finset.singleton_subset_iff, List.mem_toFinset]
  repeat' apply And.intro
  all_goals exact List.mem_map_of_mem (by decide)

theorem fresh3 : ∀ op ∈ (ops3 : List (HloOp τ sig (Elt F))), op.fresh = ∅ := by
  intro _ h; (repeat (cases h with | head => rfl | tail _ h => ?_)); exact nomatch h

end Cert.ReferenceIdeal.RefRun

end
-- ==== Proof.RefOps4.lean ====
/-
  The operations of part 4 of the reference's @main as a list, in the order the program runs them; where the
  program calls one of its own functions (a clip to an interval, a maximum with zero) that function's operations
  stand at the call, over the buffers that call names. Three facts about the list: the part IS the list run in
  sequence; every operation touches TensorCore buffers only; none allocates.
-/
import proofs.«176422_j70471823393083_2_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- Part 4's 60 operations, in order. -/
abbrev ops4 : List (HloOp τ sig (Elt F)) :=
  [ binary main_v185 main_v186 main_v187 ((fun a b => concatenate S6x262144x2 2 [⟨S6x262144x1, a⟩, ⟨S6x262144x1, b⟩] concatenates_S6x262144x1_S6x262144x1_S6x262144x2_d2) : (⟨S6x262144x1, .i32⟩ : BufTy).Contents (Elt F) → (⟨S6x262144x1, .i32⟩ : BufTy).Contents (Elt F) → (⟨S6x262144x2, .i32⟩ : BufTy).Contents (Elt F)),
    binary main_arg2 main_v187 main_v188 ((fun x i => Host.gather gather_S6x16x256x256_S6x262144x2_S6x16x262144_1_23_0_0_23_2_11611 x i) : (⟨S6x16x256x256, .f32⟩ : BufTy).Contents (Elt F) → (⟨S6x262144x2, .i32⟩ : BufTy).Contents (Elt F) → (⟨S6x16x262144, .f32⟩ : BufTy).Contents (Elt F)),
    nullary main_c_51 (constantI S_ 32 0#32),
    unary main_c_51 main_v189 (broadcastInDim S6x262144 ![] bcast_S_S6x262144 : (⟨S_, .i32⟩ : BufTy).Contents (Elt F) → (⟨S6x262144, .i32⟩ : BufTy).Contents (Elt F)),
    binary main_v138 main_v189 main_v190 (cmpi .slt : (⟨S6x262144, .i32⟩ : BufTy).Contents (Elt F) → (⟨S6x262144, .i32⟩ : BufTy).Contents (Elt F) → (⟨S6x262144, .i1⟩ : BufTy).Contents (Elt F)),
    nullary main_c_52 (constantI S_ 32 256#32),
    unary main_c_52 main_v191 (broadcastInDim S6x262144 ![] bcast_S_S6x262144 : (⟨S_, .i32⟩ : BufTy).Contents (Elt F) → (⟨S6x262144, .i32⟩ : BufTy).Contents (Elt F)),
    binary main_v138 main_v191 main_v192 (addi : (⟨S6x262144, .i32⟩ : BufTy).Contents (Elt F) → (⟨S6x262144, .i32⟩ : BufTy).Contents (Elt F) → (⟨S6x262144, .i32⟩ : BufTy).Contents (Elt F)),
    ternary main_v190 main_v192 main_v138 main_v193 (select : (⟨S6x262144, .i1⟩ : BufTy).Contents (Elt F) → (⟨S6x262144, .i32⟩ : BufTy).Contents (Elt F) → (⟨S6x262144, .i32⟩ : BufTy).Contents (Elt F) → (⟨S6x262144, .i32⟩ : BufTy).Contents (Elt F)),
    nullary main_c_53 (constantI S_ 32 0#32),
    unary main_c_53 main_v194 (broadcastInDim S6x262144 ![] bcast_S_S6x262144 : (⟨S_, .i32⟩ : BufTy).Contents (Elt F) → (⟨S6x262144, .i32⟩ : BufTy).Contents (Elt F)),
    binary main_v140 main_v194 main_v195 (cmpi .slt : (⟨S6x262144, .i32⟩ : BufTy).Contents (Elt F) → (⟨S6x262144, .i32⟩ : BufTy).Contents (Elt F) → (⟨S6x262144, .i1⟩ : BufTy).Contents (Elt F)),
    nullary main_c_54 (constantI S_ 32 256#32),
    unary main_c_54 main_v196 (broadcastInDim S6x262144 ![] bcast_S_S6x262144 : (⟨S_, .i32⟩ : BufTy).Contents (Elt F) → (⟨S6x262144, .i32⟩ : BufTy).Contents (Elt F)),
    binary main_v140 main_v196 main_v197 (addi : (⟨S6x262144, .i32⟩ : BufTy).Contents (Elt F) → (⟨S6x262144, .i32⟩ : BufTy).Contents (Elt F) → (⟨S6x262144, .i32⟩ : BufTy).Contents (Elt F)),
    ternary main_v195 main_v197 main_v140 main_v198 (select : (⟨S6x262144, .i1⟩ : BufTy).Contents (Elt F) → (⟨S6x262144, .i32⟩ : BufTy).Contents (Elt F) → (⟨S6x262144, .i32⟩ : BufTy).Contents (Elt F) → (⟨S6x262144, .i32⟩ : BufTy).Contents (Elt F)),
    unary main_v193 main_v199 (broadcastInDim S6x262144x1 ![0, 1] bcast_S6x262144_S6x262144x1_0_1 : (⟨S6x262144, .i32⟩ : BufTy).Contents (Elt F) → (⟨S6x262144x1, .i32⟩ : BufTy).Contents (Elt F)),
    unary main_v198 main_v200 (broadcastInDim S6x262144x1 ![0, 1] bcast_S6x262144_S6x262144x1_0_1 : (⟨S6x262144, .i32⟩ : BufTy).Contents (Elt F) → (⟨S6x262144x1, .i32⟩ : BufTy).Contents (Elt F)),
    binary main_v199 main_v200 main_v201 ((fun a b => concatenate S6x262144x2 2 [⟨S6x262144x1, a⟩, ⟨S6x262144x1, b⟩] concatenates_S6x262144x1_S6x262144x1_S6x262144x2_d2) : (⟨S6x262144x1, .i32⟩ : BufTy).Contents (Elt F) → (⟨S6x262144x1, .i32⟩ : BufTy).Contents (Elt F) → (⟨S6x262144x2, .i32⟩ : BufTy).Contents (Elt F)),
    binary main_arg2 main_v201 main_v202 ((fun x i => Host.gather gather_S6x16x256x256_S6x262144x2_S6x16x262144_1_23_0_0_23_2_11611 x i) : (⟨S6x16x256x256, .f32⟩ : BufTy).Contents (Elt F) → (⟨S6x262144x2, .i32⟩ : BufTy).Contents (Elt F) → (⟨S6x16x262144, .f32⟩ : BufTy).Contents (Elt F)),
    nullary main_cst_55 (constant S_ .f32 0x3F800000#32),
    unary main_cst_55 main_v203 (broadcastInDim S6x1x262144 ![] bcast_S_S6x1x262144 : (⟨S_, .f32⟩ : BufTy).Contents (Elt F) → (⟨S6x1x262144, .f32⟩ : BufTy).Contents (Elt F)),
    binary main_v203 main_v143 main_v204 (subf : (⟨S6x1x262144, .f32⟩ : BufTy).Contents (Elt F) → (⟨S6x1x262144, .f32⟩ : BufTy).Contents (Elt F) → (⟨S6x1x262144, .f32⟩ : BufTy).Contents (Elt F)),
    unary main_v204 main_v205 (broadcastInDim S6x16x262144 ![0, 1, 2] bcast_S6x1x262144_S6x16x262144_0_1_2 : (⟨S6x1x262144, .f32⟩ : BufTy).Contents (Elt F) → (⟨S6x16x262144, .f32⟩ : BufTy).Contents (Elt F)),
    binary main_v160 main_v205 main_v206 (mulf : (⟨S6x16x262144, .f32⟩ : BufTy).Contents (Elt F) → (⟨S6x16x262144, .f32⟩ : BufTy).Contents (Elt F) → (⟨S6x16x262144, .f32⟩ : BufTy).Contents (Elt F)),
    nullary main_cst_56 (constant S_ .f32 0x3F800000#32),
    unary main_cst_56 main_v207 (broadcastInDim S6x1x262144 ![] bcast_S_S6x1x262144 : (⟨S_, .f32⟩ : BufTy).Contents (Elt F) → (⟨S6x1x262144, .f32⟩ : BufTy).Contents (Elt F)),
    binary main_v207 main_v146 main_v208 (subf : (⟨S6x1x262144, .f32⟩ : BufTy).Contents (Elt F) → (⟨S6x1x262144, .f32⟩ : BufTy).Contents (Elt F) → (⟨S6x1x262144, .f32⟩ : BufTy).Contents (Elt F)),
    unary main_v208 main_v209 (broadcastInDim S6x16x262144 ![0, 1, 2] bcast_S6x1x262144_S6x16x262144_0_1_2 : (⟨S6x1x262144, .f32⟩ : BufTy).Contents (Elt F) → (⟨S6x16x262144, .f32⟩ : BufTy).Contents (Elt F)),
    binary main_v206 main_v209 main_v210 (mulf : (⟨S6x16x262144, .f32⟩ : BufTy).Contents (Elt F) → (⟨S6x16x262144, .f32⟩ : BufTy).Contents (Elt F) → (⟨S6x16x262144, .f32⟩ : BufTy).Contents (Elt F)),
    nullary main_cst_57 (constant S_ .f32 0x3F800000#32),
    unary main_cst_57 main_v211 (broadcastInDim S6x1x262144 ![] bcast_S_S6x1x262144 : (⟨S_, .f32⟩ : BufTy).Contents (Elt F) → (⟨S6x1x262144, .f32⟩ : BufTy).Contents (Elt F)),
    binary main_v211 main_v143 main_v212 (subf : (⟨S6x1x262144, .f32⟩ : BufTy).Contents (Elt F) → (⟨S6x1x262144, .f32⟩ : BufTy).Contents (Elt F) → (⟨S6x1x262144, .f32⟩ : BufTy).Contents (Elt F)),
    unary main_v212 main_v213 (broadcastInDim S6x16x262144 ![0, 1, 2] bcast_S6x1x262144_S6x16x262144_0_1_2 : (⟨S6x1x262144, .f32⟩ : BufTy).Contents (Elt F) → (⟨S6x16x262144, .f32⟩ : BufTy).Contents (Elt F)),
    binary main_v174 main_v213 main_v214 (mulf : (⟨S6x16x262144, .f32⟩ : BufTy).Contents (Elt F) → (⟨S6x16x262144, .f32⟩ : BufTy).Contents (Elt F) → (⟨S6x16x262144, .f32⟩ : BufTy).Contents (Elt F)),
    unary main_v146 main_v215 (broadcastInDim S6x16x262144 ![0, 1, 2] bcast_S6x1x262144_S6x16x262144_0_1_2 : (⟨S6x1x262144, .f32⟩ : BufTy).Contents (Elt F) → (⟨S6x16x262144, .f32⟩ : BufTy).Contents (Elt F)),
    binary main_v214 main_v215 main_v216 (mulf : (⟨S6x16x262144, .f32⟩ : BufTy).Contents (Elt F) → (⟨S6x16x262144, .f32⟩ : BufTy).Contents (Elt F) → (⟨S6x16x262144, .f32⟩ : BufTy).Contents (Elt F)),
    binary main_v210 main_v216 main_v217 (addf : (⟨S6x16x262144, .f32⟩ : BufTy).Contents (Elt F) → (⟨S6x16x262144, .f32⟩ : BufTy).Contents (Elt F) → (⟨S6x16x262144, .f32⟩ : BufTy).Contents (Elt F)),
    unary main_v143 main_v218 (broadcastInDim S6x16x262144 ![0, 1, 2] bcast_S6x1x262144_S6x16x262144_0_1_2 : (⟨S6x1x262144, .f32⟩ : BufTy).Contents (Elt F) → (⟨S6x16x262144, .f32⟩ : BufTy).Contents (Elt F)),
    binary main_v188 main_v218 main_v219 (mulf : (⟨S6x16x262144, .f32⟩ : BufTy).Contents (Elt F) → (⟨S6x16x262144, .f32⟩ : BufTy).Contents (Elt F) → (⟨S6x16x262144, .f32⟩ : BufTy).Contents (Elt F)),
    nullary main_cst_58 (constant S_ .f32 0x3F800000#32),
    unary main_cst_58 main_v220 (broadcastInDim S6x1x262144 ![] bcast_S_S6x1x262144 : (⟨S_, .f32⟩ : BufTy).Contents (Elt F) → (⟨S6x1x262144, .f32⟩ : BufTy).Contents (Elt F)),
    binary main_v220 main_v146 main_v221 (subf : (⟨S6x1x262144, .f32⟩ : BufTy).Contents (Elt F) → (⟨S6x1x262144, .f32⟩ : BufTy).Contents (Elt F) → (⟨S6x1x262144, .f32⟩ : BufTy).Contents (Elt F)),
    unary main_v221 main_v222 (broadcastInDim S6x16x262144 ![0, 1, 2] bcast_S6x1x262144_S6x16x262144_0_1_2 : (⟨S6x1x262144, .f32⟩ : BufTy).Contents (Elt F) → (⟨S6x16x262144, .f32⟩ : BufTy).Contents (Elt F)),
    binary main_v219 main_v222 main_v223 (mulf : (⟨S6x16x262144, .f32⟩ : BufTy).Contents (Elt F) → (⟨S6x16x262144, .f32⟩ : BufTy).Contents (Elt F) → (⟨S6x16x262144, .f32⟩ : BufTy).Contents (Elt F)),
    binary main_v217 main_v223 main_v224 (addf : (⟨S6x16x262144, .f32⟩ : BufTy).Contents (Elt F) → (⟨S6x16x262144, .f32⟩ : BufTy).Contents (Elt F) → (⟨S6x16x262144, .f32⟩ : BufTy).Contents (Elt F)),
    unary main_v143 main_v225 (broadcastInDim S6x16x262144 ![0, 1, 2] bcast_S6x1x262144_S6x16x262144_0_1_2 : (⟨S6x1x262144, .f32⟩ : BufTy).Contents (Elt F) → (⟨S6x16x262144, .f32⟩ : BufTy).Contents (Elt F)),
    binary main_v202 main_v225 main_v226 (mulf : (⟨S6x16x262144, .f32⟩ : BufTy).Contents (Elt F) → (⟨S6x16x262144, .f32⟩ : BufTy).Contents (Elt F) → (⟨S6x16x262144, .f32⟩ : BufTy).Contents (Elt F)),
    unary main_v146 main_v227 (broadcastInDim S6x16x262144 ![0, 1, 2] bcast_S6x1x262144_S6x16x262144_0_1_2 : (⟨S6x1x262144, .f32⟩ : BufTy).Contents (Elt F) → (⟨S6x16x262144, .f32⟩ : BufTy).Contents (Elt F)),
    binary main_v226 main_v227 main_v228 (mulf : (⟨S6x16x262144, .f32⟩ : BufTy).Contents (Elt F) → (⟨S6x16x262144, .f32⟩ : BufTy).Contents (Elt F) → (⟨S6x16x262144, .f32⟩ : BufTy).Contents (Elt F)),
    binary main_v224 main_v228 main_v229 (addf : (⟨S6x16x262144, .f32⟩ : BufTy).Contents (Elt F) → (⟨S6x16x262144, .f32⟩ : BufTy).Contents (Elt F) → (⟨S6x16x262144, .f32⟩ : BufTy).Contents (Elt F)),
    unary main_v229 main_v230 ((transpose S6x262144x16 [0, 2, 1] · transposes_S6x16x262144_S6x262144x16_0_2_1) : (⟨S6x16x262144, .f32⟩ : BufTy).Contents (Elt F) → (⟨S6x262144x16, .f32⟩ : BufTy).Contents (Elt F)),
    unary main_v230 main_v231 ((transpose S262144x6x16 [1, 0, 2] · transposes_S6x262144x16_S262144x6x16_1_0_2) : (⟨S6x262144x16, .f32⟩ : BufTy).Contents (Elt F) → (⟨S262144x6x16, .f32⟩ : BufTy).Contents (Elt F)),
    reshape main_v231 main_v232 rfl shapeCasts_S262144x6x16_S262144x96,
    unary main_v8 main_v233 ((extractStridedSlice S262144x6x1 ![0, 0, 0] · slices_S262144x6x2_S262144x6x1_0_0_0) : (⟨S262144x6x2, .f32⟩ : BufTy).Contents (Elt F) → (⟨S262144x6x1, .f32⟩ : BufTy).Contents (Elt F)),
    unary main_v233 main_v234 ((transpose S6x262144x1 [1, 0, 2] · transposes_S262144x6x1_S6x262144x1_1_0_2) : (⟨S262144x6x1, .f32⟩ : BufTy).Contents (Elt F) → (⟨S6x262144x1, .f32⟩ : BufTy).Contents (Elt F)),
    reshape main_v234 main_v235 rfl shapeCasts_S6x262144x1_S6x262144,
    nullary main_cst_59 (constant S_ .f32 0x43FF8000#32),
    unary main_cst_59 main_v236 (broadcastInDim S6x262144 ![] bcast_S_S6x262144 : (⟨S_, .f32⟩ : BufTy).Contents (Elt F) → (⟨S6x262144, .f32⟩ : BufTy).Contents (Elt F)),
    binary main_v235 main_v236 main_v237 (mulf : (⟨S6x262144, .f32⟩ : BufTy).Contents (Elt F) → (⟨S6x262144, .f32⟩ : BufTy).Contents (Elt F) → (⟨S6x262144, .f32⟩ : BufTy).Contents (Elt F)) ]

set_option maxRecDepth 4096 in
/-- The part is its list run in sequence: the called functions unfolded at their calls, sequencing reassociated. -/
theorem part4_eq (c : Dev nD) : main_part4 (F := F) c = seq ops4 := by
  simp only [main_part4, fn_clip.body, fn_relu.body, seq, bind_assoc, pure_bind] <;> rfl

theorem sub4 : (ops4 : List (HloOp τ sig (Elt F))).Forall fun op => op.bufs ⊆ tcRefs τ sig :=
  ⟨binary_bufs_sub .., binary_bufs_sub .., nullary_bufs_sub .., unary_bufs_sub .., binary_bufs_sub .., nullary_bufs_sub ..,
    unary_bufs_sub .., binary_bufs_sub .., ternary_bufs_sub .., nullary_bufs_sub .., unary_bufs_sub .., binary_bufs_sub ..,
    nullary_bufs_sub .., unary_bufs_sub .., binary_bufs_sub .., ternary_bufs_sub .., unary_bufs_sub .., unary_bufs_sub ..,
    binary_bufs_sub .., binary_bufs_sub .., nullary_bufs_sub .., unary_bufs_sub .., binary_bufs_sub .., unary_bufs_sub ..,
    binary_bufs_sub .., nullary_bufs_sub .., unary_bufs_sub .., binary_bufs_sub .., unary_bufs_sub .., binary_bufs_sub ..,
    nullary_bufs_sub .., unary_bufs_sub .., binary_bufs_sub .., unary_bufs_sub .., binary_bufs_sub .., unary_bufs_sub ..,
    binary_bufs_sub .., binary_bufs_sub .., unary_bufs_sub .., binary_bufs_sub .., nullary_bufs_sub .., unary_bufs_sub ..,
    binary_bufs_sub .., unary_bufs_sub .., binary_bufs_sub .., binary_bufs_sub .., unary_bufs_sub .., binary_bufs_sub ..,
    unary_bufs_sub .., binary_bufs_sub .., binary_bufs_sub .., unary_bufs_sub .., unary_bufs_sub .., reshape_bufs_sub ..,
    unary_bufs_sub .., unary_bufs_sub .., reshape_bufs_sub .., nullary_bufs_sub .., unary_bufs_sub .., binary_bufs_sub ..⟩

/-- The buffers part 4 writes: one per operation, its result. -/
abbrev W4 : List (Ref sig .tc) :=
  [ main_v187, main_v188, main_c_51, main_v189, main_v190, main_c_52, main_v191, main_v192,
    main_v193, main_c_53, main_v194, main_v195, main_c_54, main_v196, main_v197, main_v198,
    main_v199, main_v200, main_v201, main_v202, main_cst_55, main_v203, main_v204, main_v205,
    main_v206, main_cst_56, main_v207, main_v208, main_v209, main_v210, main_cst_57, main_v211,
    main_v212, main_v213, main_v214, main_v215, main_v216, main_v217, main_v218, main_v219,
    main_cst_58, main_v220, main_v221, main_v222, main_v223, main_v224, main_v225, main_v226,
    main_v227, main_v228, main_v229, main_v230, main_v231, main_v232, main_v233, main_v234,
    main_v235, main_cst_59, main_v236, main_v237 ]

/-- Each operation of the part writes its result buffer and nothing else. -/
theorem writes4 : (ops4 : List (HloOp τ sig (Elt F))).Forall fun op => op.writes ⊆ ((W4).map (Proc.devRef (τ := τ) .tc)).toFinset := by
  simp only [List.Forall, nullary_writes, unary_writes, binary_writes, ternary_writes, reshape_writes, nary_writes, Finset.singleton_subset_iff, List.mem_toFinset]
  repeat' apply And.intro
  all_goals exact List.mem_map_of_mem (by decide)

theorem fresh4 : ∀ op ∈ (ops4 : List (HloOp τ sig (Elt F))), op.fresh = ∅ := by
  intro _ h; (repeat (cases h with | head => rfl | tail _ h => ?_)); exact nomatch h

end Cert.ReferenceIdeal.RefRun

end
-- ==== Proof.RefOps5.lean ====
/-
  The operations of part 5 of the reference's @main as a list, in the order the program runs them; where the
  program calls one of its own functions (a clip to an interval, a maximum with zero) that function's operations
  stand at the call, over the buffers that call names. Three facts about the list: the part IS the list run in
  sequence; every operation touches TensorCore buffers only; none allocates.
-/
import proofs.«176422_j70471823393083_2_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- Part 5's 70 operations, in order. -/
abbrev ops5 : List (HloOp τ sig (Elt F)) :=
  [ unary main_v8 main_v238 ((extractStridedSlice S262144x6x1 ![0, 0, 1] · slices_S262144x6x2_S262144x6x1_0_0_1) : (⟨S262144x6x2, .f32⟩ : BufTy).Contents (Elt F) → (⟨S262144x6x1, .f32⟩ : BufTy).Contents (Elt F)),
    unary main_v238 main_v239 ((transpose S6x262144x1 [1, 0, 2] · transposes_S262144x6x1_S6x262144x1_1_0_2) : (⟨S262144x6x1, .f32⟩ : BufTy).Contents (Elt F) → (⟨S6x262144x1, .f32⟩ : BufTy).Contents (Elt F)),
    reshape main_v239 main_v240 rfl shapeCasts_S6x262144x1_S6x262144,
    nullary main_cst_60 (constant S_ .f32 0x43FF8000#32),
    unary main_cst_60 main_v241 (broadcastInDim S6x262144 ![] bcast_S_S6x262144 : (⟨S_, .f32⟩ : BufTy).Contents (Elt F) → (⟨S6x262144, .f32⟩ : BufTy).Contents (Elt F)),
    binary main_v240 main_v241 main_v242 (mulf : (⟨S6x262144, .f32⟩ : BufTy).Contents (Elt F) → (⟨S6x262144, .f32⟩ : BufTy).Contents (Elt F) → (⟨S6x262144, .f32⟩ : BufTy).Contents (Elt F)),
    unary main_v237 main_v243 (Host.floor : (⟨S6x262144, .f32⟩ : BufTy).Contents (Elt F) → (⟨S6x262144, .f32⟩ : BufTy).Contents (Elt F)),
    nullary main_c_61 (constantI S_ 32 0#32),
    nullary main_c_62 (constantI S_ 32 510#32),
    TRef.unary (.of main_c_61) main_call4.v0 (sitofp .f32),
    TRef.unary main_call4.v0 main_call4.v1 (broadcastInDim S6x262144 ![] bcast_S_S6x262144),
    TRef.binary main_call4.v1 (.of main_v243) main_call4.v2 maximumf,
    TRef.unary (.of main_c_62) main_call4.v3 (sitofp .f32),
    TRef.unary main_call4.v3 main_call4.v4 (broadcastInDim S6x262144 ![] bcast_S_S6x262144),
    TRef.binary main_call4.v4 main_call4.v2 main_call4.v5 minimumf,
    unary main_v244 main_v245 (fptosi 32 : (⟨S6x262144, .f32⟩ : BufTy).Contents (Elt F) → (⟨S6x262144, .i32⟩ : BufTy).Contents (Elt F)),
    unary main_v242 main_v246 (Host.floor : (⟨S6x262144, .f32⟩ : BufTy).Contents (Elt F) → (⟨S6x262144, .f32⟩ : BufTy).Contents (Elt F)),
    nullary main_c_63 (constantI S_ 32 0#32),
    nullary main_c_64 (constantI S_ 32 510#32),
    TRef.unary (.of main_c_63) main_call5.v0 (sitofp .f32),
    TRef.unary main_call5.v0 main_call5.v1 (broadcastInDim S6x262144 ![] bcast_S_S6x262144),
    TRef.binary main_call5.v1 (.of main_v246) main_call5.v2 maximumf,
    TRef.unary (.of main_c_64) main_call5.v3 (sitofp .f32),
    TRef.unary main_call5.v3 main_call5.v4 (broadcastInDim S6x262144 ![] bcast_S_S6x262144),
    TRef.binary main_call5.v4 main_call5.v2 main_call5.v5 minimumf,
    unary main_v247 main_v248 (fptosi 32 : (⟨S6x262144, .f32⟩ : BufTy).Contents (Elt F) → (⟨S6x262144, .i32⟩ : BufTy).Contents (Elt F)),
    nullary main_c_65 (constantI S_ 32 1#32),
    unary main_c_65 main_v249 (broadcastInDim S6x262144 ![] bcast_S_S6x262144 : (⟨S_, .i32⟩ : BufTy).Contents (Elt F) → (⟨S6x262144, .i32⟩ : BufTy).Contents (Elt F)),
    binary main_v245 main_v249 main_v250 (addi : (⟨S6x262144, .i32⟩ : BufTy).Contents (Elt F) → (⟨S6x262144, .i32⟩ : BufTy).Contents (Elt F) → (⟨S6x262144, .i32⟩ : BufTy).Contents (Elt F)),
    nullary main_c_66 (constantI S_ 32 1#32),
    unary main_c_66 main_v251 (broadcastInDim S6x262144 ![] bcast_S_S6x262144 : (⟨S_, .i32⟩ : BufTy).Contents (Elt F) → (⟨S6x262144, .i32⟩ : BufTy).Contents (Elt F)),
    binary main_v248 main_v251 main_v252 (addi : (⟨S6x262144, .i32⟩ : BufTy).Contents (Elt F) → (⟨S6x262144, .i32⟩ : BufTy).Contents (Elt F) → (⟨S6x262144, .i32⟩ : BufTy).Contents (Elt F)),
    unary main_v245 main_v253 (sitofp .f32 : (⟨S6x262144, .i32⟩ : BufTy).Contents (Elt F) → (⟨S6x262144, .f32⟩ : BufTy).Contents (Elt F)),
    binary main_v237 main_v253 main_v254 (subf : (⟨S6x262144, .f32⟩ : BufTy).Contents (Elt F) → (⟨S6x262144, .f32⟩ : BufTy).Contents (Elt F) → (⟨S6x262144, .f32⟩ : BufTy).Contents (Elt F)),
    unary main_v254 main_v255 (broadcastInDim S6x1x262144 ![0, 2] bcast_S6x262144_S6x1x262144_0_2 : (⟨S6x262144, .f32⟩ : BufTy).Contents (Elt F) → (⟨S6x1x262144, .f32⟩ : BufTy).Contents (Elt F)),
    unary main_v248 main_v256 (sitofp .f32 : (⟨S6x262144, .i32⟩ : BufTy).Contents (Elt F) → (⟨S6x262144, .f32⟩ : BufTy).Contents (Elt F)),
    binary main_v242 main_v256 main_v257 (subf : (⟨S6x262144, .f32⟩ : BufTy).Contents (Elt F) → (⟨S6x262144, .f32⟩ : BufTy).Contents (Elt F) → (⟨S6x262144, .f32⟩ : BufTy).Contents (Elt F)),
    unary main_v257 main_v258 (broadcastInDim S6x1x262144 ![0, 2] bcast_S6x262144_S6x1x262144_0_2 : (⟨S6x262144, .f32⟩ : BufTy).Contents (Elt F) → (⟨S6x1x262144, .f32⟩ : BufTy).Contents (Elt F)),
    nullary main_c_67 (constantI S_ 32 0#32),
    unary main_c_67 main_v259 (broadcastInDim S6x262144 ![] bcast_S_S6x262144 : (⟨S_, .i32⟩ : BufTy).Contents (Elt F) → (⟨S6x262144, .i32⟩ : BufTy).Contents (Elt F)),
    binary main_v245 main_v259 main_v260 (cmpi .slt : (⟨S6x262144, .i32⟩ : BufTy).Contents (Elt F) → (⟨S6x262144, .i32⟩ : BufTy).Contents (Elt F) → (⟨S6x262144, .i1⟩ : BufTy).Contents (Elt F)),
    nullary main_c_68 (constantI S_ 32 512#32),
    unary main_c_68 main_v261 (broadcastInDim S6x262144 ![] bcast_S_S6x262144 : (⟨S_, .i32⟩ : BufTy).Contents (Elt F) → (⟨S6x262144, .i32⟩ : BufTy).Contents (Elt F)),
    binary main_v245 main_v261 main_v262 (addi : (⟨S6x262144, .i32⟩ : BufTy).Contents (Elt F) → (⟨S6x262144, .i32⟩ : BufTy).Contents (Elt F) → (⟨S6x262144, .i32⟩ : BufTy).Contents (Elt F)),
    ternary main_v260 main_v262 main_v245 main_v263 (select : (⟨S6x262144, .i1⟩ : BufTy).Contents (Elt F) → (⟨S6x262144, .i32⟩ : BufTy).Contents (Elt F) → (⟨S6x262144, .i32⟩ : BufTy).Contents (Elt F) → (⟨S6x262144, .i32⟩ : BufTy).Contents (Elt F)),
    nullary main_c_69 (constantI S_ 32 0#32),
    unary main_c_69 main_v264 (broadcastInDim S6x262144 ![] bcast_S_S6x262144 : (⟨S_, .i32⟩ : BufTy).Contents (Elt F) → (⟨S6x262144, .i32⟩ : BufTy).Contents (Elt F)),
    binary main_v248 main_v264 main_v265 (cmpi .slt : (⟨S6x262144, .i32⟩ : BufTy).Contents (Elt F) → (⟨S6x262144, .i32⟩ : BufTy).Contents (Elt F) → (⟨S6x262144, .i1⟩ : BufTy).Contents (Elt F)),
    nullary main_c_70 (constantI S_ 32 512#32),
    unary main_c_70 main_v266 (broadcastInDim S6x262144 ![] bcast_S_S6x262144 : (⟨S_, .i32⟩ : BufTy).Contents (Elt F) → (⟨S6x262144, .i32⟩ : BufTy).Contents (Elt F)),
    binary main_v248 main_v266 main_v267 (addi : (⟨S6x262144, .i32⟩ : BufTy).Contents (Elt F) → (⟨S6x262144, .i32⟩ : BufTy).Contents (Elt F) → (⟨S6x262144, .i32⟩ : BufTy).Contents (Elt F)),
    ternary main_v265 main_v267 main_v248 main_v268 (select : (⟨S6x262144, .i1⟩ : BufTy).Contents (Elt F) → (⟨S6x262144, .i32⟩ : BufTy).Contents (Elt F) → (⟨S6x262144, .i32⟩ : BufTy).Contents (Elt F) → (⟨S6x262144, .i32⟩ : BufTy).Contents (Elt F)),
    unary main_v263 main_v269 (broadcastInDim S6x262144x1 ![0, 1] bcast_S6x262144_S6x262144x1_0_1 : (⟨S6x262144, .i32⟩ : BufTy).Contents (Elt F) → (⟨S6x262144x1, .i32⟩ : BufTy).Contents (Elt F)),
    unary main_v268 main_v270 (broadcastInDim S6x262144x1 ![0, 1] bcast_S6x262144_S6x262144x1_0_1 : (⟨S6x262144, .i32⟩ : BufTy).Contents (Elt F) → (⟨S6x262144x1, .i32⟩ : BufTy).Contents (Elt F)),
    binary main_v269 main_v270 main_v271 ((fun a b => concatenate S6x262144x2 2 [⟨S6x262144x1, a⟩, ⟨S6x262144x1, b⟩] concatenates_S6x262144x1_S6x262144x1_S6x262144x2_d2) : (⟨S6x262144x1, .i32⟩ : BufTy).Contents (Elt F) → (⟨S6x262144x1, .i32⟩ : BufTy).Contents (Elt F) → (⟨S6x262144x2, .i32⟩ : BufTy).Contents (Elt F)),
    binary main_arg3 main_v271 main_v272 ((fun x i => Host.gather gather_S6x16x512x512_S6x262144x2_S6x16x262144_1_23_0_0_23_2_11611 x i) : (⟨S6x16x512x512, .f32⟩ : BufTy).Contents (Elt F) → (⟨S6x262144x2, .i32⟩ : BufTy).Contents (Elt F) → (⟨S6x16x262144, .f32⟩ : BufTy).Contents (Elt F)),
    nullary main_c_71 (constantI S_ 32 0#32),
    unary main_c_71 main_v273 (broadcastInDim S6x262144 ![] bcast_S_S6x262144 : (⟨S_, .i32⟩ : BufTy).Contents (Elt F) → (⟨S6x262144, .i32⟩ : BufTy).Contents (Elt F)),
    binary main_v245 main_v273 main_v274 (cmpi .slt : (⟨S6x262144, .i32⟩ : BufTy).Contents (Elt F) → (⟨S6x262144, .i32⟩ : BufTy).Contents (Elt F) → (⟨S6x262144, .i1⟩ : BufTy).Contents (Elt F)),
    nullary main_c_72 (constantI S_ 32 512#32),
    unary main_c_72 main_v275 (broadcastInDim S6x262144 ![] bcast_S_S6x262144 : (⟨S_, .i32⟩ : BufTy).Contents (Elt F) → (⟨S6x262144, .i32⟩ : BufTy).Contents (Elt F)),
    binary main_v245 main_v275 main_v276 (addi : (⟨S6x262144, .i32⟩ : BufTy).Contents (Elt F) → (⟨S6x262144, .i32⟩ : BufTy).Contents (Elt F) → (⟨S6x262144, .i32⟩ : BufTy).Contents (Elt F)),
    ternary main_v274 main_v276 main_v245 main_v277 (select : (⟨S6x262144, .i1⟩ : BufTy).Contents (Elt F) → (⟨S6x262144, .i32⟩ : BufTy).Contents (Elt F) → (⟨S6x262144, .i32⟩ : BufTy).Contents (Elt F) → (⟨S6x262144, .i32⟩ : BufTy).Contents (Elt F)),
    nullary main_c_73 (constantI S_ 32 0#32),
    unary main_c_73 main_v278 (broadcastInDim S6x262144 ![] bcast_S_S6x262144 : (⟨S_, .i32⟩ : BufTy).Contents (Elt F) → (⟨S6x262144, .i32⟩ : BufTy).Contents (Elt F)),
    binary main_v252 main_v278 main_v279 (cmpi .slt : (⟨S6x262144, .i32⟩ : BufTy).Contents (Elt F) → (⟨S6x262144, .i32⟩ : BufTy).Contents (Elt F) → (⟨S6x262144, .i1⟩ : BufTy).Contents (Elt F)),
    nullary main_c_74 (constantI S_ 32 512#32),
    unary main_c_74 main_v280 (broadcastInDim S6x262144 ![] bcast_S_S6x262144 : (⟨S_, .i32⟩ : BufTy).Contents (Elt F) → (⟨S6x262144, .i32⟩ : BufTy).Contents (Elt F)),
    binary main_v252 main_v280 main_v281 (addi : (⟨S6x262144, .i32⟩ : BufTy).Contents (Elt F) → (⟨S6x262144, .i32⟩ : BufTy).Contents (Elt F) → (⟨S6x262144, .i32⟩ : BufTy).Contents (Elt F)),
    ternary main_v279 main_v281 main_v252 main_v282 (select : (⟨S6x262144, .i1⟩ : BufTy).Contents (Elt F) → (⟨S6x262144, .i32⟩ : BufTy).Contents (Elt F) → (⟨S6x262144, .i32⟩ : BufTy).Contents (Elt F) → (⟨S6x262144, .i32⟩ : BufTy).Contents (Elt F)) ]

set_option maxRecDepth 4096 in
/-- The part is its list run in sequence: the called functions unfolded at their calls, sequencing reassociated. -/
theorem part5_eq (c : Dev nD) : main_part5 (F := F) c = seq ops5 := by
  simp only [main_part5, fn_clip.body, fn_relu.body, seq, bind_assoc, pure_bind] <;> rfl

theorem sub5 : (ops5 : List (HloOp τ sig (Elt F))).Forall fun op => op.bufs ⊆ tcRefs τ sig :=
  ⟨unary_bufs_sub .., unary_bufs_sub .., reshape_bufs_sub .., nullary_bufs_sub .., unary_bufs_sub .., binary_bufs_sub ..,
    unary_bufs_sub .., nullary_bufs_sub .., nullary_bufs_sub .., unary_bufs_sub .., unary_bufs_sub .., binary_bufs_sub ..,
    unary_bufs_sub .., unary_bufs_sub .., binary_bufs_sub .., unary_bufs_sub .., unary_bufs_sub .., nullary_bufs_sub ..,
    nullary_bufs_sub .., unary_bufs_sub .., unary_bufs_sub .., binary_bufs_sub .., unary_bufs_sub .., unary_bufs_sub ..,
    binary_bufs_sub .., unary_bufs_sub .., nullary_bufs_sub .., unary_bufs_sub .., binary_bufs_sub .., nullary_bufs_sub ..,
    unary_bufs_sub .., binary_bufs_sub .., unary_bufs_sub .., binary_bufs_sub .., unary_bufs_sub .., unary_bufs_sub ..,
    binary_bufs_sub .., unary_bufs_sub .., nullary_bufs_sub .., unary_bufs_sub .., binary_bufs_sub .., nullary_bufs_sub ..,
    unary_bufs_sub .., binary_bufs_sub .., ternary_bufs_sub .., nullary_bufs_sub .., unary_bufs_sub .., binary_bufs_sub ..,
    nullary_bufs_sub .., unary_bufs_sub .., binary_bufs_sub .., ternary_bufs_sub .., unary_bufs_sub .., unary_bufs_sub ..,
    binary_bufs_sub .., binary_bufs_sub .., nullary_bufs_sub .., unary_bufs_sub .., binary_bufs_sub .., nullary_bufs_sub ..,
    unary_bufs_sub .., binary_bufs_sub .., ternary_bufs_sub .., nullary_bufs_sub .., unary_bufs_sub .., binary_bufs_sub ..,
    nullary_bufs_sub .., unary_bufs_sub .., binary_bufs_sub .., ternary_bufs_sub ..⟩

/-- The buffers part 5 writes: one per operation, its result. -/
abbrev W5 : List (Ref sig .tc) :=
  [ main_v238, main_v239, main_v240, main_cst_60, main_v241, main_v242, main_v243, main_c_61,
    main_c_62, main_call4.v0.ref, main_call4.v1.ref, main_call4.v2.ref, main_call4.v3.ref, main_call4.v4.ref, main_call4.v5.ref, main_v245,
    main_v246, main_c_63, main_c_64, main_call5.v0.ref, main_call5.v1.ref, main_call5.v2.ref, main_call5.v3.ref, main_call5.v4.ref,
    main_call5.v5.ref, main_v248, main_c_65, main_v249, main_v250, main_c_66, main_v251, main_v252,
    main_v253, main_v254, main_v255, main_v256, main_v257, main_v258, main_c_67, main_v259,
    main_v260, main_c_68, main_v261, main_v262, main_v263, main_c_69, main_v264, main_v265,
    main_c_70, main_v266, main_v267, main_v268, main_v269, main_v270, main_v271, main_v272,
    main_c_71, main_v273, main_v274, main_c_72, main_v275, main_v276, main_v277, main_c_73,
    main_v278, main_v279, main_c_74, main_v280, main_v281, main_v282 ]

/-- Each operation of the part writes its result buffer and nothing else. -/
theorem writes5 : (ops5 : List (HloOp τ sig (Elt F))).Forall fun op => op.writes ⊆ ((W5).map (Proc.devRef (τ := τ) .tc)).toFinset := by
  simp only [List.Forall, nullary_writes, unary_writes, binary_writes, ternary_writes, reshape_writes, nary_writes, Finset.singleton_subset_iff, List.mem_toFinset]
  repeat' apply And.intro
  all_goals exact List.mem_map_of_mem (by decide)

theorem fresh5 : ∀ op ∈ (ops5 : List (HloOp τ sig (Elt F))), op.fresh = ∅ := by
  intro _ h; (repeat (cases h with | head => rfl | tail _ h => ?_)); exact nomatch h

end Cert.ReferenceIdeal.RefRun

end
-- ==== Proof.RefOps6.lean ====
/-
  The operations of part 6 of the reference's @main as a list, in the order the program runs them; where the
  program calls one of its own functions (a clip to an interval, a maximum with zero) that function's operations
  stand at the call, over the buffers that call names. Three facts about the list: the part IS the list run in
  sequence; every operation touches TensorCore buffers only; none allocates.
-/
import proofs.«176422_j70471823393083_2_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- Part 6's 60 operations, in order. -/
abbrev ops6 : List (HloOp τ sig (Elt F)) :=
  [ unary main_v277 main_v283 (broadcastInDim S6x262144x1 ![0, 1] bcast_S6x262144_S6x262144x1_0_1 : (⟨S6x262144, .i32⟩ : BufTy).Contents (Elt F) → (⟨S6x262144x1, .i32⟩ : BufTy).Contents (Elt F)),
    unary main_v282 main_v284 (broadcastInDim S6x262144x1 ![0, 1] bcast_S6x262144_S6x262144x1_0_1 : (⟨S6x262144, .i32⟩ : BufTy).Contents (Elt F) → (⟨S6x262144x1, .i32⟩ : BufTy).Contents (Elt F)),
    binary main_v283 main_v284 main_v285 ((fun a b => concatenate S6x262144x2 2 [⟨S6x262144x1, a⟩, ⟨S6x262144x1, b⟩] concatenates_S6x262144x1_S6x262144x1_S6x262144x2_d2) : (⟨S6x262144x1, .i32⟩ : BufTy).Contents (Elt F) → (⟨S6x262144x1, .i32⟩ : BufTy).Contents (Elt F) → (⟨S6x262144x2, .i32⟩ : BufTy).Contents (Elt F)),
    binary main_arg3 main_v285 main_v286 ((fun x i => Host.gather gather_S6x16x512x512_S6x262144x2_S6x16x262144_1_23_0_0_23_2_11611 x i) : (⟨S6x16x512x512, .f32⟩ : BufTy).Contents (Elt F) → (⟨S6x262144x2, .i32⟩ : BufTy).Contents (Elt F) → (⟨S6x16x262144, .f32⟩ : BufTy).Contents (Elt F)),
    nullary main_c_75 (constantI S_ 32 0#32),
    unary main_c_75 main_v287 (broadcastInDim S6x262144 ![] bcast_S_S6x262144 : (⟨S_, .i32⟩ : BufTy).Contents (Elt F) → (⟨S6x262144, .i32⟩ : BufTy).Contents (Elt F)),
    binary main_v250 main_v287 main_v288 (cmpi .slt : (⟨S6x262144, .i32⟩ : BufTy).Contents (Elt F) → (⟨S6x262144, .i32⟩ : BufTy).Contents (Elt F) → (⟨S6x262144, .i1⟩ : BufTy).Contents (Elt F)),
    nullary main_c_76 (constantI S_ 32 512#32),
    unary main_c_76 main_v289 (broadcastInDim S6x262144 ![] bcast_S_S6x262144 : (⟨S_, .i32⟩ : BufTy).Contents (Elt F) → (⟨S6x262144, .i32⟩ : BufTy).Contents (Elt F)),
    binary main_v250 main_v289 main_v290 (addi : (⟨S6x262144, .i32⟩ : BufTy).Contents (Elt F) → (⟨S6x262144, .i32⟩ : BufTy).Contents (Elt F) → (⟨S6x262144, .i32⟩ : BufTy).Contents (Elt F)),
    ternary main_v288 main_v290 main_v250 main_v291 (select : (⟨S6x262144, .i1⟩ : BufTy).Contents (Elt F) → (⟨S6x262144, .i32⟩ : BufTy).Contents (Elt F) → (⟨S6x262144, .i32⟩ : BufTy).Contents (Elt F) → (⟨S6x262144, .i32⟩ : BufTy).Contents (Elt F)),
    nullary main_c_77 (constantI S_ 32 0#32),
    unary main_c_77 main_v292 (broadcastInDim S6x262144 ![] bcast_S_S6x262144 : (⟨S_, .i32⟩ : BufTy).Contents (Elt F) → (⟨S6x262144, .i32⟩ : BufTy).Contents (Elt F)),
    binary main_v248 main_v292 main_v293 (cmpi .slt : (⟨S6x262144, .i32⟩ : BufTy).Contents (Elt F) → (⟨S6x262144, .i32⟩ : BufTy).Contents (Elt F) → (⟨S6x262144, .i1⟩ : BufTy).Contents (Elt F)),
    nullary main_c_78 (constantI S_ 32 512#32),
    unary main_c_78 main_v294 (broadcastInDim S6x262144 ![] bcast_S_S6x262144 : (⟨S_, .i32⟩ : BufTy).Contents (Elt F) → (⟨S6x262144, .i32⟩ : BufTy).Contents (Elt F)),
    binary main_v248 main_v294 main_v295 (addi : (⟨S6x262144, .i32⟩ : BufTy).Contents (Elt F) → (⟨S6x262144, .i32⟩ : BufTy).Contents (Elt F) → (⟨S6x262144, .i32⟩ : BufTy).Contents (Elt F)),
    ternary main_v293 main_v295 main_v248 main_v296 (select : (⟨S6x262144, .i1⟩ : BufTy).Contents (Elt F) → (⟨S6x262144, .i32⟩ : BufTy).Contents (Elt F) → (⟨S6x262144, .i32⟩ : BufTy).Contents (Elt F) → (⟨S6x262144, .i32⟩ : BufTy).Contents (Elt F)),
    unary main_v291 main_v297 (broadcastInDim S6x262144x1 ![0, 1] bcast_S6x262144_S6x262144x1_0_1 : (⟨S6x262144, .i32⟩ : BufTy).Contents (Elt F) → (⟨S6x262144x1, .i32⟩ : BufTy).Contents (Elt F)),
    unary main_v296 main_v298 (broadcastInDim S6x262144x1 ![0, 1] bcast_S6x262144_S6x262144x1_0_1 : (⟨S6x262144, .i32⟩ : BufTy).Contents (Elt F) → (⟨S6x262144x1, .i32⟩ : BufTy).Contents (Elt F)),
    binary main_v297 main_v298 main_v299 ((fun a b => concatenate S6x262144x2 2 [⟨S6x262144x1, a⟩, ⟨S6x262144x1, b⟩] concatenates_S6x262144x1_S6x262144x1_S6x262144x2_d2) : (⟨S6x262144x1, .i32⟩ : BufTy).Contents (Elt F) → (⟨S6x262144x1, .i32⟩ : BufTy).Contents (Elt F) → (⟨S6x262144x2, .i32⟩ : BufTy).Contents (Elt F)),
    binary main_arg3 main_v299 main_v300 ((fun x i => Host.gather gather_S6x16x512x512_S6x262144x2_S6x16x262144_1_23_0_0_23_2_11611 x i) : (⟨S6x16x512x512, .f32⟩ : BufTy).Contents (Elt F) → (⟨S6x262144x2, .i32⟩ : BufTy).Contents (Elt F) → (⟨S6x16x262144, .f32⟩ : BufTy).Contents (Elt F)),
    nullary main_c_79 (constantI S_ 32 0#32),
    unary main_c_79 main_v301 (broadcastInDim S6x262144 ![] bcast_S_S6x262144 : (⟨S_, .i32⟩ : BufTy).Contents (Elt F) → (⟨S6x262144, .i32⟩ : BufTy).Contents (Elt F)),
    binary main_v250 main_v301 main_v302 (cmpi .slt : (⟨S6x262144, .i32⟩ : BufTy).Contents (Elt F) → (⟨S6x262144, .i32⟩ : BufTy).Contents (Elt F) → (⟨S6x262144, .i1⟩ : BufTy).Contents (Elt F)),
    nullary main_c_80 (constantI S_ 32 512#32),
    unary main_c_80 main_v303 (broadcastInDim S6x262144 ![] bcast_S_S6x262144 : (⟨S_, .i32⟩ : BufTy).Contents (Elt F) → (⟨S6x262144, .i32⟩ : BufTy).Contents (Elt F)),
    binary main_v250 main_v303 main_v304 (addi : (⟨S6x262144, .i32⟩ : BufTy).Contents (Elt F) → (⟨S6x262144, .i32⟩ : BufTy).Contents (Elt F) → (⟨S6x262144, .i32⟩ : BufTy).Contents (Elt F)),
    ternary main_v302 main_v304 main_v250 main_v305 (select : (⟨S6x262144, .i1⟩ : BufTy).Contents (Elt F) → (⟨S6x262144, .i32⟩ : BufTy).Contents (Elt F) → (⟨S6x262144, .i32⟩ : BufTy).Contents (Elt F) → (⟨S6x262144, .i32⟩ : BufTy).Contents (Elt F)),
    nullary main_c_81 (constantI S_ 32 0#32),
    unary main_c_81 main_v306 (broadcastInDim S6x262144 ![] bcast_S_S6x262144 : (⟨S_, .i32⟩ : BufTy).Contents (Elt F) → (⟨S6x262144, .i32⟩ : BufTy).Contents (Elt F)),
    binary main_v252 main_v306 main_v307 (cmpi .slt : (⟨S6x262144, .i32⟩ : BufTy).Contents (Elt F) → (⟨S6x262144, .i32⟩ : BufTy).Contents (Elt F) → (⟨S6x262144, .i1⟩ : BufTy).Contents (Elt F)),
    nullary main_c_82 (constantI S_ 32 512#32),
    unary main_c_82 main_v308 (broadcastInDim S6x262144 ![] bcast_S_S6x262144 : (⟨S_, .i32⟩ : BufTy).Contents (Elt F) → (⟨S6x262144, .i32⟩ : BufTy).Contents (Elt F)),
    binary main_v252 main_v308 main_v309 (addi : (⟨S6x262144, .i32⟩ : BufTy).Contents (Elt F) → (⟨S6x262144, .i32⟩ : BufTy).Contents (Elt F) → (⟨S6x262144, .i32⟩ : BufTy).Contents (Elt F)),
    ternary main_v307 main_v309 main_v252 main_v310 (select : (⟨S6x262144, .i1⟩ : BufTy).Contents (Elt F) → (⟨S6x262144, .i32⟩ : BufTy).Contents (Elt F) → (⟨S6x262144, .i32⟩ : BufTy).Contents (Elt F) → (⟨S6x262144, .i32⟩ : BufTy).Contents (Elt F)),
    unary main_v305 main_v311 (broadcastInDim S6x262144x1 ![0, 1] bcast_S6x262144_S6x262144x1_0_1 : (⟨S6x262144, .i32⟩ : BufTy).Contents (Elt F) → (⟨S6x262144x1, .i32⟩ : BufTy).Contents (Elt F)),
    unary main_v310 main_v312 (broadcastInDim S6x262144x1 ![0, 1] bcast_S6x262144_S6x262144x1_0_1 : (⟨S6x262144, .i32⟩ : BufTy).Contents (Elt F) → (⟨S6x262144x1, .i32⟩ : BufTy).Contents (Elt F)),
    binary main_v311 main_v312 main_v313 ((fun a b => concatenate S6x262144x2 2 [⟨S6x262144x1, a⟩, ⟨S6x262144x1, b⟩] concatenates_S6x262144x1_S6x262144x1_S6x262144x2_d2) : (⟨S6x262144x1, .i32⟩ : BufTy).Contents (Elt F) → (⟨S6x262144x1, .i32⟩ : BufTy).Contents (Elt F) → (⟨S6x262144x2, .i32⟩ : BufTy).Contents (Elt F)),
    binary main_arg3 main_v313 main_v314 ((fun x i => Host.gather gather_S6x16x512x512_S6x262144x2_S6x16x262144_1_23_0_0_23_2_11611 x i) : (⟨S6x16x512x512, .f32⟩ : BufTy).Contents (Elt F) → (⟨S6x262144x2, .i32⟩ : BufTy).Contents (Elt F) → (⟨S6x16x262144, .f32⟩ : BufTy).Contents (Elt F)),
    nullary main_cst_83 (constant S_ .f32 0x3F800000#32),
    unary main_cst_83 main_v315 (broadcastInDim S6x1x262144 ![] bcast_S_S6x1x262144 : (⟨S_, .f32⟩ : BufTy).Contents (Elt F) → (⟨S6x1x262144, .f32⟩ : BufTy).Contents (Elt F)),
    binary main_v315 main_v255 main_v316 (subf : (⟨S6x1x262144, .f32⟩ : BufTy).Contents (Elt F) → (⟨S6x1x262144, .f32⟩ : BufTy).Contents (Elt F) → (⟨S6x1x262144, .f32⟩ : BufTy).Contents (Elt F)),
    unary main_v316 main_v317 (broadcastInDim S6x16x262144 ![0, 1, 2] bcast_S6x1x262144_S6x16x262144_0_1_2 : (⟨S6x1x262144, .f32⟩ : BufTy).Contents (Elt F) → (⟨S6x16x262144, .f32⟩ : BufTy).Contents (Elt F)),
    binary main_v272 main_v317 main_v318 (mulf : (⟨S6x16x262144, .f32⟩ : BufTy).Contents (Elt F) → (⟨S6x16x262144, .f32⟩ : BufTy).Contents (Elt F) → (⟨S6x16x262144, .f32⟩ : BufTy).Contents (Elt F)),
    nullary main_cst_84 (constant S_ .f32 0x3F800000#32),
    unary main_cst_84 main_v319 (broadcastInDim S6x1x262144 ![] bcast_S_S6x1x262144 : (⟨S_, .f32⟩ : BufTy).Contents (Elt F) → (⟨S6x1x262144, .f32⟩ : BufTy).Contents (Elt F)),
    binary main_v319 main_v258 main_v320 (subf : (⟨S6x1x262144, .f32⟩ : BufTy).Contents (Elt F) → (⟨S6x1x262144, .f32⟩ : BufTy).Contents (Elt F) → (⟨S6x1x262144, .f32⟩ : BufTy).Contents (Elt F)),
    unary main_v320 main_v321 (broadcastInDim S6x16x262144 ![0, 1, 2] bcast_S6x1x262144_S6x16x262144_0_1_2 : (⟨S6x1x262144, .f32⟩ : BufTy).Contents (Elt F) → (⟨S6x16x262144, .f32⟩ : BufTy).Contents (Elt F)),
    binary main_v318 main_v321 main_v322 (mulf : (⟨S6x16x262144, .f32⟩ : BufTy).Contents (Elt F) → (⟨S6x16x262144, .f32⟩ : BufTy).Contents (Elt F) → (⟨S6x16x262144, .f32⟩ : BufTy).Contents (Elt F)),
    nullary main_cst_85 (constant S_ .f32 0x3F800000#32),
    unary main_cst_85 main_v323 (broadcastInDim S6x1x262144 ![] bcast_S_S6x1x262144 : (⟨S_, .f32⟩ : BufTy).Contents (Elt F) → (⟨S6x1x262144, .f32⟩ : BufTy).Contents (Elt F)),
    binary main_v323 main_v255 main_v324 (subf : (⟨S6x1x262144, .f32⟩ : BufTy).Contents (Elt F) → (⟨S6x1x262144, .f32⟩ : BufTy).Contents (Elt F) → (⟨S6x1x262144, .f32⟩ : BufTy).Contents (Elt F)),
    unary main_v324 main_v325 (broadcastInDim S6x16x262144 ![0, 1, 2] bcast_S6x1x262144_S6x16x262144_0_1_2 : (⟨S6x1x262144, .f32⟩ : BufTy).Contents (Elt F) → (⟨S6x16x262144, .f32⟩ : BufTy).Contents (Elt F)),
    binary main_v286 main_v325 main_v326 (mulf : (⟨S6x16x262144, .f32⟩ : BufTy).Contents (Elt F) → (⟨S6x16x262144, .f32⟩ : BufTy).Contents (Elt F) → (⟨S6x16x262144, .f32⟩ : BufTy).Contents (Elt F)),
    unary main_v258 main_v327 (broadcastInDim S6x16x262144 ![0, 1, 2] bcast_S6x1x262144_S6x16x262144_0_1_2 : (⟨S6x1x262144, .f32⟩ : BufTy).Contents (Elt F) → (⟨S6x16x262144, .f32⟩ : BufTy).Contents (Elt F)),
    binary main_v326 main_v327 main_v328 (mulf : (⟨S6x16x262144, .f32⟩ : BufTy).Contents (Elt F) → (⟨S6x16x262144, .f32⟩ : BufTy).Contents (Elt F) → (⟨S6x16x262144, .f32⟩ : BufTy).Contents (Elt F)),
    binary main_v322 main_v328 main_v329 (addf : (⟨S6x16x262144, .f32⟩ : BufTy).Contents (Elt F) → (⟨S6x16x262144, .f32⟩ : BufTy).Contents (Elt F) → (⟨S6x16x262144, .f32⟩ : BufTy).Contents (Elt F)),
    unary main_v255 main_v330 (broadcastInDim S6x16x262144 ![0, 1, 2] bcast_S6x1x262144_S6x16x262144_0_1_2 : (⟨S6x1x262144, .f32⟩ : BufTy).Contents (Elt F) → (⟨S6x16x262144, .f32⟩ : BufTy).Contents (Elt F)),
    binary main_v300 main_v330 main_v331 (mulf : (⟨S6x16x262144, .f32⟩ : BufTy).Contents (Elt F) → (⟨S6x16x262144, .f32⟩ : BufTy).Contents (Elt F) → (⟨S6x16x262144, .f32⟩ : BufTy).Contents (Elt F)) ]

set_option maxRecDepth 4096 in
/-- The part is its list run in sequence: the called functions unfolded at their calls, sequencing reassociated. -/
theorem part6_eq (c : Dev nD) : main_part6 (F := F) c = seq ops6 := by
  simp only [main_part6, fn_clip.body, fn_relu.body, seq, bind_assoc, pure_bind] <;> rfl

theorem sub6 : (ops6 : List (HloOp τ sig (Elt F))).Forall fun op => op.bufs ⊆ tcRefs τ sig :=
  ⟨unary_bufs_sub .., unary_bufs_sub .., binary_bufs_sub .., binary_bufs_sub .., nullary_bufs_sub .., unary_bufs_sub ..,
    binary_bufs_sub .., nullary_bufs_sub .., unary_bufs_sub .., binary_bufs_sub .., ternary_bufs_sub .., nullary_bufs_sub ..,
    unary_bufs_sub .., binary_bufs_sub .., nullary_bufs_sub .., unary_bufs_sub .., binary_bufs_sub .., ternary_bufs_sub ..,
    unary_bufs_sub .., unary_bufs_sub .., binary_bufs_sub .., binary_bufs_sub .., nullary_bufs_sub .., unary_bufs_sub ..,
    binary_bufs_sub .., nullary_bufs_sub .., unary_bufs_sub .., binary_bufs_sub .., ternary_bufs_sub .., nullary_bufs_sub ..,
    unary_bufs_sub .., binary_bufs_sub .., nullary_bufs_sub .., unary_bufs_sub .., binary_bufs_sub .., ternary_bufs_sub ..,
    unary_bufs_sub .., unary_bufs_sub .., binary_bufs_sub .., binary_bufs_sub .., nullary_bufs_sub .., unary_bufs_sub ..,
    binary_bufs_sub .., unary_bufs_sub .., binary_bufs_sub .., nullary_bufs_sub .., unary_bufs_sub .., binary_bufs_sub ..,
    unary_bufs_sub .., binary_bufs_sub .., nullary_bufs_sub .., unary_bufs_sub .., binary_bufs_sub .., unary_bufs_sub ..,
    binary_bufs_sub .., unary_bufs_sub .., binary_bufs_sub .., binary_bufs_sub .., unary_bufs_sub .., binary_bufs_sub ..⟩

/-- The buffers part 6 writes: one per operation, its result. -/
abbrev W6 : List (Ref sig .tc) :=
  [ main_v283, main_v284, main_v285, main_v286, main_c_75, main_v287, main_v288, main_c_76,
    main_v289, main_v290, main_v291, main_c_77, main_v292, main_v293, main_c_78, main_v294,
    main_v295, main_v296, main_v297, main_v298, main_v299, main_v300, main_c_79, main_v301,
    main_v302, main_c_80, main_v303, main_v304, main_v305, main_c_81, main_v306, main_v307,
    main_c_82, main_v308, main_v309, main_v310, main_v311, main_v312, main_v313, main_v314,
    main_cst_83, main_v315, main_v316, main_v317, main_v318, main_cst_84, main_v319, main_v320,
    main_v321, main_v322, main_cst_85, main_v323, main_v324, main_v325, main_v326, main_v327,
    main_v328, main_v329, main_v330, main_v331 ]

/-- Each operation of the part writes its result buffer and nothing else. -/
theorem writes6 : (ops6 : List (HloOp τ sig (Elt F))).Forall fun op => op.writes ⊆ ((W6).map (Proc.devRef (τ := τ) .tc)).toFinset := by
  simp only [List.Forall, nullary_writes, unary_writes, binary_writes, ternary_writes, reshape_writes, nary_writes, Finset.singleton_subset_iff, List.mem_toFinset]
  repeat' apply And.intro
  all_goals exact List.mem_map_of_mem (by decide)

theorem fresh6 : ∀ op ∈ (ops6 : List (HloOp τ sig (Elt F))), op.fresh = ∅ := by
  intro _ h; (repeat (cases h with | head => rfl | tail _ h => ?_)); exact nomatch h

end Cert.ReferenceIdeal.RefRun

end
-- ==== Proof.RefOps7.lean ====
/-
  The operations of part 7 of the reference's @main as a list, in the order the program runs them; where the
  program calls one of its own functions (a clip to an interval, a maximum with zero) that function's operations
  stand at the call, over the buffers that call names. Three facts about the list: the part IS the list run in
  sequence; every operation touches TensorCore buffers only; none allocates.
-/
import proofs.«176422_j70471823393083_2_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- Part 7's 34 operations, in order. -/
abbrev ops7 : List (HloOp τ sig (Elt F)) :=
  [ nullary main_cst_86 (constant S_ .f32 0x3F800000#32),
    unary main_cst_86 main_v332 (broadcastInDim S6x1x262144 ![] bcast_S_S6x1x262144 : (⟨S_, .f32⟩ : BufTy).Contents (Elt F) → (⟨S6x1x262144, .f32⟩ : BufTy).Contents (Elt F)),
    binary main_v332 main_v258 main_v333 (subf : (⟨S6x1x262144, .f32⟩ : BufTy).Contents (Elt F) → (⟨S6x1x262144, .f32⟩ : BufTy).Contents (Elt F) → (⟨S6x1x262144, .f32⟩ : BufTy).Contents (Elt F)),
    unary main_v333 main_v334 (broadcastInDim S6x16x262144 ![0, 1, 2] bcast_S6x1x262144_S6x16x262144_0_1_2 : (⟨S6x1x262144, .f32⟩ : BufTy).Contents (Elt F) → (⟨S6x16x262144, .f32⟩ : BufTy).Contents (Elt F)),
    binary main_v331 main_v334 main_v335 (mulf : (⟨S6x16x262144, .f32⟩ : BufTy).Contents (Elt F) → (⟨S6x16x262144, .f32⟩ : BufTy).Contents (Elt F) → (⟨S6x16x262144, .f32⟩ : BufTy).Contents (Elt F)),
    binary main_v329 main_v335 main_v336 (addf : (⟨S6x16x262144, .f32⟩ : BufTy).Contents (Elt F) → (⟨S6x16x262144, .f32⟩ : BufTy).Contents (Elt F) → (⟨S6x16x262144, .f32⟩ : BufTy).Contents (Elt F)),
    unary main_v255 main_v337 (broadcastInDim S6x16x262144 ![0, 1, 2] bcast_S6x1x262144_S6x16x262144_0_1_2 : (⟨S6x1x262144, .f32⟩ : BufTy).Contents (Elt F) → (⟨S6x16x262144, .f32⟩ : BufTy).Contents (Elt F)),
    binary main_v314 main_v337 main_v338 (mulf : (⟨S6x16x262144, .f32⟩ : BufTy).Contents (Elt F) → (⟨S6x16x262144, .f32⟩ : BufTy).Contents (Elt F) → (⟨S6x16x262144, .f32⟩ : BufTy).Contents (Elt F)),
    unary main_v258 main_v339 (broadcastInDim S6x16x262144 ![0, 1, 2] bcast_S6x1x262144_S6x16x262144_0_1_2 : (⟨S6x1x262144, .f32⟩ : BufTy).Contents (Elt F) → (⟨S6x16x262144, .f32⟩ : BufTy).Contents (Elt F)),
    binary main_v338 main_v339 main_v340 (mulf : (⟨S6x16x262144, .f32⟩ : BufTy).Contents (Elt F) → (⟨S6x16x262144, .f32⟩ : BufTy).Contents (Elt F) → (⟨S6x16x262144, .f32⟩ : BufTy).Contents (Elt F)),
    binary main_v336 main_v340 main_v341 (addf : (⟨S6x16x262144, .f32⟩ : BufTy).Contents (Elt F) → (⟨S6x16x262144, .f32⟩ : BufTy).Contents (Elt F) → (⟨S6x16x262144, .f32⟩ : BufTy).Contents (Elt F)),
    unary main_v341 main_v342 ((transpose S6x262144x16 [0, 2, 1] · transposes_S6x16x262144_S6x262144x16_0_2_1) : (⟨S6x16x262144, .f32⟩ : BufTy).Contents (Elt F) → (⟨S6x262144x16, .f32⟩ : BufTy).Contents (Elt F)),
    unary main_v342 main_v343 ((transpose S262144x6x16 [1, 0, 2] · transposes_S6x262144x16_S262144x6x16_1_0_2) : (⟨S6x262144x16, .f32⟩ : BufTy).Contents (Elt F) → (⟨S262144x6x16, .f32⟩ : BufTy).Contents (Elt F)),
    reshape main_v343 main_v344 rfl shapeCasts_S262144x6x16_S262144x96,
    nary ![main_v120, main_v232, main_v344] main_v345 (fun u => concatenate S262144x288 1 [⟨S262144x96, u 0⟩, ⟨S262144x96, u 1⟩, ⟨S262144x96, u 2⟩] concatenates_S262144x96_S262144x96_S262144x96_S262144x288_d1),
    binary main_v345 main_arg4 main_v346 ((fun l r => Host.dotGeneral dot_S262144x288_S288x128_S262144x128_1_0_0_1_n_n none l r) : (⟨S262144x288, .f32⟩ : BufTy).Contents (Elt F) → (⟨S288x128, .f32⟩ : BufTy).Contents (Elt F) → (⟨S262144x128, .f32⟩ : BufTy).Contents (Elt F)),
    unary main_arg5 main_v347 (broadcastInDim S1x128 ![1] bcast_S128_S1x128_1 : (⟨S128, .f32⟩ : BufTy).Contents (Elt F) → (⟨S1x128, .f32⟩ : BufTy).Contents (Elt F)),
    unary main_v347 main_v348 (broadcastInDim S262144x128 ![0, 1] bcast_S1x128_S262144x128_0_1 : (⟨S1x128, .f32⟩ : BufTy).Contents (Elt F) → (⟨S262144x128, .f32⟩ : BufTy).Contents (Elt F)),
    binary main_v346 main_v348 main_v349 (addf : (⟨S262144x128, .f32⟩ : BufTy).Contents (Elt F) → (⟨S262144x128, .f32⟩ : BufTy).Contents (Elt F) → (⟨S262144x128, .f32⟩ : BufTy).Contents (Elt F)),
    TRef.nullary main_call6.cst (constant S_ .f32 0x00000000#32),
    TRef.unary main_call6.cst main_call6.v0 (broadcastInDim S262144x128 ![] bcast_S_S262144x128),
    TRef.binary (.of main_v349) main_call6.v0 main_call6.v1 maximumf,
    binary main_v350 main_arg6 main_v351 ((fun l r => Host.dotGeneral dot_S262144x128_S128x3_S262144x3_1_0_0_1_n_n none l r) : (⟨S262144x128, .f32⟩ : BufTy).Contents (Elt F) → (⟨S128x3, .f32⟩ : BufTy).Contents (Elt F) → (⟨S262144x3, .f32⟩ : BufTy).Contents (Elt F)),
    unary main_arg7 main_v352 (broadcastInDim S1x3 ![1] bcast_S3_S1x3_1 : (⟨S3, .f32⟩ : BufTy).Contents (Elt F) → (⟨S1x3, .f32⟩ : BufTy).Contents (Elt F)),
    unary main_v352 main_v353 (broadcastInDim S262144x3 ![0, 1] bcast_S1x3_S262144x3_0_1 : (⟨S1x3, .f32⟩ : BufTy).Contents (Elt F) → (⟨S262144x3, .f32⟩ : BufTy).Contents (Elt F)),
    binary main_v351 main_v353 main_v354 (addf : (⟨S262144x3, .f32⟩ : BufTy).Contents (Elt F) → (⟨S262144x3, .f32⟩ : BufTy).Contents (Elt F) → (⟨S262144x3, .f32⟩ : BufTy).Contents (Elt F)),
    unary main_v354 main_v355 (Host.negf : (⟨S262144x3, .f32⟩ : BufTy).Contents (Elt F) → (⟨S262144x3, .f32⟩ : BufTy).Contents (Elt F)),
    unary main_v355 main_v356 (Host.exp : (⟨S262144x3, .f32⟩ : BufTy).Contents (Elt F) → (⟨S262144x3, .f32⟩ : BufTy).Contents (Elt F)),
    nullary main_cst_87 (constant S_ .f32 0x3F800000#32),
    unary main_cst_87 main_v357 (broadcastInDim S262144x3 ![] bcast_S_S262144x3 : (⟨S_, .f32⟩ : BufTy).Contents (Elt F) → (⟨S262144x3, .f32⟩ : BufTy).Contents (Elt F)),
    binary main_v357 main_v356 main_v358 (addf : (⟨S262144x3, .f32⟩ : BufTy).Contents (Elt F) → (⟨S262144x3, .f32⟩ : BufTy).Contents (Elt F) → (⟨S262144x3, .f32⟩ : BufTy).Contents (Elt F)),
    nullary main_cst_88 (constant S_ .f32 0x3F800000#32),
    unary main_cst_88 main_v359 (broadcastInDim S262144x3 ![] bcast_S_S262144x3 : (⟨S_, .f32⟩ : BufTy).Contents (Elt F) → (⟨S262144x3, .f32⟩ : BufTy).Contents (Elt F)),
    binary main_v359 main_v358 main_v360 (Host.divf : (⟨S262144x3, .f32⟩ : BufTy).Contents (Elt F) → (⟨S262144x3, .f32⟩ : BufTy).Contents (Elt F) → (⟨S262144x3, .f32⟩ : BufTy).Contents (Elt F)) ]

set_option maxRecDepth 4096 in
/-- The part is its list run in sequence: the called functions unfolded at their calls, sequencing reassociated. -/
theorem part7_eq (c : Dev nD) : main_part7 (F := F) c = seq ops7 := by
  simp only [main_part7, fn_clip.body, fn_relu.body, seq, bind_assoc, pure_bind] <;> rfl

theorem sub7 : (ops7 : List (HloOp τ sig (Elt F))).Forall fun op => op.bufs ⊆ tcRefs τ sig :=
  ⟨nullary_bufs_sub .., unary_bufs_sub .., binary_bufs_sub .., unary_bufs_sub .., binary_bufs_sub .., binary_bufs_sub ..,
    unary_bufs_sub .., binary_bufs_sub .., unary_bufs_sub .., binary_bufs_sub .., binary_bufs_sub .., unary_bufs_sub ..,
    unary_bufs_sub .., reshape_bufs_sub .., nary_bufs_sub .., binary_bufs_sub .., unary_bufs_sub .., unary_bufs_sub ..,
    binary_bufs_sub .., nullary_bufs_sub .., unary_bufs_sub .., binary_bufs_sub .., binary_bufs_sub .., unary_bufs_sub ..,
    unary_bufs_sub .., binary_bufs_sub .., unary_bufs_sub .., unary_bufs_sub .., nullary_bufs_sub .., unary_bufs_sub ..,
    binary_bufs_sub .., nullary_bufs_sub .., unary_bufs_sub .., binary_bufs_sub ..⟩

/-- The buffers part 7 writes: one per operation, its result. -/
abbrev W7 : List (Ref sig .tc) :=
  [ main_cst_86, main_v332, main_v333, main_v334, main_v335, main_v336, main_v337, main_v338,
    main_v339, main_v340, main_v341, main_v342, main_v343, main_v344, main_v345, main_v346,
    main_v347, main_v348, main_v349, main_call6.cst.ref, main_call6.v0.ref, main_call6.v1.ref, main_v351, main_v352,
    main_v353, main_v354, main_v355, main_v356, main_cst_87, main_v357, main_v358, main_cst_88,
    main_v359, main_v360 ]

/-- Each operation of the part writes its result buffer and nothing else. -/
theorem writes7 : (ops7 : List (HloOp τ sig (Elt F))).Forall fun op => op.writes ⊆ ((W7).map (Proc.devRef (τ := τ) .tc)).toFinset := by
  simp only [List.Forall, nullary_writes, unary_writes, binary_writes, ternary_writes, reshape_writes, nary_writes, Finset.singleton_subset_iff, List.mem_toFinset]
  repeat' apply And.intro
  all_goals exact List.mem_map_of_mem (by decide)

theorem fresh7 : ∀ op ∈ (ops7 : List (HloOp τ sig (Elt F))), op.fresh = ∅ := by
  intro _ h; (repeat (cases h with | head => rfl | tail _ h => ?_)); exact nomatch h

end Cert.ReferenceIdeal.RefRun

end
-- ==== Proof.RefRun.lean ====
/-
  The reference program's run. Its @main is eight parts run one after the other, and each part is a list of host
  operations run in sequence; so @main is the concatenation of the eight lists run in sequence, and a straight line of
  host operations always terminates, faults nowhere, and leaves every buffer at the fold of the operations' results
  over what the buffer held at launch. Two tools for reading that fold: the fold over a concatenation is the fold over
  the second list started from the fold over the first, and a buffer that is not among the results of a part passes
  through that part unchanged.
-/
import proofs.«176422_j70471823393083_2_alg».proof.Proof.RefOps0
import proofs.«176422_j70471823393083_2_alg».proof.Proof.RefOps1
import proofs.«176422_j70471823393083_2_alg».proof.Proof.RefOps2
import proofs.«176422_j70471823393083_2_alg».proof.Proof.RefOps3
import proofs.«176422_j70471823393083_2_alg».proof.Proof.RefOps4
import proofs.«176422_j70471823393083_2_alg».proof.Proof.RefOps5
import proofs.«176422_j70471823393083_2_alg».proof.Proof.RefOps6
import proofs.«176422_j70471823393083_2_alg».proof.Proof.RefOps7

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- The fold of the operations' results over a concatenation: the second list's fold, started from the first's. -/
theorem after_append {τ : Topo} {sig : RefSig} {Val : EltTy → Type} (l₁ l₂ : List (HloOp τ sig Val)) (V : Valuation τ sig Val) :
    after (l₁ ++ l₂) V = after l₂ (after l₁ V) := by
  induction l₁ generalizing V with
  | nil => rfl
  | cons op l ih => simp only [List.cons_append, after_cons, ih]

theorem forall_append {α : Type} {p : α → Prop} {l₁ l₂ : List α} (h₁ : l₁.Forall p) (h₂ : l₂.Forall p) : (l₁ ++ l₂).Forall p :=
  List.forall_iff_forall_mem.mpr fun x hx =>
    (List.mem_append.mp hx).elim (List.forall_iff_forall_mem.mp h₁ x) (List.forall_iff_forall_mem.mp h₂ x)

/-- The parts after part `k`, as one list (so that `ops = ops0 ++ rest1`, `rest1 = ops1 ++ rest2`, …). -/
abbrev rest7 : List (HloOp τ sig (Elt F)) := ops7
abbrev rest6 : List (HloOp τ sig (Elt F)) := ops6 ++ rest7
abbrev rest5 : List (HloOp τ sig (Elt F)) := ops5 ++ rest6
abbrev rest4 : List (HloOp τ sig (Elt F)) := ops4 ++ rest5
abbrev rest3 : List (HloOp τ sig (Elt F)) := ops3 ++ rest4
abbrev rest2 : List (HloOp τ sig (Elt F)) := ops2 ++ rest3
abbrev rest1 : List (HloOp τ sig (Elt F)) := ops1 ++ rest2
/-- @main's 484 operations, in order. -/
abbrev ops : List (HloOp τ sig (Elt F)) := ops0 ++ rest1

/-- @main is its operations run in sequence: part by part. -/
theorem main_eq (c : Dev nD) : main (F := F) c = seq ops := by
  show main (F := F) c = seq (ops0 ++ (ops1 ++ (ops2 ++ (ops3 ++ (ops4 ++ (ops5 ++ (ops6 ++ ops7)))))))
  rw [seq_append, seq_append, seq_append, seq_append, seq_append, seq_append, seq_append,
    ← part0_eq c, ← part1_eq c, ← part2_eq c, ← part3_eq c, ← part4_eq c, ← part5_eq c, ← part6_eq c, ← part7_eq c]
  rfl

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  forall_append sub0 (forall_append sub1 (forall_append sub2 (forall_append sub3 (forall_append sub4
    (forall_append sub5 (forall_append sub6 sub7))))))

theorem ops_fresh : ∀ op ∈ (ops : List (HloOp τ sig (Elt F))), op.fresh = ∅ := by
  intro op h
  simp only [List.mem_append] at h
  rcases h with h | h | h | h | h | h | h | h
  · exact fresh0 op h
  · exact fresh1 op h
  · exact fresh2 op h
  · exact fresh3 op h
  · exact fresh4 op h
  · exact fresh5 op h
  · exact fresh6 op h
  · exact fresh7 op h

/-- From any memory with zero counters every weakly fair execution of the reference's @main terminates, nothing
    faulting, with each TensorCore buffer at the fold of the operations' results over the launch contents. -/
theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ (fun _ => ops_fresh)

/-- Every buffer the reference writes, part by part. -/
abbrev W : List (Ref sig .tc) := W0 ++ W1 ++ W2 ++ W3 ++ W4 ++ W5 ++ W6 ++ W7

/-- A buffer no operation writes — an argument, for one — ends as launched. -/
theorem kept (V : Valuation τ sig (Elt F)) {r : Ref sig .tc}
    (h0 : r ∉ W0) (h1 : r ∉ W1) (h2 : r ∉ W2) (h3 : r ∉ W3) (h4 : r ∉ W4) (h5 : r ∉ W5) (h6 : r ∉ W6) (h7 : r ∉ W7) :
    after ops V (Proc.devRef .tc r) = V (Proc.devRef .tc r) := by
  show after (ops0 ++ (ops1 ++ (ops2 ++ (ops3 ++ (ops4 ++ (ops5 ++ (ops6 ++ ops7))))))) V _ = _
  rw [after_append, after_append, after_append, after_append, after_append, after_append, after_append,
    after_of_writes_sub ops7 _ writes7 h7, after_of_writes_sub ops6 _ writes6 h6, after_of_writes_sub ops5 _ writes5 h5,
    after_of_writes_sub ops4 _ writes4 h4, after_of_writes_sub ops3 _ writes3 h3, after_of_writes_sub ops2 _ writes2 h2,
    after_of_writes_sub ops1 _ writes1 h1, after_of_writes_sub ops0 _ writes0 h0]

end Cert.ReferenceIdeal.RefRun

end
-- ==== Proof.RefHost.lean ====
/-
  The reference program's buffers, read off its run as the specification's functions: the three resolution levels'
  features, each one level of the plane features over the plane coordinates of the rays and that level's grid, and the
  output, the two dense layers over the three levels' features side by side.
-/
import proofs.«176422_j70471823393083_2_alg».proof.Proof.RefRun
import proofs.«176422_j70471823393083_2_alg».proof.Proof.PlaneSpec

noncomputable section

namespace Cert.ReferenceIdeal.RefHost

open Cert.ReferenceIdeal Cert.ReferenceIdeal.Gen Cert.ReferenceIdeal.RefRun Idealize.ShloMosaic Idealize.ShloMosaic.TcCoe
  Idealize.SL.Sem Idealize.ShloMosaic.StableHlo

/-! ## The three levels' features

Each level's features are written once, by a part of the run the later parts leave alone; the operations before it,
composed, are the level as the specification spells it, term for term. -/

/-- Parts 3 to 7 write nothing at the first level's features. -/
theorem upto2 (V : Valuation τ sig (Elt Ideal)) :
    after ops V (main_v120 : DevRef τ sig) = after ops2 (after ops1 (after ops0 V)) (main_v120 : DevRef τ sig) := by
  show after (ops0 ++ (ops1 ++ (ops2 ++ (ops3 ++ (ops4 ++ (ops5 ++ (ops6 ++ ops7))))))) V _ = _
  rw [RefRun.after_append, RefRun.after_append, RefRun.after_append, RefRun.after_append, RefRun.after_append,
    RefRun.after_append, RefRun.after_append,
    after_of_writes_sub ops7 _ writes7 (by decide), after_of_writes_sub ops6 _ writes6 (by decide),
    after_of_writes_sub ops5 _ writes5 (by decide), after_of_writes_sub ops4 _ writes4 (by decide),
    after_of_writes_sub ops3 _ writes3 (by decide)]

set_option maxRecDepth 100000 in
set_option maxHeartbeats 4000000 in
/-- THE FIRST LEVEL'S FEATURES. -/
theorem feat0 (V : Valuation τ sig (Elt Ideal)) :
    after ops V (main_v120 : DevRef τ sig)
      = Plane.levelR 0x42FE0000#32 126#32 128#32 gather_S6x16x128x128_S6x262144x2_S6x16x262144_1_23_0_0_23_2_11611
          (Plane.coordsOf gather_S262144x4_S6x2x1_S262144x6x2_0_1_n_n_1_2_2621441 (V (main_arg0 : DevRef τ sig)))
          (V (main_arg1 : DevRef τ sig)) := by
  rw [upto2]
  unfold ops2 ops1 ops0
  after_results_simp
  rfl

/-- Parts 5 to 7 write nothing at the second level's features. -/
theorem upto4 (V : Valuation τ sig (Elt Ideal)) :
    after ops V (main_v232 : DevRef τ sig) = after ops4 (after ops3 (after ops2 (after ops1 (after ops0 V)))) (main_v232 : DevRef τ sig) := by
  show after (ops0 ++ (ops1 ++ (ops2 ++ (ops3 ++ (ops4 ++ (ops5 ++ (ops6 ++ ops7))))))) V _ = _
  rw [RefRun.after_append, RefRun.after_append, RefRun.after_append, RefRun.after_append, RefRun.after_append,
    RefRun.after_append, RefRun.after_append,
    after_of_writes_sub ops7 _ writes7 (by decide),
    after_of_writes_sub ops6 _ writes6 (by decide),
    after_of_writes_sub ops5 _ writes5 (by decide)]

set_option maxRecDepth 100000 in
set_option maxHeartbeats 16000000 in
/-- THE SECOND LEVEL'S FEATURES. -/
theorem feat1 (V : Valuation τ sig (Elt Ideal)) :
    after ops V (main_v232 : DevRef τ sig)
      = Plane.levelR 0x437F0000#32 254#32 256#32 gather_S6x16x256x256_S6x262144x2_S6x16x262144_1_23_0_0_23_2_11611
          (Plane.coordsOf gather_S262144x4_S6x2x1_S262144x6x2_0_1_n_n_1_2_2621441 (V (main_arg0 : DevRef τ sig)))
          (V (main_arg2 : DevRef τ sig)) := by
  rw [upto4]
  unfold ops4 ops3 ops2 ops1 ops0
  after_results_simp
  rfl

/-- The run, part by part, at the third level's features. -/
theorem upto7 (V : Valuation τ sig (Elt Ideal)) :
    after ops V (main_v344 : DevRef τ sig) = after ops7 (after ops6 (after ops5 (after ops4 (after ops3 (after ops2 (after ops1 (after ops0 V))))))) (main_v344 : DevRef τ sig) := by
  show after (ops0 ++ (ops1 ++ (ops2 ++ (ops3 ++ (ops4 ++ (ops5 ++ (ops6 ++ ops7))))))) V _ = _
  rw [RefRun.after_append, RefRun.after_append, RefRun.after_append, RefRun.after_append, RefRun.after_append,
    RefRun.after_append, RefRun.after_append]

set_option maxRecDepth 100000 in
set_option maxHeartbeats 16000000 in
/-- THE THIRD LEVEL'S FEATURES. -/
theorem feat2 (V : Valuation τ sig (Elt Ideal)) :
    after ops V (main_v344 : DevRef τ sig)
      = Plane.levelR 0x43FF8000#32 510#32 512#32 gather_S6x16x512x512_S6x262144x2_S6x16x262144_1_23_0_0_23_2_11611
          (Plane.coordsOf gather_S262144x4_S6x2x1_S262144x6x2_0_1_n_n_1_2_2621441 (V (main_arg0 : DevRef τ sig)))
          (V (main_arg3 : DevRef τ sig)) := by
  rw [upto7]
  unfold ops7 ops6 ops5 ops4 ops3 ops2 ops1 ops0
  after_results_simp
  rfl

/-! ## The output -/

/-- A three-operand operation's result at its own buffer, with each operand's contents at its own reference. -/
theorem nary3_result' {x a b y : Ref sig .tc}
    (f : ((k : Fin 3) → ((![x, a, b] : Fin 3 → Ref sig .tc) k).ty.Contents (Elt Ideal)) → y.ty.Contents (Elt Ideal)) (hxs hy)
    (X : Valuation τ sig (Elt Ideal)) :
    (nary (τ := τ) ![x, a, b] y f hxs hy).result X (no_index (Proc.devRef .tc y))
      = f (Fin.cons (X (Proc.devRef .tc x)) (Fin.cons (X (Proc.devRef .tc a)) (Fin.cons (X (Proc.devRef .tc b))
          (fun i => i.elim0)))) := by
  rw [nary_result]; congr 1; funext k; fin_cases k <;> rfl

/-- The buffers once parts 0 to 6 have run. -/
def front (V : Valuation τ sig (Elt Ideal)) : Valuation τ sig (Elt Ideal) :=
  after ops6 (after ops5 (after ops4 (after ops3 (after ops2 (after ops1 (after ops0 V))))))

/-- The run is part 7 run from there. -/
theorem ops_eq_front (V : Valuation τ sig (Elt Ideal)) : after ops V = after ops7 (front V) := by
  show after (ops0 ++ (ops1 ++ (ops2 ++ (ops3 ++ (ops4 ++ (ops5 ++ (ops6 ++ ops7))))))) V = _
  rw [RefRun.after_append, RefRun.after_append, RefRun.after_append, RefRun.after_append, RefRun.after_append,
    RefRun.after_append, RefRun.after_append]
  rfl

/-- A buffer parts 0 to 6 do not write is there as launched. -/
theorem front_kept (V : Valuation τ sig (Elt Ideal)) {r : Ref sig .tc}
    (h0 : r ∉ W0) (h1 : r ∉ W1) (h2 : r ∉ W2) (h3 : r ∉ W3) (h4 : r ∉ W4) (h5 : r ∉ W5) (h6 : r ∉ W6) :
    front V (Proc.devRef .tc r) = V (Proc.devRef .tc r) := by
  unfold front
  rw [after_of_writes_sub ops6 _ writes6 h6, after_of_writes_sub ops5 _ writes5 h5, after_of_writes_sub ops4 _ writes4 h4,
    after_of_writes_sub ops3 _ writes3 h3, after_of_writes_sub ops2 _ writes2 h2, after_of_writes_sub ops1 _ writes1 h1,
    after_of_writes_sub ops0 _ writes0 h0]

set_option maxRecDepth 100000 in
set_option maxHeartbeats 4000000 in
/-- Part 7 from any contents: the output over the three levels' features as part 7 leaves them and the weights and
    biases as it finds them. -/
theorem tail_eq (X : Valuation τ sig (Elt Ideal)) :
    after ops7 X (main_v360 : DevRef τ sig)
      = Host.divf
        (broadcastInDim ⟨2, ![262144, 3]⟩ ![] bcast_S_S262144x3 (constant (F := Ideal) ⟨0, ![]⟩ .f32 0x3F800000#32))
        (addf (broadcastInDim ⟨2, ![262144, 3]⟩ ![] bcast_S_S262144x3 (constant (F := Ideal) ⟨0, ![]⟩ .f32 0x3F800000#32))
          (Host.exp (Host.negf
            (addf (Host.dotGeneral (φ₁ := .f32) (φ₂ := .f32) dot_S262144x128_S128x3_S262144x3_1_0_0_1_n_n none
                    (maximumf (addf (Host.dotGeneral (φ₁ := .f32) (φ₂ := .f32)
                          dot_S262144x288_S288x128_S262144x128_1_0_0_1_n_n none
                          (concatenate ⟨2, ![262144, 288]⟩ 1
                            [⟨⟨2, ![262144, 96]⟩, after ops7 X (main_v120 : DevRef τ sig)⟩,
                              ⟨⟨2, ![262144, 96]⟩, after ops7 X (main_v232 : DevRef τ sig)⟩,
                              ⟨⟨2, ![262144, 96]⟩, after ops7 X (main_v344 : DevRef τ sig)⟩]
                            concatenates_S262144x96_S262144x96_S262144x96_S262144x288_d1)
                          (X (main_arg4 : DevRef τ sig)))
                        (broadcastInDim ⟨2, ![262144, 128]⟩ ![0, 1] bcast_S1x128_S262144x128_0_1
                          (broadcastInDim ⟨2, ![1, 128]⟩ ![1] bcast_S128_S1x128_1 (X (main_arg5 : DevRef τ sig)))))
                      (broadcastInDim ⟨2, ![262144, 128]⟩ ![] bcast_S_S262144x128
                        (constant (F := Ideal) ⟨0, ![]⟩ .f32 0x00000000#32)))
                    (X (main_arg6 : DevRef τ sig)))
              (broadcastInDim ⟨2, ![262144, 3]⟩ ![0, 1] bcast_S1x3_S262144x3_0_1
                (broadcastInDim ⟨2, ![1, 3]⟩ ![1] bcast_S3_S1x3_1 (X (main_arg7 : DevRef τ sig)))))))) := by
  unfold ops7
  simp (disch := decide) only [after_cons, after_nil, nary3_result',
    nullary_result', unary_result', binary_result', ternary_result', quaternary_result', reshape_result',
    unaryIndexed_result', binaryIndexed_result',
    nullary_result_ne', unary_result_ne', binary_result_ne', ternary_result_ne', quaternary_result_ne', reshape_result_ne',
    nary_result_ne', unaryIndexed_result_ne', binaryIndexed_result_ne'] <;> rfl

/-- THE OUTPUT: the two dense layers over the three levels' features side by side. -/
theorem out_eq (V : Valuation τ sig (Elt Ideal)) :
    after ops V (main_v360 : DevRef τ sig)
      = Host.divf
        (broadcastInDim ⟨2, ![262144, 3]⟩ ![] bcast_S_S262144x3 (constant (F := Ideal) ⟨0, ![]⟩ .f32 0x3F800000#32))
        (addf (broadcastInDim ⟨2, ![262144, 3]⟩ ![] bcast_S_S262144x3 (constant (F := Ideal) ⟨0, ![]⟩ .f32 0x3F800000#32))
          (Host.exp (Host.negf
            (addf (Host.dotGeneral (φ₁ := .f32) (φ₂ := .f32) dot_S262144x128_S128x3_S262144x3_1_0_0_1_n_n none
                    (maximumf (addf (Host.dotGeneral (φ₁ := .f32) (φ₂ := .f32)
                          dot_S262144x288_S288x128_S262144x128_1_0_0_1_n_n none
                          (concatenate ⟨2, ![262144, 288]⟩ 1
                            [⟨⟨2, ![262144, 96]⟩, after ops V (main_v120 : DevRef τ sig)⟩,
                              ⟨⟨2, ![262144, 96]⟩, after ops V (main_v232 : DevRef τ sig)⟩,
                              ⟨⟨2, ![262144, 96]⟩, after ops V (main_v344 : DevRef τ sig)⟩]
                            concatenates_S262144x96_S262144x96_S262144x96_S262144x288_d1)
                          (V (main_arg4 : DevRef τ sig)))
                        (broadcastInDim ⟨2, ![262144, 128]⟩ ![0, 1] bcast_S1x128_S262144x128_0_1
                          (broadcastInDim ⟨2, ![1, 128]⟩ ![1] bcast_S128_S1x128_1 (V (main_arg5 : DevRef τ sig)))))
                      (broadcastInDim ⟨2, ![262144, 128]⟩ ![] bcast_S_S262144x128
                        (constant (F := Ideal) ⟨0, ![]⟩ .f32 0x00000000#32)))
                    (V (main_arg6 : DevRef τ sig)))
              (broadcastInDim ⟨2, ![262144, 3]⟩ ![0, 1] bcast_S1x3_S262144x3_0_1
                (broadcastInDim ⟨2, ![1, 3]⟩ ![1] bcast_S3_S1x3_1 (V (main_arg7 : DevRef τ sig)))))))) := by
  rw [ops_eq_front V, tail_eq (front V),
    front_kept V (r := main_arg4) (by decide) (by decide) (by decide) (by decide) (by decide) (by decide) (by decide),
    front_kept V (r := main_arg5) (by decide) (by decide) (by decide) (by decide) (by decide) (by decide) (by decide),
    front_kept V (r := main_arg6) (by decide) (by decide) (by decide) (by decide) (by decide) (by decide) (by decide),
    front_kept V (r := main_arg7) (by decide) (by decide) (by decide) (by decide) (by decide) (by decide) (by decide)]

end Cert.ReferenceIdeal.RefHost

end
-- ==== Proof.RefTail.lean ====
/-
  The reference program's last operations as ONE whole-array function.

  The program joins three [262144, 96] feature arrays F0, F1, F2 side by side into a [262144, 288] array, multiplies it
  by a [288, 128] weight matrix w1, adds a length-128 bias (broadcast to a row and then to every row), takes the maximum
  with a broadcast zero, multiplies by a [128, 3] matrix w2, adds a length-3 bias, and applies x ↦ 1 / (1 + e^(-x)).

  Entry (n, q) of the first product is ∑ over i < 288 of join (n, i) · w1 (i, q).  The join at column i is F0, F1 or F2
  at column i, i − 96 or i − 192 according to which third of the 288 columns i lies in, and 288 = 96 + 96 + 96, so the
  sum is
      ∑ i < 96, F0 (n, i) · w1 (i, q)  +  ∑ i < 96, F1 (n, i) · w1 (96 + i, q)  +  ∑ i < 96, F2 (n, i) · w1 (192 + i, q)
  (a regrouping of one finite sum in a commutative monoid: the extended reals' addition is associative and commutative,
  nothing has to be finite).  These are three products against the three 96-row blocks of w1, so the tail is the network
  PlaneMlp.mlp of the three feature arrays with those three blocks as its first-layer weights.
-/
import Idealize.ShloMosaic.Lib.ValueIdx
import Idealize.ShloMosaic.Lib.Pipeline.Value
import Idealize.ShloMosaic.PureOps.Ideal.Laws
import proofs.«176422_j70471823393083_2_alg».proof.Proof.PlaneMlp

noncomputable section

namespace PlaneTail

open Idealize.ShloMosaic Idealize.ShloMosaic.ValueIdx

/-- Rows o, o + 1, …, o + 95 of a [288, 128] array, as a [96, 128] array. -/
def rowsFrom (w : (⟨2, ![288, 128]⟩ : Shape).Idx → EReal) (o : Nat) (ho : o + 96 ≤ 288) : PlaneMlp.Mat 96 128 :=
  fun i => w (ix2 (⟨o + (i 0).val, by have := idx2_lt0 i; omega⟩ : Fin 288) (i 1))

theorem rowsFrom_ix2 (w : (⟨2, ![288, 128]⟩ : Shape).Idx → EReal) (o : Nat) (ho : o + 96 ≤ 288) (k : Fin 96) (q : Fin 128) :
    rowsFrom w o ho (ix2 k q) = w (ix2 (⟨o + k.val, by have := k.isLt; omega⟩ : Fin 288) q) := rfl

/-- A sum over 288 terms is the sum of its three consecutive runs of 96. -/
theorem sum_three {M : Type} [AddCommMonoid M] (g : Fin 288 → M) :
    ∑ k : Fin 288, g k
      = ((∑ i : Fin 96, g ⟨0 + i.val, by have := i.isLt; omega⟩) + (∑ i : Fin 96, g ⟨96 + i.val, by have := i.isLt; omega⟩))
        + ∑ i : Fin 96, g ⟨192 + i.val, by have := i.isLt; omega⟩ := by
  have e : ∑ k : Fin 288, g k = ∑ k : Fin (96 + 96 + 96), g k := rfl
  rw [e, Fin.sum_univ_add, Fin.sum_univ_add]
  refine congrArg₂ (· + ·) (congrArg₂ (· + ·) ?_ rfl) rfl
  exact Finset.sum_congr rfl fun i _ => congrArg g (Fin.ext (Nat.zero_add _).symm)

section Join

variable (F0 F1 F2 : (⟨2, ![262144, 96]⟩ : Shape).Idx → EReal)
  (hc : Shape.Concatenates [⟨2, ![262144, 96]⟩, ⟨2, ![262144, 96]⟩, ⟨2, ![262144, 96]⟩] ⟨2, ![262144, 288]⟩ 1)

/-- The join read in its first 96 columns is the first array. -/
theorem join_fst (p : Fin 262144) (c : Fin 96) :
    concatenate ⟨2, ![262144, 288]⟩ 1 [⟨⟨2, ![262144, 96]⟩, F0⟩, ⟨⟨2, ![262144, 96]⟩, F1⟩, ⟨⟨2, ![262144, 96]⟩, F2⟩] hc
      (ix2 p (⟨0 + c.val, by have := c.isLt; omega⟩ : Fin 288)) = F0 (ix2 p c) :=
  concatenate_apply_piece (t := ⟨2, ![262144, 288]⟩) 1 [⟨⟨2, ![262144, 96]⟩, F0⟩, ⟨⟨2, ![262144, 96]⟩, F1⟩, ⟨⟨2, ![262144, 96]⟩, F2⟩] hc _ 0 (show (0 : Nat) < 3 by decide) ⟨2, ![262144, 96]⟩ F0 rfl rfl 0 rfl (ix2 p c)
    (fun b hb => match b, hb with
      | ⟨0, _⟩, _ => rfl
      | ⟨1, _⟩, hb => absurd rfl hb)
    rfl

/-- The join read in its middle 96 columns is the second array, 96 columns to the left. -/
theorem join_snd (p : Fin 262144) (c : Fin 96) :
    concatenate ⟨2, ![262144, 288]⟩ 1 [⟨⟨2, ![262144, 96]⟩, F0⟩, ⟨⟨2, ![262144, 96]⟩, F1⟩, ⟨⟨2, ![262144, 96]⟩, F2⟩] hc
      (ix2 p (⟨96 + c.val, by have := c.isLt; omega⟩ : Fin 288)) = F1 (ix2 p c) :=
  concatenate_apply_piece (t := ⟨2, ![262144, 288]⟩) 1 [⟨⟨2, ![262144, 96]⟩, F0⟩, ⟨⟨2, ![262144, 96]⟩, F1⟩, ⟨⟨2, ![262144, 96]⟩, F2⟩] hc _ 1 (show (1 : Nat) < 3 by decide) ⟨2, ![262144, 96]⟩ F1 rfl rfl 96 rfl (ix2 p c)
    (fun b hb => match b, hb with
      | ⟨0, _⟩, _ => rfl
      | ⟨1, _⟩, hb => absurd rfl hb)
    rfl

/-- The join read in its last 96 columns is the third array, 192 columns to the left. -/
theorem join_trd (p : Fin 262144) (c : Fin 96) :
    concatenate ⟨2, ![262144, 288]⟩ 1 [⟨⟨2, ![262144, 96]⟩, F0⟩, ⟨⟨2, ![262144, 96]⟩, F1⟩, ⟨⟨2, ![262144, 96]⟩, F2⟩] hc
      (ix2 p (⟨192 + c.val, by have := c.isLt; omega⟩ : Fin 288)) = F2 (ix2 p c) :=
  concatenate_apply_piece (t := ⟨2, ![262144, 288]⟩) 1 [⟨⟨2, ![262144, 96]⟩, F0⟩, ⟨⟨2, ![262144, 96]⟩, F1⟩, ⟨⟨2, ![262144, 96]⟩, F2⟩] hc _ 2 (show (2 : Nat) < 3 by decide) ⟨2, ![262144, 96]⟩ F2 rfl rfl 192 rfl (ix2 p c)
    (fun b hb => match b, hb with
      | ⟨0, _⟩, _ => rfl
      | ⟨1, _⟩, hb => absurd rfl hb)
    rfl

end Join

/-- THE HIDDEN LAYER: the join times w1, plus the length-128 bias broadcast to a row and then to every row, then the
    maximum with a broadcast zero, is the three-product layer of the three arrays against the three row blocks of w1. -/
theorem host_hidden {d1 : DotDims ⟨2, ![262144, 288]⟩ ⟨2, ![288, 128]⟩ ⟨2, ![262144, 128]⟩} (hd1 : PlainDot.IsPlain d1)
    (F0 F1 F2 : FVec Ideal ⟨2, ![262144, 96]⟩ .f32) (w1 : FVec Ideal ⟨2, ![288, 128]⟩ .f32) (b1 : FVec Ideal ⟨1, ![128]⟩ .f32)
    (hc : Shape.Concatenates [⟨2, ![262144, 96]⟩, ⟨2, ![262144, 96]⟩, ⟨2, ![262144, 96]⟩] ⟨2, ![262144, 288]⟩ 1)
    (hb11 : (⟨1, ![128]⟩ : Shape).BroadcastsInDim ⟨2, ![1, 128]⟩ ![1])
    (hb12 : (⟨2, ![1, 128]⟩ : Shape).BroadcastsInDim ⟨2, ![262144, 128]⟩ ![0, 1])
    (h0h : (⟨0, ![]⟩ : Shape).BroadcastsInDim ⟨2, ![262144, 128]⟩ ![]) :
    maximumf (addf (Host.dotGeneral d1 none
          (concatenate ⟨2, ![262144, 288]⟩ 1 [⟨⟨2, ![262144, 96]⟩, F0⟩, ⟨⟨2, ![262144, 96]⟩, F1⟩, ⟨⟨2, ![262144, 96]⟩, F2⟩] hc) w1)
        (broadcastInDim ⟨2, ![262144, 128]⟩ ![0, 1] hb12 (broadcastInDim ⟨2, ![1, 128]⟩ ![1] hb11 b1)))
      (broadcastInDim ⟨2, ![262144, 128]⟩ ![] h0h (constant (F := Ideal) ⟨0, ![]⟩ .f32 0x00000000#32))
    = ChebLayer.cheb F0 F1 F2 (rowsFrom w1 0 (by decide)) (rowsFrom w1 96 (by decide)) (rowsFrom w1 192 (by decide))
        (fun q => b1 (ix1 q)) := by
  funext j
  obtain ⟨p, q, rfl⟩ : ∃ (p : Fin 262144) (q : Fin 128), j = ix2 p q := ⟨j 0, j 1, eq_ix2 j⟩
  rw [DenseLayer.host_dense hd1 _ w1 b1 hb11 hb12, ChebLayer.cheb_ix2]
  show FloatOps.maximumf
      (DenseLayer.dense
        (concatenate ⟨2, ![262144, 288]⟩ 1 [⟨⟨2, ![262144, 96]⟩, F0⟩, ⟨⟨2, ![262144, 96]⟩, F1⟩, ⟨⟨2, ![262144, 96]⟩, F2⟩] hc)
        w1 (fun q => b1 (ix1 q)) (ix2 p q))
      (broadcastInDim ⟨2, ![262144, 128]⟩ ![] h0h (constant (F := Ideal) ⟨0, ![]⟩ .f32 0x00000000#32) (ix2 p q)) = _
  rw [Ideal.maximumf_def, broadcastInDim_apply ![] h0h _ (ix2 p q) ix0 (fun a => a.elim0), DenseLayer.dense_ix2, sum_three]
  simp only [join_fst F0 F1 F2 hc, join_snd F0 F1 F2 hc, join_trd F0 F1 F2 hc]
  rfl

/-- THE TAIL: the join, the hidden layer, the product with w2 plus the length-3 bias broadcast to a row and then to every
    row, and the quotient of one by one plus the exponential of the negation, is the network of the three arrays with the
    three row blocks of w1 as its first-layer weights. -/
theorem host_tail {d1 : DotDims ⟨2, ![262144, 288]⟩ ⟨2, ![288, 128]⟩ ⟨2, ![262144, 128]⟩} (hd1 : PlainDot.IsPlain d1)
    {d2 : DotDims ⟨2, ![262144, 128]⟩ ⟨2, ![128, 3]⟩ ⟨2, ![262144, 3]⟩} (hd2 : PlainDot.IsPlain d2)
    (F0 F1 F2 : FVec Ideal ⟨2, ![262144, 96]⟩ .f32) (w1 : FVec Ideal ⟨2, ![288, 128]⟩ .f32) (b1 : FVec Ideal ⟨1, ![128]⟩ .f32)
    (w2 : FVec Ideal ⟨2, ![128, 3]⟩ .f32) (b2 : FVec Ideal ⟨1, ![3]⟩ .f32)
    (hc : Shape.Concatenates [⟨2, ![262144, 96]⟩, ⟨2, ![262144, 96]⟩, ⟨2, ![262144, 96]⟩] ⟨2, ![262144, 288]⟩ 1)
    (hb11 : (⟨1, ![128]⟩ : Shape).BroadcastsInDim ⟨2, ![1, 128]⟩ ![1])
    (hb12 : (⟨2, ![1, 128]⟩ : Shape).BroadcastsInDim ⟨2, ![262144, 128]⟩ ![0, 1])
    (h0h : (⟨0, ![]⟩ : Shape).BroadcastsInDim ⟨2, ![262144, 128]⟩ ![])
    (hb21 : (⟨1, ![3]⟩ : Shape).BroadcastsInDim ⟨2, ![1, 3]⟩ ![1])
    (hb22 : (⟨2, ![1, 3]⟩ : Shape).BroadcastsInDim ⟨2, ![262144, 3]⟩ ![0, 1])
    (h0c : (⟨0, ![]⟩ : Shape).BroadcastsInDim ⟨2, ![262144, 3]⟩ ![]) :
    Host.divf (broadcastInDim ⟨2, ![262144, 3]⟩ ![] h0c (constant (F := Ideal) ⟨0, ![]⟩ .f32 0x3F800000#32))
      (addf (broadcastInDim ⟨2, ![262144, 3]⟩ ![] h0c (constant (F := Ideal) ⟨0, ![]⟩ .f32 0x3F800000#32))
        (Host.exp (Host.negf
          (addf (Host.dotGeneral d2 none
                  (maximumf (addf (Host.dotGeneral d1 none
                        (concatenate ⟨2, ![262144, 288]⟩ 1
                          [⟨⟨2, ![262144, 96]⟩, F0⟩, ⟨⟨2, ![262144, 96]⟩, F1⟩, ⟨⟨2, ![262144, 96]⟩, F2⟩] hc) w1)
                      (broadcastInDim ⟨2, ![262144, 128]⟩ ![0, 1] hb12 (broadcastInDim ⟨2, ![1, 128]⟩ ![1] hb11 b1)))
                    (broadcastInDim ⟨2, ![262144, 128]⟩ ![] h0h (constant (F := Ideal) ⟨0, ![]⟩ .f32 0x00000000#32)))
                  w2)
            (broadcastInDim ⟨2, ![262144, 3]⟩ ![0, 1] hb22 (broadcastInDim ⟨2, ![1, 3]⟩ ![1] hb21 b2))))))
    = PlaneMlp.mlp F0 F1 F2 (rowsFrom w1 0 (by decide)) (rowsFrom w1 96 (by decide)) (rowsFrom w1 192 (by decide))
        (fun q => b1 (ix1 q)) w2 (fun q => b2 (ix1 q)) := by
  rw [host_hidden hd1 F0 F1 F2 w1 b1 hc hb11 hb12 h0h, DenseLayer.host_dense hd2 _ w2 b2 hb21 hb22]
  funext i
  have one : broadcastInDim ⟨2, ![262144, 3]⟩ ![] h0c (constant (F := Ideal) ⟨0, ![]⟩ .f32 0x3F800000#32) i = (1 : EReal) :=
    (broadcastInDim_apply ![] h0c _ i ix0 (fun a => a.elim0)).trans DenseLayer.ofBits_one
  show Ideal.div (broadcastInDim ⟨2, ![262144, 3]⟩ ![] h0c (constant (F := Ideal) ⟨0, ![]⟩ .f32 0x3F800000#32) i)
      (broadcastInDim ⟨2, ![262144, 3]⟩ ![] h0c (constant (F := Ideal) ⟨0, ![]⟩ .f32 0x3F800000#32) i
        + Ideal.exp (-(DenseLayer.dense
            (ChebLayer.cheb F0 F1 F2 (rowsFrom w1 0 (by decide)) (rowsFrom w1 96 (by decide)) (rowsFrom w1 192 (by decide))
              (fun q => b1 (ix1 q))) w2 (fun q => b2 (ix1 q)) i))) = _
  rw [one]
  rfl

end PlaneTail

end
-- ==== Proof.GatherReads.lean ====
/-
  Two batched `stablehlo.gather` operations read at an index.

  Both have one batch axis (operand axis 0 paired with start-indices axis 0), start indices whose last axis holds the
  index vector, and every indexed operand axis collapsed with slice size 1. On such an axis the operand coordinate is the
  start index's component read as a signed integer and clamped into `[0, extent - 1]`; on the batch axis it is the
  result's batch coordinate; on the one remaining axis, taken whole, it is the result's offset coordinate.
-/
import Idealize.ShloMosaic.Lib.ValueIdx
import Idealize.ShloMosaic.Lib.Pipeline.Value

namespace PlaneGather

open Idealize.ShloMosaic Idealize.ShloMosaic.ValueIdx

variable {α : Type} {B M C R H Wd : Nat}

/-! ## Rows of a table -/

/-- rows of a table with one batch axis: operand [B, M, C], start indices [B, R, 1], result [B, R, C];
    offset_dims [2], collapsed_slice_dims [1], operand_batching_dims [0], start_indices_batching_dims [0],
    start_index_map [1], index_vector_dim 2, slice_sizes [1, 1, C] -/
structure IsFlat (d : GatherDims ⟨3, ![B, M, C]⟩ ⟨3, ![B, R, 1]⟩ ⟨3, ![B, R, C]⟩) : Prop where
  od : d.offsetDims = [(2 : Fin 3)]
  cs : d.collapsedSliceDims = [(1 : Fin 3)]
  ob : d.operandBatchingDims = [(0 : Fin 3)]
  sb : d.startIndicesBatchingDims = [(0 : Fin 3)]
  sm : d.startIndexMap = [(1 : Fin 3)]
  iv : d.indexVectorDim = 2
  ss : d.sliceSizes = ![1, 1, C]

/-- The record with those dimension numbers, given their conditions. -/
abbrev flatDims (B M C R : Nat)
    (wf : GatherDims.WF ⟨3, ![B, M, C]⟩ ⟨3, ![B, R, 1]⟩ ⟨3, ![B, R, C]⟩ [2] [1] [0] [1] [0] 2 ![1, 1, C]) :
    GatherDims ⟨3, ![B, M, C]⟩ ⟨3, ![B, R, 1]⟩ ⟨3, ![B, R, C]⟩ where
  offsetDims := [2]
  collapsedSliceDims := [1]
  operandBatchingDims := [0]
  startIndicesBatchingDims := [0]
  startIndexMap := [1]
  indexVectorDim := 2
  sliceSizes := ![1, 1, C]
  wf := wf

/-- A record with those dimension numbers is that record. -/
theorem IsFlat.eq_flatDims {d : GatherDims ⟨3, ![B, M, C]⟩ ⟨3, ![B, R, 1]⟩ ⟨3, ![B, R, C]⟩} (h : IsFlat d) :
    ∃ wf, d = flatDims B M C R wf := by
  obtain ⟨od, cs, ob, sb, sm, iv, ss, wf⟩ := d
  obtain ⟨h1, h2, h3, h4, h5, h6, h7⟩ := h
  dsimp only at h1 h2 h3 h4 h5 h6 h7
  subst h1 h2 h3 h4 h5 h6 h7
  exact ⟨wf, rfl⟩

/-- THE GATHER READ AT `(b, r, c)`: the table of batch `b` at the row `idx[b, r, 0]`, read signed and clamped into
    `[0, M − 1]`, and column `c`. -/
theorem flat_apply {d : GatherDims ⟨3, ![B, M, C]⟩ ⟨3, ![B, R, 1]⟩ ⟨3, ![B, R, C]⟩} (h : IsFlat d) (hM : 0 < M)
    (x : (⟨3, ![B, M, C]⟩ : Shape).Idx → α) (idx : IVec ⟨3, ![B, R, 1]⟩ 32) (b : Fin B) (r : Fin R) (c : Fin C) :
    Host.gather d x idx (ix3 b r c)
      = x (ix3 b ⟨min (idx (ix3 b r (0 : Fin 1))).toInt.toNat (M - 1), by omega⟩ c) := by
  obtain ⟨wf, rfl⟩ := h.eq_flatDims
  unfold Host.gather
  congr 1
  funext a
  refine Fin.ext ?_
  match a with
  | ⟨0, _⟩ =>
    -- the batch axis: no start, no offset; the result's batch coordinate
    show (flatDims B M C R wf).start (ix3 b r c) idx 0 + (flatDims B M C R wf).batchCoord (ix3 b r c) 0
      + (flatDims B M C R wf).offCoord (ix3 b r c) 0 = b.val
    rw [GatherDims.start_batching _ _ _ _ (List.mem_singleton.mpr rfl),
      GatherDims.offCoord_eq_zero _ _ _ (fun h => ((GatherDims.mem_sKept _ _).mp h).2 (List.mem_singleton.mpr rfl))]
    simp only [Nat.zero_add, Nat.add_zero]
    unfold GatherDims.batchCoord
    rw [dif_pos (show (0 : Fin 3) ∈ (flatDims B M C R wf).operandBatchingDims from List.mem_singleton.mpr rfl)]
    rfl
  | ⟨1, _⟩ =>
    -- the indexed axis: collapsed, so the clamped start index alone
    show (flatDims B M C R wf).start (ix3 b r c) idx 1 + (flatDims B M C R wf).batchCoord (ix3 b r c) 1
      + (flatDims B M C R wf).offCoord (ix3 b r c) 1 = _
    rw [GatherDims.batchCoord_eq_zero _ _ _ (show (1 : Fin 3) ∉ [(0 : Fin 3)] by decide),
      GatherDims.offCoord_eq_zero _ _ _ (fun h => ((GatherDims.mem_sKept _ _).mp h).1 (List.mem_singleton.mpr rfl))]
    simp only [Nat.add_zero]
    unfold GatherDims.start
    rw [dif_pos (show (1 : Fin 3) ∈ (flatDims B M C R wf).startIndexMap from List.mem_singleton.mpr rfl)]
    have hsi : (flatDims B M C R wf).siIdx (ix3 b r c) ⟨List.idxOf (1 : Fin 3) (flatDims B M C R wf).startIndexMap,
        List.idxOf_lt_length_iff.2 (List.mem_singleton.mpr rfl)⟩ = ix3 b r (0 : Fin 1) := by
      funext e; refine Fin.ext ?_
      match e with
      | ⟨0, _⟩ => rfl
      | ⟨1, _⟩ => rfl
      | ⟨2, _⟩ => rfl
    rw [hsi]
    rfl
  | ⟨2, _⟩ =>
    -- the axis taken whole: no start; the result's offset coordinate
    show (flatDims B M C R wf).start (ix3 b r c) idx 2 + (flatDims B M C R wf).batchCoord (ix3 b r c) 2
      + (flatDims B M C R wf).offCoord (ix3 b r c) 2 = c.val
    rw [GatherDims.batchCoord_eq_zero _ _ _ (show (2 : Fin 3) ∉ [(0 : Fin 3)] by decide)]
    unfold GatherDims.start
    rw [dif_neg (show (2 : Fin 3) ∉ (flatDims B M C R wf).startIndexMap from (show (2 : Fin 3) ∉ [(1 : Fin 3)] by decide))]
    simp only [Nat.zero_add, Nat.add_zero]
    unfold GatherDims.offCoord
    rw [dif_pos ((GatherDims.mem_sKept _ _).mpr
      ⟨show (2 : Fin 3) ∉ [(1 : Fin 3)] by decide, show (2 : Fin 3) ∉ [(0 : Fin 3)] by decide⟩)]
    rfl

/-! ## Entries of planes -/

/-- entries of planes with one batch axis: operand [B, C, H, Wd], start indices [B, R, 2], result [B, C, R];
    offset_dims [1], collapsed_slice_dims [2, 3], operand_batching_dims [0], start_indices_batching_dims [0],
    start_index_map [2, 3], index_vector_dim 2, slice_sizes [1, C, 1, 1] -/
structure IsPlanar (d : GatherDims ⟨4, ![B, C, H, Wd]⟩ ⟨3, ![B, R, 2]⟩ ⟨3, ![B, C, R]⟩) : Prop where
  od : d.offsetDims = [(1 : Fin 3)]
  cs : d.collapsedSliceDims = [(2 : Fin 4), (3 : Fin 4)]
  ob : d.operandBatchingDims = [(0 : Fin 4)]
  sb : d.startIndicesBatchingDims = [(0 : Fin 3)]
  sm : d.startIndexMap = [(2 : Fin 4), (3 : Fin 4)]
  iv : d.indexVectorDim = 2
  ss : d.sliceSizes = ![1, C, 1, 1]

/-- The record with those dimension numbers, given their conditions. -/
abbrev planarDims (B C H Wd R : Nat)
    (wf : GatherDims.WF ⟨4, ![B, C, H, Wd]⟩ ⟨3, ![B, R, 2]⟩ ⟨3, ![B, C, R]⟩ [1] [2, 3] [0] [2, 3] [0] 2 ![1, C, 1, 1]) :
    GatherDims ⟨4, ![B, C, H, Wd]⟩ ⟨3, ![B, R, 2]⟩ ⟨3, ![B, C, R]⟩ where
  offsetDims := [1]
  collapsedSliceDims := [2, 3]
  operandBatchingDims := [0]
  startIndicesBatchingDims := [0]
  startIndexMap := [2, 3]
  indexVectorDim := 2
  sliceSizes := ![1, C, 1, 1]
  wf := wf

/-- A record with those dimension numbers is that record. -/
theorem IsPlanar.eq_planarDims {d : GatherDims ⟨4, ![B, C, H, Wd]⟩ ⟨3, ![B, R, 2]⟩ ⟨3, ![B, C, R]⟩} (h : IsPlanar d) :
    ∃ wf, d = planarDims B C H Wd R wf := by
  obtain ⟨od, cs, ob, sb, sm, iv, ss, wf⟩ := d
  obtain ⟨h1, h2, h3, h4, h5, h6, h7⟩ := h
  dsimp only at h1 h2 h3 h4 h5 h6 h7
  subst h1 h2 h3 h4 h5 h6 h7
  exact ⟨wf, rfl⟩

/-- THE GATHER READ AT `(b, c, r)`: plane `c` of batch `b` at the row `idx[b, r, 0]` and the column `idx[b, r, 1]`,
    each read signed and clamped into its axis, `[0, H − 1]` and `[0, Wd − 1]`. -/
theorem planar_apply {d : GatherDims ⟨4, ![B, C, H, Wd]⟩ ⟨3, ![B, R, 2]⟩ ⟨3, ![B, C, R]⟩} (h : IsPlanar d)
    (hH : 0 < H) (hW : 0 < Wd) (x : (⟨4, ![B, C, H, Wd]⟩ : Shape).Idx → α) (idx : IVec ⟨3, ![B, R, 2]⟩ 32)
    (b : Fin B) (c : Fin C) (r : Fin R) :
    Host.gather d x idx (ix3 b c r)
      = x (ix4 b c ⟨min (idx (ix3 b r (0 : Fin 2))).toInt.toNat (H - 1), by omega⟩
          ⟨min (idx (ix3 b r (1 : Fin 2))).toInt.toNat (Wd - 1), by omega⟩) := by
  obtain ⟨wf, rfl⟩ := h.eq_planarDims
  unfold Host.gather
  congr 1
  funext a
  refine Fin.ext ?_
  match a with
  | ⟨0, _⟩ =>
    -- the batch axis: no start, no offset; the result's batch coordinate
    show (planarDims B C H Wd R wf).start (ix3 b c r) idx 0 + (planarDims B C H Wd R wf).batchCoord (ix3 b c r) 0
      + (planarDims B C H Wd R wf).offCoord (ix3 b c r) 0 = b.val
    rw [GatherDims.start_batching _ _ _ _ (List.mem_singleton.mpr rfl),
      GatherDims.offCoord_eq_zero _ _ _ (fun h => ((GatherDims.mem_sKept _ _).mp h).2 (List.mem_singleton.mpr rfl))]
    simp only [Nat.zero_add, Nat.add_zero]
    unfold GatherDims.batchCoord
    rw [dif_pos (show (0 : Fin 4) ∈ (planarDims B C H Wd R wf).operandBatchingDims from List.mem_singleton.mpr rfl)]
    rfl
  | ⟨1, _⟩ =>
    -- the axis taken whole: no start; the result's offset coordinate
    show (planarDims B C H Wd R wf).start (ix3 b c r) idx 1 + (planarDims B C H Wd R wf).batchCoord (ix3 b c r) 1
      + (planarDims B C H Wd R wf).offCoord (ix3 b c r) 1 = c.val
    rw [GatherDims.batchCoord_eq_zero _ _ _ (show (1 : Fin 4) ∉ [(0 : Fin 4)] by decide)]
    unfold GatherDims.start
    rw [dif_neg (show (1 : Fin 4) ∉ (planarDims B C H Wd R wf).startIndexMap from
      (show (1 : Fin 4) ∉ [(2 : Fin 4), (3 : Fin 4)] by decide))]
    simp only [Nat.zero_add, Nat.add_zero]
    unfold GatherDims.offCoord
    rw [dif_pos ((GatherDims.mem_sKept _ _).mpr
      ⟨show (1 : Fin 4) ∉ [(2 : Fin 4), (3 : Fin 4)] by decide, show (1 : Fin 4) ∉ [(0 : Fin 4)] by decide⟩)]
    rfl
  | ⟨2, _⟩ =>
    -- the row axis: collapsed, so the clamped first component of the start index alone
    show (planarDims B C H Wd R wf).start (ix3 b c r) idx 2 + (planarDims B C H Wd R wf).batchCoord (ix3 b c r) 2
      + (planarDims B C H Wd R wf).offCoord (ix3 b c r) 2 = _
    rw [GatherDims.batchCoord_eq_zero _ _ _ (show (2 : Fin 4) ∉ [(0 : Fin 4)] by decide),
      GatherDims.offCoord_eq_zero _ _ _ (fun h => ((GatherDims.mem_sKept _ _).mp h).1
        (show (2 : Fin 4) ∈ [(2 : Fin 4), (3 : Fin 4)] by decide))]
    simp only [Nat.add_zero]
    unfold GatherDims.start
    rw [dif_pos (show (2 : Fin 4) ∈ (planarDims B C H Wd R wf).startIndexMap from
      (show (2 : Fin 4) ∈ [(2 : Fin 4), (3 : Fin 4)] by decide))]
    have hsi : (planarDims B C H Wd R wf).siIdx (ix3 b c r)
        ⟨List.idxOf (2 : Fin 4) (planarDims B C H Wd R wf).startIndexMap,
          List.idxOf_lt_length_iff.2 (show (2 : Fin 4) ∈ [(2 : Fin 4), (3 : Fin 4)] by decide)⟩ = ix3 b r (0 : Fin 2) := by
      funext e; refine Fin.ext ?_
      match e with
      | ⟨0, _⟩ => rfl
      | ⟨1, _⟩ => rfl
      | ⟨2, _⟩ => rfl
    rw [hsi]
    rfl
  | ⟨3, _⟩ =>
    -- the column axis: collapsed, so the clamped second component of the start index alone
    show (planarDims B C H Wd R wf).start (ix3 b c r) idx 3 + (planarDims B C H Wd R wf).batchCoord (ix3 b c r) 3
      + (planarDims B C H Wd R wf).offCoord (ix3 b c r) 3 = _
    rw [GatherDims.batchCoord_eq_zero _ _ _ (show (3 : Fin 4) ∉ [(0 : Fin 4)] by decide),
      GatherDims.offCoord_eq_zero _ _ _ (fun h => ((GatherDims.mem_sKept _ _).mp h).1
        (show (3 : Fin 4) ∈ [(2 : Fin 4), (3 : Fin 4)] by decide))]
    simp only [Nat.add_zero]
    unfold GatherDims.start
    rw [dif_pos (show (3 : Fin 4) ∈ (planarDims B C H Wd R wf).startIndexMap from
      (show (3 : Fin 4) ∈ [(2 : Fin 4), (3 : Fin 4)] by decide))]
    have hsi : (planarDims B C H Wd R wf).siIdx (ix3 b c r)
        ⟨List.idxOf (3 : Fin 4) (planarDims B C H Wd R wf).startIndexMap,
          List.idxOf_lt_length_iff.2 (show (3 : Fin 4) ∈ [(2 : Fin 4), (3 : Fin 4)] by decide)⟩ = ix3 b r (1 : Fin 2) := by
      funext e; refine Fin.ext ?_
      match e with
      | ⟨0, _⟩ => rfl
      | ⟨1, _⟩ => rfl
      | ⟨2, _⟩ => rfl
    rw [hsi]
    rfl

end PlaneGather
-- ==== Proof.PlaneGatherReads.lean ====
/-
  The fetches of one resolution level read at an index.

  The rows of the re-laid grid at a flat index, the entries of the grid at a pair of indices, and the re-laid grid
  itself, each at one index of its result: a gather's start index is read signed and clamped into its axis; the start
  indices are the wrapped integer arrays, broadcast to a trailing unit axis (and, for the pair, joined along it); the
  re-laid grid's row `u·W + v` of plane `p` holds at channel `c` the grid's entry `(p, c, u, v)`.
-/
import Idealize.ShloMosaic.Lib.ValueIdx
import Idealize.ShloMosaic.Lib.Pipeline.Value
import proofs.«176422_j70471823393083_2_alg».proof.Proof.PlaneSpec
import proofs.«176422_j70471823393083_2_alg».proof.Proof.GatherReads

noncomputable section

namespace Plane

open Idealize.ShloMosaic Idealize.ShloMosaic.ValueIdx

/-- An integer array over planes and rays, broadcast to a trailing unit axis, at `(p, n, 0)`: the array at `(p, n)`. -/
theorem trailing_apply (x : IVec Sp 32) (p : Fin 6) (n : Fin 262144) :
    broadcastInDim Sp1 ![0, 1] bp1 x (ix3 p n (0 : Fin 1)) = x (ix2 p n) :=
  broadcastInDim_apply _ _ _ _ _ fun a => by
    match a with
    | ⟨0, _⟩ => exact (if_neg (show ¬ (6 : Nat) = 1 by decide)).symm
    | ⟨1, _⟩ => exact (if_neg (show ¬ (262144 : Nat) = 1 by decide)).symm

/-- THE ROWS AT `(p, n, c)`: the table of plane `p` at the row the wrapped index at `(p, n)` names, read signed and
    clamped into `[0, W2 − 1]`, and channel `c`. -/
theorem rowsAt_apply {W2 : Nat} (d : GatherDims ⟨3, ![6, W2, 16]⟩ Sp1 Spc) (hd : PlaneGather.IsFlat d) (hW2 : 0 < W2)
    (cW2 : BitVec 32) (T : FVec Ideal ⟨3, ![6, W2, 16]⟩ .f32) (x : IVec Sp 32) (p : Fin 6) (n : Fin 262144) (c : Fin 16) :
    rowsAt d cW2 T x (ix3 p n c) = T (ix3 p ⟨min (wrap cW2 x (ix2 p n)).toInt.toNat (W2 - 1), by omega⟩ c) := by
  unfold rowsAt
  rw [PlaneGather.flat_apply hd hW2]
  refine congrArg T (funext fun a => ?_)
  match a with
  | ⟨0, _⟩ => rfl
  | ⟨1, _⟩ =>
    exact Fin.ext (congrArg (fun w : BitVec 32 => min w.toInt.toNat (W2 - 1)) (trailing_apply (wrap cW2 x) p n))
  | ⟨2, _⟩ => rfl

/-- The pair of index arrays joined along the trailing axis, at `(p, n, 0)`: the first at `(p, n)`. -/
theorem joined_apply_zero (x y : IVec Sp 32) (p : Fin 6) (n : Fin 262144) :
    concatenate Sp2 2 [⟨Sp1, broadcastInDim Sp1 ![0, 1] bp1 x⟩, ⟨Sp1, broadcastInDim Sp1 ![0, 1] bp1 y⟩] cat2
      (ix3 p n (0 : Fin 2)) = x (ix2 p n) := by
  rw [concatenate_pair_apply_left (2 : Fin Sp2.rank) _ _ cat2 (ix3 p n (0 : Fin 2)) rfl (ix3 p n (0 : Fin 1))
    (fun b => by match b with | ⟨0, _⟩ => rfl | ⟨1, _⟩ => rfl | ⟨2, _⟩ => rfl)]
  exact trailing_apply x p n

/-- … and at `(p, n, 1)`: the second at `(p, n)`. -/
theorem joined_apply_one (x y : IVec Sp 32) (p : Fin 6) (n : Fin 262144) :
    concatenate Sp2 2 [⟨Sp1, broadcastInDim Sp1 ![0, 1] bp1 x⟩, ⟨Sp1, broadcastInDim Sp1 ![0, 1] bp1 y⟩] cat2
      (ix3 p n (1 : Fin 2)) = y (ix2 p n) := by
  rw [concatenate_pair_apply_right (2 : Fin Sp2.rank) _ _ cat2 (ix3 p n (1 : Fin 2)) rfl rfl (ix3 p n (0 : Fin 1))
    (fun b hb => by
      match b with
      | ⟨0, _⟩ => rfl
      | ⟨1, _⟩ => rfl
      | ⟨2, _⟩ => exact absurd rfl hb)
    rfl]
  exact trailing_apply y p n

/-- THE ENTRIES AT `(p, c, n)`: plane `c` of batch `p` at the row and the column the two wrapped indices at `(p, n)`
    name, each read signed and clamped into `[0, W − 1]`. -/
theorem entriesAt_apply {W : Nat} (d : GatherDims ⟨4, ![6, 16, W, W]⟩ Sp2 Scp) (hd : PlaneGather.IsPlanar d) (hW : 0 < W)
    (cW : BitVec 32) (G : FVec Ideal ⟨4, ![6, 16, W, W]⟩ .f32) (u v : IVec Sp 32) (p : Fin 6) (n : Fin 262144) (c : Fin 16) :
    entriesAt d cW G u v (ix3 p c n)
      = G (ix4 p c ⟨min (wrap cW u (ix2 p n)).toInt.toNat (W - 1), by omega⟩
          ⟨min (wrap cW v (ix2 p n)).toInt.toNat (W - 1), by omega⟩) := by
  unfold entriesAt
  rw [PlaneGather.planar_apply hd hW hW]
  refine congrArg G (funext fun a => ?_)
  match a with
  | ⟨0, _⟩ => rfl
  | ⟨1, _⟩ => rfl
  | ⟨2, _⟩ =>
    exact Fin.ext (congrArg (fun w : BitVec 32 => min w.toInt.toNat (W - 1))
      (joined_apply_zero (wrap cW u) (wrap cW v) p n))
  | ⟨3, _⟩ =>
    exact Fin.ext (congrArg (fun w : BitVec 32 => min w.toInt.toNat (W - 1))
      (joined_apply_one (wrap cW u) (wrap cW v) p n))

/-- THE RE-LAID GRID AT `(p, u·W + v, c)`: the grid at `(p, c, u, v)`. The position of `(p, u·W + v, c)` in
    `[6, W·W, 16]` is `(p·(W·W) + u·W + v)·16 + c`, that of `(p, u, v, c)` in `[6, W, W, 16]` is
    `((p·W + u)·W + v)·16 + c`, the same number; and the transposition by `[0, 2, 3, 1]` reads `(p, u, v, c)` at
    `(p, c, u, v)`. -/
theorem relaid_apply {W W2 : Nat} (hW2 : W2 = W * W) (G : FVec Ideal ⟨4, ![6, 16, W, W]⟩ .f32)
    (hT : (⟨4, ![6, 16, W, W]⟩ : Shape).Transposes [0, 2, 3, 1] ⟨4, ![6, W, W, 16]⟩)
    (hS : (⟨4, ![6, W, W, 16]⟩ : Shape).ShapeCasts ⟨3, ![6, W2, 16]⟩)
    (p : Fin 6) (u v : Fin W) (c : Fin 16) (h : u.val * W + v.val < W2) :
    relaid G hT hS (ix3 p ⟨u.val * W + v.val, h⟩ c) = G (ix4 p c u v) := by
  unfold relaid
  rw [shapeCast_apply _ hS (ix3 p ⟨u.val * W + v.val, h⟩ c) (ix4 p u v c) (by
    rw [Shape.rowMajor_val_four, Shape.rowMajor_val_three]
    show ((p.val * W + u.val) * W + v.val) * 16 + c.val = (p.val * W2 + (u.val * W + v.val)) * 16 + c.val
    rw [hW2, Nat.add_mul (p.val * W) u.val W, Nat.mul_assoc, Nat.add_assoc])]
  exact transpose_apply _ _ hT (ix4 p u v c) (ix4 p c u v) fun b => by
    match b with
    | ⟨0, _⟩ => rfl
    | ⟨1, _⟩ => rfl
    | ⟨2, _⟩ => rfl
    | ⟨3, _⟩ => rfl

end Plane

end
-- ==== Proof.PlaneBlendReads.lean ====
/-
  The blend and the final layout of one resolution level, read entry by entry.

  Both programs end a level the same way.  The blend at plane p, ray n, channel c is
      g00·(1 − wu)·(1 − wv) + g01·(1 − wu)·wv + g10·wu·(1 − wv) + g11·wu·wv,
  the four corner values at (p, n, c) and the two weights at (p, n): the weights and the constant one are arrays with a
  unit channel axis, broadcast over the 16 channels, so reading the broadcast at channel c reads the operand at the unit
  axis' only position.  The layout sends entry (p, n, c) to row n, column 16·p + c of a [262144, 96] array: the
  ray-major transpose puts it at (n, p, c) of a [262144, 6, 16] array, whose row-major position (n·6 + p)·16 + c is the
  position n·96 + (16·p + c) of (n, 16·p + c) in [262144, 96].  Every column j < 96 is 16·p + c for p = j / 16 < 6 and
  c = j mod 16.

  The float word of 1.0 is kept as the word it is: it is the same word on both sides and is never evaluated.
-/
import Idealize.ShloMosaic.Lib.ValueIdx
import Idealize.ShloMosaic.Lib.Pipeline.Value
import Idealize.ShloMosaic.PureOps.Ideal.Laws
import proofs.«176422_j70471823393083_2_alg».proof.Proof.PlaneSpec

noncomputable section

namespace Plane

open Idealize.ShloMosaic Idealize.ShloMosaic.ValueIdx

/-! ## The layout -/

/-- Entry (n, p, c) of [262144, 6, 16] and entry (n, 16·p + c) of [262144, 96] sit at the same row-major position. -/
theorem flat_pos (n : Fin 262144) (p : Fin 6) (c : Fin 16) (h : 16 * p.val + c.val < 96) :
    (Snpc.rowMajor (ix3 n p c)).val = (Sf.rowMajor (ix2 n (⟨16 * p.val + c.val, h⟩ : Fin 96))).val := by
  rw [Shape.rowMajor_val_three, Shape.rowMajor_val_two]
  show (n.val * 6 + p.val) * 16 + c.val = n.val * 96 + (16 * p.val + c.val)
  omega

/-- Channel-minor result: column 16·p + c of row n is entry (p, n, c). -/
theorem layK_apply (y : FVec Ideal Spc .f32) (n : Fin 262144) (p : Fin 6) (c : Fin 16) (h : 16 * p.val + c.val < 96) :
    layK y (ix2 n ⟨16 * p.val + c.val, h⟩) = y (ix3 p n c) := by
  show shapeCast Sf (transpose Snpc [1, 0, 2] y trK) scF (ix2 n ⟨16 * p.val + c.val, h⟩) = _
  rw [shapeCast_apply _ scF _ (ix3 n p c) (flat_pos n p c h),
    transpose_apply [1, 0, 2] y trK (ix3 n p c) (ix3 p n c) (fun b => match b with
      | ⟨0, _⟩ => rfl | ⟨1, _⟩ => rfl | ⟨2, _⟩ => rfl)]

/-- Ray-minor result: column 16·p + c of row n is entry (p, c, n). -/
theorem layR_apply (y : FVec Ideal Scp .f32) (n : Fin 262144) (p : Fin 6) (c : Fin 16) (h : 16 * p.val + c.val < 96) :
    layR y (ix2 n ⟨16 * p.val + c.val, h⟩) = y (ix3 p c n) := by
  show shapeCast Sf (transpose Snpc [1, 0, 2] (transpose Spc [0, 2, 1] y trR1) trK) scF (ix2 n ⟨16 * p.val + c.val, h⟩) = _
  rw [shapeCast_apply _ scF _ (ix3 n p c) (flat_pos n p c h),
    transpose_apply [1, 0, 2] _ trK (ix3 n p c) (ix3 p n c) (fun b => match b with
      | ⟨0, _⟩ => rfl | ⟨1, _⟩ => rfl | ⟨2, _⟩ => rfl),
    transpose_apply [0, 2, 1] y trR1 (ix3 p n c) (ix3 p c n) (fun b => match b with
      | ⟨0, _⟩ => rfl | ⟨1, _⟩ => rfl | ⟨2, _⟩ => rfl)]

/-- Every column below 96 is 16·p + c with p < 6 and c < 16. -/
theorem col_split (j : Fin 96) : ∃ (p : Fin 6) (c : Fin 16), j.val = 16 * p.val + c.val :=
  ⟨⟨j.val / 16, by have := j.isLt; omega⟩, ⟨j.val % 16, Nat.mod_lt _ (by decide)⟩, (Nat.div_add_mod j.val 16).symm⟩

/-! ## The broadcasts of the blend, channel-minor: [6, 262144] → [6, 262144, 1] → [6, 262144, 16] -/

/-- An array with a unit channel axis broadcast over the 16 channels, read at channel c, is the array at the unit axis'
    only position. -/
theorem bcK_apply (x : FVec Ideal Sp1 .f32) (p : Fin 6) (n : Fin 262144) (c : Fin 16) :
    broadcastInDim Spc ![0, 1, 2] b1c x (ix3 p n c) = x (ix3 p n (0 : Fin 1)) :=
  broadcastInDim_apply ![0, 1, 2] b1c x (ix3 p n c) (ix3 p n (0 : Fin 1)) (fun a => match a with
    | ⟨0, _⟩ => by show p.val = if (6 : Nat) = 1 then 0 else p.val; rw [if_neg (by decide)]
    | ⟨1, _⟩ => by show n.val = if (262144 : Nat) = 1 then 0 else n.val; rw [if_neg (by decide)]
    | ⟨2, _⟩ => by show 0 = if (1 : Nat) = 1 then 0 else c.val; rw [if_pos rfl])

/-- A [6, 262144] array given a unit channel axis, read there, is the array. -/
theorem wK_apply (w : FVec Ideal Sp .f32) (p : Fin 6) (n : Fin 262144) :
    broadcastInDim Sp1 ![0, 1] bp1 w (ix3 p n (0 : Fin 1)) = w (ix2 p n) :=
  broadcastInDim_apply ![0, 1] bp1 w (ix3 p n (0 : Fin 1)) (ix2 p n) (fun a => match a with
    | ⟨0, _⟩ => by show p.val = if (6 : Nat) = 1 then 0 else p.val; rw [if_neg (by decide)]
    | ⟨1, _⟩ => by show n.val = if (262144 : Nat) = 1 then 0 else n.val; rw [if_neg (by decide)])

/-- The broadcast constant one, read anywhere, is its float word. -/
theorem oneK_apply (p : Fin 6) (n : Fin 262144) :
    broadcastInDim Sp1 ![] b01 (constant (F := Ideal) S0 .f32 0x3F800000#32) (ix3 p n (0 : Fin 1))
      = Ideal.ofBits .f32 0x3F800000#32 :=
  broadcastInDim_apply ![] b01 _ (ix3 p n (0 : Fin 1)) ix0 (fun a => a.elim0)

/-- THE BLEND, channel-minor, at (p, n, c). -/
theorem blendK_apply (g00 g01 g10 g11 : FVec Ideal Spc .f32) (wu wv : FVec Ideal Sp .f32) (p : Fin 6) (n : Fin 262144)
    (c : Fin 16) :
    blendK g00 g01 g10 g11 wu wv (ix3 p n c)
      = (((g00 (ix3 p n c) * (Ideal.ofBits .f32 0x3F800000#32 - wu (ix2 p n))) * (Ideal.ofBits .f32 0x3F800000#32 - wv (ix2 p n))
          + (g01 (ix3 p n c) * (Ideal.ofBits .f32 0x3F800000#32 - wu (ix2 p n))) * wv (ix2 p n))
          + (g10 (ix3 p n c) * wu (ix2 p n)) * (Ideal.ofBits .f32 0x3F800000#32 - wv (ix2 p n)))
        + (g11 (ix3 p n c) * wu (ix2 p n)) * wv (ix2 p n) := by
  simp only [blendK, addf_apply, mulf_apply]
  rw [bcK_apply, bcK_apply, bcK_apply, bcK_apply, subf_apply, subf_apply, wK_apply, wK_apply, oneK_apply]

/-! ## The broadcasts of the blend, ray-minor: [6, 262144] → [6, 1, 262144] → [6, 16, 262144] -/

/-- An array with a unit channel axis broadcast over the 16 channels, read at channel c, is the array at the unit axis'
    only position. -/
theorem bcR_apply (x : FVec Ideal S1p .f32) (p : Fin 6) (c : Fin 16) (n : Fin 262144) :
    broadcastInDim Scp ![0, 1, 2] brc x (ix3 p c n) = x (ix3 p (0 : Fin 1) n) :=
  broadcastInDim_apply ![0, 1, 2] brc x (ix3 p c n) (ix3 p (0 : Fin 1) n) (fun a => match a with
    | ⟨0, _⟩ => by show p.val = if (6 : Nat) = 1 then 0 else p.val; rw [if_neg (by decide)]
    | ⟨1, _⟩ => by show 0 = if (1 : Nat) = 1 then 0 else c.val; rw [if_pos rfl]
    | ⟨2, _⟩ => by show n.val = if (262144 : Nat) = 1 then 0 else n.val; rw [if_neg (by decide)])

/-- A [6, 262144] array given a unit channel axis in the middle, read there, is the array. -/
theorem wR_apply (w : FVec Ideal Sp .f32) (p : Fin 6) (n : Fin 262144) :
    broadcastInDim S1p ![0, 2] bpr w (ix3 p (0 : Fin 1) n) = w (ix2 p n) :=
  broadcastInDim_apply ![0, 2] bpr w (ix3 p (0 : Fin 1) n) (ix2 p n) (fun a => match a with
    | ⟨0, _⟩ => by show p.val = if (6 : Nat) = 1 then 0 else p.val; rw [if_neg (by decide)]
    | ⟨1, _⟩ => by show n.val = if (262144 : Nat) = 1 then 0 else n.val; rw [if_neg (by decide)])

/-- The broadcast constant one, read anywhere, is its float word. -/
theorem oneR_apply (p : Fin 6) (n : Fin 262144) :
    broadcastInDim S1p ![] b0r (constant (F := Ideal) S0 .f32 0x3F800000#32) (ix3 p (0 : Fin 1) n)
      = Ideal.ofBits .f32 0x3F800000#32 :=
  broadcastInDim_apply ![] b0r _ (ix3 p (0 : Fin 1) n) ix0 (fun a => a.elim0)

/-- THE BLEND, ray-minor, at (p, c, n). -/
theorem blendR_apply (g00 g01 g10 g11 : FVec Ideal Scp .f32) (wu wv : FVec Ideal Sp .f32) (p : Fin 6) (n : Fin 262144)
    (c : Fin 16) :
    blendR g00 g01 g10 g11 wu wv (ix3 p c n)
      = (((g00 (ix3 p c n) * (Ideal.ofBits .f32 0x3F800000#32 - wu (ix2 p n))) * (Ideal.ofBits .f32 0x3F800000#32 - wv (ix2 p n))
          + (g01 (ix3 p c n) * (Ideal.ofBits .f32 0x3F800000#32 - wu (ix2 p n))) * wv (ix2 p n))
          + (g10 (ix3 p c n) * wu (ix2 p n)) * (Ideal.ofBits .f32 0x3F800000#32 - wv (ix2 p n)))
        + (g11 (ix3 p c n) * wu (ix2 p n)) * wv (ix2 p n) := by
  simp only [blendR, addf_apply, mulf_apply]
  rw [bcR_apply, bcR_apply, bcR_apply, bcR_apply, subf_apply, subf_apply, wR_apply, wR_apply, oneR_apply]

end Plane

end
-- ==== Proof.PlaneIndexFacts.lean ====
/-
  The integer facts about the cell corners.

  A corner is the scaled coordinate's floor, clipped to [0, hi] and converted to a 32-bit integer.  Whatever the scaled
  coordinate is — an infinity included — the clipped value y = min hi (max 0 x) satisfies 0 ≤ y ≤ hi, so it is a real
  number, its integer part toward zero is its floor ⌊y⌋ ∈ [0, hi], the conversion's clamp to [−2³¹, 2³¹ − 1] does nothing
  (hi is the signed value of a 32-bit word, so hi < 2³¹), and the 32-bit word of ⌊y⌋ reads back as ⌊y⌋.  Hence the corner,
  read as a signed integer, lies in [0, hi].

  The rest is 32-bit arithmetic without overflow: the neighbour of a corner below 2³¹ − 1 is the corner plus one; an
  index that is not negative is left alone by the count-from-the-end correction; and for 0 ≤ u, v < W with W·W < 2³¹ the
  flat index u·W + v is computed exactly, since 0 ≤ u·W + v ≤ (W − 1)·W + (W − 1) < W·W.
-/
import Idealize.ShloMosaic.Lib.ValueIdx
import Idealize.ShloMosaic.Lib.Pipeline.Value
import Idealize.ShloMosaic.PureOps.Ideal.Laws
import proofs.«176422_j70471823393083_2_alg».proof.Proof.PlaneSpec

noncomputable section

namespace Plane

open Idealize.ShloMosaic Idealize.ShloMosaic.ValueIdx

/-! ## Words and their signed values -/

/-- An integer in the signed 32-bit range is the signed value of its word. -/
theorem toInt_ofInt32 (m : ℤ) (h0 : -2147483648 ≤ m) (h1 : m < 2147483648) : (BitVec.ofInt 32 m).toInt = m := by
  rw [BitVec.toInt_ofInt, Int.bmod_def]
  omega

/-- A natural number below 2³¹ is the signed value of its word. -/
theorem toInt_ofNat32 (n : ℕ) (h : n < 2147483648) : (BitVec.ofNat 32 n).toInt = (n : ℤ) := by
  rw [BitVec.toInt_ofNat', Int.bmod_def]
  omega

/-- The signed value of a 32-bit word is below 2³¹ and at least −2³¹. -/
theorem toInt_range32 (b : BitVec 32) : -2147483648 ≤ b.toInt ∧ b.toInt < 2147483648 := by
  have h1 := BitVec.toInt_lt (x := b)
  have h2 := BitVec.le_toInt (x := b)
  omega

/-! ## The corner -/

/-- The clipped value's conversion: for ANY extended real x, the 32-bit word of min hi (max 0 x) converted toward zero,
    read as a signed integer, lies in [0, hi]. -/
theorem clip_convert (hi : ℤ) (h0 : 0 ≤ hi) (h1 : hi < 2147483648) (x : EReal) :
    0 ≤ (Ideal.fptosi 32 (min ((hi : ℝ) : EReal) (max ((0 : ℝ) : EReal) x))).toInt
      ∧ (Ideal.fptosi 32 (min ((hi : ℝ) : EReal) (max ((0 : ℝ) : EReal) x))).toInt ≤ hi := by
  have hy0 : ((0 : ℝ) : EReal) ≤ min ((hi : ℝ) : EReal) (max ((0 : ℝ) : EReal) x) :=
    le_min (EReal.coe_le_coe_iff.2 (by exact_mod_cast h0)) (le_max_left _ _)
  have hy1 : min ((hi : ℝ) : EReal) (max ((0 : ℝ) : EReal) x) ≤ ((hi : ℝ) : EReal) := min_le_left _ _
  have hbot : min ((hi : ℝ) : EReal) (max ((0 : ℝ) : EReal) x) ≠ ⊥ :=
    ne_of_gt (lt_of_lt_of_le (EReal.bot_lt_coe 0) hy0)
  have htop : min ((hi : ℝ) : EReal) (max ((0 : ℝ) : EReal) x) ≠ ⊤ :=
    ne_of_lt (lt_of_le_of_lt hy1 (EReal.coe_lt_top _))
  obtain ⟨r, hr⟩ : ∃ r : ℝ, min ((hi : ℝ) : EReal) (max ((0 : ℝ) : EReal) x) = (r : EReal) :=
    ⟨_, (EReal.coe_toReal htop hbot).symm⟩
  rw [hr] at hy0 hy1 ⊢
  have r0 : 0 ≤ r := EReal.coe_le_coe_iff.1 hy0
  have r1 : r ≤ (hi : ℝ) := EReal.coe_le_coe_iff.1 hy1
  have f0 : 0 ≤ ⌊r⌋ := Int.floor_nonneg.2 r0
  have f1 : ⌊r⌋ ≤ hi := by
    have := Int.floor_mono r1
    rwa [Int.floor_intCast] at this
  have e : Ideal.fptosi 32 (r : EReal) = BitVec.ofInt 32 ⌊r⌋ := by
    show BitVec.ofInt 32 (max (-((2 ^ (32 - 1) : ℕ) : ℤ)) (min (((2 ^ (32 - 1) : ℕ) : ℤ) - 1) (if 0 ≤ r then ⌊r⌋ else ⌈r⌉))) = _
    rw [if_pos r0]
    congr 1
    have c : ((2 ^ (32 - 1) : ℕ) : ℤ) = 2147483648 := by norm_num
    rw [c]
    omega
  rw [e, toInt_ofInt32 ⌊r⌋ (by omega) (by omega)]
  exact ⟨f0, f1⟩

/-- The clipped, converted corner lies in [0, hi], whatever the scaled coordinate is. -/
theorem corner_range (cHi : BitVec 32) (hHi : 0 ≤ cHi.toInt) (s : FVec Ideal Sp .f32) (i : Sp.Idx) :
    0 ≤ (corner cHi s i).toInt ∧ (corner cHi s i).toInt ≤ cHi.toInt := by
  have eH : broadcastInDim Sp ![] b0p (sitofp (F := Ideal) .f32 (constantI S0 32 cHi)) i = ((cHi.toInt : ℝ) : EReal) :=
    broadcastInDim_apply ![] b0p _ i ix0 (fun a => a.elim0)
  have eZ : broadcastInDim Sp ![] b0p (sitofp (F := Ideal) .f32 (constantI S0 32 0#32)) i = ((0 : ℝ) : EReal) := by
    rw [broadcastInDim_apply ![] b0p _ i ix0 (fun a => a.elim0)]
    show (((0#32 : BitVec 32).toInt : ℝ) : EReal) = _
    rw [BitVec.toInt_zero, Int.cast_zero]
  show 0 ≤ (Ideal.fptosi 32 (min (broadcastInDim Sp ![] b0p (sitofp (F := Ideal) .f32 (constantI S0 32 cHi)) i)
        (max (broadcastInDim Sp ![] b0p (sitofp (F := Ideal) .f32 (constantI S0 32 0#32)) i) (Host.floor s i)))).toInt
      ∧ (Ideal.fptosi 32 (min (broadcastInDim Sp ![] b0p (sitofp (F := Ideal) .f32 (constantI S0 32 cHi)) i)
        (max (broadcastInDim Sp ![] b0p (sitofp (F := Ideal) .f32 (constantI S0 32 0#32)) i) (Host.floor s i)))).toInt ≤ cHi.toInt
  rw [eH, eZ]
  exact clip_convert cHi.toInt hHi (toInt_range32 cHi).2 _

/-! ## The neighbour, the correction for negative indices, the flat index -/

/-- A splat integer constant read anywhere is its word. -/
theorem splatI_apply (b : BitVec 32) (i : Sp.Idx) : broadcastInDim Sp ![] b0p (constantI S0 32 b) i = b :=
  broadcastInDim_apply ![] b0p _ i ix0 (fun a => a.elim0)

/-- The neighbour of a corner in [0, 2³¹ − 1) is the corner plus one. -/
theorem next_toInt (u0 : IVec Sp 32) (i : Sp.Idx) (h0 : 0 ≤ (u0 i).toInt) (h1 : (u0 i).toInt < 2147483647) :
    (next u0 i).toInt = (u0 i).toInt + 1 := by
  show (u0 i + broadcastInDim Sp ![] b0p (constantI S0 32 1#32) i).toInt = _
  rw [splatI_apply, BitVec.toInt_add, Int.bmod_def]
  have e1 : (1#32 : BitVec 32).toInt = 1 := by decide
  rw [e1]
  omega

/-- An index that is not negative is left as it is. -/
theorem wrap_of_nonneg (cN : BitVec 32) (x : IVec Sp 32) (i : Sp.Idx) (h : 0 ≤ (x i).toInt) : wrap cN x i = x i := by
  show Scalar.select (BitVec.ofBool ((x i).slt (broadcastInDim Sp ![] b0p (constantI S0 32 0#32) i)))
      (x i + broadcastInDim Sp ![] b0p (constantI S0 32 cN) i) (x i) = x i
  rw [splatI_apply]
  have e : (x i).slt 0#32 = false := by
    rw [BitVec.slt, BitVec.toInt_zero]
    exact decide_eq_false (by omega)
  rw [e]
  exact select_zero _ _

/-- The flat index u·W + v of a cell (u, v) with 0 ≤ u, v < W, W·W < 2³¹, is computed without overflow. -/
theorem flat_toInt (W : ℕ) (hW : W * W < 2147483648) (u v : IVec Sp 32) (i : Sp.Idx)
    (hu0 : 0 ≤ (u i).toInt) (hu1 : (u i).toInt < W) (hv0 : 0 ≤ (v i).toInt) (hv1 : (v i).toInt < W) :
    (flat (BitVec.ofNat 32 W) u v i).toInt = (u i).toInt * W + (v i).toInt := by
  have hW1 : 1 ≤ W := by omega
  have hWW : W ≤ W * W := Nat.le_mul_of_pos_left W hW1
  have eW : (BitVec.ofNat 32 W).toInt = (W : ℤ) := toInt_ofNat32 W (by omega)
  have hQ : ((W * W : ℕ) : ℤ) = (W : ℤ) * (W : ℤ) := Nat.cast_mul W W
  have hP0 : 0 ≤ (u i).toInt * (W : ℤ) := Int.mul_nonneg hu0 (Int.natCast_nonneg W)
  have hP1 : (u i).toInt * (W : ℤ) + (W : ℤ) ≤ (W : ℤ) * (W : ℤ) := by
    have : ((u i).toInt + 1) * (W : ℤ) ≤ (W : ℤ) * (W : ℤ) :=
      Int.mul_le_mul_of_nonneg_right (by omega) (Int.natCast_nonneg W)
    rwa [Int.add_mul, Int.one_mul] at this
  have hQ1 : (W : ℤ) * (W : ℤ) < 2147483648 := by rw [← hQ]; exact_mod_cast hW
  show (u i * broadcastInDim Sp ![] b0p (constantI S0 32 (BitVec.ofNat 32 W)) i + v i).toInt = _
  rw [splatI_apply, BitVec.toInt_add, BitVec.toInt_mul, eW, Int.bmod_def, Int.bmod_def]
  generalize (u i).toInt * (W : ℤ) = P at hP0 hP1 ⊢
  generalize (W : ℤ) * (W : ℤ) = Q at hP1 hQ1
  omega

end Plane

end
-- ==== Proof.LevelBridge.lean ====
/-
  One resolution level is the same array in both programs. Entry (n, 16·p + c) of either is the bilinear blend, with the
  same weights, of four corner values; and a corner value is the same either way: with 0 ≤ a, b ≤ W − 1 the flat index
  a·W + b is below W·W and non-negative as a 32-bit word, so the row gather reads row a·W + b of the re-laid grid,
  which holds G[p, c, a, b] — the entry the planar gather reads at (a, b). The corners are in range because they are
  clipped to [0, W − 2] before the conversion to an integer, whatever the coordinate was.
-/
import proofs.«176422_j70471823393083_2_alg».proof.Proof.PlaneSpec
import proofs.«176422_j70471823393083_2_alg».proof.Proof.GatherReads
import proofs.«176422_j70471823393083_2_alg».proof.Proof.PlaneGatherReads
import proofs.«176422_j70471823393083_2_alg».proof.Proof.PlaneBlendReads
import proofs.«176422_j70471823393083_2_alg».proof.Proof.PlaneIndexFacts

noncomputable section

namespace Plane

open Idealize.ShloMosaic Idealize.ShloMosaic.ValueIdx

variable {W W2 : ℕ}

/-- One corner, fetched either way. -/
theorem corner_fetch (hW2 : W2 = W * W) (hW : 0 < W) (hWW : W * W < 2147483648) (cW2 : BitVec 32)
    (dK : GatherDims ⟨3, ![6, W2, 16]⟩ Sp1 Spc) (hK : PlaneGather.IsFlat dK)
    (dR : GatherDims ⟨4, ![6, 16, W, W]⟩ Sp2 Scp) (hR : PlaneGather.IsPlanar dR)
    (hT : (⟨4, ![6, 16, W, W]⟩ : Shape).Transposes [0, 2, 3, 1] ⟨4, ![6, W, W, 16]⟩)
    (hS : (⟨4, ![6, W, W, 16]⟩ : Shape).ShapeCasts ⟨3, ![6, W2, 16]⟩)
    (G : FVec Ideal ⟨4, ![6, 16, W, W]⟩ .f32) (ua vb : IVec Sp 32) (p : Fin 6) (n : Fin 262144) (c : Fin 16)
    (ha0 : 0 ≤ (ua (ix2 p n)).toInt) (ha1 : (ua (ix2 p n)).toInt < W)
    (hb0 : 0 ≤ (vb (ix2 p n)).toInt) (hb1 : (vb (ix2 p n)).toInt < W) :
    rowsAt dK cW2 (relaid G hT hS) (flat (BitVec.ofNat 32 W) ua vb) (ix3 p n c)
      = entriesAt dR (BitVec.ofNat 32 W) G ua vb (ix3 p c n) := by
  have hf := flat_toInt W hWW ua vb (ix2 p n) ha0 ha1 hb0 hb1
  obtain ⟨a, haN⟩ : ∃ a : ℕ, (ua (ix2 p n)).toInt = (a : ℤ) := ⟨_, (Int.toNat_of_nonneg ha0).symm⟩
  obtain ⟨b, hbN⟩ : ∃ b : ℕ, (vb (ix2 p n)).toInt = (b : ℤ) := ⟨_, (Int.toNat_of_nonneg hb0).symm⟩
  have haW : a < W := by omega
  have hbW : b < W := by omega
  have hab : a * W + b < W2 := by
    have h1 : a * W ≤ (W - 1) * W := Nat.mul_le_mul_right W (by omega)
    have h2 : (W - 1) * W + W = W * W := by
      obtain ⟨k, rfl⟩ : ∃ k, W = k + 1 := ⟨W - 1, by omega⟩
      simp only [Nat.add_sub_cancel]; ring
    rw [hW2]; omega
  have hfl : (flat (BitVec.ofNat 32 W) ua vb (ix2 p n)).toInt = ((a * W + b : ℕ) : ℤ) := by
    rw [hf, haN, hbN]; push_cast; ring
  have hfl0 : 0 ≤ (flat (BitVec.ofNat 32 W) ua vb (ix2 p n)).toInt := by rw [hfl]; exact Int.natCast_nonneg _
  rw [rowsAt_apply dK hK (by omega) cW2 _ _ p n c, entriesAt_apply dR hR hW _ G ua vb p n c]
  have e1 : (⟨min (wrap cW2 (flat (BitVec.ofNat 32 W) ua vb) (ix2 p n)).toInt.toNat (W2 - 1), by omega⟩ : Fin W2)
      = ⟨a * W + b, hab⟩ := Fin.ext (by
    show min (wrap cW2 (flat (BitVec.ofNat 32 W) ua vb) (ix2 p n)).toInt.toNat (W2 - 1) = a * W + b
    rw [wrap_of_nonneg _ _ _ hfl0, hfl, Int.toNat_natCast]; omega)
  have e2 : (⟨min (wrap (BitVec.ofNat 32 W) ua (ix2 p n)).toInt.toNat (W - 1), by omega⟩ : Fin W) = ⟨a, haW⟩ := Fin.ext (by
    show min (wrap (BitVec.ofNat 32 W) ua (ix2 p n)).toInt.toNat (W - 1) = a
    rw [wrap_of_nonneg _ _ _ ha0, haN, Int.toNat_natCast]; omega)
  have e3 : (⟨min (wrap (BitVec.ofNat 32 W) vb (ix2 p n)).toInt.toNat (W - 1), by omega⟩ : Fin W) = ⟨b, hbW⟩ := Fin.ext (by
    show min (wrap (BitVec.ofNat 32 W) vb (ix2 p n)).toInt.toNat (W - 1) = b
    rw [wrap_of_nonneg _ _ _ hb0, hbN, Int.toNat_natCast]; omega)
  rw [e1, e2, e3]
  exact relaid_apply hW2 G hT hS p ⟨a, haW⟩ ⟨b, hbW⟩ c hab

/-- THE LEVEL, entry by entry: the two spellings agree. -/
theorem level_eq (hW2 : W2 = W * W) (h2 : 2 ≤ W) (hWW : W * W < 2147483648) (cS cW2 : BitVec 32)
    (dK : GatherDims ⟨3, ![6, W2, 16]⟩ Sp1 Spc) (hK : PlaneGather.IsFlat dK)
    (dR : GatherDims ⟨4, ![6, 16, W, W]⟩ Sp2 Scp) (hR : PlaneGather.IsPlanar dR)
    (hT : (⟨4, ![6, 16, W, W]⟩ : Shape).Transposes [0, 2, 3, 1] ⟨4, ![6, W, W, 16]⟩)
    (hS : (⟨4, ![6, W, W, 16]⟩ : Shape).ShapeCasts ⟨3, ![6, W2, 16]⟩)
    (coords : FVec Ideal Sc .f32) (G : FVec Ideal ⟨4, ![6, 16, W, W]⟩ .f32) (i : Sf.Idx) :
    levelK cS (BitVec.ofNat 32 (W - 2)) (BitVec.ofNat 32 W) cW2 dK hT hS coords G i
      = levelR cS (BitVec.ofNat 32 (W - 2)) (BitVec.ofNat 32 W) dR coords G i := by
  obtain ⟨n, j, rfl⟩ : ∃ (n : Fin 262144) (j : Fin 96), i = ix2 n j := ⟨i 0, i 1, eq_ix2 i⟩
  obtain ⟨p, c, hj⟩ := col_split j
  have hlt : 16 * p.val + c.val < 96 := by have := p.isLt; have := c.isLt; omega
  obtain rfl : j = ⟨16 * p.val + c.val, hlt⟩ := Fin.ext hj
  have hWlt : W < 2147483648 := by have := Nat.le_mul_of_pos_left W (show 0 < W by omega); omega
  have hHi : (BitVec.ofNat 32 (W - 2)).toInt = ((W - 2 : ℕ) : ℤ) := toInt_ofNat32 _ (by omega)
  have hHi0 : 0 ≤ (BitVec.ofNat 32 (W - 2)).toInt := by rw [hHi]; exact Int.natCast_nonneg _
  -- the four corners' coordinates are in range
  have rng : ∀ s : FVec Ideal Sp .f32,
      0 ≤ (corner (BitVec.ofNat 32 (W - 2)) s (ix2 p n)).toInt ∧ (corner (BitVec.ofNat 32 (W - 2)) s (ix2 p n)).toInt < W
      ∧ 0 ≤ (next (corner (BitVec.ofNat 32 (W - 2)) s) (ix2 p n)).toInt ∧ (next (corner (BitVec.ofNat 32 (W - 2)) s) (ix2 p n)).toInt < W := by
    intro s
    obtain ⟨l, r⟩ := corner_range (BitVec.ofNat 32 (W - 2)) hHi0 s (ix2 p n)
    rw [hHi] at r
    have hn := next_toInt (corner (BitVec.ofNat 32 (W - 2)) s) (ix2 p n) l (by omega)
    refine ⟨l, by omega, by omega, by omega⟩
  unfold levelK levelR
  rw [layK_apply, layR_apply, blendK_apply, blendR_apply]
  obtain ⟨u00, u01, u10, u11⟩ := rng (scaled cS (coord sl0 coords))
  obtain ⟨v00, v01, v10, v11⟩ := rng (scaled cS (coord' sl1 coords))
  rw [corner_fetch hW2 (by omega) hWW cW2 dK hK dR hR hT hS G _ _ p n c u00 u01 v00 v01,
    corner_fetch hW2 (by omega) hWW cW2 dK hK dR hR hT hS G _ _ p n c u00 u01 v10 v11,
    corner_fetch hW2 (by omega) hWW cW2 dK hK dR hR hT hS G _ _ p n c u10 u11 v00 v01,
    corner_fetch hW2 (by omega) hWW cW2 dK hK dR hR hT hS G _ _ p n c u10 u11 v10 v11]

end Plane

end
-- ==== Proof.TwoSides.lean ====
/-
  The two programs' results are one function of the eight argument arrays. Each resolution level gives the same
  [262144, 96] feature array either way (`Plane.level_eq`, at W = 128, 256, 512); the kernel's three row slices of the
  first weight matrix are its rows 0-95, 96-191, 192-287; a length-Q vector reshaped to one row, read at (0, q), is the
  vector at q. So the network on the kernel's operands is the network on the reference's.
-/
import proofs.«176422_j70471823393083_2_alg».proof.Proof.Gen.KernelIdeal
import proofs.«176422_j70471823393083_2_alg».proof.Proof.Gen.ReferenceIdeal
import proofs.«176422_j70471823393083_2_alg».proof.Proof.LevelBridge
import proofs.«176422_j70471823393083_2_alg».proof.Proof.RefTail
import proofs.«176422_j70471823393083_2_alg».proof.Proof.PlaneMlp
import proofs.«176422_j70471823393083_2_alg».proof.Proof.LibChebLayer

noncomputable section

namespace TwoSides

open Idealize.ShloMosaic Idealize.ShloMosaic.ValueIdx

theorem flatK0 : PlaneGather.IsFlat Cert.KernelIdeal.gather_S6x16384x16_S6x262144x1_S6x262144x16_2_1_0_0_1_2_1116 := ⟨rfl, rfl, rfl, rfl, rfl, rfl, rfl⟩
theorem flatK1 : PlaneGather.IsFlat Cert.KernelIdeal.gather_S6x65536x16_S6x262144x1_S6x262144x16_2_1_0_0_1_2_1116 := ⟨rfl, rfl, rfl, rfl, rfl, rfl, rfl⟩
theorem flatK2 : PlaneGather.IsFlat Cert.KernelIdeal.gather_S6x262144x16_S6x262144x1_S6x262144x16_2_1_0_0_1_2_1116 := ⟨rfl, rfl, rfl, rfl, rfl, rfl, rfl⟩
theorem planarR0 : PlaneGather.IsPlanar Cert.ReferenceIdeal.gather_S6x16x128x128_S6x262144x2_S6x16x262144_1_23_0_0_23_2_11611 := ⟨rfl, rfl, rfl, rfl, rfl, rfl, rfl⟩
theorem planarR1 : PlaneGather.IsPlanar Cert.ReferenceIdeal.gather_S6x16x256x256_S6x262144x2_S6x16x262144_1_23_0_0_23_2_11611 := ⟨rfl, rfl, rfl, rfl, rfl, rfl, rfl⟩
theorem planarR2 : PlaneGather.IsPlanar Cert.ReferenceIdeal.gather_S6x16x512x512_S6x262144x2_S6x16x262144_1_23_0_0_23_2_11611 := ⟨rfl, rfl, rfl, rfl, rfl, rfl, rfl⟩

/-- The two programs name the same dimension numbers for the coordinate gather. -/
theorem coords_dims : Cert.KernelIdeal.gather_S262144x4_S6x2x1_S262144x6x2_0_1_n_n_1_2_2621441 = Cert.ReferenceIdeal.gather_S262144x4_S6x2x1_S262144x6x2_0_1_n_n_1_2_2621441 := rfl

variable (ray : FVec Ideal Plane.Sray .f32)

theorem level0 (G : FVec Ideal ⟨4, ![6, 16, 128, 128]⟩ .f32) :
    Plane.levelK 0x42FE0000#32 126#32 128#32 16384#32 Cert.KernelIdeal.gather_S6x16384x16_S6x262144x1_S6x262144x16_2_1_0_0_1_2_1116 Cert.KernelIdeal.Gen.transposes_S6x16x128x128_S6x128x128x16_0_2_3_1 Cert.KernelIdeal.Gen.shapeCasts_S6x128x128x16_S6x16384x16 (Plane.coordsOf Cert.KernelIdeal.gather_S262144x4_S6x2x1_S262144x6x2_0_1_n_n_1_2_2621441 ray) G
      = Plane.levelR 0x42FE0000#32 126#32 128#32 Cert.ReferenceIdeal.gather_S6x16x128x128_S6x262144x2_S6x16x262144_1_23_0_0_23_2_11611 (Plane.coordsOf Cert.ReferenceIdeal.gather_S262144x4_S6x2x1_S262144x6x2_0_1_n_n_1_2_2621441 ray) G := by
  rw [coords_dims]
  exact funext (Plane.level_eq (W := 128) (W2 := 16384) rfl (by decide) (by decide) _ _ _ flatK0 _ planarR0 _ _ _ G)

theorem level1 (G : FVec Ideal ⟨4, ![6, 16, 256, 256]⟩ .f32) :
    Plane.levelK 0x437F0000#32 254#32 256#32 65536#32 Cert.KernelIdeal.gather_S6x65536x16_S6x262144x1_S6x262144x16_2_1_0_0_1_2_1116 Cert.KernelIdeal.Gen.transposes_S6x16x256x256_S6x256x256x16_0_2_3_1 Cert.KernelIdeal.Gen.shapeCasts_S6x256x256x16_S6x65536x16 (Plane.coordsOf Cert.KernelIdeal.gather_S262144x4_S6x2x1_S262144x6x2_0_1_n_n_1_2_2621441 ray) G
      = Plane.levelR 0x437F0000#32 254#32 256#32 Cert.ReferenceIdeal.gather_S6x16x256x256_S6x262144x2_S6x16x262144_1_23_0_0_23_2_11611 (Plane.coordsOf Cert.ReferenceIdeal.gather_S262144x4_S6x2x1_S262144x6x2_0_1_n_n_1_2_2621441 ray) G := by
  rw [coords_dims]
  exact funext (Plane.level_eq (W := 256) (W2 := 65536) rfl (by decide) (by decide) _ _ _ flatK1 _ planarR1 _ _ _ G)

theorem level2 (G : FVec Ideal ⟨4, ![6, 16, 512, 512]⟩ .f32) :
    Plane.levelK 0x43FF8000#32 510#32 512#32 262144#32 Cert.KernelIdeal.gather_S6x262144x16_S6x262144x1_S6x262144x16_2_1_0_0_1_2_1116 Cert.KernelIdeal.Gen.transposes_S6x16x512x512_S6x512x512x16_0_2_3_1 Cert.KernelIdeal.Gen.shapeCasts_S6x512x512x16_S6x262144x16 (Plane.coordsOf Cert.KernelIdeal.gather_S262144x4_S6x2x1_S262144x6x2_0_1_n_n_1_2_2621441 ray) G
      = Plane.levelR 0x43FF8000#32 510#32 512#32 Cert.ReferenceIdeal.gather_S6x16x512x512_S6x262144x2_S6x16x262144_1_23_0_0_23_2_11611 (Plane.coordsOf Cert.ReferenceIdeal.gather_S262144x4_S6x2x1_S262144x6x2_0_1_n_n_1_2_2621441 ray) G := by
  rw [coords_dims]
  exact funext (Plane.level_eq (W := 512) (W2 := 262144) rfl (by decide) (by decide) _ _ _ flatK2 _ planarR2 _ _ _ G)

/-- A row slice of the first weight matrix is the matrix's rows from the offset on. -/
theorem slice_rows (w1 : FVec Ideal ⟨2, ![288, 128]⟩ .f32) (o : Nat) (ho : o + 96 ≤ 288)
    (h : (⟨2, ![288, 128]⟩ : Shape).Slices ![o, 0] ⟨2, ![96, 128]⟩) :
    extractStridedSlice ⟨2, ![96, 128]⟩ ![o, 0] w1 h = PlaneTail.rowsFrom w1 o ho := by
  funext i
  obtain ⟨k, q, rfl⟩ : ∃ (k : Fin 96) (q : Fin 128), i = ix2 k q := ⟨i 0, i 1, eq_ix2 i⟩
  rw [PlaneTail.rowsFrom_ix2]
  exact extractStridedSlice_apply ![o, 0] w1 h (ix2 k q) _ (fun a => match a with
    | ⟨0, _⟩ => rfl
    | ⟨1, _⟩ => by show q.val = 0 + q.val; omega)

/-- THE TWO RESULTS: the network on the kernel's operands (three row-gathered feature arrays, three row slices of the
    first weight matrix, the two biases reshaped to one row) is the network on the reference's (three entry-gathered
    feature arrays, the weight matrix's three row blocks, the biases as they are). -/
theorem final (G0 : FVec Ideal ⟨4, ![6, 16, 128, 128]⟩ .f32) (G1 : FVec Ideal ⟨4, ![6, 16, 256, 256]⟩ .f32)
    (G2 : FVec Ideal ⟨4, ![6, 16, 512, 512]⟩ .f32) (w1 : FVec Ideal ⟨2, ![288, 128]⟩ .f32) (b1 : FVec Ideal ⟨1, ![128]⟩ .f32)
    (w2 : FVec Ideal ⟨2, ![128, 3]⟩ .f32) (b2 : FVec Ideal ⟨1, ![3]⟩ .f32)
    (hs0 : (⟨2, ![288, 128]⟩ : Shape).Slices ![0, 0] ⟨2, ![96, 128]⟩) (hs1 : (⟨2, ![288, 128]⟩ : Shape).Slices ![96, 0] ⟨2, ![96, 128]⟩)
    (hs2 : (⟨2, ![288, 128]⟩ : Shape).Slices ![192, 0] ⟨2, ![96, 128]⟩)
    (hr1 : (⟨1, ![128]⟩ : Shape).ShapeCasts ⟨2, ![1, 128]⟩) (hr2 : (⟨1, ![3]⟩ : Shape).ShapeCasts ⟨2, ![1, 3]⟩) :
    PlaneMlp.mlp
        (Plane.levelK 0x42FE0000#32 126#32 128#32 16384#32 Cert.KernelIdeal.gather_S6x16384x16_S6x262144x1_S6x262144x16_2_1_0_0_1_2_1116 Cert.KernelIdeal.Gen.transposes_S6x16x128x128_S6x128x128x16_0_2_3_1 Cert.KernelIdeal.Gen.shapeCasts_S6x128x128x16_S6x16384x16 (Plane.coordsOf Cert.KernelIdeal.gather_S262144x4_S6x2x1_S262144x6x2_0_1_n_n_1_2_2621441 ray) G0)
        (Plane.levelK 0x437F0000#32 254#32 256#32 65536#32 Cert.KernelIdeal.gather_S6x65536x16_S6x262144x1_S6x262144x16_2_1_0_0_1_2_1116 Cert.KernelIdeal.Gen.transposes_S6x16x256x256_S6x256x256x16_0_2_3_1 Cert.KernelIdeal.Gen.shapeCasts_S6x256x256x16_S6x65536x16 (Plane.coordsOf Cert.KernelIdeal.gather_S262144x4_S6x2x1_S262144x6x2_0_1_n_n_1_2_2621441 ray) G1)
        (Plane.levelK 0x43FF8000#32 510#32 512#32 262144#32 Cert.KernelIdeal.gather_S6x262144x16_S6x262144x1_S6x262144x16_2_1_0_0_1_2_1116 Cert.KernelIdeal.Gen.transposes_S6x16x512x512_S6x512x512x16_0_2_3_1 Cert.KernelIdeal.Gen.shapeCasts_S6x512x512x16_S6x262144x16 (Plane.coordsOf Cert.KernelIdeal.gather_S262144x4_S6x2x1_S262144x6x2_0_1_n_n_1_2_2621441 ray) G2)
        (extractStridedSlice ⟨2, ![96, 128]⟩ ![0, 0] w1 hs0) (extractStridedSlice ⟨2, ![96, 128]⟩ ![96, 0] w1 hs1)
        (extractStridedSlice ⟨2, ![96, 128]⟩ ![192, 0] w1 hs2)
        (fun q => shapeCast ⟨2, ![1, 128]⟩ b1 hr1 (ix2 (0 : Fin 1) q)) w2 (fun q => shapeCast ⟨2, ![1, 3]⟩ b2 hr2 (ix2 (0 : Fin 1) q))
      = PlaneMlp.mlp
        (Plane.levelR 0x42FE0000#32 126#32 128#32 Cert.ReferenceIdeal.gather_S6x16x128x128_S6x262144x2_S6x16x262144_1_23_0_0_23_2_11611 (Plane.coordsOf Cert.ReferenceIdeal.gather_S262144x4_S6x2x1_S262144x6x2_0_1_n_n_1_2_2621441 ray) G0)
        (Plane.levelR 0x437F0000#32 254#32 256#32 Cert.ReferenceIdeal.gather_S6x16x256x256_S6x262144x2_S6x16x262144_1_23_0_0_23_2_11611 (Plane.coordsOf Cert.ReferenceIdeal.gather_S262144x4_S6x2x1_S262144x6x2_0_1_n_n_1_2_2621441 ray) G1)
        (Plane.levelR 0x43FF8000#32 510#32 512#32 Cert.ReferenceIdeal.gather_S6x16x512x512_S6x262144x2_S6x16x262144_1_23_0_0_23_2_11611 (Plane.coordsOf Cert.ReferenceIdeal.gather_S262144x4_S6x2x1_S262144x6x2_0_1_n_n_1_2_2621441 ray) G2)
        (PlaneTail.rowsFrom w1 0 (by decide)) (PlaneTail.rowsFrom w1 96 (by decide)) (PlaneTail.rowsFrom w1 192 (by decide))
        (fun q => b1 (ix1 q)) w2 (fun q => b2 (ix1 q)) := by
  have e1 : (fun q : Fin 128 => shapeCast ⟨2, ![1, 128]⟩ b1 hr1 (ix2 (0 : Fin 1) q)) = fun q => b1 (ix1 q) :=
    funext (ChebLayer.reshape_row b1 hr1)
  have e2 : (fun q : Fin 3 => shapeCast ⟨2, ![1, 3]⟩ b2 hr2 (ix2 (0 : Fin 1) q)) = fun q => b2 (ix1 q) :=
    funext (ChebLayer.reshape_row b2 hr2)
  rw [level0 ray G0, level1 ray G1, level2 ray G2, slice_rows w1 0 (by decide) hs0, slice_rows w1 96 (by decide) hs1,
    slice_rows w1 192 (by decide) hs2, e1, e2]

end TwoSides

end
-- ==== Proof.lean ====
/-
  The certificate: a kernel that evaluates a small network on bilinear plane features, against its reference.

  The features of a ray are, for each of three resolution levels and each of six coordinate planes, the bilinear blend
  of the four grid entries around the ray's position on the plane (16 channels each): 3 · 6 · 16 = 288 numbers. The
  reference fetches the four entries directly, joins the three levels into one [262144, 288] array and applies
  x ↦ σ(max(x·w1 + b1, 0)·w2 + b2). The kernel's program fetches the entries as rows of the grid re-laid cell by cell,
  keeps the three levels apart and lets the kernel add three products with the three 96-row blocks of w1.

  Both are the same function of the eight arguments on the extended reals: level by level the feature arrays agree
  (the corners are clipped into the grid before they are converted to integers, so both fetches read the same
  entry), and a sum over 288 is the sum of the three sums over 96. No finiteness of the inputs is used.

  The three frames: the two kernel programs' frames are the generated ones; the reference is a straight line of host
  operations, which always runs to the end and writes no argument.
-/
import proofs.«176422_j70471823393083_2_alg».proof.Defs
import proofs.«176422_j70471823393083_2_alg».proof.Proof.Gen.Kernel
import proofs.«176422_j70471823393083_2_alg».proof.Proof.Gen.Kernel.Skeleton
import proofs.«176422_j70471823393083_2_alg».proof.Proof.Gen.Kernel.Launch
import proofs.«176422_j70471823393083_2_alg».proof.Proof.Gen.Kernel.Points
import proofs.«176422_j70471823393083_2_alg».proof.Proof.Gen.Kernel.Frame
import proofs.«176422_j70471823393083_2_alg».proof.Proof.Gen.KernelIdeal
import proofs.«176422_j70471823393083_2_alg».proof.Proof.Gen.KernelIdeal.Skeleton
import proofs.«176422_j70471823393083_2_alg».proof.Proof.Gen.KernelIdeal.Launch
import proofs.«176422_j70471823393083_2_alg».proof.Proof.Gen.KernelIdeal.Points
import proofs.«176422_j70471823393083_2_alg».proof.Proof.Gen.KernelIdeal.Frame
import proofs.«176422_j70471823393083_2_alg».proof.Proof.Gen.KernelIdeal.Value
import proofs.«176422_j70471823393083_2_alg».proof.Proof.Gen.ReferenceIdeal
import proofs.«176422_j70471823393083_2_alg».proof.Proof.Gen.Pre_finite_inputs
import proofs.«176422_j70471823393083_2_alg».proof.Proof.KernelBlocks
import proofs.«176422_j70471823393083_2_alg».proof.Proof.KernelHost
import proofs.«176422_j70471823393083_2_alg».proof.Proof.RefRun
import proofs.«176422_j70471823393083_2_alg».proof.Proof.RefHost
import proofs.«176422_j70471823393083_2_alg».proof.Proof.RefTail
import proofs.«176422_j70471823393083_2_alg».proof.Proof.TwoSides
import Idealize.ShloMosaic.Adequacy
import Idealize.ShloMosaic.Init

noncomputable section

namespace Cert.Proof

open Idealize.ShloMosaic Idealize.ShloMosaic.TcCoe Idealize.SL.Sem Idealize.ShloMosaic.StableHlo Idealize.ShloMosaic.ValueIdx

theorem frame_k : Cert.frame_Kernel := fun m ρ _ => Cert.Kernel.Gen.frame m ρ
theorem frame_ki : Cert.frame_KernelIdeal := fun m ρ _ => Cert.KernelIdeal.Gen.frame m ρ

/-- The reference writes none of its arguments. -/
theorem frame_ri : Cert.frame_ReferenceIdeal := fun m ρ _ =>
  (θ_run Cert.ReferenceIdeal.defs _ _).mono (fun r h c =>
    ⟨(h c Cert.ReferenceIdeal.main_arg0).trans (Cert.ReferenceIdeal.RefRun.kept (F := Ideal) _ (r := Cert.ReferenceIdeal.main_arg0) (by decide) (by decide) (by decide) (by decide) (by decide) (by decide) (by decide) (by decide)),
      (h c Cert.ReferenceIdeal.main_arg1).trans (Cert.ReferenceIdeal.RefRun.kept (F := Ideal) _ (r := Cert.ReferenceIdeal.main_arg1) (by decide) (by decide) (by decide) (by decide) (by decide) (by decide) (by decide) (by decide)),
      (h c Cert.ReferenceIdeal.main_arg2).trans (Cert.ReferenceIdeal.RefRun.kept (F := Ideal) _ (r := Cert.ReferenceIdeal.main_arg2) (by decide) (by decide) (by decide) (by decide) (by decide) (by decide) (by decide) (by decide)),
      (h c Cert.ReferenceIdeal.main_arg3).trans (Cert.ReferenceIdeal.RefRun.kept (F := Ideal) _ (r := Cert.ReferenceIdeal.main_arg3) (by decide) (by decide) (by decide) (by decide) (by decide) (by decide) (by decide) (by decide)),
      (h c Cert.ReferenceIdeal.main_arg4).trans (Cert.ReferenceIdeal.RefRun.kept (F := Ideal) _ (r := Cert.ReferenceIdeal.main_arg4) (by decide) (by decide) (by decide) (by decide) (by decide) (by decide) (by decide) (by decide)),
      (h c Cert.ReferenceIdeal.main_arg5).trans (Cert.ReferenceIdeal.RefRun.kept (F := Ideal) _ (r := Cert.ReferenceIdeal.main_arg5) (by decide) (by decide) (by decide) (by decide) (by decide) (by decide) (by decide) (by decide)),
      (h c Cert.ReferenceIdeal.main_arg6).trans (Cert.ReferenceIdeal.RefRun.kept (F := Ideal) _ (r := Cert.ReferenceIdeal.main_arg6) (by decide) (by decide) (by decide) (by decide) (by decide) (by decide) (by decide) (by decide)),
      (h c Cert.ReferenceIdeal.main_arg7).trans (Cert.ReferenceIdeal.RefRun.kept (F := Ideal) _ (r := Cert.ReferenceIdeal.main_arg7) (by decide) (by decide) (by decide) (by decide) (by decide) (by decide) (by decide) (by decide))⟩)
    (Cert.ReferenceIdeal.RefRun.run_main (F := Ideal) m ρ)

theorem plainR1 : PlainDot.IsPlain Cert.ReferenceIdeal.dot_S262144x288_S288x128_S262144x128_1_0_0_1_n_n := ⟨rfl, rfl, rfl, rfl, rfl, rfl⟩
theorem plainR2 : PlainDot.IsPlain Cert.ReferenceIdeal.dot_S262144x128_S128x3_S262144x3_1_0_0_1_n_n := ⟨rfl, rfl, rfl, rfl, rfl, rfl⟩

/-- The reference's result, from a memory that holds the kernel's arguments, is what the kernel's output ends at. -/
theorem value_eq (m : (ℓ : Loc Cert.KernelIdeal.nD Cert.KernelIdeal.τ Cert.KernelIdeal.sig) → Buf (Elt Ideal) ℓ)
    (V' : Valuation Cert.ReferenceIdeal.τ Cert.ReferenceIdeal.sig (Elt Ideal)) (c : Dev Cert.KernelIdeal.nD)
    (h0 : V' (Cert.ReferenceIdeal.main_arg0 : DevRef Cert.ReferenceIdeal.τ Cert.ReferenceIdeal.sig) = m ((c.tc : Thread Cert.KernelIdeal.nD Cert.KernelIdeal.τ).loc Cert.KernelIdeal.main_arg0))
    (h1 : V' (Cert.ReferenceIdeal.main_arg1 : DevRef Cert.ReferenceIdeal.τ Cert.ReferenceIdeal.sig) = m ((c.tc : Thread Cert.KernelIdeal.nD Cert.KernelIdeal.τ).loc Cert.KernelIdeal.main_arg1))
    (h2 : V' (Cert.ReferenceIdeal.main_arg2 : DevRef Cert.ReferenceIdeal.τ Cert.ReferenceIdeal.sig) = m ((c.tc : Thread Cert.KernelIdeal.nD Cert.KernelIdeal.τ).loc Cert.KernelIdeal.main_arg2))
    (h3 : V' (Cert.ReferenceIdeal.main_arg3 : DevRef Cert.ReferenceIdeal.τ Cert.ReferenceIdeal.sig) = m ((c.tc : Thread Cert.KernelIdeal.nD Cert.KernelIdeal.τ).loc Cert.KernelIdeal.main_arg3))
    (h4 : V' (Cert.ReferenceIdeal.main_arg4 : DevRef Cert.ReferenceIdeal.τ Cert.ReferenceIdeal.sig) = m ((c.tc : Thread Cert.KernelIdeal.nD Cert.KernelIdeal.τ).loc Cert.KernelIdeal.main_arg4))
    (h5 : V' (Cert.ReferenceIdeal.main_arg5 : DevRef Cert.ReferenceIdeal.τ Cert.ReferenceIdeal.sig) = m ((c.tc : Thread Cert.KernelIdeal.nD Cert.KernelIdeal.τ).loc Cert.KernelIdeal.main_arg5))
    (h6 : V' (Cert.ReferenceIdeal.main_arg6 : DevRef Cert.ReferenceIdeal.τ Cert.ReferenceIdeal.sig) = m ((c.tc : Thread Cert.KernelIdeal.nD Cert.KernelIdeal.τ).loc Cert.KernelIdeal.main_arg6))
    (h7 : V' (Cert.ReferenceIdeal.main_arg7 : DevRef Cert.ReferenceIdeal.τ Cert.ReferenceIdeal.sig) = m ((c.tc : Thread Cert.KernelIdeal.nD Cert.KernelIdeal.τ).loc Cert.KernelIdeal.main_arg7)) :
    after (Cert.ReferenceIdeal.RefRun.ops (F := Ideal)) V' (Cert.ReferenceIdeal.main_v360 : DevRef Cert.ReferenceIdeal.τ Cert.ReferenceIdeal.sig)
      = Cert.KernelIdeal.Blocks.outOf (Cert.KernelIdeal.Gen.V m c Cert.KernelIdeal.main_v106) (Cert.KernelIdeal.Gen.V m c Cert.KernelIdeal.main_v204) (Cert.KernelIdeal.Gen.V m c Cert.KernelIdeal.main_v302)
          (Cert.KernelIdeal.Gen.V m c Cert.KernelIdeal.main_v303) (Cert.KernelIdeal.Gen.V m c Cert.KernelIdeal.main_v304) (Cert.KernelIdeal.Gen.V m c Cert.KernelIdeal.main_v305)
          (Cert.KernelIdeal.Gen.V m c Cert.KernelIdeal.main_v306) (Cert.KernelIdeal.Gen.V m c Cert.KernelIdeal.main_arg6) (Cert.KernelIdeal.Gen.V m c Cert.KernelIdeal.main_v307) := by
  rw [Cert.ReferenceIdeal.RefHost.out_eq, PlaneTail.host_tail plainR1 plainR2, Cert.ReferenceIdeal.RefHost.feat0, Cert.ReferenceIdeal.RefHost.feat1, Cert.ReferenceIdeal.RefHost.feat2,
    h0, h1, h2, h3, h4, h5, h6, h7,
    Cert.KernelIdeal.HostSide.feat0 m c, Cert.KernelIdeal.HostSide.feat1 m c, Cert.KernelIdeal.HostSide.feat2 m c, Cert.KernelIdeal.HostSide.w1a m c, Cert.KernelIdeal.HostSide.w1b m c,
    Cert.KernelIdeal.HostSide.w1c m c, Cert.KernelIdeal.HostSide.b1r m c, Cert.KernelIdeal.HostSide.b2r m c, Cert.KernelIdeal.Gen.V_main_arg6 m c]
  exact (TwoSides.final _ _ _ _ _ _ _ _ _ _ _ _ _).symm

theorem algebraic : Cert.algebraic_KernelIdeal_ReferenceIdeal := by
  intro m ρ m' ρ' _ hagree
  refine ⟨fun c => Cert.KernelIdeal.Blocks.outOf (Cert.KernelIdeal.Gen.V m c Cert.KernelIdeal.main_v106) (Cert.KernelIdeal.Gen.V m c Cert.KernelIdeal.main_v204) (Cert.KernelIdeal.Gen.V m c Cert.KernelIdeal.main_v302)
      (Cert.KernelIdeal.Gen.V m c Cert.KernelIdeal.main_v303) (Cert.KernelIdeal.Gen.V m c Cert.KernelIdeal.main_v304) (Cert.KernelIdeal.Gen.V m c Cert.KernelIdeal.main_v305)
      (Cert.KernelIdeal.Gen.V m c Cert.KernelIdeal.main_v306) (Cert.KernelIdeal.Gen.V m c Cert.KernelIdeal.main_arg6) (Cert.KernelIdeal.Gen.V m c Cert.KernelIdeal.main_v307), ?_, ?_⟩
  · exact (θ_run Cert.KernelIdeal.defs _ _).mono (fun r h c => ⟨(h c).1.trans (Cert.KernelIdeal.Blocks.final9 m c), (h c).2⟩)
      (Cert.KernelIdeal.Value.run_blocks (F := Ideal) m ρ)
  · refine (θ_run Cert.ReferenceIdeal.defs _ _).mono (fun r h c => ?_) (Cert.ReferenceIdeal.RefRun.run_main (F := Ideal) m' ρ')
    obtain ⟨a0, a1, a2, a3, a4, a5, a6, a7⟩ := hagree c
    exact ⟨(h c Cert.ReferenceIdeal.main_v360).trans (value_eq m _ c a0 a1 a2 a3 a4 a5 a6 a7),
      (h c Cert.ReferenceIdeal.main_arg0).trans (Cert.ReferenceIdeal.RefRun.kept (F := Ideal) _ (r := Cert.ReferenceIdeal.main_arg0) (by decide) (by decide) (by decide) (by decide) (by decide) (by decide) (by decide) (by decide)),
      (h c Cert.ReferenceIdeal.main_arg1).trans (Cert.ReferenceIdeal.RefRun.kept (F := Ideal) _ (r := Cert.ReferenceIdeal.main_arg1) (by decide) (by decide) (by decide) (by decide) (by decide) (by decide) (by decide) (by decide)),
      (h c Cert.ReferenceIdeal.main_arg2).trans (Cert.ReferenceIdeal.RefRun.kept (F := Ideal) _ (r := Cert.ReferenceIdeal.main_arg2) (by decide) (by decide) (by decide) (by decide) (by decide) (by decide) (by decide) (by decide)),
      (h c Cert.ReferenceIdeal.main_arg3).trans (Cert.ReferenceIdeal.RefRun.kept (F := Ideal) _ (r := Cert.ReferenceIdeal.main_arg3) (by decide) (by decide) (by decide) (by decide) (by decide) (by decide) (by decide) (by decide)),
      (h c Cert.ReferenceIdeal.main_arg4).trans (Cert.ReferenceIdeal.RefRun.kept (F := Ideal) _ (r := Cert.ReferenceIdeal.main_arg4) (by decide) (by decide) (by decide) (by decide) (by decide) (by decide) (by decide) (by decide)),
      (h c Cert.ReferenceIdeal.main_arg5).trans (Cert.ReferenceIdeal.RefRun.kept (F := Ideal) _ (r := Cert.ReferenceIdeal.main_arg5) (by decide) (by decide) (by decide) (by decide) (by decide) (by decide) (by decide) (by decide)),
      (h c Cert.ReferenceIdeal.main_arg6).trans (Cert.ReferenceIdeal.RefRun.kept (F := Ideal) _ (r := Cert.ReferenceIdeal.main_arg6) (by decide) (by decide) (by decide) (by decide) (by decide) (by decide) (by decide) (by decide)),
      (h c Cert.ReferenceIdeal.main_arg7).trans (Cert.ReferenceIdeal.RefRun.kept (F := Ideal) _ (r := Cert.ReferenceIdeal.main_arg7) (by decide) (by decide) (by decide) (by decide) (by decide) (by decide) (by decide) (by decide))⟩

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
